-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x32 : Shape := ⟨2, ![1000000, 32]⟩
abbrev S16x32 : Shape := ⟨2, ![16, 32]⟩
abbrev S16 : Shape := ⟨1, ![16]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg1 : IVec S16384 32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 32 := constantI S_ 32 999999#32
  let main_v21 : IVec S16384 32 := broadcastInDim S16384 ![] bcast_S_S16384 main_c_7
  let main_v22 : IVec S16384 1 := cmpi .sle main_arg0 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg1 main_v26
  let main_c_10 : IVec S_ 32 := constantI S_ 32 999999#32
  let main_v28 : IVec S16384 32 := broadcastInDim S16384 ![] bcast_S_S16384 main_c_10
  let main_v29 : IVec S16384 1 := cmpi .sle main_arg1 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  main_v32

def fn {F : FTy → Type} [FloatOps F] (main_arg0 : IVec S16384 32) (main_arg1 : IVec S16384 32) (main_arg2 : FVec F S1000000x32 .f32) (main_arg3 : FVec F S1000000x32 .f32) (main_arg4 : FVec F S16x32 .f32) (main_arg5 : FVec F S16 .f32) : IVec S_ 1 :=
  let main_v0 : FVec F S1000000x32 .f32 := Host.absf main_arg2
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S16x32 .f32 := Host.absf main_arg4
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg0 main_arg1 main_v13 main_v16
-- ==== Kernel.lean ====
abbrev S16384 : Shape := ⟨1, ![16384]⟩
abbrev S1000000x32 : Shape := ⟨2, ![1000000, 32]⟩
abbrev S16x32 : Shape := ⟨2, ![16, 32]⟩
abbrev S16 : Shape := ⟨1, ![16]⟩
abbrev S250000x128 : Shape := ⟨2, ![250000, 128]⟩
abbrev S512 : Shape := ⟨1, ![512]⟩
abbrev S256x128 : Shape := ⟨2, ![256, 128]⟩
abbrev S_ : Shape := ⟨0, ![]⟩
abbrev S1 : Shape := ⟨1, ![1]⟩
abbrev S256 : Shape := ⟨1, ![256]⟩

abbrev nBuf : Table → Nat
  | .hbm => 10
  | .local .scVector .smem => 2
  | .local .scVector .vmem => 9
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S16x32, .f32⟩
  | .hbm, ⟨5, _⟩ => ⟨S16, .f32⟩
  | .hbm, ⟨6, _⟩ => ⟨S250000x128, .f32⟩
  | .hbm, ⟨7, _⟩ => ⟨S250000x128, .f32⟩
  | .hbm, ⟨8, _⟩ => ⟨S512, .f32⟩
  | .hbm, ⟨9, _⟩ => ⟨S16384, .f32⟩
  | .local .scVector .smem, ⟨0, _⟩ => ⟨S512, .f32⟩
  | .local .scVector .smem, ⟨1, _⟩ => ⟨S16, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512, .i32⟩
  | .local .scVector .vmem, ⟨4, _⟩ => ⟨S256x128, .f32⟩
  | .local .scVector .vmem, ⟨5, _⟩ => ⟨S256x128, .f32⟩
  | .local .scVector .vmem, ⟨6, _⟩ => ⟨S512, .f32⟩
  | .local .scVector .vmem, ⟨7, _⟩ => ⟨S16, .f32⟩
  | .local .scVector .vmem, ⟨8, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_arg1_scv : Ref sig .scVector := ⟨.hbm, 1, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_arg5_scv : Ref sig .scVector := ⟨.hbm, 5, rfl⟩
abbrev main_v3_scv : Ref sig .scVector := ⟨.hbm, 9, rfl⟩
abbrev cc0_scratch8 : Ref sig .scVector := ⟨.smem, 0, rfl⟩
abbrev cc0_scratch9 : Ref sig .scVector := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch10 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_211 : BitVec 32 := 0#32
  let c2_i32_212 : BitVec 32 := 2#32
  let v2405 : BitVec 32 := Scalar.addi c0_i32_211 c2_i32_212
  let c1_i32_213 : BitVec 32 := 1#32
  ⟨c0_i32_211, v2405, c1_i32_213⟩
def k0_off2 (k0_t1 : Fin k0_t1_loop.trips) : Fin 1 → Nat :=
  let c0_i32_211 : BitVec 32 := 0#32
  let c1_i32_213 : BitVec 32 := 1#32
  let arg22 : BitVec 32 := Scf.iv c0_i32_211 c1_i32_213 k0_t1
  let c256_i32_215 : BitVec 32 := 256#32
  let v2407 : BitVec 32 := Scalar.muli arg22 c256_i32_215
  ![v2407.toNat]
@[reducible] def k0_t2_loop : Scf.Loop 32 :=
  let c0_i32_225 : BitVec 32 := 0#32
  let c16_i32_226 : BitVec 32 := 16#32
  let v2416 : BitVec 32 := Scalar.addi c0_i32_225 c16_i32_226
  let c1_i32_227 : BitVec 32 := 1#32
  ⟨c0_i32_225, v2416, c1_i32_227⟩
def k0_off3 (k0_t1 : Fin k0_t1_loop.trips) (k0_t2 : Fin k0_t2_loop.trips) : Fin 1 → Nat :=
  let c0_i32_211 : BitVec 32 := 0#32
  let c1_i32_213 : BitVec 32 := 1#32
  let arg22 : BitVec 32 := Scf.iv c0_i32_211 c1_i32_213 k0_t1
  let c256_i32_215 : BitVec 32 := 256#32
  let v2407 : BitVec 32 := Scalar.muli arg22 c256_i32_215
  let c0_i32_225 : BitVec 32 := 0#32
  let c1_i32_227 : BitVec 32 := 1#32
  let arg24 : BitVec 32 := Scf.iv c0_i32_225 c1_i32_227 k0_t2
  let c16_i32_230 : BitVec 32 := 16#32
  let v2418 : BitVec 32 := Scalar.muli arg24 c16_i32_230
  let v2421 : BitVec 32 := Scalar.addi v2407 v2418
  let v2422 : Index := Scalar.indexCast v2421
  ![v2422.toNat]

def k0_chk1 (v2420 : IVec S16 32) (v2484 : IVec S16 32) : Prop :=
  (∀ a x, ((![v2420, v2484] : Fin 2 → IVec S16 32) a x).toNat < S256x128.size a)
instance k0_chk1.dec : ∀ (v2420 : IVec S16 32) (v2484 : IVec S16 32), Decidable (k0_chk1 v2420 v2484) := fun v2420 v2484 => decidable_of_iff' _ (Iff.of_eq (k0_chk1.eq_1 v2420 v2484))
theorem k0_idx1_inb : ∀ (v2420 : IVec S16 32) (v2484 : IVec S16 32) (k0_hw1 : k0_chk1 v2420 v2484), ∀ a x, ((![v2420, v2484] : Fin 2 → IVec S16 32) a x).toNat < S256x128.size a := fun v2420 v2484 k0_hw1 => k0_hw1

def k0_chk2 (v2420 : IVec S16 32) (v2487 : IVec S16 32) : Prop :=
  (∀ a x, ((![v2420, v2487] : Fin 2 → IVec S16 32) a x).toNat < S256x128.size a)
instance k0_chk2.dec : ∀ (v2420 : IVec S16 32) (v2487 : IVec S16 32), Decidable (k0_chk2 v2420 v2487) := fun v2420 v2487 => decidable_of_iff' _ (Iff.of_eq (k0_chk2.eq_1 v2420 v2487))
theorem k0_idx2_inb : ∀ (v2420 : IVec S16 32) (v2487 : IVec S16 32) (k0_hw2 : k0_chk2 v2420 v2487), ∀ a x, ((![v2420, v2487] : Fin 2 → IVec S16 32) a x).toNat < S256x128.size a := fun v2420 v2487 k0_hw2 => k0_hw2

def k0_chk3 (v2420 : IVec S16 32) (v2618 : IVec S16 32) : Prop :=
  (∀ a x, ((![v2420, v2618] : Fin 2 → IVec S16 32) a x).toNat < S256x128.size a)
instance k0_chk3.dec : ∀ (v2420 : IVec S16 32) (v2618 : IVec S16 32), Decidable (k0_chk3 v2420 v2618) := fun v2420 v2618 => decidable_of_iff' _ (Iff.of_eq (k0_chk3.eq_1 v2420 v2618))
theorem k0_idx3_inb : ∀ (v2420 : IVec S16 32) (v2618 : IVec S16 32) (k0_hw3 : k0_chk3 v2420 v2618), ∀ a x, ((![v2420, v2618] : Fin 2 → IVec S16 32) a x).toNat < S256x128.size a := fun v2420 v2618 k0_hw3 => k0_hw3

def k0_chk4 (v2420 : IVec S16 32) (v2621 : IVec S16 32) : Prop :=
  (∀ a x, ((![v2420, v2621] : Fin 2 → IVec S16 32) a x).toNat < S256x128.size a)
instance k0_chk4.dec : ∀ (v2420 : IVec S16 32) (v2621 : IVec S16 32), Decidable (k0_chk4 v2420 v2621) := fun v2420 v2621 => decidable_of_iff' _ (Iff.of_eq (k0_chk4.eq_1 v2420 v2621))
theorem k0_idx4_inb : ∀ (v2420 : IVec S16 32) (v2621 : IVec S16 32) (k0_hw4 : k0_chk4 v2420 v2621), ∀ a x, ((![v2420, v2621] : Fin 2 → IVec S16 32) a x).toNat < S256x128.size a := fun v2420 v2621 k0_hw4 => k0_hw4

def k0_chk5 (v2420 : IVec S16 32) (v2752 : IVec S16 32) : Prop :=
  (∀ a x, ((![v2420, v2752] : Fin 2 → IVec S16 32) a x).toNat < S256x128.size a)
instance k0_chk5.dec : ∀ (v2420 : IVec S16 32) (v2752 : IVec S16 32), Decidable (k0_chk5 v2420 v2752) := fun v2420 v2752 => decidable_of_iff' _ (Iff.of_eq (k0_chk5.eq_1 v2420 v2752))
theorem k0_idx5_inb : ∀ (v2420 : IVec S16 32) (v2752 : IVec S16 32) (k0_hw5 : k0_chk5 v2420 v2752), ∀ a x, ((![v2420, v2752] : Fin 2 → IVec S16 32) a x).toNat < S256x128.size a := fun v2420 v2752 k0_hw5 => k0_hw5

def k0_chk6 (v2420 : IVec S16 32) (v2755 : IVec S16 32) : Prop :=
  (∀ a x, ((![v2420, v2755] : Fin 2 → IVec S16 32) a x).toNat < S256x128.size a)
instance k0_chk6.dec : ∀ (v2420 : IVec S16 32) (v2755 : IVec S16 32), Decidable (k0_chk6 v2420 v2755) := fun v2420 v2755 => decidable_of_iff' _ (Iff.of_eq (k0_chk6.eq_1 v2420 v2755))
theorem k0_idx6_inb : ∀ (v2420 : IVec S16 32) (v2755 : IVec S16 32) (k0_hw6 : k0_chk6 v2420 v2755), ∀ a x, ((![v2420, v2755] : Fin 2 → IVec S16 32) a x).toNat < S256x128.size a := fun v2420 v2755 k0_hw6 => k0_hw6

def k0_chk7 (v2420 : IVec S16 32) (v2886 : IVec S16 32) : Prop :=
  (∀ a x, ((![v2420, v2886] : Fin 2 → IVec S16 32) a x).toNat < S256x128.size a)
instance k0_chk7.dec : ∀ (v2420 : IVec S16 32) (v2886 : IVec S16 32), Decidable (k0_chk7 v2420 v2886) := fun v2420 v2886 => decidable_of_iff' _ (Iff.of_eq (k0_chk7.eq_1 v2420 v2886))
theorem k0_idx7_inb : ∀ (v2420 : IVec S16 32) (v2886 : IVec S16 32) (k0_hw7 : k0_chk7 v2420 v2886), ∀ a x, ((![v2420, v2886] : Fin 2 → IVec S16 32) a x).toNat < S256x128.size a := fun v2420 v2886 k0_hw7 => k0_hw7

def k0_chk8 (v2420 : IVec S16 32) (v2889 : IVec S16 32) : Prop :=
  (∀ a x, ((![v2420, v2889] : Fin 2 → IVec S16 32) a x).toNat < S256x128.size a)
instance k0_chk8.dec : ∀ (v2420 : IVec S16 32) (v2889 : IVec S16 32), Decidable (k0_chk8 v2420 v2889) := fun v2420 v2889 => decidable_of_iff' _ (Iff.of_eq (k0_chk8.eq_1 v2420 v2889))
theorem k0_idx8_inb : ∀ (v2420 : IVec S16 32) (v2889 : IVec S16 32) (k0_hw8 : k0_chk8 v2420 v2889), ∀ a x, ((![v2420, v2889] : Fin 2 → IVec S16 32) a x).toNat < S256x128.size a := fun v2420 v2889 k0_hw8 => k0_hw8

def k0_chk9 (v2420 : IVec S16 32) (v3020 : IVec S16 32) : Prop :=
  (∀ a x, ((![v2420, v3020] : Fin 2 → IVec S16 32) a x).toNat < S256x128.size a)
instance k0_chk9.dec : ∀ (v2420 : IVec S16 32) (v3020 : IVec S16 32), Decidable (k0_chk9 v2420 v3020) := fun v2420 v3020 => decidable_of_iff' _ (Iff.of_eq (k0_chk9.eq_1 v2420 v3020))
theorem k0_idx9_inb : ∀ (v2420 : IVec S16 32) (v3020 : IVec S16 32) (k0_hw9 : k0_chk9 v2420 v3020), ∀ a x, ((![v2420, v3020] : Fin 2 → IVec S16 32) a x).toNat < S256x128.size a := fun v2420 v3020 k0_hw9 => k0_hw9

def k0_chk10 (v2420 : IVec S16 32) (v3023 : IVec S16 32) : Prop :=
  (∀ a x, ((![v2420, v3023] : Fin 2 → IVec S16 32) a x).toNat < S256x128.size a)
instance k0_chk10.dec : ∀ (v2420 : IVec S16 32) (v3023 : IVec S16 32), Decidable (k0_chk10 v2420 v3023) := fun v2420 v3023 => decidable_of_iff' _ (Iff.of_eq (k0_chk10.eq_1 v2420 v3023))
theorem k0_idx10_inb : ∀ (v2420 : IVec S16 32) (v3023 : IVec S16 32) (k0_hw10 : k0_chk10 v2420 v3023), ∀ a x, ((![v2420, v3023] : Fin 2 → IVec S16 32) a x).toNat < S256x128.size a := fun v2420 v3023 k0_hw10 => k0_hw10

def k0_chk11 (v2420 : IVec S16 32) (v3154 : IVec S16 32) : Prop :=
  (∀ a x, ((![v2420, v3154] : Fin 2 → IVec S16 32) a x).toNat < S256x128.size a)
instance k0_chk11.dec : ∀ (v2420 : IVec S16 32) (v3154 : IVec S16 32), Decidable (k0_chk11 v2420 v3154) := fun v2420 v3154 => decidable_of_iff' _ (Iff.of_eq (k0_chk11.eq_1 v2420 v3154))
theorem k0_idx11_inb : ∀ (v2420 : IVec S16 32) (v3154 : IVec S16 32) (k0_hw11 : k0_chk11 v2420 v3154), ∀ a x, ((![v2420, v3154] : Fin 2 → IVec S16 32) a x).toNat < S256x128.size a := fun v2420 v3154 k0_hw11 => k0_hw11

def k0_chk12 (v2420 : IVec S16 32) (v3157 : IVec S16 32) : Prop :=
  (∀ a x, ((![v2420, v3157] : Fin 2 → IVec S16 32) a x).toNat < S256x128.size a)
instance k0_chk12.dec : ∀ (v2420 : IVec S16 32) (v3157 : IVec S16 32), Decidable (k0_chk12 v2420 v3157) := fun v2420 v3157 => decidable_of_iff' _ (Iff.of_eq (k0_chk12.eq_1 v2420 v3157))
theorem k0_idx12_inb : ∀ (v2420 : IVec S16 32) (v3157 : IVec S16 32) (k0_hw12 : k0_chk12 v2420 v3157), ∀ a x, ((![v2420, v3157] : Fin 2 → IVec S16 32) a x).toNat < S256x128.size a := fun v2420 v3157 k0_hw12 => k0_hw12

def k0_chk13 (v2420 : IVec S16 32) (v3288 : IVec S16 32) : Prop :=
  (∀ a x, ((![v2420, v3288] : Fin 2 → IVec S16 32) a x).toNat < S256x128.size a)
instance k0_chk13.dec : ∀ (v2420 : IVec S16 32) (v3288 : IVec S16 32), Decidable (k0_chk13 v2420 v3288) := fun v2420 v3288 => decidable_of_iff' _ (Iff.of_eq (k0_chk13.eq_1 v2420 v3288))
theorem k0_idx13_inb : ∀ (v2420 : IVec S16 32) (v3288 : IVec S16 32) (k0_hw13 : k0_chk13 v2420 v3288), ∀ a x, ((![v2420, v3288] : Fin 2 → IVec S16 32) a x).toNat < S256x128.size a := fun v2420 v3288 k0_hw13 => k0_hw13

def k0_chk14 (v2420 : IVec S16 32) (v3291 : IVec S16 32) : Prop :=
  (∀ a x, ((![v2420, v3291] : Fin 2 → IVec S16 32) a x).toNat < S256x128.size a)
instance k0_chk14.dec : ∀ (v2420 : IVec S16 32) (v3291 : IVec S16 32), Decidable (k0_chk14 v2420 v3291) := fun v2420 v3291 => decidable_of_iff' _ (Iff.of_eq (k0_chk14.eq_1 v2420 v3291))
theorem k0_idx14_inb : ∀ (v2420 : IVec S16 32) (v3291 : IVec S16 32) (k0_hw14 : k0_chk14 v2420 v3291), ∀ a x, ((![v2420, v3291] : Fin 2 → IVec S16 32) a x).toNat < S256x128.size a := fun v2420 v3291 k0_hw14 => k0_hw14

def k0_chk15 (v2420 : IVec S16 32) (v3422 : IVec S16 32) : Prop :=
  (∀ a x, ((![v2420, v3422] : Fin 2 → IVec S16 32) a x).toNat < S256x128.size a)
instance k0_chk15.dec : ∀ (v2420 : IVec S16 32) (v3422 : IVec S16 32), Decidable (k0_chk15 v2420 v3422) := fun v2420 v3422 => decidable_of_iff' _ (Iff.of_eq (k0_chk15.eq_1 v2420 v3422))
theorem k0_idx15_inb : ∀ (v2420 : IVec S16 32) (v3422 : IVec S16 32) (k0_hw15 : k0_chk15 v2420 v3422), ∀ a x, ((![v2420, v3422] : Fin 2 → IVec S16 32) a x).toNat < S256x128.size a := fun v2420 v3422 k0_hw15 => k0_hw15

def k0_chk16 (v2420 : IVec S16 32) (v3425 : IVec S16 32) : Prop :=
  (∀ a x, ((![v2420, v3425] : Fin 2 → IVec S16 32) a x).toNat < S256x128.size a)
instance k0_chk16.dec : ∀ (v2420 : IVec S16 32) (v3425 : IVec S16 32), Decidable (k0_chk16 v2420 v3425) := fun v2420 v3425 => decidable_of_iff' _ (Iff.of_eq (k0_chk16.eq_1 v2420 v3425))
theorem k0_idx16_inb : ∀ (v2420 : IVec S16 32) (v3425 : IVec S16 32) (k0_hw16 : k0_chk16 v2420 v3425), ∀ a x, ((![v2420, v3425] : Fin 2 → IVec S16 32) a x).toNat < S256x128.size a := fun v2420 v3425 k0_hw16 => k0_hw16

def k0_chk17 (v2420 : IVec S16 32) (v3556 : IVec S16 32) : Prop :=
  (∀ a x, ((![v2420, v3556] : Fin 2 → IVec S16 32) a x).toNat < S256x128.size a)
instance k0_chk17.dec : ∀ (v2420 : IVec S16 32) (v3556 : IVec S16 32), Decidable (k0_chk17 v2420 v3556) := fun v2420 v3556 => decidable_of_iff' _ (Iff.of_eq (k0_chk17.eq_1 v2420 v3556))
theorem k0_idx17_inb : ∀ (v2420 : IVec S16 32) (v3556 : IVec S16 32) (k0_hw17 : k0_chk17 v2420 v3556), ∀ a x, ((![v2420, v3556] : Fin 2 → IVec S16 32) a x).toNat < S256x128.size a := fun v2420 v3556 k0_hw17 => k0_hw17

def k0_chk18 (v2420 : IVec S16 32) (v3559 : IVec S16 32) : Prop :=
  (∀ a x, ((![v2420, v3559] : Fin 2 → IVec S16 32) a x).toNat < S256x128.size a)
instance k0_chk18.dec : ∀ (v2420 : IVec S16 32) (v3559 : IVec S16 32), Decidable (k0_chk18 v2420 v3559) := fun v2420 v3559 => decidable_of_iff' _ (Iff.of_eq (k0_chk18.eq_1 v2420 v3559))
theorem k0_idx18_inb : ∀ (v2420 : IVec S16 32) (v3559 : IVec S16 32) (k0_hw18 : k0_chk18 v2420 v3559), ∀ a x, ((![v2420, v3559] : Fin 2 → IVec S16 32) a x).toNat < S256x128.size a := fun v2420 v3559 k0_hw18 => k0_hw18

def k0_chk19 (v2420 : IVec S16 32) (v3690 : IVec S16 32) : Prop :=
  (∀ a x, ((![v2420, v3690] : Fin 2 → IVec S16 32) a x).toNat < S256x128.size a)
instance k0_chk19.dec : ∀ (v2420 : IVec S16 32) (v3690 : IVec S16 32), Decidable (k0_chk19 v2420 v3690) := fun v2420 v3690 => decidable_of_iff' _ (Iff.of_eq (k0_chk19.eq_1 v2420 v3690))
theorem k0_idx19_inb : ∀ (v2420 : IVec S16 32) (v3690 : IVec S16 32) (k0_hw19 : k0_chk19 v2420 v3690), ∀ a x, ((![v2420, v3690] : Fin 2 → IVec S16 32) a x).toNat < S256x128.size a := fun v2420 v3690 k0_hw19 => k0_hw19

def k0_chk20 (v2420 : IVec S16 32) (v3693 : IVec S16 32) : Prop :=
  (∀ a x, ((![v2420, v3693] : Fin 2 → IVec S16 32) a x).toNat < S256x128.size a)
instance k0_chk20.dec : ∀ (v2420 : IVec S16 32) (v3693 : IVec S16 32), Decidable (k0_chk20 v2420 v3693) := fun v2420 v3693 => decidable_of_iff' _ (Iff.of_eq (k0_chk20.eq_1 v2420 v3693))
theorem k0_idx20_inb : ∀ (v2420 : IVec S16 32) (v3693 : IVec S16 32) (k0_hw20 : k0_chk20 v2420 v3693), ∀ a x, ((![v2420, v3693] : Fin 2 → IVec S16 32) a x).toNat < S256x128.size a := fun v2420 v3693 k0_hw20 => k0_hw20

def k0_chk21 (v2420 : IVec S16 32) (v3824 : IVec S16 32) : Prop :=
  (∀ a x, ((![v2420, v3824] : Fin 2 → IVec S16 32) a x).toNat < S256x128.size a)
instance k0_chk21.dec : ∀ (v2420 : IVec S16 32) (v3824 : IVec S16 32), Decidable (k0_chk21 v2420 v3824) := fun v2420 v3824 => decidable_of_iff' _ (Iff.of_eq (k0_chk21.eq_1 v2420 v3824))
theorem k0_idx21_inb : ∀ (v2420 : IVec S16 32) (v3824 : IVec S16 32) (k0_hw21 : k0_chk21 v2420 v3824), ∀ a x, ((![v2420, v3824] : Fin 2 → IVec S16 32) a x).toNat < S256x128.size a := fun v2420 v3824 k0_hw21 => k0_hw21

def k0_chk22 (v2420 : IVec S16 32) (v3827 : IVec S16 32) : Prop :=
  (∀ a x, ((![v2420, v3827] : Fin 2 → IVec S16 32) a x).toNat < S256x128.size a)
instance k0_chk22.dec : ∀ (v2420 : IVec S16 32) (v3827 : IVec S16 32), Decidable (k0_chk22 v2420 v3827) := fun v2420 v3827 => decidable_of_iff' _ (Iff.of_eq (k0_chk22.eq_1 v2420 v3827))
theorem k0_idx22_inb : ∀ (v2420 : IVec S16 32) (v3827 : IVec S16 32) (k0_hw22 : k0_chk22 v2420 v3827), ∀ a x, ((![v2420, v3827] : Fin 2 → IVec S16 32) a x).toNat < S256x128.size a := fun v2420 v3827 k0_hw22 => k0_hw22

def k0_chk23 (v2420 : IVec S16 32) (v3958 : IVec S16 32) : Prop :=
  (∀ a x, ((![v2420, v3958] : Fin 2 → IVec S16 32) a x).toNat < S256x128.size a)
instance k0_chk23.dec : ∀ (v2420 : IVec S16 32) (v3958 : IVec S16 32), Decidable (k0_chk23 v2420 v3958) := fun v2420 v3958 => decidable_of_iff' _ (Iff.of_eq (k0_chk23.eq_1 v2420 v3958))
theorem k0_idx23_inb : ∀ (v2420 : IVec S16 32) (v3958 : IVec S16 32) (k0_hw23 : k0_chk23 v2420 v3958), ∀ a x, ((![v2420, v3958] : Fin 2 → IVec S16 32) a x).toNat < S256x128.size a := fun v2420 v3958 k0_hw23 => k0_hw23

def k0_chk24 (v2420 : IVec S16 32) (v3961 : IVec S16 32) : Prop :=
  (∀ a x, ((![v2420, v3961] : Fin 2 → IVec S16 32) a x).toNat < S256x128.size a)
instance k0_chk24.dec : ∀ (v2420 : IVec S16 32) (v3961 : IVec S16 32), Decidable (k0_chk24 v2420 v3961) := fun v2420 v3961 => decidable_of_iff' _ (Iff.of_eq (k0_chk24.eq_1 v2420 v3961))
theorem k0_idx24_inb : ∀ (v2420 : IVec S16 32) (v3961 : IVec S16 32) (k0_hw24 : k0_chk24 v2420 v3961), ∀ a x, ((![v2420, v3961] : Fin 2 → IVec S16 32) a x).toNat < S256x128.size a := fun v2420 v3961 k0_hw24 => k0_hw24

def k0_chk25 (v2420 : IVec S16 32) (v4092 : IVec S16 32) : Prop :=
  (∀ a x, ((![v2420, v4092] : Fin 2 → IVec S16 32) a x).toNat < S256x128.size a)
instance k0_chk25.dec : ∀ (v2420 : IVec S16 32) (v4092 : IVec S16 32), Decidable (k0_chk25 v2420 v4092) := fun v2420 v4092 => decidable_of_iff' _ (Iff.of_eq (k0_chk25.eq_1 v2420 v4092))
theorem k0_idx25_inb : ∀ (v2420 : IVec S16 32) (v4092 : IVec S16 32) (k0_hw25 : k0_chk25 v2420 v4092), ∀ a x, ((![v2420, v4092] : Fin 2 → IVec S16 32) a x).toNat < S256x128.size a := fun v2420 v4092 k0_hw25 => k0_hw25

def k0_chk26 (v2420 : IVec S16 32) (v4095 : IVec S16 32) : Prop :=
  (∀ a x, ((![v2420, v4095] : Fin 2 → IVec S16 32) a x).toNat < S256x128.size a)
instance k0_chk26.dec : ∀ (v2420 : IVec S16 32) (v4095 : IVec S16 32), Decidable (k0_chk26 v2420 v4095) := fun v2420 v4095 => decidable_of_iff' _ (Iff.of_eq (k0_chk26.eq_1 v2420 v4095))
theorem k0_idx26_inb : ∀ (v2420 : IVec S16 32) (v4095 : IVec S16 32) (k0_hw26 : k0_chk26 v2420 v4095), ∀ a x, ((![v2420, v4095] : Fin 2 → IVec S16 32) a x).toNat < S256x128.size a := fun v2420 v4095 k0_hw26 => k0_hw26

def k0_chk27 (v2420 : IVec S16 32) (v4226 : IVec S16 32) : Prop :=
  (∀ a x, ((![v2420, v4226] : Fin 2 → IVec S16 32) a x).toNat < S256x128.size a)
instance k0_chk27.dec : ∀ (v2420 : IVec S16 32) (v4226 : IVec S16 32), Decidable (k0_chk27 v2420 v4226) := fun v2420 v4226 => decidable_of_iff' _ (Iff.of_eq (k0_chk27.eq_1 v2420 v4226))
theorem k0_idx27_inb : ∀ (v2420 : IVec S16 32) (v4226 : IVec S16 32) (k0_hw27 : k0_chk27 v2420 v4226), ∀ a x, ((![v2420, v4226] : Fin 2 → IVec S16 32) a x).toNat < S256x128.size a := fun v2420 v4226 k0_hw27 => k0_hw27

def k0_chk28 (v2420 : IVec S16 32) (v4229 : IVec S16 32) : Prop :=
  (∀ a x, ((![v2420, v4229] : Fin 2 → IVec S16 32) a x).toNat < S256x128.size a)
instance k0_chk28.dec : ∀ (v2420 : IVec S16 32) (v4229 : IVec S16 32), Decidable (k0_chk28 v2420 v4229) := fun v2420 v4229 => decidable_of_iff' _ (Iff.of_eq (k0_chk28.eq_1 v2420 v4229))
theorem k0_idx28_inb : ∀ (v2420 : IVec S16 32) (v4229 : IVec S16 32) (k0_hw28 : k0_chk28 v2420 v4229), ∀ a x, ((![v2420, v4229] : Fin 2 → IVec S16 32) a x).toNat < S256x128.size a := fun v2420 v4229 k0_hw28 => k0_hw28

def k0_chk29 (v2420 : IVec S16 32) (v4360 : IVec S16 32) : Prop :=
  (∀ a x, ((![v2420, v4360] : Fin 2 → IVec S16 32) a x).toNat < S256x128.size a)
instance k0_chk29.dec : ∀ (v2420 : IVec S16 32) (v4360 : IVec S16 32), Decidable (k0_chk29 v2420 v4360) := fun v2420 v4360 => decidable_of_iff' _ (Iff.of_eq (k0_chk29.eq_1 v2420 v4360))
theorem k0_idx29_inb : ∀ (v2420 : IVec S16 32) (v4360 : IVec S16 32) (k0_hw29 : k0_chk29 v2420 v4360), ∀ a x, ((![v2420, v4360] : Fin 2 → IVec S16 32) a x).toNat < S256x128.size a := fun v2420 v4360 k0_hw29 => k0_hw29

def k0_chk30 (v2420 : IVec S16 32) (v4363 : IVec S16 32) : Prop :=
  (∀ a x, ((![v2420, v4363] : Fin 2 → IVec S16 32) a x).toNat < S256x128.size a)
instance k0_chk30.dec : ∀ (v2420 : IVec S16 32) (v4363 : IVec S16 32), Decidable (k0_chk30 v2420 v4363) := fun v2420 v4363 => decidable_of_iff' _ (Iff.of_eq (k0_chk30.eq_1 v2420 v4363))
theorem k0_idx30_inb : ∀ (v2420 : IVec S16 32) (v4363 : IVec S16 32) (k0_hw30 : k0_chk30 v2420 v4363), ∀ a x, ((![v2420, v4363] : Fin 2 → IVec S16 32) a x).toNat < S256x128.size a := fun v2420 v4363 k0_hw30 => k0_hw30

def k0_chk31 (v2420 : IVec S16 32) (v4494 : IVec S16 32) : Prop :=
  (∀ a x, ((![v2420, v4494] : Fin 2 → IVec S16 32) a x).toNat < S256x128.size a)
instance k0_chk31.dec : ∀ (v2420 : IVec S16 32) (v4494 : IVec S16 32), Decidable (k0_chk31 v2420 v4494) := fun v2420 v4494 => decidable_of_iff' _ (Iff.of_eq (k0_chk31.eq_1 v2420 v4494))
theorem k0_idx31_inb : ∀ (v2420 : IVec S16 32) (v4494 : IVec S16 32) (k0_hw31 : k0_chk31 v2420 v4494), ∀ a x, ((![v2420, v4494] : Fin 2 → IVec S16 32) a x).toNat < S256x128.size a := fun v2420 v4494 k0_hw31 => k0_hw31

def k0_chk32 (v2420 : IVec S16 32) (v4497 : IVec S16 32) : Prop :=
  (∀ a x, ((![v2420, v4497] : Fin 2 → IVec S16 32) a x).toNat < S256x128.size a)
instance k0_chk32.dec : ∀ (v2420 : IVec S16 32) (v4497 : IVec S16 32), Decidable (k0_chk32 v2420 v4497) := fun v2420 v4497 => decidable_of_iff' _ (Iff.of_eq (k0_chk32.eq_1 v2420 v4497))
theorem k0_idx32_inb : ∀ (v2420 : IVec S16 32) (v4497 : IVec S16 32) (k0_hw32 : k0_chk32 v2420 v4497), ∀ a x, ((![v2420, v4497] : Fin 2 → IVec S16 32) a x).toNat < S256x128.size a := fun v2420 v4497 k0_hw32 => k0_hw32

def k0_chk33 (v2420 : IVec S16 32) (v4628 : IVec S16 32) : Prop :=
  (∀ a x, ((![v2420, v4628] : Fin 2 → IVec S16 32) a x).toNat < S256x128.size a)
instance k0_chk33.dec : ∀ (v2420 : IVec S16 32) (v4628 : IVec S16 32), Decidable (k0_chk33 v2420 v4628) := fun v2420 v4628 => decidable_of_iff' _ (Iff.of_eq (k0_chk33.eq_1 v2420 v4628))
theorem k0_idx33_inb : ∀ (v2420 : IVec S16 32) (v4628 : IVec S16 32) (k0_hw33 : k0_chk33 v2420 v4628), ∀ a x, ((![v2420, v4628] : Fin 2 → IVec S16 32) a x).toNat < S256x128.size a := fun v2420 v4628 k0_hw33 => k0_hw33

def k0_chk34 (v2420 : IVec S16 32) (v4631 : IVec S16 32) : Prop :=
  (∀ a x, ((![v2420, v4631] : Fin 2 → IVec S16 32) a x).toNat < S256x128.size a)
instance k0_chk34.dec : ∀ (v2420 : IVec S16 32) (v4631 : IVec S16 32), Decidable (k0_chk34 v2420 v4631) := fun v2420 v4631 => decidable_of_iff' _ (Iff.of_eq (k0_chk34.eq_1 v2420 v4631))
theorem k0_idx34_inb : ∀ (v2420 : IVec S16 32) (v4631 : IVec S16 32) (k0_hw34 : k0_chk34 v2420 v4631), ∀ a x, ((![v2420, v4631] : Fin 2 → IVec S16 32) a x).toNat < S256x128.size a := fun v2420 v4631 k0_hw34 => k0_hw34

def k0_chk35 (v2420 : IVec S16 32) (v4762 : IVec S16 32) : Prop :=
  (∀ a x, ((![v2420, v4762] : Fin 2 → IVec S16 32) a x).toNat < S256x128.size a)
instance k0_chk35.dec : ∀ (v2420 : IVec S16 32) (v4762 : IVec S16 32), Decidable (k0_chk35 v2420 v4762) := fun v2420 v4762 => decidable_of_iff' _ (Iff.of_eq (k0_chk35.eq_1 v2420 v4762))
theorem k0_idx35_inb : ∀ (v2420 : IVec S16 32) (v4762 : IVec S16 32) (k0_hw35 : k0_chk35 v2420 v4762), ∀ a x, ((![v2420, v4762] : Fin 2 → IVec S16 32) a x).toNat < S256x128.size a := fun v2420 v4762 k0_hw35 => k0_hw35

def k0_chk36 (v2420 : IVec S16 32) (v4765 : IVec S16 32) : Prop :=
  (∀ a x, ((![v2420, v4765] : Fin 2 → IVec S16 32) a x).toNat < S256x128.size a)
instance k0_chk36.dec : ∀ (v2420 : IVec S16 32) (v4765 : IVec S16 32), Decidable (k0_chk36 v2420 v4765) := fun v2420 v4765 => decidable_of_iff' _ (Iff.of_eq (k0_chk36.eq_1 v2420 v4765))
theorem k0_idx36_inb : ∀ (v2420 : IVec S16 32) (v4765 : IVec S16 32) (k0_hw36 : k0_chk36 v2420 v4765), ∀ a x, ((![v2420, v4765] : Fin 2 → IVec S16 32) a x).toNat < S256x128.size a := fun v2420 v4765 k0_hw36 => k0_hw36

def k0_chk37 (v2420 : IVec S16 32) (v4896 : IVec S16 32) : Prop :=
  (∀ a x, ((![v2420, v4896] : Fin 2 → IVec S16 32) a x).toNat < S256x128.size a)
instance k0_chk37.dec : ∀ (v2420 : IVec S16 32) (v4896 : IVec S16 32), Decidable (k0_chk37 v2420 v4896) := fun v2420 v4896 => decidable_of_iff' _ (Iff.of_eq (k0_chk37.eq_1 v2420 v4896))
theorem k0_idx37_inb : ∀ (v2420 : IVec S16 32) (v4896 : IVec S16 32) (k0_hw37 : k0_chk37 v2420 v4896), ∀ a x, ((![v2420, v4896] : Fin 2 → IVec S16 32) a x).toNat < S256x128.size a := fun v2420 v4896 k0_hw37 => k0_hw37

def k0_chk38 (v2420 : IVec S16 32) (v4899 : IVec S16 32) : Prop :=
  (∀ a x, ((![v2420, v4899] : Fin 2 → IVec S16 32) a x).toNat < S256x128.size a)
instance k0_chk38.dec : ∀ (v2420 : IVec S16 32) (v4899 : IVec S16 32), Decidable (k0_chk38 v2420 v4899) := fun v2420 v4899 => decidable_of_iff' _ (Iff.of_eq (k0_chk38.eq_1 v2420 v4899))
theorem k0_idx38_inb : ∀ (v2420 : IVec S16 32) (v4899 : IVec S16 32) (k0_hw38 : k0_chk38 v2420 v4899), ∀ a x, ((![v2420, v4899] : Fin 2 → IVec S16 32) a x).toNat < S256x128.size a := fun v2420 v4899 k0_hw38 => k0_hw38

def k0_chk39 (v2420 : IVec S16 32) (v5030 : IVec S16 32) : Prop :=
  (∀ a x, ((![v2420, v5030] : Fin 2 → IVec S16 32) a x).toNat < S256x128.size a)
instance k0_chk39.dec : ∀ (v2420 : IVec S16 32) (v5030 : IVec S16 32), Decidable (k0_chk39 v2420 v5030) := fun v2420 v5030 => decidable_of_iff' _ (Iff.of_eq (k0_chk39.eq_1 v2420 v5030))
theorem k0_idx39_inb : ∀ (v2420 : IVec S16 32) (v5030 : IVec S16 32) (k0_hw39 : k0_chk39 v2420 v5030), ∀ a x, ((![v2420, v5030] : Fin 2 → IVec S16 32) a x).toNat < S256x128.size a := fun v2420 v5030 k0_hw39 => k0_hw39

def k0_chk40 (v2420 : IVec S16 32) (v5033 : IVec S16 32) : Prop :=
  (∀ a x, ((![v2420, v5033] : Fin 2 → IVec S16 32) a x).toNat < S256x128.size a)
instance k0_chk40.dec : ∀ (v2420 : IVec S16 32) (v5033 : IVec S16 32), Decidable (k0_chk40 v2420 v5033) := fun v2420 v5033 => decidable_of_iff' _ (Iff.of_eq (k0_chk40.eq_1 v2420 v5033))
theorem k0_idx40_inb : ∀ (v2420 : IVec S16 32) (v5033 : IVec S16 32) (k0_hw40 : k0_chk40 v2420 v5033), ∀ a x, ((![v2420, v5033] : Fin 2 → IVec S16 32) a x).toNat < S256x128.size a := fun v2420 v5033 k0_hw40 => k0_hw40

def k0_chk41 (v2420 : IVec S16 32) (v5164 : IVec S16 32) : Prop :=
  (∀ a x, ((![v2420, v5164] : Fin 2 → IVec S16 32) a x).toNat < S256x128.size a)
instance k0_chk41.dec : ∀ (v2420 : IVec S16 32) (v5164 : IVec S16 32), Decidable (k0_chk41 v2420 v5164) := fun v2420 v5164 => decidable_of_iff' _ (Iff.of_eq (k0_chk41.eq_1 v2420 v5164))
theorem k0_idx41_inb : ∀ (v2420 : IVec S16 32) (v5164 : IVec S16 32) (k0_hw41 : k0_chk41 v2420 v5164), ∀ a x, ((![v2420, v5164] : Fin 2 → IVec S16 32) a x).toNat < S256x128.size a := fun v2420 v5164 k0_hw41 => k0_hw41

def k0_chk42 (v2420 : IVec S16 32) (v5167 : IVec S16 32) : Prop :=
  (∀ a x, ((![v2420, v5167] : Fin 2 → IVec S16 32) a x).toNat < S256x128.size a)
instance k0_chk42.dec : ∀ (v2420 : IVec S16 32) (v5167 : IVec S16 32), Decidable (k0_chk42 v2420 v5167) := fun v2420 v5167 => decidable_of_iff' _ (Iff.of_eq (k0_chk42.eq_1 v2420 v5167))
theorem k0_idx42_inb : ∀ (v2420 : IVec S16 32) (v5167 : IVec S16 32) (k0_hw42 : k0_chk42 v2420 v5167), ∀ a x, ((![v2420, v5167] : Fin 2 → IVec S16 32) a x).toNat < S256x128.size a := fun v2420 v5167 k0_hw42 => k0_hw42

def k0_chk43 (v2420 : IVec S16 32) (v5298 : IVec S16 32) : Prop :=
  (∀ a x, ((![v2420, v5298] : Fin 2 → IVec S16 32) a x).toNat < S256x128.size a)
instance k0_chk43.dec : ∀ (v2420 : IVec S16 32) (v5298 : IVec S16 32), Decidable (k0_chk43 v2420 v5298) := fun v2420 v5298 => decidable_of_iff' _ (Iff.of_eq (k0_chk43.eq_1 v2420 v5298))
theorem k0_idx43_inb : ∀ (v2420 : IVec S16 32) (v5298 : IVec S16 32) (k0_hw43 : k0_chk43 v2420 v5298), ∀ a x, ((![v2420, v5298] : Fin 2 → IVec S16 32) a x).toNat < S256x128.size a := fun v2420 v5298 k0_hw43 => k0_hw43

def k0_chk44 (v2420 : IVec S16 32) (v5301 : IVec S16 32) : Prop :=
  (∀ a x, ((![v2420, v5301] : Fin 2 → IVec S16 32) a x).toNat < S256x128.size a)
instance k0_chk44.dec : ∀ (v2420 : IVec S16 32) (v5301 : IVec S16 32), Decidable (k0_chk44 v2420 v5301) := fun v2420 v5301 => decidable_of_iff' _ (Iff.of_eq (k0_chk44.eq_1 v2420 v5301))
theorem k0_idx44_inb : ∀ (v2420 : IVec S16 32) (v5301 : IVec S16 32) (k0_hw44 : k0_chk44 v2420 v5301), ∀ a x, ((![v2420, v5301] : Fin 2 → IVec S16 32) a x).toNat < S256x128.size a := fun v2420 v5301 k0_hw44 => k0_hw44

def k0_chk45 (v2420 : IVec S16 32) (v5432 : IVec S16 32) : Prop :=
  (∀ a x, ((![v2420, v5432] : Fin 2 → IVec S16 32) a x).toNat < S256x128.size a)
instance k0_chk45.dec : ∀ (v2420 : IVec S16 32) (v5432 : IVec S16 32), Decidable (k0_chk45 v2420 v5432) := fun v2420 v5432 => decidable_of_iff' _ (Iff.of_eq (k0_chk45.eq_1 v2420 v5432))
theorem k0_idx45_inb : ∀ (v2420 : IVec S16 32) (v5432 : IVec S16 32) (k0_hw45 : k0_chk45 v2420 v5432), ∀ a x, ((![v2420, v5432] : Fin 2 → IVec S16 32) a x).toNat < S256x128.size a := fun v2420 v5432 k0_hw45 => k0_hw45

def k0_chk46 (v2420 : IVec S16 32) (v5435 : IVec S16 32) : Prop :=
  (∀ a x, ((![v2420, v5435] : Fin 2 → IVec S16 32) a x).toNat < S256x128.size a)
instance k0_chk46.dec : ∀ (v2420 : IVec S16 32) (v5435 : IVec S16 32), Decidable (k0_chk46 v2420 v5435) := fun v2420 v5435 => decidable_of_iff' _ (Iff.of_eq (k0_chk46.eq_1 v2420 v5435))
theorem k0_idx46_inb : ∀ (v2420 : IVec S16 32) (v5435 : IVec S16 32) (k0_hw46 : k0_chk46 v2420 v5435), ∀ a x, ((![v2420, v5435] : Fin 2 → IVec S16 32) a x).toNat < S256x128.size a := fun v2420 v5435 k0_hw46 => k0_hw46

def k0_chk47 (v2420 : IVec S16 32) (v5566 : IVec S16 32) : Prop :=
  (∀ a x, ((![v2420, v5566] : Fin 2 → IVec S16 32) a x).toNat < S256x128.size a)
instance k0_chk47.dec : ∀ (v2420 : IVec S16 32) (v5566 : IVec S16 32), Decidable (k0_chk47 v2420 v5566) := fun v2420 v5566 => decidable_of_iff' _ (Iff.of_eq (k0_chk47.eq_1 v2420 v5566))
theorem k0_idx47_inb : ∀ (v2420 : IVec S16 32) (v5566 : IVec S16 32) (k0_hw47 : k0_chk47 v2420 v5566), ∀ a x, ((![v2420, v5566] : Fin 2 → IVec S16 32) a x).toNat < S256x128.size a := fun v2420 v5566 k0_hw47 => k0_hw47

def k0_chk48 (v2420 : IVec S16 32) (v5569 : IVec S16 32) : Prop :=
  (∀ a x, ((![v2420, v5569] : Fin 2 → IVec S16 32) a x).toNat < S256x128.size a)
instance k0_chk48.dec : ∀ (v2420 : IVec S16 32) (v5569 : IVec S16 32), Decidable (k0_chk48 v2420 v5569) := fun v2420 v5569 => decidable_of_iff' _ (Iff.of_eq (k0_chk48.eq_1 v2420 v5569))
theorem k0_idx48_inb : ∀ (v2420 : IVec S16 32) (v5569 : IVec S16 32) (k0_hw48 : k0_chk48 v2420 v5569), ∀ a x, ((![v2420, v5569] : Fin 2 → IVec S16 32) a x).toNat < S256x128.size a := fun v2420 v5569 k0_hw48 => k0_hw48

def k0_chk49 (v2420 : IVec S16 32) (v5700 : IVec S16 32) : Prop :=
  (∀ a x, ((![v2420, v5700] : Fin 2 → IVec S16 32) a x).toNat < S256x128.size a)
instance k0_chk49.dec : ∀ (v2420 : IVec S16 32) (v5700 : IVec S16 32), Decidable (k0_chk49 v2420 v5700) := fun v2420 v5700 => decidable_of_iff' _ (Iff.of_eq (k0_chk49.eq_1 v2420 v5700))
theorem k0_idx49_inb : ∀ (v2420 : IVec S16 32) (v5700 : IVec S16 32) (k0_hw49 : k0_chk49 v2420 v5700), ∀ a x, ((![v2420, v5700] : Fin 2 → IVec S16 32) a x).toNat < S256x128.size a := fun v2420 v5700 k0_hw49 => k0_hw49

def k0_chk50 (v2420 : IVec S16 32) (v5703 : IVec S16 32) : Prop :=
  (∀ a x, ((![v2420, v5703] : Fin 2 → IVec S16 32) a x).toNat < S256x128.size a)
instance k0_chk50.dec : ∀ (v2420 : IVec S16 32) (v5703 : IVec S16 32), Decidable (k0_chk50 v2420 v5703) := fun v2420 v5703 => decidable_of_iff' _ (Iff.of_eq (k0_chk50.eq_1 v2420 v5703))
theorem k0_idx50_inb : ∀ (v2420 : IVec S16 32) (v5703 : IVec S16 32) (k0_hw50 : k0_chk50 v2420 v5703), ∀ a x, ((![v2420, v5703] : Fin 2 → IVec S16 32) a x).toNat < S256x128.size a := fun v2420 v5703 k0_hw50 => k0_hw50

def k0_chk51 (v2420 : IVec S16 32) (v5834 : IVec S16 32) : Prop :=
  (∀ a x, ((![v2420, v5834] : Fin 2 → IVec S16 32) a x).toNat < S256x128.size a)
instance k0_chk51.dec : ∀ (v2420 : IVec S16 32) (v5834 : IVec S16 32), Decidable (k0_chk51 v2420 v5834) := fun v2420 v5834 => decidable_of_iff' _ (Iff.of_eq (k0_chk51.eq_1 v2420 v5834))
theorem k0_idx51_inb : ∀ (v2420 : IVec S16 32) (v5834 : IVec S16 32) (k0_hw51 : k0_chk51 v2420 v5834), ∀ a x, ((![v2420, v5834] : Fin 2 → IVec S16 32) a x).toNat < S256x128.size a := fun v2420 v5834 k0_hw51 => k0_hw51

def k0_chk52 (v2420 : IVec S16 32) (v5837 : IVec S16 32) : Prop :=
  (∀ a x, ((![v2420, v5837] : Fin 2 → IVec S16 32) a x).toNat < S256x128.size a)
instance k0_chk52.dec : ∀ (v2420 : IVec S16 32) (v5837 : IVec S16 32), Decidable (k0_chk52 v2420 v5837) := fun v2420 v5837 => decidable_of_iff' _ (Iff.of_eq (k0_chk52.eq_1 v2420 v5837))
theorem k0_idx52_inb : ∀ (v2420 : IVec S16 32) (v5837 : IVec S16 32) (k0_hw52 : k0_chk52 v2420 v5837), ∀ a x, ((![v2420, v5837] : Fin 2 → IVec S16 32) a x).toNat < S256x128.size a := fun v2420 v5837 k0_hw52 => k0_hw52

def k0_chk53 (v2420 : IVec S16 32) (v5968 : IVec S16 32) : Prop :=
  (∀ a x, ((![v2420, v5968] : Fin 2 → IVec S16 32) a x).toNat < S256x128.size a)
instance k0_chk53.dec : ∀ (v2420 : IVec S16 32) (v5968 : IVec S16 32), Decidable (k0_chk53 v2420 v5968) := fun v2420 v5968 => decidable_of_iff' _ (Iff.of_eq (k0_chk53.eq_1 v2420 v5968))
theorem k0_idx53_inb : ∀ (v2420 : IVec S16 32) (v5968 : IVec S16 32) (k0_hw53 : k0_chk53 v2420 v5968), ∀ a x, ((![v2420, v5968] : Fin 2 → IVec S16 32) a x).toNat < S256x128.size a := fun v2420 v5968 k0_hw53 => k0_hw53

def k0_chk54 (v2420 : IVec S16 32) (v5971 : IVec S16 32) : Prop :=
  (∀ a x, ((![v2420, v5971] : Fin 2 → IVec S16 32) a x).toNat < S256x128.size a)
instance k0_chk54.dec : ∀ (v2420 : IVec S16 32) (v5971 : IVec S16 32), Decidable (k0_chk54 v2420 v5971) := fun v2420 v5971 => decidable_of_iff' _ (Iff.of_eq (k0_chk54.eq_1 v2420 v5971))
theorem k0_idx54_inb : ∀ (v2420 : IVec S16 32) (v5971 : IVec S16 32) (k0_hw54 : k0_chk54 v2420 v5971), ∀ a x, ((![v2420, v5971] : Fin 2 → IVec S16 32) a x).toNat < S256x128.size a := fun v2420 v5971 k0_hw54 => k0_hw54

def k0_chk55 (v2420 : IVec S16 32) (v6102 : IVec S16 32) : Prop :=
  (∀ a x, ((![v2420, v6102] : Fin 2 → IVec S16 32) a x).toNat < S256x128.size a)
instance k0_chk55.dec : ∀ (v2420 : IVec S16 32) (v6102 : IVec S16 32), Decidable (k0_chk55 v2420 v6102) := fun v2420 v6102 => decidable_of_iff' _ (Iff.of_eq (k0_chk55.eq_1 v2420 v6102))
theorem k0_idx55_inb : ∀ (v2420 : IVec S16 32) (v6102 : IVec S16 32) (k0_hw55 : k0_chk55 v2420 v6102), ∀ a x, ((![v2420, v6102] : Fin 2 → IVec S16 32) a x).toNat < S256x128.size a := fun v2420 v6102 k0_hw55 => k0_hw55

def k0_chk56 (v2420 : IVec S16 32) (v6105 : IVec S16 32) : Prop :=
  (∀ a x, ((![v2420, v6105] : Fin 2 → IVec S16 32) a x).toNat < S256x128.size a)
instance k0_chk56.dec : ∀ (v2420 : IVec S16 32) (v6105 : IVec S16 32), Decidable (k0_chk56 v2420 v6105) := fun v2420 v6105 => decidable_of_iff' _ (Iff.of_eq (k0_chk56.eq_1 v2420 v6105))
theorem k0_idx56_inb : ∀ (v2420 : IVec S16 32) (v6105 : IVec S16 32) (k0_hw56 : k0_chk56 v2420 v6105), ∀ a x, ((![v2420, v6105] : Fin 2 → IVec S16 32) a x).toNat < S256x128.size a := fun v2420 v6105 k0_hw56 => k0_hw56

def k0_chk57 (v2420 : IVec S16 32) (v6236 : IVec S16 32) : Prop :=
  (∀ a x, ((![v2420, v6236] : Fin 2 → IVec S16 32) a x).toNat < S256x128.size a)
instance k0_chk57.dec : ∀ (v2420 : IVec S16 32) (v6236 : IVec S16 32), Decidable (k0_chk57 v2420 v6236) := fun v2420 v6236 => decidable_of_iff' _ (Iff.of_eq (k0_chk57.eq_1 v2420 v6236))
theorem k0_idx57_inb : ∀ (v2420 : IVec S16 32) (v6236 : IVec S16 32) (k0_hw57 : k0_chk57 v2420 v6236), ∀ a x, ((![v2420, v6236] : Fin 2 → IVec S16 32) a x).toNat < S256x128.size a := fun v2420 v6236 k0_hw57 => k0_hw57

def k0_chk58 (v2420 : IVec S16 32) (v6239 : IVec S16 32) : Prop :=
  (∀ a x, ((![v2420, v6239] : Fin 2 → IVec S16 32) a x).toNat < S256x128.size a)
instance k0_chk58.dec : ∀ (v2420 : IVec S16 32) (v6239 : IVec S16 32), Decidable (k0_chk58 v2420 v6239) := fun v2420 v6239 => decidable_of_iff' _ (Iff.of_eq (k0_chk58.eq_1 v2420 v6239))
theorem k0_idx58_inb : ∀ (v2420 : IVec S16 32) (v6239 : IVec S16 32) (k0_hw58 : k0_chk58 v2420 v6239), ∀ a x, ((![v2420, v6239] : Fin 2 → IVec S16 32) a x).toNat < S256x128.size a := fun v2420 v6239 k0_hw58 => k0_hw58

def k0_chk59 (v2420 : IVec S16 32) (v6370 : IVec S16 32) : Prop :=
  (∀ a x, ((![v2420, v6370] : Fin 2 → IVec S16 32) a x).toNat < S256x128.size a)
instance k0_chk59.dec : ∀ (v2420 : IVec S16 32) (v6370 : IVec S16 32), Decidable (k0_chk59 v2420 v6370) := fun v2420 v6370 => decidable_of_iff' _ (Iff.of_eq (k0_chk59.eq_1 v2420 v6370))
theorem k0_idx59_inb : ∀ (v2420 : IVec S16 32) (v6370 : IVec S16 32) (k0_hw59 : k0_chk59 v2420 v6370), ∀ a x, ((![v2420, v6370] : Fin 2 → IVec S16 32) a x).toNat < S256x128.size a := fun v2420 v6370 k0_hw59 => k0_hw59

def k0_chk60 (v2420 : IVec S16 32) (v6373 : IVec S16 32) : Prop :=
  (∀ a x, ((![v2420, v6373] : Fin 2 → IVec S16 32) a x).toNat < S256x128.size a)
instance k0_chk60.dec : ∀ (v2420 : IVec S16 32) (v6373 : IVec S16 32), Decidable (k0_chk60 v2420 v6373) := fun v2420 v6373 => decidable_of_iff' _ (Iff.of_eq (k0_chk60.eq_1 v2420 v6373))
theorem k0_idx60_inb : ∀ (v2420 : IVec S16 32) (v6373 : IVec S16 32) (k0_hw60 : k0_chk60 v2420 v6373), ∀ a x, ((![v2420, v6373] : Fin 2 → IVec S16 32) a x).toNat < S256x128.size a := fun v2420 v6373 k0_hw60 => k0_hw60

def k0_chk61 (v2420 : IVec S16 32) (v6504 : IVec S16 32) : Prop :=
  (∀ a x, ((![v2420, v6504] : Fin 2 → IVec S16 32) a x).toNat < S256x128.size a)
instance k0_chk61.dec : ∀ (v2420 : IVec S16 32) (v6504 : IVec S16 32), Decidable (k0_chk61 v2420 v6504) := fun v2420 v6504 => decidable_of_iff' _ (Iff.of_eq (k0_chk61.eq_1 v2420 v6504))
theorem k0_idx61_inb : ∀ (v2420 : IVec S16 32) (v6504 : IVec S16 32) (k0_hw61 : k0_chk61 v2420 v6504), ∀ a x, ((![v2420, v6504] : Fin 2 → IVec S16 32) a x).toNat < S256x128.size a := fun v2420 v6504 k0_hw61 => k0_hw61

def k0_chk62 (v2420 : IVec S16 32) (v6507 : IVec S16 32) : Prop :=
  (∀ a x, ((![v2420, v6507] : Fin 2 → IVec S16 32) a x).toNat < S256x128.size a)
instance k0_chk62.dec : ∀ (v2420 : IVec S16 32) (v6507 : IVec S16 32), Decidable (k0_chk62 v2420 v6507) := fun v2420 v6507 => decidable_of_iff' _ (Iff.of_eq (k0_chk62.eq_1 v2420 v6507))
theorem k0_idx62_inb : ∀ (v2420 : IVec S16 32) (v6507 : IVec S16 32) (k0_hw62 : k0_chk62 v2420 v6507), ∀ a x, ((![v2420, v6507] : Fin 2 → IVec S16 32) a x).toNat < S256x128.size a := fun v2420 v6507 k0_hw62 => k0_hw62

def k0_chk63 (v2420 : IVec S16 32) (v6638 : IVec S16 32) : Prop :=
  (∀ a x, ((![v2420, v6638] : Fin 2 → IVec S16 32) a x).toNat < S256x128.size a)
instance k0_chk63.dec : ∀ (v2420 : IVec S16 32) (v6638 : IVec S16 32), Decidable (k0_chk63 v2420 v6638) := fun v2420 v6638 => decidable_of_iff' _ (Iff.of_eq (k0_chk63.eq_1 v2420 v6638))
theorem k0_idx63_inb : ∀ (v2420 : IVec S16 32) (v6638 : IVec S16 32) (k0_hw63 : k0_chk63 v2420 v6638), ∀ a x, ((![v2420, v6638] : Fin 2 → IVec S16 32) a x).toNat < S256x128.size a := fun v2420 v6638 k0_hw63 => k0_hw63

def k0_chk64 (v2420 : IVec S16 32) (v6641 : IVec S16 32) : Prop :=
  (∀ a x, ((![v2420, v6641] : Fin 2 → IVec S16 32) a x).toNat < S256x128.size a)
instance k0_chk64.dec : ∀ (v2420 : IVec S16 32) (v6641 : IVec S16 32), Decidable (k0_chk64 v2420 v6641) := fun v2420 v6641 => decidable_of_iff' _ (Iff.of_eq (k0_chk64.eq_1 v2420 v6641))
theorem k0_idx64_inb : ∀ (v2420 : IVec S16 32) (v6641 : IVec S16 32) (k0_hw64 : k0_chk64 v2420 v6641), ∀ a x, ((![v2420, v6641] : Fin 2 → IVec S16 32) a x).toNat < S256x128.size a := fun v2420 v6641 k0_hw64 => k0_hw64
def k0_off4 (k0_t1 : Fin k0_t1_loop.trips) (k0_t2 : Fin k0_t2_loop.trips) : Fin 1 → Nat :=
  let c0_i32_211 : BitVec 32 := 0#32
  let c1_i32_213 : BitVec 32 := 1#32
  let arg22 : BitVec 32 := Scf.iv c0_i32_211 c1_i32_213 k0_t1
  let c256_i32_215 : BitVec 32 := 256#32
  let v2407 : BitVec 32 := Scalar.muli arg22 c256_i32_215
  let c0_i32_225 : BitVec 32 := 0#32
  let c1_i32_227 : BitVec 32 := 1#32
  let arg24 : BitVec 32 := Scf.iv c0_i32_225 c1_i32_227 k0_t2
  let c16_i32_230 : BitVec 32 := 16#32
  let v2418 : BitVec 32 := Scalar.muli arg24 c16_i32_230
  let v6802 : BitVec 32 := Scalar.addi v2407 v2418
  let v6803 : Index := Scalar.indexCast v6802
  ![v6803.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x32_S250000x128 : S1000000x32.ShapeCasts S250000x128
  shapeCasts_S16x32_S512 : S16x32.ShapeCasts S512
  inb_S512_S16_0 : ∀ a, (![0] : Fin 1 → Nat) a + S16.size a ≤ S512.size a
  h_S16 : 0 < S16.numel
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  slices_S16_o0_S1 : S16.Slices ![0] S1
  inpos_S1_p0 : ∀ a, (![0] : Fin 1 → Nat) a < S1.size a
  inb_S512_S1_0 : ∀ a, (![0] : Fin 1 → Nat) a + S1.size a ≤ S512.size a
  numel1_S1 : S1.numel = 1
  inb_S512_S1_16 : ∀ a, (![16] : Fin 1 → Nat) a + S1.size a ≤ S512.size a
  slices_S16_o1_S1 : S16.Slices ![1] S1
  inb_S512_S1_1 : ∀ a, (![1] : Fin 1 → Nat) a + S1.size a ≤ S512.size a
  inb_S512_S1_17 : ∀ a, (![17] : Fin 1 → Nat) a + S1.size a ≤ S512.size a
  slices_S16_o2_S1 : S16.Slices ![2] S1
  inb_S512_S1_2 : ∀ a, (![2] : Fin 1 → Nat) a + S1.size a ≤ S512.size a
  inb_S512_S1_18 : ∀ a, (![18] : Fin 1 → Nat) a + S1.size a ≤ S512.size a
  slices_S16_o3_S1 : S16.Slices ![3] S1
  inb_S512_S1_3 : ∀ a, (![3] : Fin 1 → Nat) a + S1.size a ≤ S512.size a
  inb_S512_S1_19 : ∀ a, (![19] : Fin 1 → Nat) a + S1.size a ≤ S512.size a
  slices_S16_o4_S1 : S16.Slices ![4] S1
  inb_S512_S1_4 : ∀ a, (![4] : Fin 1 → Nat) a + S1.size a ≤ S512.size a
  inb_S512_S1_20 : ∀ a, (![20] : Fin 1 → Nat) a + S1.size a ≤ S512.size a
  slices_S16_o5_S1 : S16.Slices ![5] S1
  inb_S512_S1_5 : ∀ a, (![5] : Fin 1 → Nat) a + S1.size a ≤ S512.size a
  inb_S512_S1_21 : ∀ a, (![21] : Fin 1 → Nat) a + S1.size a ≤ S512.size a
  slices_S16_o6_S1 : S16.Slices ![6] S1
  inb_S512_S1_6 : ∀ a, (![6] : Fin 1 → Nat) a + S1.size a ≤ S512.size a
  inb_S512_S1_22 : ∀ a, (![22] : Fin 1 → Nat) a + S1.size a ≤ S512.size a
  slices_S16_o7_S1 : S16.Slices ![7] S1
  inb_S512_S1_7 : ∀ a, (![7] : Fin 1 → Nat) a + S1.size a ≤ S512.size a
  inb_S512_S1_23 : ∀ a, (![23] : Fin 1 → Nat) a + S1.size a ≤ S512.size a
  slices_S16_o8_S1 : S16.Slices ![8] S1
  inb_S512_S1_8 : ∀ a, (![8] : Fin 1 → Nat) a + S1.size a ≤ S512.size a
  inb_S512_S1_24 : ∀ a, (![24] : Fin 1 → Nat) a + S1.size a ≤ S512.size a
  slices_S16_o9_S1 : S16.Slices ![9] S1
  inb_S512_S1_9 : ∀ a, (![9] : Fin 1 → Nat) a + S1.size a ≤ S512.size a
  inb_S512_S1_25 : ∀ a, (![25] : Fin 1 → Nat) a + S1.size a ≤ S512.size a
  slices_S16_o10_S1 : S16.Slices ![10] S1
  inb_S512_S1_10 : ∀ a, (![10] : Fin 1 → Nat) a + S1.size a ≤ S512.size a
  inb_S512_S1_26 : ∀ a, (![26] : Fin 1 → Nat) a + S1.size a ≤ S512.size a
  slices_S16_o11_S1 : S16.Slices ![11] S1
  inb_S512_S1_11 : ∀ a, (![11] : Fin 1 → Nat) a + S1.size a ≤ S512.size a
  inb_S512_S1_27 : ∀ a, (![27] : Fin 1 → Nat) a + S1.size a ≤ S512.size a
  slices_S16_o12_S1 : S16.Slices ![12] S1
  inb_S512_S1_12 : ∀ a, (![12] : Fin 1 → Nat) a + S1.size a ≤ S512.size a
  inb_S512_S1_28 : ∀ a, (![28] : Fin 1 → Nat) a + S1.size a ≤ S512.size a
  slices_S16_o13_S1 : S16.Slices ![13] S1
  inb_S512_S1_13 : ∀ a, (![13] : Fin 1 → Nat) a + S1.size a ≤ S512.size a
  inb_S512_S1_29 : ∀ a, (![29] : Fin 1 → Nat) a + S1.size a ≤ S512.size a
  slices_S16_o14_S1 : S16.Slices ![14] S1
  inb_S512_S1_14 : ∀ a, (![14] : Fin 1 → Nat) a + S1.size a ≤ S512.size a
  inb_S512_S1_30 : ∀ a, (![30] : Fin 1 → Nat) a + S1.size a ≤ S512.size a
  slices_S16_o15_S1 : S16.Slices ![15] S1
  inb_S512_S1_15 : ∀ a, (![15] : Fin 1 → Nat) a + S1.size a ≤ S512.size a
  inb_S512_S1_31 : ∀ a, (![31] : Fin 1 → Nat) a + S1.size a ≤ S512.size a
  inb_S512_S1_32 : ∀ a, (![32] : Fin 1 → Nat) a + S1.size a ≤ S512.size a
  inb_S512_S1_48 : ∀ a, (![48] : Fin 1 → Nat) a + S1.size a ≤ S512.size a
  inb_S512_S1_33 : ∀ a, (![33] : Fin 1 → Nat) a + S1.size a ≤ S512.size a
  inb_S512_S1_49 : ∀ a, (![49] : Fin 1 → Nat) a + S1.size a ≤ S512.size a
  inb_S512_S1_34 : ∀ a, (![34] : Fin 1 → Nat) a + S1.size a ≤ S512.size a
  inb_S512_S1_50 : ∀ a, (![50] : Fin 1 → Nat) a + S1.size a ≤ S512.size a
  inb_S512_S1_35 : ∀ a, (![35] : Fin 1 → Nat) a + S1.size a ≤ S512.size a
  inb_S512_S1_51 : ∀ a, (![51] : Fin 1 → Nat) a + S1.size a ≤ S512.size a
  inb_S512_S1_36 : ∀ a, (![36] : Fin 1 → Nat) a + S1.size a ≤ S512.size a
  inb_S512_S1_52 : ∀ a, (![52] : Fin 1 → Nat) a + S1.size a ≤ S512.size a
  inb_S512_S1_37 : ∀ a, (![37] : Fin 1 → Nat) a + S1.size a ≤ S512.size a
  inb_S512_S1_53 : ∀ a, (![53] : Fin 1 → Nat) a + S1.size a ≤ S512.size a
  inb_S512_S1_38 : ∀ a, (![38] : Fin 1 → Nat) a + S1.size a ≤ S512.size a
  inb_S512_S1_54 : ∀ a, (![54] : Fin 1 → Nat) a + S1.size a ≤ S512.size a
  inb_S512_S1_39 : ∀ a, (![39] : Fin 1 → Nat) a + S1.size a ≤ S512.size a
  inb_S512_S1_55 : ∀ a, (![55] : Fin 1 → Nat) a + S1.size a ≤ S512.size a
  inb_S512_S1_40 : ∀ a, (![40] : Fin 1 → Nat) a + S1.size a ≤ S512.size a
  inb_S512_S1_56 : ∀ a, (![56] : Fin 1 → Nat) a + S1.size a ≤ S512.size a
  inb_S512_S1_41 : ∀ a, (![41] : Fin 1 → Nat) a + S1.size a ≤ S512.size a
  inb_S512_S1_57 : ∀ a, (![57] : Fin 1 → Nat) a + S1.size a ≤ S512.size a
  inb_S512_S1_42 : ∀ a, (![42] : Fin 1 → Nat) a + S1.size a ≤ S512.size a
  inb_S512_S1_58 : ∀ a, (![58] : Fin 1 → Nat) a + S1.size a ≤ S512.size a
  inb_S512_S1_43 : ∀ a, (![43] : Fin 1 → Nat) a + S1.size a ≤ S512.size a
  inb_S512_S1_59 : ∀ a, (![59] : Fin 1 → Nat) a + S1.size a ≤ S512.size a
  inb_S512_S1_44 : ∀ a, (![44] : Fin 1 → Nat) a + S1.size a ≤ S512.size a
  inb_S512_S1_60 : ∀ a, (![60] : Fin 1 → Nat) a + S1.size a ≤ S512.size a
  inb_S512_S1_45 : ∀ a, (![45] : Fin 1 → Nat) a + S1.size a ≤ S512.size a
  inb_S512_S1_61 : ∀ a, (![61] : Fin 1 → Nat) a + S1.size a ≤ S512.size a
  inb_S512_S1_46 : ∀ a, (![46] : Fin 1 → Nat) a + S1.size a ≤ S512.size a
  inb_S512_S1_62 : ∀ a, (![62] : Fin 1 → Nat) a + S1.size a ≤ S512.size a
  inb_S512_S1_47 : ∀ a, (![47] : Fin 1 → Nat) a + S1.size a ≤ S512.size a
  inb_S512_S1_63 : ∀ a, (![63] : Fin 1 → Nat) a + S1.size a ≤ S512.size a
  inb_S512_S1_64 : ∀ a, (![64] : Fin 1 → Nat) a + S1.size a ≤ S512.size a
  inb_S512_S1_80 : ∀ a, (![80] : Fin 1 → Nat) a + S1.size a ≤ S512.size a
  inb_S512_S1_65 : ∀ a, (![65] : Fin 1 → Nat) a + S1.size a ≤ S512.size a
  inb_S512_S1_81 : ∀ a, (![81] : Fin 1 → Nat) a + S1.size a ≤ S512.size a
  inb_S512_S1_66 : ∀ a, (![66] : Fin 1 → Nat) a + S1.size a ≤ S512.size a
  inb_S512_S1_82 : ∀ a, (![82] : Fin 1 → Nat) a + S1.size a ≤ S512.size a
  inb_S512_S1_67 : ∀ a, (![67] : Fin 1 → Nat) a + S1.size a ≤ S512.size a
  inb_S512_S1_83 : ∀ a, (![83] : Fin 1 → Nat) a + S1.size a ≤ S512.size a
  inb_S512_S1_68 : ∀ a, (![68] : Fin 1 → Nat) a + S1.size a ≤ S512.size a
  inb_S512_S1_84 : ∀ a, (![84] : Fin 1 → Nat) a + S1.size a ≤ S512.size a
  inb_S512_S1_69 : ∀ a, (![69] : Fin 1 → Nat) a + S1.size a ≤ S512.size a
  inb_S512_S1_85 : ∀ a, (![85] : Fin 1 → Nat) a + S1.size a ≤ S512.size a
  inb_S512_S1_70 : ∀ a, (![70] : Fin 1 → Nat) a + S1.size a ≤ S512.size a
  inb_S512_S1_86 : ∀ a, (![86] : Fin 1 → Nat) a + S1.size a ≤ S512.size a
  inb_S512_S1_71 : ∀ a, (![71] : Fin 1 → Nat) a + S1.size a ≤ S512.size a
  inb_S512_S1_87 : ∀ a, (![87] : Fin 1 → Nat) a + S1.size a ≤ S512.size a
  inb_S512_S1_72 : ∀ a, (![72] : Fin 1 → Nat) a + S1.size a ≤ S512.size a
  inb_S512_S1_88 : ∀ a, (![88] : Fin 1 → Nat) a + S1.size a ≤ S512.size a
  inb_S512_S1_73 : ∀ a, (![73] : Fin 1 → Nat) a + S1.size a ≤ S512.size a
  inb_S512_S1_89 : ∀ a, (![89] : Fin 1 → Nat) a + S1.size a ≤ S512.size a
  inb_S512_S1_74 : ∀ a, (![74] : Fin 1 → Nat) a + S1.size a ≤ S512.size a
  inb_S512_S1_90 : ∀ a, (![90] : Fin 1 → Nat) a + S1.size a ≤ S512.size a
  inb_S512_S1_75 : ∀ a, (![75] : Fin 1 → Nat) a + S1.size a ≤ S512.size a
  inb_S512_S1_91 : ∀ a, (![91] : Fin 1 → Nat) a + S1.size a ≤ S512.size a
  inb_S512_S1_76 : ∀ a, (![76] : Fin 1 → Nat) a + S1.size a ≤ S512.size a
  inb_S512_S1_92 : ∀ a, (![92] : Fin 1 → Nat) a + S1.size a ≤ S512.size a
  inb_S512_S1_77 : ∀ a, (![77] : Fin 1 → Nat) a + S1.size a ≤ S512.size a
  inb_S512_S1_93 : ∀ a, (![93] : Fin 1 → Nat) a + S1.size a ≤ S512.size a
  inb_S512_S1_78 : ∀ a, (![78] : Fin 1 → Nat) a + S1.size a ≤ S512.size a
  inb_S512_S1_94 : ∀ a, (![94] : Fin 1 → Nat) a + S1.size a ≤ S512.size a
  inb_S512_S1_79 : ∀ a, (![79] : Fin 1 → Nat) a + S1.size a ≤ S512.size a
  inb_S512_S1_95 : ∀ a, (![95] : Fin 1 → Nat) a + S1.size a ≤ S512.size a
  inb_S512_S1_96 : ∀ a, (![96] : Fin 1 → Nat) a + S1.size a ≤ S512.size a
  inb_S512_S1_112 : ∀ a, (![112] : Fin 1 → Nat) a + S1.size a ≤ S512.size a
  inb_S512_S1_97 : ∀ a, (![97] : Fin 1 → Nat) a + S1.size a ≤ S512.size a
  inb_S512_S1_113 : ∀ a, (![113] : Fin 1 → Nat) a + S1.size a ≤ S512.size a
  inb_S512_S1_98 : ∀ a, (![98] : Fin 1 → Nat) a + S1.size a ≤ S512.size a
  inb_S512_S1_114 : ∀ a, (![114] : Fin 1 → Nat) a + S1.size a ≤ S512.size a
  inb_S512_S1_99 : ∀ a, (![99] : Fin 1 → Nat) a + S1.size a ≤ S512.size a
  inb_S512_S1_115 : ∀ a, (![115] : Fin 1 → Nat) a + S1.size a ≤ S512.size a
  inb_S512_S1_100 : ∀ a, (![100] : Fin 1 → Nat) a + S1.size a ≤ S512.size a
  inb_S512_S1_116 : ∀ a, (![116] : Fin 1 → Nat) a + S1.size a ≤ S512.size a
  inb_S512_S1_101 : ∀ a, (![101] : Fin 1 → Nat) a + S1.size a ≤ S512.size a
  inb_S512_S1_117 : ∀ a, (![117] : Fin 1 → Nat) a + S1.size a ≤ S512.size a
  inb_S512_S1_102 : ∀ a, (![102] : Fin 1 → Nat) a + S1.size a ≤ S512.size a
  inb_S512_S1_118 : ∀ a, (![118] : Fin 1 → Nat) a + S1.size a ≤ S512.size a
  inb_S512_S1_103 : ∀ a, (![103] : Fin 1 → Nat) a + S1.size a ≤ S512.size a
  inb_S512_S1_119 : ∀ a, (![119] : Fin 1 → Nat) a + S1.size a ≤ S512.size a
  inb_S512_S1_104 : ∀ a, (![104] : Fin 1 → Nat) a + S1.size a ≤ S512.size a
  inb_S512_S1_120 : ∀ a, (![120] : Fin 1 → Nat) a + S1.size a ≤ S512.size a
  inb_S512_S1_105 : ∀ a, (![105] : Fin 1 → Nat) a + S1.size a ≤ S512.size a
  inb_S512_S1_121 : ∀ a, (![121] : Fin 1 → Nat) a + S1.size a ≤ S512.size a
  inb_S512_S1_106 : ∀ a, (![106] : Fin 1 → Nat) a + S1.size a ≤ S512.size a
  inb_S512_S1_122 : ∀ a, (![122] : Fin 1 → Nat) a + S1.size a ≤ S512.size a
  inb_S512_S1_107 : ∀ a, (![107] : Fin 1 → Nat) a + S1.size a ≤ S512.size a
  inb_S512_S1_123 : ∀ a, (![123] : Fin 1 → Nat) a + S1.size a ≤ S512.size a
  inb_S512_S1_108 : ∀ a, (![108] : Fin 1 → Nat) a + S1.size a ≤ S512.size a
  inb_S512_S1_124 : ∀ a, (![124] : Fin 1 → Nat) a + S1.size a ≤ S512.size a
  inb_S512_S1_109 : ∀ a, (![109] : Fin 1 → Nat) a + S1.size a ≤ S512.size a
  inb_S512_S1_125 : ∀ a, (![125] : Fin 1 → Nat) a + S1.size a ≤ S512.size a
  inb_S512_S1_110 : ∀ a, (![110] : Fin 1 → Nat) a + S1.size a ≤ S512.size a
  inb_S512_S1_126 : ∀ a, (![126] : Fin 1 → Nat) a + S1.size a ≤ S512.size a
  inb_S512_S1_111 : ∀ a, (![111] : Fin 1 → Nat) a + S1.size a ≤ S512.size a
  inb_S512_S1_127 : ∀ a, (![127] : Fin 1 → Nat) a + S1.size a ≤ S512.size a
  inb_S512_S1_128 : ∀ a, (![128] : Fin 1 → Nat) a + S1.size a ≤ S512.size a
  inb_S512_S1_144 : ∀ a, (![144] : Fin 1 → Nat) a + S1.size a ≤ S512.size a
  inb_S512_S1_129 : ∀ a, (![129] : Fin 1 → Nat) a + S1.size a ≤ S512.size a
  inb_S512_S1_145 : ∀ a, (![145] : Fin 1 → Nat) a + S1.size a ≤ S512.size a
  inb_S512_S1_130 : ∀ a, (![130] : Fin 1 → Nat) a + S1.size a ≤ S512.size a
  inb_S512_S1_146 : ∀ a, (![146] : Fin 1 → Nat) a + S1.size a ≤ S512.size a
  inb_S512_S1_131 : ∀ a, (![131] : Fin 1 → Nat) a + S1.size a ≤ S512.size a
  inb_S512_S1_147 : ∀ a, (![147] : Fin 1 → Nat) a + S1.size a ≤ S512.size a
  inb_S512_S1_132 : ∀ a, (![132] : Fin 1 → Nat) a + S1.size a ≤ S512.size a
  inb_S512_S1_148 : ∀ a, (![148] : Fin 1 → Nat) a + S1.size a ≤ S512.size a
  inb_S512_S1_133 : ∀ a, (![133] : Fin 1 → Nat) a + S1.size a ≤ S512.size a
  inb_S512_S1_149 : ∀ a, (![149] : Fin 1 → Nat) a + S1.size a ≤ S512.size a
  inb_S512_S1_134 : ∀ a, (![134] : Fin 1 → Nat) a + S1.size a ≤ S512.size a
  inb_S512_S1_150 : ∀ a, (![150] : Fin 1 → Nat) a + S1.size a ≤ S512.size a
  inb_S512_S1_135 : ∀ a, (![135] : Fin 1 → Nat) a + S1.size a ≤ S512.size a
  inb_S512_S1_151 : ∀ a, (![151] : Fin 1 → Nat) a + S1.size a ≤ S512.size a
  inb_S512_S1_136 : ∀ a, (![136] : Fin 1 → Nat) a + S1.size a ≤ S512.size a
  inb_S512_S1_152 : ∀ a, (![152] : Fin 1 → Nat) a + S1.size a ≤ S512.size a
  inb_S512_S1_137 : ∀ a, (![137] : Fin 1 → Nat) a + S1.size a ≤ S512.size a
  inb_S512_S1_153 : ∀ a, (![153] : Fin 1 → Nat) a + S1.size a ≤ S512.size a
  inb_S512_S1_138 : ∀ a, (![138] : Fin 1 → Nat) a + S1.size a ≤ S512.size a
  inb_S512_S1_154 : ∀ a, (![154] : Fin 1 → Nat) a + S1.size a ≤ S512.size a
  inb_S512_S1_139 : ∀ a, (![139] : Fin 1 → Nat) a + S1.size a ≤ S512.size a
  inb_S512_S1_155 : ∀ a, (![155] : Fin 1 → Nat) a + S1.size a ≤ S512.size a
  inb_S512_S1_140 : ∀ a, (![140] : Fin 1 → Nat) a + S1.size a ≤ S512.size a
  inb_S512_S1_156 : ∀ a, (![156] : Fin 1 → Nat) a + S1.size a ≤ S512.size a
  inb_S512_S1_141 : ∀ a, (![141] : Fin 1 → Nat) a + S1.size a ≤ S512.size a
  inb_S512_S1_157 : ∀ a, (![157] : Fin 1 → Nat) a + S1.size a ≤ S512.size a
  inb_S512_S1_142 : ∀ a, (![142] : Fin 1 → Nat) a + S1.size a ≤ S512.size a
  inb_S512_S1_158 : ∀ a, (![158] : Fin 1 → Nat) a + S1.size a ≤ S512.size a
  inb_S512_S1_143 : ∀ a, (![143] : Fin 1 → Nat) a + S1.size a ≤ S512.size a
  inb_S512_S1_159 : ∀ a, (![159] : Fin 1 → Nat) a + S1.size a ≤ S512.size a
  inb_S512_S1_160 : ∀ a, (![160] : Fin 1 → Nat) a + S1.size a ≤ S512.size a
  inb_S512_S1_176 : ∀ a, (![176] : Fin 1 → Nat) a + S1.size a ≤ S512.size a
  inb_S512_S1_161 : ∀ a, (![161] : Fin 1 → Nat) a + S1.size a ≤ S512.size a
  inb_S512_S1_177 : ∀ a, (![177] : Fin 1 → Nat) a + S1.size a ≤ S512.size a
  inb_S512_S1_162 : ∀ a, (![162] : Fin 1 → Nat) a + S1.size a ≤ S512.size a
  inb_S512_S1_178 : ∀ a, (![178] : Fin 1 → Nat) a + S1.size a ≤ S512.size a
  inb_S512_S1_163 : ∀ a, (![163] : Fin 1 → Nat) a + S1.size a ≤ S512.size a
  inb_S512_S1_179 : ∀ a, (![179] : Fin 1 → Nat) a + S1.size a ≤ S512.size a
  inb_S512_S1_164 : ∀ a, (![164] : Fin 1 → Nat) a + S1.size a ≤ S512.size a
  inb_S512_S1_180 : ∀ a, (![180] : Fin 1 → Nat) a + S1.size a ≤ S512.size a
  inb_S512_S1_165 : ∀ a, (![165] : Fin 1 → Nat) a + S1.size a ≤ S512.size a
  inb_S512_S1_181 : ∀ a, (![181] : Fin 1 → Nat) a + S1.size a ≤ S512.size a
  inb_S512_S1_166 : ∀ a, (![166] : Fin 1 → Nat) a + S1.size a ≤ S512.size a
  inb_S512_S1_182 : ∀ a, (![182] : Fin 1 → Nat) a + S1.size a ≤ S512.size a
  inb_S512_S1_167 : ∀ a, (![167] : Fin 1 → Nat) a + S1.size a ≤ S512.size a
  inb_S512_S1_183 : ∀ a, (![183] : Fin 1 → Nat) a + S1.size a ≤ S512.size a
  inb_S512_S1_168 : ∀ a, (![168] : Fin 1 → Nat) a + S1.size a ≤ S512.size a
  inb_S512_S1_184 : ∀ a, (![184] : Fin 1 → Nat) a + S1.size a ≤ S512.size a
  inb_S512_S1_169 : ∀ a, (![169] : Fin 1 → Nat) a + S1.size a ≤ S512.size a
  inb_S512_S1_185 : ∀ a, (![185] : Fin 1 → Nat) a + S1.size a ≤ S512.size a
  inb_S512_S1_170 : ∀ a, (![170] : Fin 1 → Nat) a + S1.size a ≤ S512.size a
  inb_S512_S1_186 : ∀ a, (![186] : Fin 1 → Nat) a + S1.size a ≤ S512.size a
  inb_S512_S1_171 : ∀ a, (![171] : Fin 1 → Nat) a + S1.size a ≤ S512.size a
  inb_S512_S1_187 : ∀ a, (![187] : Fin 1 → Nat) a + S1.size a ≤ S512.size a
  inb_S512_S1_172 : ∀ a, (![172] : Fin 1 → Nat) a + S1.size a ≤ S512.size a
  inb_S512_S1_188 : ∀ a, (![188] : Fin 1 → Nat) a + S1.size a ≤ S512.size a
  inb_S512_S1_173 : ∀ a, (![173] : Fin 1 → Nat) a + S1.size a ≤ S512.size a
  inb_S512_S1_189 : ∀ a, (![189] : Fin 1 → Nat) a + S1.size a ≤ S512.size a
  inb_S512_S1_174 : ∀ a, (![174] : Fin 1 → Nat) a + S1.size a ≤ S512.size a
  inb_S512_S1_190 : ∀ a, (![190] : Fin 1 → Nat) a + S1.size a ≤ S512.size a
  inb_S512_S1_175 : ∀ a, (![175] : Fin 1 → Nat) a + S1.size a ≤ S512.size a
  inb_S512_S1_191 : ∀ a, (![191] : Fin 1 → Nat) a + S1.size a ≤ S512.size a
  inb_S512_S1_192 : ∀ a, (![192] : Fin 1 → Nat) a + S1.size a ≤ S512.size a
  inb_S512_S1_208 : ∀ a, (![208] : Fin 1 → Nat) a + S1.size a ≤ S512.size a
  inb_S512_S1_193 : ∀ a, (![193] : Fin 1 → Nat) a + S1.size a ≤ S512.size a
  inb_S512_S1_209 : ∀ a, (![209] : Fin 1 → Nat) a + S1.size a ≤ S512.size a
  inb_S512_S1_194 : ∀ a, (![194] : Fin 1 → Nat) a + S1.size a ≤ S512.size a
  inb_S512_S1_210 : ∀ a, (![210] : Fin 1 → Nat) a + S1.size a ≤ S512.size a
  inb_S512_S1_195 : ∀ a, (![195] : Fin 1 → Nat) a + S1.size a ≤ S512.size a
  inb_S512_S1_211 : ∀ a, (![211] : Fin 1 → Nat) a + S1.size a ≤ S512.size a
  inb_S512_S1_196 : ∀ a, (![196] : Fin 1 → Nat) a + S1.size a ≤ S512.size a
  inb_S512_S1_212 : ∀ a, (![212] : Fin 1 → Nat) a + S1.size a ≤ S512.size a
  inb_S512_S1_197 : ∀ a, (![197] : Fin 1 → Nat) a + S1.size a ≤ S512.size a
  inb_S512_S1_213 : ∀ a, (![213] : Fin 1 → Nat) a + S1.size a ≤ S512.size a
  inb_S512_S1_198 : ∀ a, (![198] : Fin 1 → Nat) a + S1.size a ≤ S512.size a
  inb_S512_S1_214 : ∀ a, (![214] : Fin 1 → Nat) a + S1.size a ≤ S512.size a
  inb_S512_S1_199 : ∀ a, (![199] : Fin 1 → Nat) a + S1.size a ≤ S512.size a
  inb_S512_S1_215 : ∀ a, (![215] : Fin 1 → Nat) a + S1.size a ≤ S512.size a
  inb_S512_S1_200 : ∀ a, (![200] : Fin 1 → Nat) a + S1.size a ≤ S512.size a
  inb_S512_S1_216 : ∀ a, (![216] : Fin 1 → Nat) a + S1.size a ≤ S512.size a
  inb_S512_S1_201 : ∀ a, (![201] : Fin 1 → Nat) a + S1.size a ≤ S512.size a
  inb_S512_S1_217 : ∀ a, (![217] : Fin 1 → Nat) a + S1.size a ≤ S512.size a
  inb_S512_S1_202 : ∀ a, (![202] : Fin 1 → Nat) a + S1.size a ≤ S512.size a
  inb_S512_S1_218 : ∀ a, (![218] : Fin 1 → Nat) a + S1.size a ≤ S512.size a
  inb_S512_S1_203 : ∀ a, (![203] : Fin 1 → Nat) a + S1.size a ≤ S512.size a
  inb_S512_S1_219 : ∀ a, (![219] : Fin 1 → Nat) a + S1.size a ≤ S512.size a
  inb_S512_S1_204 : ∀ a, (![204] : Fin 1 → Nat) a + S1.size a ≤ S512.size a
  inb_S512_S1_220 : ∀ a, (![220] : Fin 1 → Nat) a + S1.size a ≤ S512.size a
  inb_S512_S1_205 : ∀ a, (![205] : Fin 1 → Nat) a + S1.size a ≤ S512.size a
  inb_S512_S1_221 : ∀ a, (![221] : Fin 1 → Nat) a + S1.size a ≤ S512.size a
  inb_S512_S1_206 : ∀ a, (![206] : Fin 1 → Nat) a + S1.size a ≤ S512.size a
  inb_S512_S1_222 : ∀ a, (![222] : Fin 1 → Nat) a + S1.size a ≤ S512.size a
  inb_S512_S1_207 : ∀ a, (![207] : Fin 1 → Nat) a + S1.size a ≤ S512.size a
  inb_S512_S1_223 : ∀ a, (![223] : Fin 1 → Nat) a + S1.size a ≤ S512.size a
  inb_S512_S1_224 : ∀ a, (![224] : Fin 1 → Nat) a + S1.size a ≤ S512.size a
  inb_S512_S1_240 : ∀ a, (![240] : Fin 1 → Nat) a + S1.size a ≤ S512.size a
  inb_S512_S1_225 : ∀ a, (![225] : Fin 1 → Nat) a + S1.size a ≤ S512.size a
  inb_S512_S1_241 : ∀ a, (![241] : Fin 1 → Nat) a + S1.size a ≤ S512.size a
  inb_S512_S1_226 : ∀ a, (![226] : Fin 1 → Nat) a + S1.size a ≤ S512.size a
  inb_S512_S1_242 : ∀ a, (![242] : Fin 1 → Nat) a + S1.size a ≤ S512.size a
  inb_S512_S1_227 : ∀ a, (![227] : Fin 1 → Nat) a + S1.size a ≤ S512.size a
  inb_S512_S1_243 : ∀ a, (![243] : Fin 1 → Nat) a + S1.size a ≤ S512.size a
  inb_S512_S1_228 : ∀ a, (![228] : Fin 1 → Nat) a + S1.size a ≤ S512.size a
  inb_S512_S1_244 : ∀ a, (![244] : Fin 1 → Nat) a + S1.size a ≤ S512.size a
  inb_S512_S1_229 : ∀ a, (![229] : Fin 1 → Nat) a + S1.size a ≤ S512.size a
  inb_S512_S1_245 : ∀ a, (![245] : Fin 1 → Nat) a + S1.size a ≤ S512.size a
  inb_S512_S1_230 : ∀ a, (![230] : Fin 1 → Nat) a + S1.size a ≤ S512.size a
  inb_S512_S1_246 : ∀ a, (![246] : Fin 1 → Nat) a + S1.size a ≤ S512.size a
  inb_S512_S1_231 : ∀ a, (![231] : Fin 1 → Nat) a + S1.size a ≤ S512.size a
  inb_S512_S1_247 : ∀ a, (![247] : Fin 1 → Nat) a + S1.size a ≤ S512.size a
  inb_S512_S1_232 : ∀ a, (![232] : Fin 1 → Nat) a + S1.size a ≤ S512.size a
  inb_S512_S1_248 : ∀ a, (![248] : Fin 1 → Nat) a + S1.size a ≤ S512.size a
  inb_S512_S1_233 : ∀ a, (![233] : Fin 1 → Nat) a + S1.size a ≤ S512.size a
  inb_S512_S1_249 : ∀ a, (![249] : Fin 1 → Nat) a + S1.size a ≤ S512.size a
  inb_S512_S1_234 : ∀ a, (![234] : Fin 1 → Nat) a + S1.size a ≤ S512.size a
  inb_S512_S1_250 : ∀ a, (![250] : Fin 1 → Nat) a + S1.size a ≤ S512.size a
  inb_S512_S1_235 : ∀ a, (![235] : Fin 1 → Nat) a + S1.size a ≤ S512.size a
  inb_S512_S1_251 : ∀ a, (![251] : Fin 1 → Nat) a + S1.size a ≤ S512.size a
  inb_S512_S1_236 : ∀ a, (![236] : Fin 1 → Nat) a + S1.size a ≤ S512.size a
  inb_S512_S1_252 : ∀ a, (![252] : Fin 1 → Nat) a + S1.size a ≤ S512.size a
  inb_S512_S1_237 : ∀ a, (![237] : Fin 1 → Nat) a + S1.size a ≤ S512.size a
  inb_S512_S1_253 : ∀ a, (![253] : Fin 1 → Nat) a + S1.size a ≤ S512.size a
  inb_S512_S1_238 : ∀ a, (![238] : Fin 1 → Nat) a + S1.size a ≤ S512.size a
  inb_S512_S1_254 : ∀ a, (![254] : Fin 1 → Nat) a + S1.size a ≤ S512.size a
  inb_S512_S1_239 : ∀ a, (![239] : Fin 1 → Nat) a + S1.size a ≤ S512.size a
  inb_S512_S1_255 : ∀ a, (![255] : Fin 1 → Nat) a + S1.size a ≤ S512.size a
  inb_S512_S1_256 : ∀ a, (![256] : Fin 1 → Nat) a + S1.size a ≤ S512.size a
  inb_S512_S1_272 : ∀ a, (![272] : Fin 1 → Nat) a + S1.size a ≤ S512.size a
  inb_S512_S1_257 : ∀ a, (![257] : Fin 1 → Nat) a + S1.size a ≤ S512.size a
  inb_S512_S1_273 : ∀ a, (![273] : Fin 1 → Nat) a + S1.size a ≤ S512.size a
  inb_S512_S1_258 : ∀ a, (![258] : Fin 1 → Nat) a + S1.size a ≤ S512.size a
  inb_S512_S1_274 : ∀ a, (![274] : Fin 1 → Nat) a + S1.size a ≤ S512.size a
  inb_S512_S1_259 : ∀ a, (![259] : Fin 1 → Nat) a + S1.size a ≤ S512.size a
  inb_S512_S1_275 : ∀ a, (![275] : Fin 1 → Nat) a + S1.size a ≤ S512.size a
  inb_S512_S1_260 : ∀ a, (![260] : Fin 1 → Nat) a + S1.size a ≤ S512.size a
  inb_S512_S1_276 : ∀ a, (![276] : Fin 1 → Nat) a + S1.size a ≤ S512.size a
  inb_S512_S1_261 : ∀ a, (![261] : Fin 1 → Nat) a + S1.size a ≤ S512.size a
  inb_S512_S1_277 : ∀ a, (![277] : Fin 1 → Nat) a + S1.size a ≤ S512.size a
  inb_S512_S1_262 : ∀ a, (![262] : Fin 1 → Nat) a + S1.size a ≤ S512.size a
  inb_S512_S1_278 : ∀ a, (![278] : Fin 1 → Nat) a + S1.size a ≤ S512.size a
  inb_S512_S1_263 : ∀ a, (![263] : Fin 1 → Nat) a + S1.size a ≤ S512.size a
  inb_S512_S1_279 : ∀ a, (![279] : Fin 1 → Nat) a + S1.size a ≤ S512.size a
  inb_S512_S1_264 : ∀ a, (![264] : Fin 1 → Nat) a + S1.size a ≤ S512.size a
  inb_S512_S1_280 : ∀ a, (![280] : Fin 1 → Nat) a + S1.size a ≤ S512.size a
  inb_S512_S1_265 : ∀ a, (![265] : Fin 1 → Nat) a + S1.size a ≤ S512.size a
  inb_S512_S1_281 : ∀ a, (![281] : Fin 1 → Nat) a + S1.size a ≤ S512.size a
  inb_S512_S1_266 : ∀ a, (![266] : Fin 1 → Nat) a + S1.size a ≤ S512.size a
  inb_S512_S1_282 : ∀ a, (![282] : Fin 1 → Nat) a + S1.size a ≤ S512.size a
  inb_S512_S1_267 : ∀ a, (![267] : Fin 1 → Nat) a + S1.size a ≤ S512.size a
  inb_S512_S1_283 : ∀ a, (![283] : Fin 1 → Nat) a + S1.size a ≤ S512.size a
  inb_S512_S1_268 : ∀ a, (![268] : Fin 1 → Nat) a + S1.size a ≤ S512.size a
  inb_S512_S1_284 : ∀ a, (![284] : Fin 1 → Nat) a + S1.size a ≤ S512.size a
  inb_S512_S1_269 : ∀ a, (![269] : Fin 1 → Nat) a + S1.size a ≤ S512.size a
  inb_S512_S1_285 : ∀ a, (![285] : Fin 1 → Nat) a + S1.size a ≤ S512.size a
  inb_S512_S1_270 : ∀ a, (![270] : Fin 1 → Nat) a + S1.size a ≤ S512.size a
  inb_S512_S1_286 : ∀ a, (![286] : Fin 1 → Nat) a + S1.size a ≤ S512.size a
  inb_S512_S1_271 : ∀ a, (![271] : Fin 1 → Nat) a + S1.size a ≤ S512.size a
  inb_S512_S1_287 : ∀ a, (![287] : Fin 1 → Nat) a + S1.size a ≤ S512.size a
  inb_S512_S1_288 : ∀ a, (![288] : Fin 1 → Nat) a + S1.size a ≤ S512.size a
  inb_S512_S1_304 : ∀ a, (![304] : Fin 1 → Nat) a + S1.size a ≤ S512.size a
  inb_S512_S1_289 : ∀ a, (![289] : Fin 1 → Nat) a + S1.size a ≤ S512.size a
  inb_S512_S1_305 : ∀ a, (![305] : Fin 1 → Nat) a + S1.size a ≤ S512.size a
  inb_S512_S1_290 : ∀ a, (![290] : Fin 1 → Nat) a + S1.size a ≤ S512.size a
  inb_S512_S1_306 : ∀ a, (![306] : Fin 1 → Nat) a + S1.size a ≤ S512.size a
  inb_S512_S1_291 : ∀ a, (![291] : Fin 1 → Nat) a + S1.size a ≤ S512.size a
  inb_S512_S1_307 : ∀ a, (![307] : Fin 1 → Nat) a + S1.size a ≤ S512.size a
  inb_S512_S1_292 : ∀ a, (![292] : Fin 1 → Nat) a + S1.size a ≤ S512.size a
  inb_S512_S1_308 : ∀ a, (![308] : Fin 1 → Nat) a + S1.size a ≤ S512.size a
  inb_S512_S1_293 : ∀ a, (![293] : Fin 1 → Nat) a + S1.size a ≤ S512.size a
  inb_S512_S1_309 : ∀ a, (![309] : Fin 1 → Nat) a + S1.size a ≤ S512.size a
  inb_S512_S1_294 : ∀ a, (![294] : Fin 1 → Nat) a + S1.size a ≤ S512.size a
  inb_S512_S1_310 : ∀ a, (![310] : Fin 1 → Nat) a + S1.size a ≤ S512.size a
  inb_S512_S1_295 : ∀ a, (![295] : Fin 1 → Nat) a + S1.size a ≤ S512.size a
  inb_S512_S1_311 : ∀ a, (![311] : Fin 1 → Nat) a + S1.size a ≤ S512.size a
  inb_S512_S1_296 : ∀ a, (![296] : Fin 1 → Nat) a + S1.size a ≤ S512.size a
  inb_S512_S1_312 : ∀ a, (![312] : Fin 1 → Nat) a + S1.size a ≤ S512.size a
  inb_S512_S1_297 : ∀ a, (![297] : Fin 1 → Nat) a + S1.size a ≤ S512.size a
  inb_S512_S1_313 : ∀ a, (![313] : Fin 1 → Nat) a + S1.size a ≤ S512.size a
  inb_S512_S1_298 : ∀ a, (![298] : Fin 1 → Nat) a + S1.size a ≤ S512.size a
  inb_S512_S1_314 : ∀ a, (![314] : Fin 1 → Nat) a + S1.size a ≤ S512.size a
  inb_S512_S1_299 : ∀ a, (![299] : Fin 1 → Nat) a + S1.size a ≤ S512.size a
  inb_S512_S1_315 : ∀ a, (![315] : Fin 1 → Nat) a + S1.size a ≤ S512.size a
  inb_S512_S1_300 : ∀ a, (![300] : Fin 1 → Nat) a + S1.size a ≤ S512.size a
  inb_S512_S1_316 : ∀ a, (![316] : Fin 1 → Nat) a + S1.size a ≤ S512.size a
  inb_S512_S1_301 : ∀ a, (![301] : Fin 1 → Nat) a + S1.size a ≤ S512.size a
  inb_S512_S1_317 : ∀ a, (![317] : Fin 1 → Nat) a + S1.size a ≤ S512.size a
  inb_S512_S1_302 : ∀ a, (![302] : Fin 1 → Nat) a + S1.size a ≤ S512.size a
  inb_S512_S1_318 : ∀ a, (![318] : Fin 1 → Nat) a + S1.size a ≤ S512.size a
  inb_S512_S1_303 : ∀ a, (![303] : Fin 1 → Nat) a + S1.size a ≤ S512.size a
  inb_S512_S1_319 : ∀ a, (![319] : Fin 1 → Nat) a + S1.size a ≤ S512.size a
  inb_S512_S1_320 : ∀ a, (![320] : Fin 1 → Nat) a + S1.size a ≤ S512.size a
  inb_S512_S1_336 : ∀ a, (![336] : Fin 1 → Nat) a + S1.size a ≤ S512.size a
  inb_S512_S1_321 : ∀ a, (![321] : Fin 1 → Nat) a + S1.size a ≤ S512.size a
  inb_S512_S1_337 : ∀ a, (![337] : Fin 1 → Nat) a + S1.size a ≤ S512.size a
  inb_S512_S1_322 : ∀ a, (![322] : Fin 1 → Nat) a + S1.size a ≤ S512.size a
  inb_S512_S1_338 : ∀ a, (![338] : Fin 1 → Nat) a + S1.size a ≤ S512.size a
  inb_S512_S1_323 : ∀ a, (![323] : Fin 1 → Nat) a + S1.size a ≤ S512.size a
  inb_S512_S1_339 : ∀ a, (![339] : Fin 1 → Nat) a + S1.size a ≤ S512.size a
  inb_S512_S1_324 : ∀ a, (![324] : Fin 1 → Nat) a + S1.size a ≤ S512.size a
  inb_S512_S1_340 : ∀ a, (![340] : Fin 1 → Nat) a + S1.size a ≤ S512.size a
  inb_S512_S1_325 : ∀ a, (![325] : Fin 1 → Nat) a + S1.size a ≤ S512.size a
  inb_S512_S1_341 : ∀ a, (![341] : Fin 1 → Nat) a + S1.size a ≤ S512.size a
  inb_S512_S1_326 : ∀ a, (![326] : Fin 1 → Nat) a + S1.size a ≤ S512.size a
  inb_S512_S1_342 : ∀ a, (![342] : Fin 1 → Nat) a + S1.size a ≤ S512.size a
  inb_S512_S1_327 : ∀ a, (![327] : Fin 1 → Nat) a + S1.size a ≤ S512.size a
  inb_S512_S1_343 : ∀ a, (![343] : Fin 1 → Nat) a + S1.size a ≤ S512.size a
  inb_S512_S1_328 : ∀ a, (![328] : Fin 1 → Nat) a + S1.size a ≤ S512.size a
  inb_S512_S1_344 : ∀ a, (![344] : Fin 1 → Nat) a + S1.size a ≤ S512.size a
  inb_S512_S1_329 : ∀ a, (![329] : Fin 1 → Nat) a + S1.size a ≤ S512.size a
  inb_S512_S1_345 : ∀ a, (![345] : Fin 1 → Nat) a + S1.size a ≤ S512.size a
  inb_S512_S1_330 : ∀ a, (![330] : Fin 1 → Nat) a + S1.size a ≤ S512.size a
  inb_S512_S1_346 : ∀ a, (![346] : Fin 1 → Nat) a + S1.size a ≤ S512.size a
  inb_S512_S1_331 : ∀ a, (![331] : Fin 1 → Nat) a + S1.size a ≤ S512.size a
  inb_S512_S1_347 : ∀ a, (![347] : Fin 1 → Nat) a + S1.size a ≤ S512.size a
  inb_S512_S1_332 : ∀ a, (![332] : Fin 1 → Nat) a + S1.size a ≤ S512.size a
  inb_S512_S1_348 : ∀ a, (![348] : Fin 1 → Nat) a + S1.size a ≤ S512.size a
  inb_S512_S1_333 : ∀ a, (![333] : Fin 1 → Nat) a + S1.size a ≤ S512.size a
  inb_S512_S1_349 : ∀ a, (![349] : Fin 1 → Nat) a + S1.size a ≤ S512.size a
  inb_S512_S1_334 : ∀ a, (![334] : Fin 1 → Nat) a + S1.size a ≤ S512.size a
  inb_S512_S1_350 : ∀ a, (![350] : Fin 1 → Nat) a + S1.size a ≤ S512.size a
  inb_S512_S1_335 : ∀ a, (![335] : Fin 1 → Nat) a + S1.size a ≤ S512.size a
  inb_S512_S1_351 : ∀ a, (![351] : Fin 1 → Nat) a + S1.size a ≤ S512.size a
  inb_S512_S1_352 : ∀ a, (![352] : Fin 1 → Nat) a + S1.size a ≤ S512.size a
  inb_S512_S1_368 : ∀ a, (![368] : Fin 1 → Nat) a + S1.size a ≤ S512.size a
  inb_S512_S1_353 : ∀ a, (![353] : Fin 1 → Nat) a + S1.size a ≤ S512.size a
  inb_S512_S1_369 : ∀ a, (![369] : Fin 1 → Nat) a + S1.size a ≤ S512.size a
  inb_S512_S1_354 : ∀ a, (![354] : Fin 1 → Nat) a + S1.size a ≤ S512.size a
  inb_S512_S1_370 : ∀ a, (![370] : Fin 1 → Nat) a + S1.size a ≤ S512.size a
  inb_S512_S1_355 : ∀ a, (![355] : Fin 1 → Nat) a + S1.size a ≤ S512.size a
  inb_S512_S1_371 : ∀ a, (![371] : Fin 1 → Nat) a + S1.size a ≤ S512.size a
  inb_S512_S1_356 : ∀ a, (![356] : Fin 1 → Nat) a + S1.size a ≤ S512.size a
  inb_S512_S1_372 : ∀ a, (![372] : Fin 1 → Nat) a + S1.size a ≤ S512.size a
  inb_S512_S1_357 : ∀ a, (![357] : Fin 1 → Nat) a + S1.size a ≤ S512.size a
  inb_S512_S1_373 : ∀ a, (![373] : Fin 1 → Nat) a + S1.size a ≤ S512.size a
  inb_S512_S1_358 : ∀ a, (![358] : Fin 1 → Nat) a + S1.size a ≤ S512.size a
  inb_S512_S1_374 : ∀ a, (![374] : Fin 1 → Nat) a + S1.size a ≤ S512.size a
  inb_S512_S1_359 : ∀ a, (![359] : Fin 1 → Nat) a + S1.size a ≤ S512.size a
  inb_S512_S1_375 : ∀ a, (![375] : Fin 1 → Nat) a + S1.size a ≤ S512.size a
  inb_S512_S1_360 : ∀ a, (![360] : Fin 1 → Nat) a + S1.size a ≤ S512.size a
  inb_S512_S1_376 : ∀ a, (![376] : Fin 1 → Nat) a + S1.size a ≤ S512.size a
  inb_S512_S1_361 : ∀ a, (![361] : Fin 1 → Nat) a + S1.size a ≤ S512.size a
  inb_S512_S1_377 : ∀ a, (![377] : Fin 1 → Nat) a + S1.size a ≤ S512.size a
  inb_S512_S1_362 : ∀ a, (![362] : Fin 1 → Nat) a + S1.size a ≤ S512.size a
  inb_S512_S1_378 : ∀ a, (![378] : Fin 1 → Nat) a + S1.size a ≤ S512.size a
  inb_S512_S1_363 : ∀ a, (![363] : Fin 1 → Nat) a + S1.size a ≤ S512.size a
  inb_S512_S1_379 : ∀ a, (![379] : Fin 1 → Nat) a + S1.size a ≤ S512.size a
  inb_S512_S1_364 : ∀ a, (![364] : Fin 1 → Nat) a + S1.size a ≤ S512.size a
  inb_S512_S1_380 : ∀ a, (![380] : Fin 1 → Nat) a + S1.size a ≤ S512.size a
  inb_S512_S1_365 : ∀ a, (![365] : Fin 1 → Nat) a + S1.size a ≤ S512.size a
  inb_S512_S1_381 : ∀ a, (![381] : Fin 1 → Nat) a + S1.size a ≤ S512.size a
  inb_S512_S1_366 : ∀ a, (![366] : Fin 1 → Nat) a + S1.size a ≤ S512.size a
  inb_S512_S1_382 : ∀ a, (![382] : Fin 1 → Nat) a + S1.size a ≤ S512.size a
  inb_S512_S1_367 : ∀ a, (![367] : Fin 1 → Nat) a + S1.size a ≤ S512.size a
  inb_S512_S1_383 : ∀ a, (![383] : Fin 1 → Nat) a + S1.size a ≤ S512.size a
  inb_S512_S1_384 : ∀ a, (![384] : Fin 1 → Nat) a + S1.size a ≤ S512.size a
  inb_S512_S1_400 : ∀ a, (![400] : Fin 1 → Nat) a + S1.size a ≤ S512.size a
  inb_S512_S1_385 : ∀ a, (![385] : Fin 1 → Nat) a + S1.size a ≤ S512.size a
  inb_S512_S1_401 : ∀ a, (![401] : Fin 1 → Nat) a + S1.size a ≤ S512.size a
  inb_S512_S1_386 : ∀ a, (![386] : Fin 1 → Nat) a + S1.size a ≤ S512.size a
  inb_S512_S1_402 : ∀ a, (![402] : Fin 1 → Nat) a + S1.size a ≤ S512.size a
  inb_S512_S1_387 : ∀ a, (![387] : Fin 1 → Nat) a + S1.size a ≤ S512.size a
  inb_S512_S1_403 : ∀ a, (![403] : Fin 1 → Nat) a + S1.size a ≤ S512.size a
  inb_S512_S1_388 : ∀ a, (![388] : Fin 1 → Nat) a + S1.size a ≤ S512.size a
  inb_S512_S1_404 : ∀ a, (![404] : Fin 1 → Nat) a + S1.size a ≤ S512.size a
  inb_S512_S1_389 : ∀ a, (![389] : Fin 1 → Nat) a + S1.size a ≤ S512.size a
  inb_S512_S1_405 : ∀ a, (![405] : Fin 1 → Nat) a + S1.size a ≤ S512.size a
  inb_S512_S1_390 : ∀ a, (![390] : Fin 1 → Nat) a + S1.size a ≤ S512.size a
  inb_S512_S1_406 : ∀ a, (![406] : Fin 1 → Nat) a + S1.size a ≤ S512.size a
  inb_S512_S1_391 : ∀ a, (![391] : Fin 1 → Nat) a + S1.size a ≤ S512.size a
  inb_S512_S1_407 : ∀ a, (![407] : Fin 1 → Nat) a + S1.size a ≤ S512.size a
  inb_S512_S1_392 : ∀ a, (![392] : Fin 1 → Nat) a + S1.size a ≤ S512.size a
  inb_S512_S1_408 : ∀ a, (![408] : Fin 1 → Nat) a + S1.size a ≤ S512.size a
  inb_S512_S1_393 : ∀ a, (![393] : Fin 1 → Nat) a + S1.size a ≤ S512.size a
  inb_S512_S1_409 : ∀ a, (![409] : Fin 1 → Nat) a + S1.size a ≤ S512.size a
  inb_S512_S1_394 : ∀ a, (![394] : Fin 1 → Nat) a + S1.size a ≤ S512.size a
  inb_S512_S1_410 : ∀ a, (![410] : Fin 1 → Nat) a + S1.size a ≤ S512.size a
  inb_S512_S1_395 : ∀ a, (![395] : Fin 1 → Nat) a + S1.size a ≤ S512.size a
  inb_S512_S1_411 : ∀ a, (![411] : Fin 1 → Nat) a + S1.size a ≤ S512.size a
  inb_S512_S1_396 : ∀ a, (![396] : Fin 1 → Nat) a + S1.size a ≤ S512.size a
  inb_S512_S1_412 : ∀ a, (![412] : Fin 1 → Nat) a + S1.size a ≤ S512.size a
  inb_S512_S1_397 : ∀ a, (![397] : Fin 1 → Nat) a + S1.size a ≤ S512.size a
  inb_S512_S1_413 : ∀ a, (![413] : Fin 1 → Nat) a + S1.size a ≤ S512.size a
  inb_S512_S1_398 : ∀ a, (![398] : Fin 1 → Nat) a + S1.size a ≤ S512.size a
  inb_S512_S1_414 : ∀ a, (![414] : Fin 1 → Nat) a + S1.size a ≤ S512.size a
  inb_S512_S1_399 : ∀ a, (![399] : Fin 1 → Nat) a + S1.size a ≤ S512.size a
  inb_S512_S1_415 : ∀ a, (![415] : Fin 1 → Nat) a + S1.size a ≤ S512.size a
  inb_S512_S1_416 : ∀ a, (![416] : Fin 1 → Nat) a + S1.size a ≤ S512.size a
  inb_S512_S1_432 : ∀ a, (![432] : Fin 1 → Nat) a + S1.size a ≤ S512.size a
  inb_S512_S1_417 : ∀ a, (![417] : Fin 1 → Nat) a + S1.size a ≤ S512.size a
  inb_S512_S1_433 : ∀ a, (![433] : Fin 1 → Nat) a + S1.size a ≤ S512.size a
  inb_S512_S1_418 : ∀ a, (![418] : Fin 1 → Nat) a + S1.size a ≤ S512.size a
  inb_S512_S1_434 : ∀ a, (![434] : Fin 1 → Nat) a + S1.size a ≤ S512.size a
  inb_S512_S1_419 : ∀ a, (![419] : Fin 1 → Nat) a + S1.size a ≤ S512.size a
  inb_S512_S1_435 : ∀ a, (![435] : Fin 1 → Nat) a + S1.size a ≤ S512.size a
  inb_S512_S1_420 : ∀ a, (![420] : Fin 1 → Nat) a + S1.size a ≤ S512.size a
  inb_S512_S1_436 : ∀ a, (![436] : Fin 1 → Nat) a + S1.size a ≤ S512.size a
  inb_S512_S1_421 : ∀ a, (![421] : Fin 1 → Nat) a + S1.size a ≤ S512.size a
  inb_S512_S1_437 : ∀ a, (![437] : Fin 1 → Nat) a + S1.size a ≤ S512.size a
  inb_S512_S1_422 : ∀ a, (![422] : Fin 1 → Nat) a + S1.size a ≤ S512.size a
  inb_S512_S1_438 : ∀ a, (![438] : Fin 1 → Nat) a + S1.size a ≤ S512.size a
  inb_S512_S1_423 : ∀ a, (![423] : Fin 1 → Nat) a + S1.size a ≤ S512.size a
  inb_S512_S1_439 : ∀ a, (![439] : Fin 1 → Nat) a + S1.size a ≤ S512.size a
  inb_S512_S1_424 : ∀ a, (![424] : Fin 1 → Nat) a + S1.size a ≤ S512.size a
  inb_S512_S1_440 : ∀ a, (![440] : Fin 1 → Nat) a + S1.size a ≤ S512.size a
  inb_S512_S1_425 : ∀ a, (![425] : Fin 1 → Nat) a + S1.size a ≤ S512.size a
  inb_S512_S1_441 : ∀ a, (![441] : Fin 1 → Nat) a + S1.size a ≤ S512.size a
  inb_S512_S1_426 : ∀ a, (![426] : Fin 1 → Nat) a + S1.size a ≤ S512.size a
  inb_S512_S1_442 : ∀ a, (![442] : Fin 1 → Nat) a + S1.size a ≤ S512.size a
  inb_S512_S1_427 : ∀ a, (![427] : Fin 1 → Nat) a + S1.size a ≤ S512.size a
  inb_S512_S1_443 : ∀ a, (![443] : Fin 1 → Nat) a + S1.size a ≤ S512.size a
  inb_S512_S1_428 : ∀ a, (![428] : Fin 1 → Nat) a + S1.size a ≤ S512.size a
  inb_S512_S1_444 : ∀ a, (![444] : Fin 1 → Nat) a + S1.size a ≤ S512.size a
  inb_S512_S1_429 : ∀ a, (![429] : Fin 1 → Nat) a + S1.size a ≤ S512.size a
  inb_S512_S1_445 : ∀ a, (![445] : Fin 1 → Nat) a + S1.size a ≤ S512.size a
  inb_S512_S1_430 : ∀ a, (![430] : Fin 1 → Nat) a + S1.size a ≤ S512.size a
  inb_S512_S1_446 : ∀ a, (![446] : Fin 1 → Nat) a + S1.size a ≤ S512.size a
  inb_S512_S1_431 : ∀ a, (![431] : Fin 1 → Nat) a + S1.size a ≤ S512.size a
  inb_S512_S1_447 : ∀ a, (![447] : Fin 1 → Nat) a + S1.size a ≤ S512.size a
  inb_S512_S1_448 : ∀ a, (![448] : Fin 1 → Nat) a + S1.size a ≤ S512.size a
  inb_S512_S1_464 : ∀ a, (![464] : Fin 1 → Nat) a + S1.size a ≤ S512.size a
  inb_S512_S1_449 : ∀ a, (![449] : Fin 1 → Nat) a + S1.size a ≤ S512.size a
  inb_S512_S1_465 : ∀ a, (![465] : Fin 1 → Nat) a + S1.size a ≤ S512.size a
  inb_S512_S1_450 : ∀ a, (![450] : Fin 1 → Nat) a + S1.size a ≤ S512.size a
  inb_S512_S1_466 : ∀ a, (![466] : Fin 1 → Nat) a + S1.size a ≤ S512.size a
  inb_S512_S1_451 : ∀ a, (![451] : Fin 1 → Nat) a + S1.size a ≤ S512.size a
  inb_S512_S1_467 : ∀ a, (![467] : Fin 1 → Nat) a + S1.size a ≤ S512.size a
  inb_S512_S1_452 : ∀ a, (![452] : Fin 1 → Nat) a + S1.size a ≤ S512.size a
  inb_S512_S1_468 : ∀ a, (![468] : Fin 1 → Nat) a + S1.size a ≤ S512.size a
  inb_S512_S1_453 : ∀ a, (![453] : Fin 1 → Nat) a + S1.size a ≤ S512.size a
  inb_S512_S1_469 : ∀ a, (![469] : Fin 1 → Nat) a + S1.size a ≤ S512.size a
  inb_S512_S1_454 : ∀ a, (![454] : Fin 1 → Nat) a + S1.size a ≤ S512.size a
  inb_S512_S1_470 : ∀ a, (![470] : Fin 1 → Nat) a + S1.size a ≤ S512.size a
  inb_S512_S1_455 : ∀ a, (![455] : Fin 1 → Nat) a + S1.size a ≤ S512.size a
  inb_S512_S1_471 : ∀ a, (![471] : Fin 1 → Nat) a + S1.size a ≤ S512.size a
  inb_S512_S1_456 : ∀ a, (![456] : Fin 1 → Nat) a + S1.size a ≤ S512.size a
  inb_S512_S1_472 : ∀ a, (![472] : Fin 1 → Nat) a + S1.size a ≤ S512.size a
  inb_S512_S1_457 : ∀ a, (![457] : Fin 1 → Nat) a + S1.size a ≤ S512.size a
  inb_S512_S1_473 : ∀ a, (![473] : Fin 1 → Nat) a + S1.size a ≤ S512.size a
  inb_S512_S1_458 : ∀ a, (![458] : Fin 1 → Nat) a + S1.size a ≤ S512.size a
  inb_S512_S1_474 : ∀ a, (![474] : Fin 1 → Nat) a + S1.size a ≤ S512.size a
  inb_S512_S1_459 : ∀ a, (![459] : Fin 1 → Nat) a + S1.size a ≤ S512.size a
  inb_S512_S1_475 : ∀ a, (![475] : Fin 1 → Nat) a + S1.size a ≤ S512.size a
  inb_S512_S1_460 : ∀ a, (![460] : Fin 1 → Nat) a + S1.size a ≤ S512.size a
  inb_S512_S1_476 : ∀ a, (![476] : Fin 1 → Nat) a + S1.size a ≤ S512.size a
  inb_S512_S1_461 : ∀ a, (![461] : Fin 1 → Nat) a + S1.size a ≤ S512.size a
  inb_S512_S1_477 : ∀ a, (![477] : Fin 1 → Nat) a + S1.size a ≤ S512.size a
  inb_S512_S1_462 : ∀ a, (![462] : Fin 1 → Nat) a + S1.size a ≤ S512.size a
  inb_S512_S1_478 : ∀ a, (![478] : Fin 1 → Nat) a + S1.size a ≤ S512.size a
  inb_S512_S1_463 : ∀ a, (![463] : Fin 1 → Nat) a + S1.size a ≤ S512.size a
  inb_S512_S1_479 : ∀ a, (![479] : Fin 1 → Nat) a + S1.size a ≤ S512.size a
  inb_S512_S1_480 : ∀ a, (![480] : Fin 1 → Nat) a + S1.size a ≤ S512.size a
  inb_S512_S1_496 : ∀ a, (![496] : Fin 1 → Nat) a + S1.size a ≤ S512.size a
  inb_S512_S1_481 : ∀ a, (![481] : Fin 1 → Nat) a + S1.size a ≤ S512.size a
  inb_S512_S1_497 : ∀ a, (![497] : Fin 1 → Nat) a + S1.size a ≤ S512.size a
  inb_S512_S1_482 : ∀ a, (![482] : Fin 1 → Nat) a + S1.size a ≤ S512.size a
  inb_S512_S1_498 : ∀ a, (![498] : Fin 1 → Nat) a + S1.size a ≤ S512.size a
  inb_S512_S1_483 : ∀ a, (![483] : Fin 1 → Nat) a + S1.size a ≤ S512.size a
  inb_S512_S1_499 : ∀ a, (![499] : Fin 1 → Nat) a + S1.size a ≤ S512.size a
  inb_S512_S1_484 : ∀ a, (![484] : Fin 1 → Nat) a + S1.size a ≤ S512.size a
  inb_S512_S1_500 : ∀ a, (![500] : Fin 1 → Nat) a + S1.size a ≤ S512.size a
  inb_S512_S1_485 : ∀ a, (![485] : Fin 1 → Nat) a + S1.size a ≤ S512.size a
  inb_S512_S1_501 : ∀ a, (![501] : Fin 1 → Nat) a + S1.size a ≤ S512.size a
  inb_S512_S1_486 : ∀ a, (![486] : Fin 1 → Nat) a + S1.size a ≤ S512.size a
  inb_S512_S1_502 : ∀ a, (![502] : Fin 1 → Nat) a + S1.size a ≤ S512.size a
  inb_S512_S1_487 : ∀ a, (![487] : Fin 1 → Nat) a + S1.size a ≤ S512.size a
  inb_S512_S1_503 : ∀ a, (![503] : Fin 1 → Nat) a + S1.size a ≤ S512.size a
  inb_S512_S1_488 : ∀ a, (![488] : Fin 1 → Nat) a + S1.size a ≤ S512.size a
  inb_S512_S1_504 : ∀ a, (![504] : Fin 1 → Nat) a + S1.size a ≤ S512.size a
  inb_S512_S1_489 : ∀ a, (![489] : Fin 1 → Nat) a + S1.size a ≤ S512.size a
  inb_S512_S1_505 : ∀ a, (![505] : Fin 1 → Nat) a + S1.size a ≤ S512.size a
  inb_S512_S1_490 : ∀ a, (![490] : Fin 1 → Nat) a + S1.size a ≤ S512.size a
  inb_S512_S1_506 : ∀ a, (![506] : Fin 1 → Nat) a + S1.size a ≤ S512.size a
  inb_S512_S1_491 : ∀ a, (![491] : Fin 1 → Nat) a + S1.size a ≤ S512.size a
  inb_S512_S1_507 : ∀ a, (![507] : Fin 1 → Nat) a + S1.size a ≤ S512.size a
  inb_S512_S1_492 : ∀ a, (![492] : Fin 1 → Nat) a + S1.size a ≤ S512.size a
  inb_S512_S1_508 : ∀ a, (![508] : Fin 1 → Nat) a + S1.size a ≤ S512.size a
  inb_S512_S1_493 : ∀ a, (![493] : Fin 1 → Nat) a + S1.size a ≤ S512.size a
  inb_S512_S1_509 : ∀ a, (![509] : Fin 1 → Nat) a + S1.size a ≤ S512.size a
  inb_S512_S1_494 : ∀ a, (![494] : Fin 1 → Nat) a + S1.size a ≤ S512.size a
  inb_S512_S1_510 : ∀ a, (![510] : Fin 1 → Nat) a + S1.size a ≤ S512.size a
  inb_S512_S1_495 : ∀ a, (![495] : Fin 1 → Nat) a + S1.size a ≤ S512.size a
  inb_S512_S1_511 : ∀ a, (![511] : Fin 1 → Nat) a + S1.size a ≤ S512.size a
  inb_S16_S16_0 : ∀ a, (![0] : Fin 1 → Nat) a + S16.size a ≤ S16.size a
  inb_S16_S1_0 : ∀ a, (![0] : Fin 1 → Nat) a + S1.size a ≤ S16.size a
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  iota_S16_d0_w32_scVector : S16.Iotas .scVector 32 [0]
  inb_S250000x128_S250000x128_0_0 : ∀ a, (![0, 0] : Fin 2 → Nat) a + S250000x128.size a ≤ S250000x128.size a
  gathers_S250000x128_S256x128 : S250000x128.Gathers 0 S256x128
  h_S256x128 : 0 < S256x128.numel
  hcc0_scratch11 : 0 + S_.numel ≤ 7
  hcc0_scratch12 : 1 + S_.numel ≤ 7
  hcc0_scoped0 : 2 + S_.numel ≤ 7
  hcc0_scoped1 : 3 + S_.numel ≤ 7
  hcc0_scoped2 : 4 + S_.numel ≤ 7
  hcc0_scoped3 : 5 + S_.numel ≤ 7
  hcc0_scoped4 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S256.size a ≤ S512.size a
  k0_t2_ok : k0_t2_loop.OK
  k0_off3_inb : ∀ (k0_t1 : Fin k0_t1_loop.trips) (k0_t2 : Fin k0_t2_loop.trips), ∀ a, (k0_off3 k0_t1 k0_t2) a + S16.size a ≤ S512.size a
  k0_off4_inb : ∀ (k0_t1 : Fin k0_t1_loop.trips) (k0_t2 : Fin k0_t2_loop.trips), ∀ a, (k0_off4 k0_t1 k0_t2) a + S16.size a ≤ S512.size a

variable [Facts₀]

abbrev cc0_scratch11 : DmaSems sig S_ := SemArray.consecutive 0 S_ hcc0_scratch11
abbrev cc0_scratch12 : DmaSems sig S_ := SemArray.consecutive 1 S_ hcc0_scratch12
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4

class Facts : Prop extends Facts₀ where

variable [Facts]
-- ==== ReferenceIdeal.lean ====
abbrev S16384 : Shape := ⟨1, ![16384]⟩
abbrev S1000000x32 : Shape := ⟨2, ![1000000, 32]⟩
abbrev S16x32 : Shape := ⟨2, ![16, 32]⟩
abbrev S16 : Shape := ⟨1, ![16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S32x16 : Shape := ⟨2, ![32, 16]⟩
abbrev S16384x16 : Shape := ⟨2, ![16384, 16]⟩
abbrev S1x16 : Shape := ⟨2, ![1, 16]⟩

abbrev nBuf : Space → Nat
  | .hbm => 65
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S1000000x32, .f32⟩
  | .hbm, ⟨4, _⟩ => ⟨S16x32, .f32⟩
  | .hbm, ⟨5, _⟩ => ⟨S16, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x32, .f32⟩
  | .hbm, ⟨25, _⟩ => ⟨S16384x32, .i1⟩
  | .hbm, ⟨26, _⟩ => ⟨S_, .f32⟩
  | .hbm, ⟨27, _⟩ => ⟨S16384x32, .f32⟩
  | .hbm, ⟨28, _⟩ => ⟨S16384x32, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x32, .f32⟩
  | .hbm, ⟨48, _⟩ => ⟨S16384x32, .i1⟩
  | .hbm, ⟨49, _⟩ => ⟨S_, .f32⟩
  | .hbm, ⟨50, _⟩ => ⟨S16384x32, .f32⟩
  | .hbm, ⟨51, _⟩ => ⟨S16384x32, .f32⟩
  | .hbm, ⟨52, _⟩ => ⟨S32x16, .f32⟩
  | .hbm, ⟨53, _⟩ => ⟨S16384x16, .f32⟩
  | .hbm, ⟨54, _⟩ => ⟨S1x16, .f32⟩
  | .hbm, ⟨55, _⟩ => ⟨S16384x16, .f32⟩
  | .hbm, ⟨56, _⟩ => ⟨S16384x16, .f32⟩
  | .hbm, ⟨57, _⟩ => ⟨S32x16, .f32⟩
  | .hbm, ⟨58, _⟩ => ⟨S16384x16, .f32⟩
  | .hbm, ⟨59, _⟩ => ⟨S1x16, .f32⟩
  | .hbm, ⟨60, _⟩ => ⟨S16384x16, .f32⟩
  | .hbm, ⟨61, _⟩ => ⟨S16384x16, .f32⟩
  | .hbm, ⟨62, _⟩ => ⟨S16384x16, .f32⟩
  | .hbm, ⟨63, _⟩ => ⟨S_, .f32⟩
  | .hbm, ⟨64, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst : Ref sig .tc := ⟨.hbm, 63, rfl⟩
abbrev main_v13 : Ref sig .tc := ⟨.hbm, 64, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  transposes_S16x32_S32x16_1_0 : S16x32.Transposes [1, 0] S32x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16384_d1 : S16384x16.ReducesTo [1] S16384
  gather_S1000000x32_S16384x1_S16384x32_1_0_n_n_0_1_132_wf : GatherDims.WF S1000000x32 S16384x1 S16384x32 [1] [0] [] [0] [] 1 ![1, 32]
  dot_S16384x32_S32x16_S16384x16_1_0_0_1_n_n_wf : DotDims.WF S16384x32 S32x16 S16384x16 [1] [0] [0] [1] [] []

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf
def dot_S16384x32_S32x16_S16384x16_1_0_0_1_n_n : DotDims S16384x32 S32x16 S16384x16 where
  lhsContracting := [1]
  rhsContracting := [0]
  lhsNonContracting := [0]
  rhsNonContracting := [1]
  lhsBatch := []
  rhsBatch := []
  wf := dot_S16384x32_S32x16_S16384x16_1_0_0_1_n_n_wf

class Facts : Prop extends Facts₀ where

variable [Facts]
-- ==== Proof.AccumDefs.lean ====
/-
  The order in which the kernel accumulates one output entry, written over an arbitrary float instance F (where
  nothing commutes): each affine-layer entry is the bias plus the 32 products, added from the left; the result is
  the 16 products of the two layers' entries, added from the left.
-/
import Idealize.ShloMosaic.PureOps

noncomputable section

namespace Cert.Accum

open Idealize.ShloMosaic

variable {F : FTy → Type} [FloatOps F]

/-- b + u_0·w_0 + … + u_31·w_31, accumulated from the left. -/
def accRow (b : F .f32) (u w : Fin 32 → F .f32) : F .f32 :=
  (List.finRange 32).foldl (fun acc d => FloatOps.addf acc (FloatOps.mulf (u d) (w d))) b

/-- p_0·q_0 + p_1·q_1 + … + p_15·q_15, accumulated from the left. -/
def dotRows (p q : Fin 16 → F .f32) : F .f32 :=
  (List.finRange 15).foldl (fun acc k => FloatOps.addf acc (FloatOps.mulf (p k.succ) (q k.succ))) (FloatOps.mulf (p 0) (q 0))

/-- One output entry from its two gathered rows u and v, the layer's weights w and bias b. -/
def kval (b : Fin 16 → F .f32) (w : Fin 16 → Fin 32 → F .f32) (u v : Fin 32 → F .f32) : F .f32 :=
  dotRows (fun k => accRow (b k) u (w k)) (fun k => accRow (b k) v (w k))

end Cert.Accum

end
-- ==== Proof.KCommon.lean ====
/-
  What the tile proof and the launch proof share. The device's 32 vector subcores each take 512 consecutive batch
  entries: subcore s of SparseCore c takes entries [512·(2s+c), 512·(2s+c)+512). A subcore reads the two id arrays,
  the two tables (re-laid as 250000 lines of 128 words: line r holds table rows 4r..4r+3), the layer's weights (re-laid
  flat) and bias under a READ share, and owns its 512 entries of the result. Entry j of the result is the accumulation
  Accum.kval of row id_j of each table (line id_j / 4, words 32·(id_j mod 4) .. +31) against the weights and bias.
-/
import proofs.«218018_g87892210745873_cont_sun_m_655_26_alg».proof.Kernel
import proofs.«218018_g87892210745873_cont_sun_m_655_26_alg».proof.Proof.Gen.Kernel
import proofs.«218018_g87892210745873_cont_sun_m_655_26_alg».proof.Proof.AccumDefs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev a0Loc (d : Dev nD) : Loc nD τ sig := (SparseCore.T d).loc main_arg0
abbrev a1Loc (d : Dev nD) : Loc nD τ sig := (SparseCore.T d).loc main_arg1
abbrev utLoc (d : Dev nD) : Loc nD τ sig := (SparseCore.T d).loc main_v0
abbrev itLoc (d : Dev nD) : Loc nD τ sig := (SparseCore.T d).loc main_v1
abbrev wwLoc (d : Dev nD) : Loc nD τ sig := (SparseCore.T d).loc main_v2
abbrev bbLoc (d : Dev nD) : Loc nD τ sig := (SparseCore.T d).loc main_arg5
abbrev outLoc (d : Dev nD) : Loc nD τ sig := (SparseCore.T d).loc main_v3

/-- The grid point of SparseCore c's vector subcore s. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The result array as a vector subcore names it, and the 512 entries the subcore at grid point L writes, spelt as the kernel slices them. -/
abbrev outV : Memref sig .scVector .hbm S16384 .f32 := Memref.whole main_v3_scv
abbrev outBlkM (L : grid0.Coords) : Memref sig .scVector .hbm S512 .f32 :=
  (outV).slice (Rect.unit (s := S16384) (k0_off1 L) S512.size (k0_off1_inb L)) (fun _ => rfl)
abbrev outBlk (L : grid0.Coords) : Finset S16384.Idx := (outBlkM L).view.set

/-! ## The value -/

/-- The line of a re-laid table that holds row v, and the word of that line holding entry d of the row (kept inside the line array; an id at most 999999 needs no keeping). -/
def lineOf (v : BitVec 32) : Fin 250000 := ⟨min (v.toNat / 4) 249999, by omega⟩
def colOf (v : BitVec 32) (d : Fin 32) : Fin 128 := ⟨(v.toNat % 4) * 32 + d.val, by omega⟩

/-- The whole result as the kernel accumulates it, from the id arrays, the re-laid tables, the flat weights and the bias. -/
def outVal [FloatOps F] (f0 f1 : IVec S16384 32) (fu fi : FVec F S250000x128 .f32) (fw : FVec F S512 .f32) (fb : FVec F S16 .f32) : FVec F S16384 .f32 :=
  fun j => Cert.Accum.kval (fun k => fb (ix1 k)) (fun k d => fw (ix1 (⟨k.val * 32 + d.val, by omega⟩ : Fin 512)))
    (fun d => fu (ix2 (lineOf (f0 j)) (colOf (f0 j) d))) (fun d => fi (ix2 (lineOf (f1 j)) (colOf (f1 j) d)))

/-! ## One vector subcore's resources -/

/-- What the subcore at grid point L is handed: the six inputs under a read share q, its 512 entries of the result. -/
def tileIn (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d)) : sProp 𝕄 :=
  iprop((a0Loc d ↦{q} f0) ∗ (a1Loc d ↦{q} f1) ∗ (utLoc d ↦{q} fu) ∗ (itLoc d ↦{q} fi) ∗ (wwLoc d ↦{q} fw) ∗ (bbLoc d ↦{q} fb)
    ∗ (outLoc d ↦[outBlk L]{fullShare} fo))

/-- The subcore's task at grid point L: from the inputs under any read share, ids at most 999999, its entries of the result
    at anything, to the same with its entries at the accumulated value. Stated in the launch theorem's spelling of the
    thread and of the kernel function's arguments. -/
def TileBody [FloatOps F] : Prop :=
  ∀ (_ : (K (F := F)).Facts) (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (_ : ∀ i, (f0 i).toNat ≤ 999999) (_ : ∀ i, (f1 i).toNat ≤ 999999)
    (O : CellTallies nD τ sig (HIx 1)) (W : Waits sig (HIx 1)) (_ : ∀ g, O g none = 0),
    iprop(levAts (K (F := F)).L (K (F := F)).lev ∗ emp ∗ tileIn (F := F) d L q f0 f1 fu fi fw fb fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__mf_sc L (Memref.whole main_arg0_scv) (Memref.isWhole_whole _) (Memref.whole main_arg1_scv) (Memref.isWhole_whole _)
            (Memref.whole main_v0_scv) (Memref.isWhole_whole _) (Memref.whole main_v1_scv) (Memref.isWhole_whole _)
            (Memref.whole main_v2_scv) (Memref.isWhole_whole _) (Memref.whole main_arg5_scv) (Memref.isWhole_whole _)
            (Memref.whole main_v3_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scoped0 cc0_scoped1 cc0_scoped2 cc0_scoped3 cc0_scoped4)
          fun _ => iprop(tileIn (F := F) d L q f0 f1 fu fi fw fb (outVal (F := F) f0 f1 fu fi fw fb)
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Kernel.Hand

end
-- ==== Proof.Common.lean ====
/-
  What the tile proof and the launch proof share. The device's 32 vector subcores each take 512 consecutive batch
  entries: subcore s of SparseCore c takes entries [512·(2s+c), 512·(2s+c)+512). A subcore reads the two id arrays,
  the two tables (re-laid as 250000 lines of 128 words: line r holds table rows 4r..4r+3), the layer's weights (re-laid
  flat) and bias under a READ share, and owns its 512 entries of the result. Entry j of the result is the accumulation
  Accum.kval of row id_j of each table (line id_j / 4, words 32·(id_j mod 4) .. +31) against the weights and bias.
-/
import proofs.«218018_g87892210745873_cont_sun_m_655_26_alg».proof.KernelIdeal
import proofs.«218018_g87892210745873_cont_sun_m_655_26_alg».proof.Proof.Gen.KernelIdeal
import proofs.«218018_g87892210745873_cont_sun_m_655_26_alg».proof.Proof.AccumDefs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev a0Loc (d : Dev nD) : Loc nD τ sig := (SparseCore.T d).loc main_arg0
abbrev a1Loc (d : Dev nD) : Loc nD τ sig := (SparseCore.T d).loc main_arg1
abbrev utLoc (d : Dev nD) : Loc nD τ sig := (SparseCore.T d).loc main_v0
abbrev itLoc (d : Dev nD) : Loc nD τ sig := (SparseCore.T d).loc main_v1
abbrev wwLoc (d : Dev nD) : Loc nD τ sig := (SparseCore.T d).loc main_v2
abbrev bbLoc (d : Dev nD) : Loc nD τ sig := (SparseCore.T d).loc main_arg5
abbrev outLoc (d : Dev nD) : Loc nD τ sig := (SparseCore.T d).loc main_v3

/-- The grid point of SparseCore c's vector subcore s. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The result array as a vector subcore names it, and the 512 entries the subcore at grid point L writes, spelt as the kernel slices them. -/
abbrev outV : Memref sig .scVector .hbm S16384 .f32 := Memref.whole main_v3_scv
abbrev outBlkM (L : grid0.Coords) : Memref sig .scVector .hbm S512 .f32 :=
  (outV).slice (Rect.unit (s := S16384) (k0_off1 L) S512.size (k0_off1_inb L)) (fun _ => rfl)
abbrev outBlk (L : grid0.Coords) : Finset S16384.Idx := (outBlkM L).view.set

/-! ## The value -/

/-- The line of a re-laid table that holds row v, and the word of that line holding entry d of the row (kept inside the line array; an id at most 999999 needs no keeping). -/
def lineOf (v : BitVec 32) : Fin 250000 := ⟨min (v.toNat / 4) 249999, by omega⟩
def colOf (v : BitVec 32) (d : Fin 32) : Fin 128 := ⟨(v.toNat % 4) * 32 + d.val, by omega⟩

/-- The whole result as the kernel accumulates it, from the id arrays, the re-laid tables, the flat weights and the bias. -/
def outVal [FloatOps F] (f0 f1 : IVec S16384 32) (fu fi : FVec F S250000x128 .f32) (fw : FVec F S512 .f32) (fb : FVec F S16 .f32) : FVec F S16384 .f32 :=
  fun j => Cert.Accum.kval (fun k => fb (ix1 k)) (fun k d => fw (ix1 (⟨k.val * 32 + d.val, by omega⟩ : Fin 512)))
    (fun d => fu (ix2 (lineOf (f0 j)) (colOf (f0 j) d))) (fun d => fi (ix2 (lineOf (f1 j)) (colOf (f1 j) d)))

/-! ## One vector subcore's resources -/

/-- What the subcore at grid point L is handed: the six inputs under a read share q, its 512 entries of the result. -/
def tileIn (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d)) : sProp 𝕄 :=
  iprop((a0Loc d ↦{q} f0) ∗ (a1Loc d ↦{q} f1) ∗ (utLoc d ↦{q} fu) ∗ (itLoc d ↦{q} fi) ∗ (wwLoc d ↦{q} fw) ∗ (bbLoc d ↦{q} fb)
    ∗ (outLoc d ↦[outBlk L]{fullShare} fo))

/-- The subcore's task at grid point L: from the inputs under any read share, ids at most 999999, its entries of the result
    at anything, to the same with its entries at the accumulated value. Stated in the launch theorem's spelling of the
    thread and of the kernel function's arguments. -/
def TileBody [FloatOps F] : Prop :=
  ∀ (_ : (K (F := F)).Facts) (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (_ : ∀ i, (f0 i).toNat ≤ 999999) (_ : ∀ i, (f1 i).toNat ≤ 999999)
    (O : CellTallies nD τ sig (HIx 1)) (W : Waits sig (HIx 1)) (_ : ∀ g, O g none = 0),
    iprop(levAts (K (F := F)).L (K (F := F)).lev ∗ emp ∗ tileIn (F := F) d L q f0 f1 fu fi fw fb fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__mf_sc L (Memref.whole main_arg0_scv) (Memref.isWhole_whole _) (Memref.whole main_arg1_scv) (Memref.isWhole_whole _)
            (Memref.whole main_v0_scv) (Memref.isWhole_whole _) (Memref.whole main_v1_scv) (Memref.isWhole_whole _)
            (Memref.whole main_v2_scv) (Memref.isWhole_whole _) (Memref.whole main_arg5_scv) (Memref.isWhole_whole _)
            (Memref.whole main_v3_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _)
            cc0_scratch11 cc0_scratch12 cc0_scoped0 cc0_scoped1 cc0_scoped2 cc0_scoped3 cc0_scoped4)
          fun _ => iprop(tileIn (F := F) d L q f0 f1 fu fi fw fb (outVal (F := F) f0 f1 fu fi fw fb)
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelIdeal.Hand

end
-- ==== Proof.Accum.lean ====
/-
  The kernel's order of accumulation, written out term by term, and its value on the extended reals.
  Per output entry the kernel forms, for each of the 16 hidden units k,
      p_k = (((b_k + u_0·w_{k,0}) + u_1·w_{k,1}) + …) + u_31·w_{k,31}
  from the gathered user row u, the same q_k from the gathered item row v, and then
      ((p_0·q_0 + p_1·q_1) + p_2·q_2) + … + p_15·q_15,
  every sum nested from the left, every product with its operands in the order written. At a general float
  instance nothing commutes or associates, so the terms are kept exactly in this order. On the extended reals
  addition is a commutative monoid (infinities included), so the left-nested accumulations are the plain sums.
-/
import proofs.«218018_g87892210745873_cont_sun_m_655_26_alg».proof.Proof.AccumDefs
import Idealize.ShloMosaic.PureOps
import Idealize.ShloMosaic.PureOps.Ideal
import Mathlib.Algebra.BigOperators.Fin
import Mathlib.Data.EReal.Basic

noncomputable section

namespace Cert.Accum

open Idealize.ShloMosaic

variable {F : FTy → Type} [FloatOps F]

/-- The accumulation of one hidden unit, written out: 32 products added to the bias one after the other. -/
theorem accRow_eq (b : F .f32) (u w : Fin 32 → F .f32) :
    accRow b u w =
      FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (b)
      (FloatOps.mulf (u 0) (w 0)))
      (FloatOps.mulf (u 1) (w 1)))
      (FloatOps.mulf (u 2) (w 2)))
      (FloatOps.mulf (u 3) (w 3)))
      (FloatOps.mulf (u 4) (w 4)))
      (FloatOps.mulf (u 5) (w 5)))
      (FloatOps.mulf (u 6) (w 6)))
      (FloatOps.mulf (u 7) (w 7)))
      (FloatOps.mulf (u 8) (w 8)))
      (FloatOps.mulf (u 9) (w 9)))
      (FloatOps.mulf (u 10) (w 10)))
      (FloatOps.mulf (u 11) (w 11)))
      (FloatOps.mulf (u 12) (w 12)))
      (FloatOps.mulf (u 13) (w 13)))
      (FloatOps.mulf (u 14) (w 14)))
      (FloatOps.mulf (u 15) (w 15)))
      (FloatOps.mulf (u 16) (w 16)))
      (FloatOps.mulf (u 17) (w 17)))
      (FloatOps.mulf (u 18) (w 18)))
      (FloatOps.mulf (u 19) (w 19)))
      (FloatOps.mulf (u 20) (w 20)))
      (FloatOps.mulf (u 21) (w 21)))
      (FloatOps.mulf (u 22) (w 22)))
      (FloatOps.mulf (u 23) (w 23)))
      (FloatOps.mulf (u 24) (w 24)))
      (FloatOps.mulf (u 25) (w 25)))
      (FloatOps.mulf (u 26) (w 26)))
      (FloatOps.mulf (u 27) (w 27)))
      (FloatOps.mulf (u 28) (w 28)))
      (FloatOps.mulf (u 29) (w 29)))
      (FloatOps.mulf (u 30) (w 30)))
      (FloatOps.mulf (u 31) (w 31)) := by
  rfl

/-- The final inner product, written out: 16 products added one after the other, starting from the first product. -/
theorem dotRows_eq (p q : Fin 16 → F .f32) :
    dotRows p q =
      FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.mulf (p 0) (q 0))
      (FloatOps.mulf (p 1) (q 1)))
      (FloatOps.mulf (p 2) (q 2)))
      (FloatOps.mulf (p 3) (q 3)))
      (FloatOps.mulf (p 4) (q 4)))
      (FloatOps.mulf (p 5) (q 5)))
      (FloatOps.mulf (p 6) (q 6)))
      (FloatOps.mulf (p 7) (q 7)))
      (FloatOps.mulf (p 8) (q 8)))
      (FloatOps.mulf (p 9) (q 9)))
      (FloatOps.mulf (p 10) (q 10)))
      (FloatOps.mulf (p 11) (q 11)))
      (FloatOps.mulf (p 12) (q 12)))
      (FloatOps.mulf (p 13) (q 13)))
      (FloatOps.mulf (p 14) (q 14)))
      (FloatOps.mulf (p 15) (q 15)) := by
  rfl

/-! ## On the extended reals -/

/-- Adding the terms f d to a start value b one after the other, in any commutative additive monoid, gives b plus
    the sum of the list of terms. -/
theorem foldl_add_eq {α ι : Type} [AddCommMonoid α] (f : ι → α) :
    ∀ (l : List ι) (b : α), l.foldl (fun acc d => acc + f d) b = b + (l.map f).sum
  | [], b => by simp
  | a :: l, b => by
    rw [List.foldl_cons, foldl_add_eq f l, List.map_cons, List.sum_cons, add_assoc]

/-- Adding f 0, …, f (n-1) to b one after the other gives b plus the sum over all indices. -/
theorem foldl_finRange_add {α : Type} [AddCommMonoid α] (n : ℕ) (f : Fin n → α) (b : α) :
    (List.finRange n).foldl (fun acc d => acc + f d) b = b + ∑ d : Fin n, f d := by
  rw [foldl_add_eq, Fin.sum_univ_def]

/-- On the extended reals one hidden unit is the plain sum of the 32 products, plus the bias. -/
theorem accRow_ideal (b : EReal) (u w : Fin 32 → EReal) :
    accRow (F := Ideal) b u w = (∑ d : Fin 32, u d * w d) + b := by
  show (List.finRange 32).foldl (fun acc d => acc + u d * w d) b = _
  rw [foldl_finRange_add, add_comm]

/-- On the extended reals the final inner product is the plain sum of the 16 products. -/
theorem dotRows_ideal (p q : Fin 16 → EReal) :
    dotRows (F := Ideal) p q = ∑ k : Fin 16, p k * q k := by
  show (List.finRange 15).foldl (fun acc k => acc + p k.succ * q k.succ) (p 0 * q 0) = _
  rw [foldl_finRange_add]
  exact (Fin.sum_univ_succ fun k => p k * q k).symm

/-- On the extended reals the left-nested accumulation is the plain sums (addition of extended reals is commutative and associative everywhere, infinities included; no finiteness is needed). -/
theorem kval_ideal (b : Fin 16 → EReal) (w : Fin 16 → Fin 32 → EReal) (u v : Fin 32 → EReal) :
    kval (F := Ideal) b w u v = ∑ k : Fin 16, ((∑ d : Fin 32, u d * w k d) + b k) * ((∑ d : Fin 32, v d * w k d) + b k) := by
  unfold kval
  rw [dotRows_ideal]
  exact Finset.sum_congr rfl fun k _ => by rw [accRow_ideal, accRow_ideal]

end Cert.Accum

end
-- ==== Proof.Spec.lean ====
/-
  The result both programs compute, as one function of the argument arrays, index by index, on the extended reals.
  For batch entry i: take row uid i of the user table and row iid i of the item table; send each through the SAME
  affine layer h ↦ (∑_d h_d · W_{k,d}) + b_k (k = 0..15); the result is the inner product of the two images,
  ∑_k hid(user)_k · hid(item)_k.
-/
import Idealize.ShloMosaic.PureOps.Ideal
import Idealize.ShloMosaic.Lib.ValueIdx

noncomputable section

namespace Cert.Spec

open Idealize.ShloMosaic Idealize.ShloMosaic.ValueIdx

abbrev SB : Shape := ⟨1, ![16384]⟩
abbrev ST : Shape := ⟨2, ![1000000, 32]⟩
abbrev SW : Shape := ⟨2, ![16, 32]⟩
abbrev SH : Shape := ⟨1, ![16]⟩

/-- The table row an index word names: the word's value, kept inside the table (a word at most 999999 names itself). -/
def rowOf (v : BitVec 32) : Fin 1000000 := ⟨min v.toNat 999999, by omega⟩

theorem rowOf_val {v : BitVec 32} (h : v.toNat ≤ 999999) : (rowOf v).val = v.toNat := by
  show min v.toNat 999999 = v.toNat; omega

/-- Entry k of the affine layer applied to table row r: (∑_d tab[r,d] · W[k,d]) + b[k]. -/
def hid (tab : FVec Ideal ST .f32) (W : FVec Ideal SW .f32) (b : FVec Ideal SH .f32) (r : Fin 1000000) (k : Fin 16) : EReal :=
  (∑ d : Fin 32, tab (ix2 r d) * W (ix2 k d)) + b (ix1 k)

/-- The whole result: entry i is the inner product over k of the two layers' images of the rows uid i and iid i name. -/
def G (uid iid : IVec SB 32) (ut it : FVec Ideal ST .f32) (W : FVec Ideal SW .f32) (b : FVec Ideal SH .f32) : FVec Ideal SB .f32 :=
  fun i => ∑ k : Fin 16, hid ut W b (rowOf (uid i)) k * hid it W b (rowOf (iid i)) k

end Cert.Spec

end
-- ==== Proof.Bridge.lean ====
/-
  From the kernel's layout to the specification's. The tables [1000000, 32] are re-laid row-major as 250000 lines of
  128 words, so line r holds table rows 4r .. 4r+3 and word c of line r is entry c mod 32 of row 4r + c/32; the
  weights [16, 32] are re-laid flat, entry (k, d) at position 32k + d. The kernel reads row id as line id/4, words
  32·(id mod 4) + d; since id = 4·(id/4) + id mod 4, that is entry d of row id. With this, and with the
  left-nested accumulation equal to the plain sums on the extended reals, the kernel's accumulated result over the
  re-laid arrays is the specified one, entry by entry.
-/
import proofs.«218018_g87892210745873_cont_sun_m_655_26_alg».proof.Proof.Common
import proofs.«218018_g87892210745873_cont_sun_m_655_26_alg».proof.Proof.Accum
import proofs.«218018_g87892210745873_cont_sun_m_655_26_alg».proof.Proof.Spec
import Idealize.ShloMosaic.Lib.Pipeline.Value
import Idealize.ShloMosaic.Lib.ValueIdx

noncomputable section

namespace Cert.KernelIdeal.Hand

open Cert.KernelIdeal
open Idealize.ShloMosaic Idealize.ShloMosaic.ValueIdx

/-- A re-laid table at (line r, word c) is the table at (row 4r + c/32, entry c mod 32). -/
theorem relaid_table_apply {α : Type} (x : S1000000x32.Idx → α) (h : S1000000x32.ShapeCasts S250000x128) (r : Fin 250000) (c : Fin 128) :
    shapeCast S250000x128 x h (ix2 r c) = x (ix2 (⟨4 * r.val + c.val / 32, by omega⟩ : Fin 1000000) (⟨c.val % 32, by omega⟩ : Fin 32)) :=
  shapeCast_apply x h _ _ (by
    rw [Shape.rowMajor_val_two, Shape.rowMajor_val_two]
    show (4 * r.val + c.val / 32) * 32 + c.val % 32 = r.val * 128 + c.val
    omega)

/-- The flat weights at 32k+d are the weights at (k, d). -/
theorem relaid_w_apply {α : Type} (x : S16x32.Idx → α) (h : S16x32.ShapeCasts S512) (k : Fin 16) (d : Fin 32) :
    shapeCast S512 x h (ix1 (⟨k.val * 32 + d.val, by omega⟩ : Fin 512)) = x (ix2 k d) :=
  shapeCast_apply x h _ _ (by
    rw [Shape.rowMajor_val_two, Shape.rowMajor_val_one]
    rfl)

/-- For an id v at most 999999, word 32·(v mod 4) + d of line v/4 of a re-laid table is entry d of the table's row v. -/
theorem relaid_row_entry {α : Type} (x : S1000000x32.Idx → α) (h : S1000000x32.ShapeCasts S250000x128) (v : BitVec 32)
    (hv : v.toNat ≤ 999999) (d : Fin 32) :
    shapeCast S250000x128 x h (ix2 (lineOf v) (colOf v d)) = x (ix2 (Cert.Spec.rowOf v) d) := by
  have hd := d.isLt
  refine (relaid_table_apply x h _ _).trans (congrArg x ?_)
  refine congrArg₂ ix2 (Fin.ext ?_) (Fin.ext ?_)
  · show 4 * (min (v.toNat / 4) 249999) + ((v.toNat % 4) * 32 + d.val) / 32 = min v.toNat 999999
    omega
  · show ((v.toNat % 4) * 32 + d.val) % 32 = d.val
    omega

/-- On the extended reals, with ids at most 999999, the kernel's accumulated result over the re-laid arrays is the specification. -/
theorem outVal_ideal (f0 f1 : IVec S16384 32) (ut it : FVec Ideal S1000000x32 .f32) (W : FVec Ideal S16x32 .f32) (b : FVec Ideal S16 .f32)
    (hU : S1000000x32.ShapeCasts S250000x128) (hW : S16x32.ShapeCasts S512)
    (h0 : ∀ i, (f0 i).toNat ≤ 999999) (h1 : ∀ i, (f1 i).toNat ≤ 999999) :
    outVal (F := Ideal) f0 f1 (shapeCast S250000x128 ut hU) (shapeCast S250000x128 it hU) (shapeCast S512 W hW) b = Cert.Spec.G f0 f1 ut it W b := by
  funext j
  have key : ∀ k : Fin 16,
      ((∑ d : Fin 32, shapeCast S250000x128 ut hU (ix2 (lineOf (f0 j)) (colOf (f0 j) d))
            * shapeCast S512 W hW (ix1 (⟨k.val * 32 + d.val, by omega⟩ : Fin 512))) + b (ix1 k))
        * ((∑ d : Fin 32, shapeCast S250000x128 it hU (ix2 (lineOf (f1 j)) (colOf (f1 j) d))
            * shapeCast S512 W hW (ix1 (⟨k.val * 32 + d.val, by omega⟩ : Fin 512))) + b (ix1 k))
      = Cert.Spec.hid ut W b (Cert.Spec.rowOf (f0 j)) k * Cert.Spec.hid it W b (Cert.Spec.rowOf (f1 j)) k := by
    intro k
    have e0 : (∑ d : Fin 32, shapeCast S250000x128 ut hU (ix2 (lineOf (f0 j)) (colOf (f0 j) d))
            * shapeCast S512 W hW (ix1 (⟨k.val * 32 + d.val, by omega⟩ : Fin 512)))
        = ∑ d : Fin 32, ut (ix2 (Cert.Spec.rowOf (f0 j)) d) * W (ix2 k d) :=
      Finset.sum_congr rfl fun d _ => by rw [relaid_row_entry ut hU _ (h0 j) d, relaid_w_apply W hW k d]
    have e1 : (∑ d : Fin 32, shapeCast S250000x128 it hU (ix2 (lineOf (f1 j)) (colOf (f1 j) d))
            * shapeCast S512 W hW (ix1 (⟨k.val * 32 + d.val, by omega⟩ : Fin 512)))
        = ∑ d : Fin 32, it (ix2 (Cert.Spec.rowOf (f1 j)) d) * W (ix2 k d) :=
      Finset.sum_congr rfl fun d _ => by rw [relaid_row_entry it hU _ (h1 j) d, relaid_w_apply W hW k d]
    rw [e0, e1]
    rfl
  exact (Cert.Accum.kval_ideal _ _ _ _).trans (Finset.sum_congr rfl fun k _ => key k)

end Cert.KernelIdeal.Hand

end
-- ==== Proof.PreDecode.lean ====
/-
  What the precondition says of the two integer inputs. The precondition is one truth value: the conjunction of
  "every entry of each float input has finite magnitude" with, elementwise and as signed comparisons,
  0 ≤ id ≤ 999999 for every user id and every item id, each family of comparisons folded by "and" over the whole
  array. When the truth value is 1, every fold is 1, so every element comparison is 1; a signed word between 0 and
  999999 is non-negative, hence equal to its unsigned value, which is then at most 999999.
  The float half of the conjunction is never opened here.
-/
import proofs.«218018_g87892210745873_cont_sun_m_655_26_alg».proof.Pre_input_domain
import proofs.«218018_g87892210745873_cont_sun_m_655_26_alg».proof.Proof.Gen.Pre_input_domain
import Idealize.ShloMosaic.Lib.ReduceAll
import Idealize.ShloMosaic.Lib.ValueIdx

namespace Cert.PreSide

open Idealize.ShloMosaic Cert.Pre_input_domain

/-- The shape of a scalar has exactly one index. -/
instance : Subsingleton S_.Idx := ⟨fun a b => funext fun d => d.elim0⟩

/-- A word that is, as a signed word, at least 0 and at most 999999 has unsigned value at most 999999. -/
theorem word_le (v : BitVec 32)
    (e : IntOp.andi (IntOp.cmpi .sge v 0#32) (IntOp.cmpi .sle v 999999#32) = 1#1) : v.toNat ≤ 999999 := by
  obtain ⟨h0, h1⟩ := IntOp.andi_eq_one.1 e
  rw [IntOp.cmpi_sge] at h0
  rw [IntOp.cmpi_sle] at h1
  simp only [BitVec.toInt_eq_toNat_cond, BitVec.toNat_ofNat, Nat.reducePow, Nat.reduceMod] at h0 h1
  omega

/-- The precondition makes every id a word at most 999999 (so non-negative as a signed word). -/
theorem ranges {F : FTy → Type} [FloatOps F] (a0 a1 : IVec S16384 32) (a2 a3 : FVec F S1000000x32 .f32) (a4 : FVec F S16x32 .f32) (a5 : FVec F S16 .f32)
    (h : Cert.Pre_input_domain.fn (F := F) a0 a1 a2 a3 a4 a5 = fun _ => 1#1) :
    (∀ i, (a0 i).toNat ≤ 999999) ∧ (∀ i, (a1 i).toNat ≤ 999999) := by
  have e := congrFun h ValueIdx.ix0
  dsimp only [Cert.Pre_input_domain.fn, Cert.Pre_input_domain.fn_part1, andi] at e
  obtain ⟨e1, e3⟩ := IntOp.andi_eq_one.1 e
  obtain ⟨_, e2⟩ := IntOp.andi_eq_one.1 e1
  refine ⟨fun i => ?_, fun i => ?_⟩
  · have := Host.reduce_andi_all _ _ _ _ _ e2 i
    exact word_le _ this
  · have := Host.reduce_andi_all _ _ _ _ _ e3 i
    exact word_le _ this

end Cert.PreSide
-- ==== Proof.Launch.lean ====
/-
  The launch of the program: from one vector subcore's task to the run of all the device's threads.
  The TensorCore re-lays the two tables and the weights, hands each of the two SparseCores a read share of the six
  inputs and the half of the result its sixteen subcores write, and each SparseCore hands each subcore a read share of
  the inputs and its 512 entries of the result. Subcore s of SparseCore c writes the entries [1024 s + 512 c, +512):
  the 32 blocks are pairwise disjoint and cover the 16384 entries. Every subcore leaves its block at the one
  whole-array value, so the blocks join back to the whole result at that value; the read shares join back to the
  inputs, unchanged.
-/
import proofs.«218018_g87892210745873_cont_sun_m_655_26_alg».proof.Proof.Common

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareDrop shareTokN shareTok pointsTo_toks_split pointsTo_toks_join)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid0.bound 0 := rfl
theorem nSub_zero : (K (F := F)).nSub 0 = grid0.bound 1 := rfl

/-! ## The launch memory, the re-laid arrays, the shares -/

section Launch

variable (m : (ℓ : Loc nD τ sig) → Buf (Elt F) ℓ) (ρ : Dev nD → PrngReg)

/-- The user table re-laid as 250000 lines of 128 words: the table's elements in row-major order at the new shape. -/
def relaidU (d : Dev nD) : Buf (Elt F) (utLoc d) :=
  fun i => shapeCast S250000x128 (m ((SparseCore.T d).loc main_arg2)) shapeCasts_S1000000x32_S250000x128 i
/-- The item table, likewise. -/
def relaidI (d : Dev nD) : Buf (Elt F) (itLoc d) :=
  fun i => shapeCast S250000x128 (m ((SparseCore.T d).loc main_arg3)) shapeCasts_S1000000x32_S250000x128 i
/-- The weights re-laid flat: the 16 × 32 matrix's elements in row-major order as 512 words. -/
def relaidW (d : Dev nD) : Buf (Elt F) (wwLoc d) :=
  fun i => shapeCast S512 (m ((SparseCore.T d).loc main_arg4)) shapeCasts_S16x32_S512 i

/-- Entry i of a re-laid array is the source's element at the same row-major position. -/
theorem relaidU_apply (d : Dev nD) (i : S250000x128.Idx) :
    relaidU m d i = m ((SparseCore.T d).loc main_arg2) (Shape.reshapeEquiv shapeCasts_S1000000x32_S250000x128 i) := rfl
theorem relaidI_apply (d : Dev nD) (i : S250000x128.Idx) :
    relaidI m d i = m ((SparseCore.T d).loc main_arg3) (Shape.reshapeEquiv shapeCasts_S1000000x32_S250000x128 i) := rfl
theorem relaidW_apply (d : Dev nD) (i : S512.Idx) :
    relaidW m d i = m ((SparseCore.T d).loc main_arg4) (Shape.reshapeEquiv shapeCasts_S16x32_S512 i) := rfl

/-- The read share of SparseCore c, and of its subcore i. -/
abbrev qC (c : ℕ) : PosShare TreeShare := shareTokN fullShare c
abbrev qT (c i : ℕ) : PosShare TreeShare := shareTokN (qC c) i

variable [FloatOps F]

/-- The whole result, from the launch contents. -/
abbrev oval (d : Dev nD) : Buf (Elt F) (outLoc d) :=
  outVal (F := F) (m (a0Loc d)) (m (a1Loc d)) (relaidU m d) (relaidI m d) (relaidW m d) (m (bbLoc d))

/-- The entries of the result SparseCore c's sixteen subcores write. -/
def coreBlks (c : Fin (grid0.bound 0)) : Finset S16384.Idx := Finset.univ.biUnion fun s : Fin (grid0.bound 1) => outBlk (coordsV c s)

omit [FloatOps F] in
/-- The six inputs under the read share q at the launch contents, and the entries B of the result at fo. -/
def hand (d : Dev nD) (B : Finset S16384.Idx) (q : PosShare TreeShare) (fo : Buf (Elt F) (outLoc d)) : sProp 𝕄 :=
  iprop((a0Loc d ↦{q} m (a0Loc d)) ∗ (a1Loc d ↦{q} m (a1Loc d)) ∗ (utLoc d ↦{q} relaidU m d) ∗ (itLoc d ↦{q} relaidI m d)
    ∗ (wwLoc d ↦{q} relaidW m d) ∗ (bbLoc d ↦{q} m (bbLoc d)) ∗ (outLoc d ↦[B]{fullShare} fo))

omit [FloatOps F] in
theorem tileIn_hand (d : Dev nD) (L : grid0.Coords) (q : PosShare TreeShare) (fo : Buf (Elt F) (outLoc d)) :
    tileIn (F := F) d L q (m (a0Loc d)) (m (a1Loc d)) (relaidU m d) (relaidI m d) (relaidW m d) (m (bbLoc d)) fo = hand m d (outBlk L) q fo := rfl

omit [FloatOps F] in
instance hand_storable (d : Dev nD) (B : Finset S16384.Idx) (q : PosShare TreeShare) (fo : Buf (Elt F) (outLoc d)) :
    BI.Storable (upEmb : UEmb _ 𝕄) (hand m d B q fo) := by unfold hand; infer_instance

/-! ## What the handshakes carry -/

/-- The call hands SparseCore c the inputs under its read share and its subcores' entries of the result, and takes them
    back with the entries at the result's value; a SparseCore hands each subcore the same of its own. -/
def P : (K (F := F)).Pay (nD := nD) (Val := Elt F) (Name := ℕ) (U := UU) where
  st := fun q d c => match q with | 0 => hand m d (coreBlks (Fin.cast nCore_zero c)) (qC c.val) (m (outLoc d))
  dn := fun q d c => match q with | 0 => hand m d (coreBlks (Fin.cast nCore_zero c)) (qC c.val) (oval m d)
  go := fun q d c i => match q with
    | 0 => hand m d (outBlk (coordsV (Fin.cast nCore_zero c) (Fin.cast nSub_zero i))) (qT c.val i.val) (m (outLoc d))
  td := fun q d c i => match q with
    | 0 => hand m d (outBlk (coordsV (Fin.cast nCore_zero c) (Fin.cast nSub_zero i))) (qT c.val i.val) (oval m d)
  x := fun _ _ => iprop(emp)

instance P_storable : (P (F := F) m).IsStorable where
  st q d c := match q with | 0 => hand_storable m d _ _ _
  dn q d c := match q with | 0 => hand_storable m d _ _ _
  go q d c i := match q with | 0 => hand_storable m d _ _ _
  td q d c i := match q with | 0 => hand_storable m d _ _ _

/-! ## The launch theorem's obligations -/

theorem defs₀_vector (c : Fin τ.nSC) (s : Fin τ.nSub) :
    defs₀ (F := F) (.scVector c s) 0 ()
      = SparseCore.onTile hcore0 hsub0 (fun c s => cc0__mf_sc (coordsV c s)
          (Memref.whole main_arg0_scv) (Memref.isWhole_whole _) (Memref.whole main_arg1_scv) (Memref.isWhole_whole _)
          (Memref.whole main_v0_scv) (Memref.isWhole_whole _) (Memref.whole main_v1_scv) (Memref.isWhole_whole _)
          (Memref.whole main_v2_scv) (Memref.isWhole_whole _) (Memref.whole main_arg5_scv) (Memref.isWhole_whole _)
          (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _)
          cc0_scratch11 cc0_scratch12 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
/-- One subcore's task, as the launch theorem asks it, from its statement at a grid point. -/
theorem tileObl (hT : TileBody (F := F)) (hF : (K (F := F)).Facts)
    (h0 : ∀ (d : Dev nD) i, (m (a0Loc d) i).toNat ≤ 999999) (h1 : ∀ (d : Dev nD) i, (m (a1Loc d) i).toNat ≤ 999999) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have key := hT hF d (coordsV ⟨_, hc.1⟩ ⟨_, hc.2⟩) (qT c.val i.val) (m (a0Loc d)) (m (a1Loc d)) (relaidU m d) (relaidI m d) (relaidW m d) (m (bbLoc d))
    (m (outLoc d)) (h0 d) (h1 d) O W hO
  generalize cc0__mf_sc (F := F) (coordsV ⟨((K (F := F)).core 0 c).val, hc.1⟩ ⟨((K (F := F)).sub 0 i).val, hc.2⟩) _ _ _ _ _ _ _ _ _ _ _ _ _ _ _ _ _ _ _ _ _ _ _ _ _ _ _ _ _ _ _ _ _ _ _ _ _ _ _ _ _ _ _ = prog at key ⊢
  exact key.trans (wp_mono frame _ _ fun _ => obl_post)

/-! ## The blocks of the result: subcore s of SparseCore c writes the entries [1024 s + 512 c, +512) -/

omit [FloatOps F] in
theorem outBlk_eq (L : grid0.Coords) : outBlk L = (Rect.unit (s := S16384) (k0_off1 L) S512.size (k0_off1_inb L)).set := by
  show ((View.whole (main_v3_scv : Ref sig .scVector)).slice (Rect.unit (s := S16384) (k0_off1 L) S512.size (k0_off1_inb L))).set = _
  exact View.set_slice_whole _ _

omit [FloatOps F] in
/-- Two different subcores' blocks are disjoint. -/
theorem blk_disjoint {c c' : Fin (grid0.bound 0)} {s s' : Fin (grid0.bound 1)} (h : c ≠ c' ∨ s ≠ s') :
    Disjoint (outBlk (coordsV c s)) (outBlk (coordsV c' s')) := by
  rw [outBlk_eq, outBlk_eq]
  refine Rect.unit_disjoint 0 ?_
  rw [k0_off1_eq, k0_off1_eq]
  have hc : c.val < 2 := c.isLt
  have hc' : c'.val < 2 := c'.isLt
  have hne : c.val ≠ c'.val ∨ s.val ≠ s'.val := h.imp (fun h e => h (Fin.ext e)) (fun h e => h (Fin.ext e))
  show 1024 * s.val + 512 * c.val + 512 ≤ 1024 * s'.val + 512 * c'.val ∨ 1024 * s'.val + 512 * c'.val + 512 ≤ 1024 * s.val + 512 * c.val
  omega

omit [FloatOps F] in
theorem subBlks_disjoint (c : Fin (grid0.bound 0)) : ∀ s ∈ (Finset.univ : Finset (Fin (grid0.bound 1))), ∀ s' ∈ (Finset.univ : Finset (Fin (grid0.bound 1))),
    s ≠ s' → Disjoint (outBlk (coordsV c s)) (outBlk (coordsV c s')) :=
  fun _ _ _ _ h => blk_disjoint (.inr h)

omit [FloatOps F] in
theorem coreBlks_disjoint : ∀ c ∈ (Finset.univ : Finset (Fin (grid0.bound 0))), ∀ c' ∈ (Finset.univ : Finset (Fin (grid0.bound 0))),
    c ≠ c' → Disjoint (coreBlks c) (coreBlks c') := by
  intro c _ c' _ h
  unfold coreBlks
  rw [Finset.disjoint_biUnion_left]; intro s _
  rw [Finset.disjoint_biUnion_right]; intro s' _
  exact blk_disjoint (.inl h)

omit [FloatOps F] in
/-- The 32 blocks cover the result: entry j lies in the block of subcore j / 1024 of SparseCore (j mod 1024) / 512. -/
theorem blks_cover : (Finset.univ : Finset (Fin (grid0.bound 0))).biUnion coreBlks = Finset.univ := by
  ext i
  simp only [Finset.mem_biUnion, Finset.mem_univ, true_and, iff_true, coreBlks]
  have hi : (i 0).val < 16384 := (i 0).isLt
  refine ⟨⟨(i 0).val % 1024 / 512, by show _ < 2; omega⟩, ⟨(i 0).val / 1024, by show _ < 16; omega⟩, ?_⟩
  rw [outBlk_eq, Rect.mem_set_unit, k0_off1_eq]
  intro a
  obtain rfl : a = 0 := Subsingleton.elim _ _
  show 1024 * ((i 0).val / 1024) + 512 * ((i 0).val % 1024 / 512) ≤ (i 0).val
    ∧ (i 0).val < 1024 * ((i 0).val / 1024) + 512 * ((i 0).val % 1024 / 512) + 512
  omega

/-! ## Handing out and taking back -/

omit [FloatOps F] in
/-- The inputs' share q goes out as n read tokens, the remainder kept; the entries ⋃ B j as the B j, pairwise disjoint.
    When every piece is back with its entries at the ONE function fo', the tokens rejoin the remainder and the entries
    are the union's at fo'. -/
theorem hand_split (d : Dev nD) (n : ℕ) (B : Fin n → Finset S16384.Idx)
    (hB : ∀ j ∈ (Finset.univ : Finset (Fin n)), ∀ j' ∈ (Finset.univ : Finset (Fin n)), j ≠ j' → Disjoint (B j) (B j'))
    (q : PosShare TreeShare) (fo fo' : Buf (Elt F) (outLoc d)) :
    hand m d (Finset.univ.biUnion B) q fo ⊢ iprop((bigSep Finset.univ fun j : Fin n => hand m d (B j) (shareTok q n j) fo)
      ∗ ((bigSep Finset.univ fun j : Fin n => hand m d (B j) (shareTok q n j) fo') -∗ hand m d (Finset.univ.biUnion B) q fo')) := by
  unfold hand
  simp only [bigSep_sep']
  rw [pointsTo_biUnion (ℓ := outLoc d) (f := fo) Finset.univ B hB, pointsTo_biUnion (ℓ := outLoc d) (f := fo') Finset.univ B hB]
  iintro ⟨H0, H1, Hu, Hi, Hw, Hb, Ho⟩
  ihave H0' := (pointsTo_toks_split q n) $$ H0
  icases H0' with ⟨R0, T0⟩
  ihave H1' := (pointsTo_toks_split q n) $$ H1
  icases H1' with ⟨R1, T1⟩
  ihave Hu' := (pointsTo_toks_split q n) $$ Hu
  icases Hu' with ⟨Ru, Tu⟩
  ihave Hi' := (pointsTo_toks_split q n) $$ Hi
  icases Hi' with ⟨Ri, Ti⟩
  ihave Hw' := (pointsTo_toks_split q n) $$ Hw
  icases Hw' with ⟨Rw, Tw⟩
  ihave Hb' := (pointsTo_toks_split q n) $$ Hb
  icases Hb' with ⟨Rb, Tb⟩
  isplitl [T0 T1 Tu Ti Tw Tb Ho]
  · isplitl [T0]; · iexact T0
    isplitl [T1]; · iexact T1
    isplitl [Tu]; · iexact Tu
    isplitl [Ti]; · iexact Ti
    isplitl [Tw]; · iexact Tw
    isplitl [Tb]; · iexact Tb
    iexact Ho
  iintro ⟨T0, T1, Tu, Ti, Tw, Tb, Ho⟩
  isplitl [R0 T0]
  · iapply (pointsTo_toks_join q n); isplitl [R0] <;> iassumption
  isplitl [R1 T1]
  · iapply (pointsTo_toks_join q n); isplitl [R1] <;> iassumption
  isplitl [Ru Tu]
  · iapply (pointsTo_toks_join q n); isplitl [Ru] <;> iassumption
  isplitl [Ri Ti]
  · iapply (pointsTo_toks_join q n); isplitl [Ri] <;> iassumption
  isplitl [Rw Tw]
  · iapply (pointsTo_toks_join q n); isplitl [Rw] <;> iassumption
  isplitl [Rb Tb]
  · iapply (pointsTo_toks_join q n); isplitl [Rb] <;> iassumption
  iexact Ho

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands split among its sixteen subcores, and the results gather. -/
theorem vecSplit : (K (F := F)).VecSplit' (P m) 0 := by
  intro d c
  show hand m d (coreBlks (Fin.cast nCore_zero c)) (qC c.val) (m (outLoc d)) ⊢ |={Set.univ}=> iprop(
      (bigSep Finset.univ fun i : Fin ((K (F := F)).nSub 0) =>
        hand m d (outBlk (coordsV (Fin.cast nCore_zero c) (Fin.cast nSub_zero i))) (shareTok (qC c.val) (grid0.bound 1) (Fin.cast nSub_zero i)) (m (outLoc d)))
      ∗ ((bigSep Finset.univ fun i : Fin ((K (F := F)).nSub 0) =>
        hand m d (outBlk (coordsV (Fin.cast nCore_zero c) (Fin.cast nSub_zero i))) (shareTok (qC c.val) (grid0.bound 1) (Fin.cast nSub_zero i)) (oval m d))
          -∗ hand m d (coreBlks (Fin.cast nCore_zero c)) (qC c.val) (oval m d)))
  rw [bigSep_tasks (F := F) (fun j => hand m d (outBlk (coordsV (Fin.cast nCore_zero c) j)) (shareTok (qC c.val) (grid0.bound 1) j) (m (outLoc d))),
    bigSep_tasks (F := F) (fun j => hand m d (outBlk (coordsV (Fin.cast nCore_zero c) j)) (shareTok (qC c.val) (grid0.bound 1) j) (oval m d))]
  exact (hand_split m d (grid0.bound 1) (fun j => outBlk (coordsV (Fin.cast nCore_zero c) j)) (subBlks_disjoint _) (qC c.val) _ _).trans fupd_intro

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev r2Loc (d : Dev nD) : Loc nD τ sig := (SparseCore.T d).loc main_arg2
abbrev r3Loc (d : Dev nD) : Loc nD τ sig := (SparseCore.T d).loc main_arg3
abbrev r4Loc (d : Dev nD) : Loc nD τ sig := (SparseCore.T d).loc main_arg4

abbrev x2' : DevRef τ sig := Proc.devRef .tc (main_arg2 : Ref sig .tc)
abbrev x3' : DevRef τ sig := Proc.devRef .tc (main_arg3 : Ref sig .tc)
abbrev x4' : DevRef τ sig := Proc.devRef .tc (main_arg4 : Ref sig .tc)
abbrev y0' : DevRef τ sig := Proc.devRef .tc (main_v0 : Ref sig .tc)
abbrev y1' : DevRef τ sig := Proc.devRef .tc (main_v1 : Ref sig .tc)
abbrev y2' : DevRef τ sig := Proc.devRef .tc (main_v2 : Ref sig .tc)

/-- The three host operations: the two tables and the weights re-laid. -/
abbrev opU : HloOp τ sig (Elt F) := StableHlo.reshape main_arg2 main_v0 rfl shapeCasts_S1000000x32_S250000x128
abbrev opI : HloOp τ sig (Elt F) := StableHlo.reshape main_arg3 main_v1 rfl shapeCasts_S1000000x32_S250000x128
abbrev opW : HloOp τ sig (Elt F) := StableHlo.reshape main_arg4 main_v2 rfl shapeCasts_S16x32_S512

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (r2Loc d ↦{fullShare} W main_arg2)
      ∗ (r3Loc d ↦{fullShare} W main_arg3) ∗ (r4Loc d ↦{fullShare} W main_arg4) ∗ (bbLoc d ↦{fullShare} W main_arg5)
      ∗ (utLoc d ↦{fullShare} W main_v0) ∗ (itLoc d ↦{fullShare} W main_v1) ∗ (wwLoc d ↦{fullShare} W main_v2) ∗ (outLoc d ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The launch contents as a valuation of the device's buffers. -/
def V0 (d : Dev nD) : Valuation τ sig (Elt F) := fun b => m (d, b)

omit [FloatOps F] in
theorem held_pair (d : Dev nD) (x y : Ref sig .tc) (hxy : (Proc.devRef .tc x : DevRef τ sig) ≠ Proc.devRef .tc y) (W : Valuation τ sig (Elt F)) :
    (held (T d) {(Proc.devRef .tc x : DevRef τ sig), Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by simpa using hxy), bigSep_singleton]

omit [FloatOps F] in
theorem resU_x (d : Dev nD) : (opU (F := F)).result (V0 m d) x2' = m (r2Loc d) :=
  StableHlo.reshape_result_ne main_arg2 main_v0 rfl shapeCasts_S1000000x32_S250000x128 _ _ (V0 m d) (show (main_arg2 : Ref sig .tc) ≠ main_v0 by decide)
omit [FloatOps F] in
theorem resU_y (d : Dev nD) : (opU (F := F)).result (V0 m d) y0' = relaidU m d :=
  StableHlo.reshape_result main_arg2 main_v0 rfl shapeCasts_S1000000x32_S250000x128 _ _ (V0 m d)
omit [FloatOps F] in
theorem resI_x (d : Dev nD) : (opI (F := F)).result (V0 m d) x3' = m (r3Loc d) :=
  StableHlo.reshape_result_ne main_arg3 main_v1 rfl shapeCasts_S1000000x32_S250000x128 _ _ (V0 m d) (show (main_arg3 : Ref sig .tc) ≠ main_v1 by decide)
omit [FloatOps F] in
theorem resI_y (d : Dev nD) : (opI (F := F)).result (V0 m d) y1' = relaidI m d :=
  StableHlo.reshape_result main_arg3 main_v1 rfl shapeCasts_S1000000x32_S250000x128 _ _ (V0 m d)
omit [FloatOps F] in
theorem resW_x (d : Dev nD) : (opW (F := F)).result (V0 m d) x4' = m (r4Loc d) :=
  StableHlo.reshape_result_ne main_arg4 main_v2 rfl shapeCasts_S16x32_S512 _ _ (V0 m d) (show (main_arg4 : Ref sig .tc) ≠ main_v2 by decide)
omit [FloatOps F] in
theorem resW_y (d : Dev nD) : (opW (F := F)).result (V0 m d) y2' = relaidW m d :=
  StableHlo.reshape_result main_arg4 main_v2 rfl shapeCasts_S16x32_S512 _ _ (V0 m d)

omit [FloatOps F] in
/-- One re-laying: from the source and the target whole, the source kept, the target at the source's elements in row-major order. -/
theorem heldU_in (d : Dev nD) : (held (T d) (opU (F := F)).bufs (V0 m d) : sProp 𝕄) = iprop((r2Loc d ↦{fullShare} m (r2Loc d)) ∗ (utLoc d ↦{fullShare} m (utLoc d))) :=
  held_pair d main_arg2 main_v0 (by decide) (V0 m d)
omit [FloatOps F] in
theorem heldU_out (d : Dev nD) : (held (T d) (opU (F := F)).bufs ((opU (F := F)).result (V0 m d)) : sProp 𝕄) = iprop((r2Loc d ↦{fullShare} m (r2Loc d)) ∗ (utLoc d ↦{fullShare} relaidU m d)) := by
  rw [← resU_x m d, ← resU_y m d]; exact held_pair d main_arg2 main_v0 (by decide) _
omit [FloatOps F] in
theorem heldI_in (d : Dev nD) : (held (T d) (opI (F := F)).bufs (V0 m d) : sProp 𝕄) = iprop((r3Loc d ↦{fullShare} m (r3Loc d)) ∗ (itLoc d ↦{fullShare} m (itLoc d))) :=
  held_pair d main_arg3 main_v1 (by decide) (V0 m d)
omit [FloatOps F] in
theorem heldI_out (d : Dev nD) : (held (T d) (opI (F := F)).bufs ((opI (F := F)).result (V0 m d)) : sProp 𝕄) = iprop((r3Loc d ↦{fullShare} m (r3Loc d)) ∗ (itLoc d ↦{fullShare} relaidI m d)) := by
  rw [← resI_x m d, ← resI_y m d]; exact held_pair d main_arg3 main_v1 (by decide) _
omit [FloatOps F] in
theorem heldW_in (d : Dev nD) : (held (T d) (opW (F := F)).bufs (V0 m d) : sProp 𝕄) = iprop((r4Loc d ↦{fullShare} m (r4Loc d)) ∗ (wwLoc d ↦{fullShare} m (wwLoc d))) :=
  held_pair d main_arg4 main_v2 (by decide) (V0 m d)
omit [FloatOps F] in
theorem heldW_out (d : Dev nD) : (held (T d) (opW (F := F)).bufs ((opW (F := F)).result (V0 m d)) : sProp 𝕄) = iprop((r4Loc d ↦{fullShare} m (r4Loc d)) ∗ (wwLoc d ↦{fullShare} relaidW m d)) := by
  rw [← resW_x m d, ← resW_y m d]; exact held_pair d main_arg4 main_v2 (by decide) _

omit [FloatOps F] in
/-- The inputs whole and the whole result are what goes out to the two SparseCores. -/
theorem hand_univ (d : Dev nD) (q : PosShare TreeShare) (fo : Buf (Elt F) (outLoc d)) :
    hand m d (Finset.univ.biUnion coreBlks) q fo
      = iprop((a0Loc d ↦{q} m (a0Loc d)) ∗ (a1Loc d ↦{q} m (a1Loc d)) ∗ (utLoc d ↦{q} relaidU m d) ∗ (itLoc d ↦{q} relaidI m d)
          ∗ (wwLoc d ↦{q} relaidW m d) ∗ (bbLoc d ↦{q} m (bbLoc d)) ∗ (outLoc d ↦{fullShare} fo)) := by
  rw [blks_cover]; rfl

theorem st0_eq (d : Dev nD) : (bigSep Finset.univ fun c : Fin ((K (F := F)).nCore 0) => (P m).st 0 d c)
    = bigSep Finset.univ fun c : Fin (grid0.bound 0) => hand m d (coreBlks c) (shareTok fullShare (grid0.bound 0) c) (m (outLoc d)) :=
  bigSep_cores (F := F) (fun c => hand m d (coreBlks c) (shareTok fullShare (grid0.bound 0) c) (m (outLoc d)))
theorem dn0_eq (d : Dev nD) : (bigSep Finset.univ fun c : Fin ((K (F := F)).nCore 0) => (P m).dn 0 d c)
    = bigSep Finset.univ fun c : Fin (grid0.bound 0) => hand m d (coreBlks c) (shareTok fullShare (grid0.bound 0) c) (oval m d) :=
  bigSep_cores (F := F) (fun c => hand m d (coreBlks c) (shareTok fullShare (grid0.bound 0) c) (oval m d))

/-- What @main leaves the claim: the six arguments at their launch contents, the result at its value. -/
abbrev FIN (d : Dev nD) : sProp 𝕄 :=
  iprop((a0Loc d ↦{fullShare} m (a0Loc d)) ∗ (a1Loc d ↦{fullShare} m (a1Loc d)) ∗ (r2Loc d ↦{fullShare} m (r2Loc d)) ∗ (r3Loc d ↦{fullShare} m (r3Loc d))
    ∗ (r4Loc d ↦{fullShare} m (r4Loc d)) ∗ (bbLoc d ↦{fullShare} m (bbLoc d)) ∗ (outLoc d ↦{fullShare} oval m d))

/-- @main on device d's TensorCore: the three re-layings, then the one call — the inputs out to the two SparseCores
    as read shares, the result as the two halves of its blocks — and everything back, the result at its value. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨H0, H1, H2, H3, H4, H5, Hu, Hi, Hw, Ho⟩, -, -⟩, -⟩
  -- the user table re-laid
  iapply (wp_hlo_within 𝒱 (SparseCore.T d) none Set.univ (op := opU) (S := (opU (F := F)).bufs) (Finset.Subset.refl _) (V := V0 m d)) $$ [Hb H2 Hu]
  · isplitl [Hb]; · iexact Hb
    rw [heldU_in]
    isplitl [H2]; · iexact H2
    iexact Hu
  iintro ⟨Hb, Hheld⟩
  ihave Hh := (Entails.of_eq (heldU_out m d)) $$ Hheld
  icases Hh with ⟨H2, Hu⟩
  rw [wp_ret]; imodintro
  -- the item table re-laid
  iapply (wp_hlo_within 𝒱 (SparseCore.T d) none Set.univ (op := opI) (S := (opI (F := F)).bufs) (Finset.Subset.refl _) (V := V0 m d)) $$ [Hb H3 Hi]
  · isplitl [Hb]; · iexact Hb
    rw [heldI_in]
    isplitl [H3]; · iexact H3
    iexact Hi
  iintro ⟨Hb, Hheld⟩
  ihave Hh := (Entails.of_eq (heldI_out m d)) $$ Hheld
  icases Hh with ⟨H3, Hi⟩
  rw [wp_ret]; imodintro
  -- the weights re-laid
  iapply (wp_hlo_within 𝒱 (SparseCore.T d) none Set.univ (op := opW) (S := (opW (F := F)).bufs) (Finset.Subset.refl _) (V := V0 m d)) $$ [Hb H4 Hw]
  · isplitl [Hb]; · iexact Hb
    rw [heldW_in]
    isplitl [H4]; · iexact H4
    iexact Hw
  iintro ⟨Hb, Hheld⟩
  ihave Hh := (Entails.of_eq (heldW_out m d)) $$ Hheld
  icases Hh with ⟨H4, Hw⟩
  rw [wp_ret]; imodintro
  -- the call: a read share of the inputs and half the result's blocks to each SparseCore
  ihave Hs := ((Entails.of_eq (hand_univ m d fullShare (m (outLoc d))).symm).trans
      (hand_split m d (grid0.bound 0) coreBlks coreBlks_disjoint fullShare (m (outLoc d)) (oval m d))) $$ [H0 H1 Hu Hi Hw H5 Ho]
  · isplitl [H0]; · iexact H0
    isplitl [H1]; · iexact H1
    isplitl [Hu]; · iexact Hu
    isplitl [Hi]; · iexact Hi
    isplitl [Hw]; · iexact Hw
    isplitl [H5]; · iexact H5
    iexact Ho
  icases Hs with ⟨Hgo, Hback⟩
  iapply ((K (F := F)).wp_run (D (F := F)) 𝒱 (EH := EH) (P := P m) κ d 0) $$ [Hst Hgo Hback H2 H3 H4]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hall := Hback $$ Hdn'
  ihave Hall' := (Entails.of_eq (hand_univ m d fullShare (oval m d))) $$ Hall
  icases Hall' with ⟨H0, H1, -, -, -, H5, Ho⟩
  imodintro
  isplitl [Hst]; · iexact Hst
  isplitl [H0]; · iexact H0
  isplitl [H1]; · iexact H1
  isplitl [H2]; · iexact H2
  isplitl [H3]; · iexact H3
  isplitl [H4]; · iexact H4
  isplitl [H5]; · iexact H5
  iexact Ho

def fq (d : Dev nD) (s' : Phys nD τ sig (Elt F)) : Prop :=
  s'.mem.mem (outLoc d) = oval m d ∧ s'.mem.mem (a0Loc d) = m (a0Loc d) ∧ s'.mem.mem (a1Loc d) = m (a1Loc d) ∧ s'.mem.mem (r2Loc d) = m (r2Loc d)
    ∧ s'.mem.mem (r3Loc d) = m (r3Loc d) ∧ s'.mem.mem (r4Loc d) = m (r4Loc d) ∧ s'.mem.mem (bbLoc d) = m (bbLoc d)

omit [FloatOps F] in
/-- An array held whole is what the final memory holds; the memory's assertion is kept. -/
theorem agree_keep {s' : Phys nD τ sig (Elt F)} {ℓ : Loc nD τ sig} {f : Buf (Elt F) ℓ} :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, H5, Ho⟩, HSI⟩
  ihave H := (agree_keep (F := F)) $$ [HSI H0]
  · isplitl [HSI] <;> iassumption
  icases H with ⟨%e0, HSI⟩
  ihave H := (agree_keep (F := F)) $$ [HSI H1]
  · isplitl [HSI] <;> iassumption
  icases H with ⟨%e1, HSI⟩
  ihave H := (agree_keep (F := F)) $$ [HSI H2]
  · isplitl [HSI] <;> iassumption
  icases H with ⟨%e2, HSI⟩
  ihave H := (agree_keep (F := F)) $$ [HSI H3]
  · isplitl [HSI] <;> iassumption
  icases H with ⟨%e3, HSI⟩
  ihave H := (agree_keep (F := F)) $$ [HSI H4]
  · isplitl [HSI] <;> iassumption
  icases H with ⟨%e4, HSI⟩
  ihave H := (agree_keep (F := F)) $$ [HSI H5]
  · isplitl [HSI] <;> iassumption
  icases H with ⟨%e5, HSI⟩
  ihave H := (agree_keep (F := F)) $$ [HSI Ho]
  · isplitl [HSI] <;> iassumption
  icases H with ⟨%eo, -⟩
  ipureintro; exact ⟨eo, e0, e1, e2, e3, e4, e5⟩

end Launch

/-! ## The program's run -/

/-- Every weakly fair execution of the device's threads from the launch memory ends; the result array then holds the
    accumulated value of the launch contents (tables and weights re-laid) and the six arguments are unchanged. -/
theorem run_main [FloatOps F] [∀ e, Nonempty (Elt F e)] (hT : TileBody (F := F)) (m : (ℓ : Loc nD τ sig) → Buf (Elt F) ℓ) (ρ : Dev nD → PrngReg)
    (h0 : ∀ (d : Dev nD) i, (m (a0Loc d) i).toNat ≤ 999999) (h1 : ∀ (d : Dev nD) i, (m (a1Loc d) i).toNat ≤ 999999) :
    θ_run (defs (F := F)) (threads (F := F)) ⟨m, fun _ => 0, ρ⟩
      (fun r => ∀ c : Dev nD,
        r.2.mem (outLoc c) = outVal (F := F) (m (a0Loc c)) (m (a1Loc c)) (relaidU m c) (relaidI m c) (relaidW m c) (m (bbLoc c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  SparseCore.Cfg.θ_run_sc (K := K (F := F)) (D := D (F := F)) (𝒱 := 𝒱) (EH := EH) (P := P m) facts v₀
    (fun q hq => match q with | 0 => nomatch hq)
    (fun q _ => match q with | 0 => tileObl m hT facts h0 h1)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h c => h c)

end Cert.KernelIdeal.Hand

end
-- ==== Proof.KLaunch.lean ====
/-
  The launch of the program: from one vector subcore's task to the run of all the device's threads.
  The TensorCore re-lays the two tables and the weights, hands each of the two SparseCores a read share of the six
  inputs and the half of the result its sixteen subcores write, and each SparseCore hands each subcore a read share of
  the inputs and its 512 entries of the result. Subcore s of SparseCore c writes the entries [1024 s + 512 c, +512):
  the 32 blocks are pairwise disjoint and cover the 16384 entries. Every subcore leaves its block at the one
  whole-array value, so the blocks join back to the whole result at that value; the read shares join back to the
  inputs, unchanged.
-/
import proofs.«218018_g87892210745873_cont_sun_m_655_26_alg».proof.Proof.KCommon

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareDrop shareTokN shareTok pointsTo_toks_split pointsTo_toks_join)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid0.bound 0 := rfl
theorem nSub_zero : (K (F := F)).nSub 0 = grid0.bound 1 := rfl

/-! ## The launch memory, the re-laid arrays, the shares -/

section Launch

variable (m : (ℓ : Loc nD τ sig) → Buf (Elt F) ℓ) (ρ : Dev nD → PrngReg)

/-- The user table re-laid as 250000 lines of 128 words: the table's elements in row-major order at the new shape. -/
def relaidU (d : Dev nD) : Buf (Elt F) (utLoc d) :=
  fun i => shapeCast S250000x128 (m ((SparseCore.T d).loc main_arg2)) shapeCasts_S1000000x32_S250000x128 i
/-- The item table, likewise. -/
def relaidI (d : Dev nD) : Buf (Elt F) (itLoc d) :=
  fun i => shapeCast S250000x128 (m ((SparseCore.T d).loc main_arg3)) shapeCasts_S1000000x32_S250000x128 i
/-- The weights re-laid flat: the 16 × 32 matrix's elements in row-major order as 512 words. -/
def relaidW (d : Dev nD) : Buf (Elt F) (wwLoc d) :=
  fun i => shapeCast S512 (m ((SparseCore.T d).loc main_arg4)) shapeCasts_S16x32_S512 i

/-- Entry i of a re-laid array is the source's element at the same row-major position. -/
theorem relaidU_apply (d : Dev nD) (i : S250000x128.Idx) :
    relaidU m d i = m ((SparseCore.T d).loc main_arg2) (Shape.reshapeEquiv shapeCasts_S1000000x32_S250000x128 i) := rfl
theorem relaidI_apply (d : Dev nD) (i : S250000x128.Idx) :
    relaidI m d i = m ((SparseCore.T d).loc main_arg3) (Shape.reshapeEquiv shapeCasts_S1000000x32_S250000x128 i) := rfl
theorem relaidW_apply (d : Dev nD) (i : S512.Idx) :
    relaidW m d i = m ((SparseCore.T d).loc main_arg4) (Shape.reshapeEquiv shapeCasts_S16x32_S512 i) := rfl

/-- The read share of SparseCore c, and of its subcore i. -/
abbrev qC (c : ℕ) : PosShare TreeShare := shareTokN fullShare c
abbrev qT (c i : ℕ) : PosShare TreeShare := shareTokN (qC c) i

variable [FloatOps F]

/-- The whole result, from the launch contents. -/
abbrev oval (d : Dev nD) : Buf (Elt F) (outLoc d) :=
  outVal (F := F) (m (a0Loc d)) (m (a1Loc d)) (relaidU m d) (relaidI m d) (relaidW m d) (m (bbLoc d))

/-- The entries of the result SparseCore c's sixteen subcores write. -/
def coreBlks (c : Fin (grid0.bound 0)) : Finset S16384.Idx := Finset.univ.biUnion fun s : Fin (grid0.bound 1) => outBlk (coordsV c s)

omit [FloatOps F] in
/-- The six inputs under the read share q at the launch contents, and the entries B of the result at fo. -/
def hand (d : Dev nD) (B : Finset S16384.Idx) (q : PosShare TreeShare) (fo : Buf (Elt F) (outLoc d)) : sProp 𝕄 :=
  iprop((a0Loc d ↦{q} m (a0Loc d)) ∗ (a1Loc d ↦{q} m (a1Loc d)) ∗ (utLoc d ↦{q} relaidU m d) ∗ (itLoc d ↦{q} relaidI m d)
    ∗ (wwLoc d ↦{q} relaidW m d) ∗ (bbLoc d ↦{q} m (bbLoc d)) ∗ (outLoc d ↦[B]{fullShare} fo))

omit [FloatOps F] in
theorem tileIn_hand (d : Dev nD) (L : grid0.Coords) (q : PosShare TreeShare) (fo : Buf (Elt F) (outLoc d)) :
    tileIn (F := F) d L q (m (a0Loc d)) (m (a1Loc d)) (relaidU m d) (relaidI m d) (relaidW m d) (m (bbLoc d)) fo = hand m d (outBlk L) q fo := rfl

omit [FloatOps F] in
instance hand_storable (d : Dev nD) (B : Finset S16384.Idx) (q : PosShare TreeShare) (fo : Buf (Elt F) (outLoc d)) :
    BI.Storable (upEmb : UEmb _ 𝕄) (hand m d B q fo) := by unfold hand; infer_instance

/-! ## What the handshakes carry -/

/-- The call hands SparseCore c the inputs under its read share and its subcores' entries of the result, and takes them
    back with the entries at the result's value; a SparseCore hands each subcore the same of its own. -/
def P : (K (F := F)).Pay (nD := nD) (Val := Elt F) (Name := ℕ) (U := UU) where
  st := fun q d c => match q with | 0 => hand m d (coreBlks (Fin.cast nCore_zero c)) (qC c.val) (m (outLoc d))
  dn := fun q d c => match q with | 0 => hand m d (coreBlks (Fin.cast nCore_zero c)) (qC c.val) (oval m d)
  go := fun q d c i => match q with
    | 0 => hand m d (outBlk (coordsV (Fin.cast nCore_zero c) (Fin.cast nSub_zero i))) (qT c.val i.val) (m (outLoc d))
  td := fun q d c i => match q with
    | 0 => hand m d (outBlk (coordsV (Fin.cast nCore_zero c) (Fin.cast nSub_zero i))) (qT c.val i.val) (oval m d)
  x := fun _ _ => iprop(emp)

instance P_storable : (P (F := F) m).IsStorable where
  st q d c := match q with | 0 => hand_storable m d _ _ _
  dn q d c := match q with | 0 => hand_storable m d _ _ _
  go q d c i := match q with | 0 => hand_storable m d _ _ _
  td q d c i := match q with | 0 => hand_storable m d _ _ _

/-! ## The launch theorem's obligations -/

theorem defs₀_vector (c : Fin τ.nSC) (s : Fin τ.nSub) :
    defs₀ (F := F) (.scVector c s) 0 ()
      = SparseCore.onTile hcore0 hsub0 (fun c s => cc0__mf_sc (coordsV c s)
          (Memref.whole main_arg0_scv) (Memref.isWhole_whole _) (Memref.whole main_arg1_scv) (Memref.isWhole_whole _)
          (Memref.whole main_v0_scv) (Memref.isWhole_whole _) (Memref.whole main_v1_scv) (Memref.isWhole_whole _)
          (Memref.whole main_v2_scv) (Memref.isWhole_whole _) (Memref.whole main_arg5_scv) (Memref.isWhole_whole _)
          (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _)
          cc0_scratch11 cc0_scratch12 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
/-- One subcore's task, as the launch theorem asks it, from its statement at a grid point. -/
theorem tileObl (hT : TileBody (F := F)) (hF : (K (F := F)).Facts)
    (h0 : ∀ (d : Dev nD) i, (m (a0Loc d) i).toNat ≤ 999999) (h1 : ∀ (d : Dev nD) i, (m (a1Loc d) i).toNat ≤ 999999) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have key := hT hF d (coordsV ⟨_, hc.1⟩ ⟨_, hc.2⟩) (qT c.val i.val) (m (a0Loc d)) (m (a1Loc d)) (relaidU m d) (relaidI m d) (relaidW m d) (m (bbLoc d))
    (m (outLoc d)) (h0 d) (h1 d) O W hO
  generalize cc0__mf_sc (F := F) (coordsV ⟨((K (F := F)).core 0 c).val, hc.1⟩ ⟨((K (F := F)).sub 0 i).val, hc.2⟩) _ _ _ _ _ _ _ _ _ _ _ _ _ _ _ _ _ _ _ _ _ _ _ _ _ _ _ _ _ _ _ _ _ _ _ _ _ _ _ _ _ _ _ = prog at key ⊢
  exact key.trans (wp_mono frame _ _ fun _ => obl_post)

/-! ## The blocks of the result: subcore s of SparseCore c writes the entries [1024 s + 512 c, +512) -/

omit [FloatOps F] in
theorem outBlk_eq (L : grid0.Coords) : outBlk L = (Rect.unit (s := S16384) (k0_off1 L) S512.size (k0_off1_inb L)).set := by
  show ((View.whole (main_v3_scv : Ref sig .scVector)).slice (Rect.unit (s := S16384) (k0_off1 L) S512.size (k0_off1_inb L))).set = _
  exact View.set_slice_whole _ _

omit [FloatOps F] in
/-- Two different subcores' blocks are disjoint. -/
theorem blk_disjoint {c c' : Fin (grid0.bound 0)} {s s' : Fin (grid0.bound 1)} (h : c ≠ c' ∨ s ≠ s') :
    Disjoint (outBlk (coordsV c s)) (outBlk (coordsV c' s')) := by
  rw [outBlk_eq, outBlk_eq]
  refine Rect.unit_disjoint 0 ?_
  rw [k0_off1_eq, k0_off1_eq]
  have hc : c.val < 2 := c.isLt
  have hc' : c'.val < 2 := c'.isLt
  have hne : c.val ≠ c'.val ∨ s.val ≠ s'.val := h.imp (fun h e => h (Fin.ext e)) (fun h e => h (Fin.ext e))
  show 1024 * s.val + 512 * c.val + 512 ≤ 1024 * s'.val + 512 * c'.val ∨ 1024 * s'.val + 512 * c'.val + 512 ≤ 1024 * s.val + 512 * c.val
  omega

omit [FloatOps F] in
theorem subBlks_disjoint (c : Fin (grid0.bound 0)) : ∀ s ∈ (Finset.univ : Finset (Fin (grid0.bound 1))), ∀ s' ∈ (Finset.univ : Finset (Fin (grid0.bound 1))),
    s ≠ s' → Disjoint (outBlk (coordsV c s)) (outBlk (coordsV c s')) :=
  fun _ _ _ _ h => blk_disjoint (.inr h)

omit [FloatOps F] in
theorem coreBlks_disjoint : ∀ c ∈ (Finset.univ : Finset (Fin (grid0.bound 0))), ∀ c' ∈ (Finset.univ : Finset (Fin (grid0.bound 0))),
    c ≠ c' → Disjoint (coreBlks c) (coreBlks c') := by
  intro c _ c' _ h
  unfold coreBlks
  rw [Finset.disjoint_biUnion_left]; intro s _
  rw [Finset.disjoint_biUnion_right]; intro s' _
  exact blk_disjoint (.inl h)

omit [FloatOps F] in
/-- The 32 blocks cover the result: entry j lies in the block of subcore j / 1024 of SparseCore (j mod 1024) / 512. -/
theorem blks_cover : (Finset.univ : Finset (Fin (grid0.bound 0))).biUnion coreBlks = Finset.univ := by
  ext i
  simp only [Finset.mem_biUnion, Finset.mem_univ, true_and, iff_true, coreBlks]
  have hi : (i 0).val < 16384 := (i 0).isLt
  refine ⟨⟨(i 0).val % 1024 / 512, by show _ < 2; omega⟩, ⟨(i 0).val / 1024, by show _ < 16; omega⟩, ?_⟩
  rw [outBlk_eq, Rect.mem_set_unit, k0_off1_eq]
  intro a
  obtain rfl : a = 0 := Subsingleton.elim _ _
  show 1024 * ((i 0).val / 1024) + 512 * ((i 0).val % 1024 / 512) ≤ (i 0).val
    ∧ (i 0).val < 1024 * ((i 0).val / 1024) + 512 * ((i 0).val % 1024 / 512) + 512
  omega

/-! ## Handing out and taking back -/

omit [FloatOps F] in
/-- The inputs' share q goes out as n read tokens, the remainder kept; the entries ⋃ B j as the B j, pairwise disjoint.
    When every piece is back with its entries at the ONE function fo', the tokens rejoin the remainder and the entries
    are the union's at fo'. -/
theorem hand_split (d : Dev nD) (n : ℕ) (B : Fin n → Finset S16384.Idx)
    (hB : ∀ j ∈ (Finset.univ : Finset (Fin n)), ∀ j' ∈ (Finset.univ : Finset (Fin n)), j ≠ j' → Disjoint (B j) (B j'))
    (q : PosShare TreeShare) (fo fo' : Buf (Elt F) (outLoc d)) :
    hand m d (Finset.univ.biUnion B) q fo ⊢ iprop((bigSep Finset.univ fun j : Fin n => hand m d (B j) (shareTok q n j) fo)
      ∗ ((bigSep Finset.univ fun j : Fin n => hand m d (B j) (shareTok q n j) fo') -∗ hand m d (Finset.univ.biUnion B) q fo')) := by
  unfold hand
  simp only [bigSep_sep']
  rw [pointsTo_biUnion (ℓ := outLoc d) (f := fo) Finset.univ B hB, pointsTo_biUnion (ℓ := outLoc d) (f := fo') Finset.univ B hB]
  iintro ⟨H0, H1, Hu, Hi, Hw, Hb, Ho⟩
  ihave H0' := (pointsTo_toks_split q n) $$ H0
  icases H0' with ⟨R0, T0⟩
  ihave H1' := (pointsTo_toks_split q n) $$ H1
  icases H1' with ⟨R1, T1⟩
  ihave Hu' := (pointsTo_toks_split q n) $$ Hu
  icases Hu' with ⟨Ru, Tu⟩
  ihave Hi' := (pointsTo_toks_split q n) $$ Hi
  icases Hi' with ⟨Ri, Ti⟩
  ihave Hw' := (pointsTo_toks_split q n) $$ Hw
  icases Hw' with ⟨Rw, Tw⟩
  ihave Hb' := (pointsTo_toks_split q n) $$ Hb
  icases Hb' with ⟨Rb, Tb⟩
  isplitl [T0 T1 Tu Ti Tw Tb Ho]
  · isplitl [T0]; · iexact T0
    isplitl [T1]; · iexact T1
    isplitl [Tu]; · iexact Tu
    isplitl [Ti]; · iexact Ti
    isplitl [Tw]; · iexact Tw
    isplitl [Tb]; · iexact Tb
    iexact Ho
  iintro ⟨T0, T1, Tu, Ti, Tw, Tb, Ho⟩
  isplitl [R0 T0]
  · iapply (pointsTo_toks_join q n); isplitl [R0] <;> iassumption
  isplitl [R1 T1]
  · iapply (pointsTo_toks_join q n); isplitl [R1] <;> iassumption
  isplitl [Ru Tu]
  · iapply (pointsTo_toks_join q n); isplitl [Ru] <;> iassumption
  isplitl [Ri Ti]
  · iapply (pointsTo_toks_join q n); isplitl [Ri] <;> iassumption
  isplitl [Rw Tw]
  · iapply (pointsTo_toks_join q n); isplitl [Rw] <;> iassumption
  isplitl [Rb Tb]
  · iapply (pointsTo_toks_join q n); isplitl [Rb] <;> iassumption
  iexact Ho

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands split among its sixteen subcores, and the results gather. -/
theorem vecSplit : (K (F := F)).VecSplit' (P m) 0 := by
  intro d c
  show hand m d (coreBlks (Fin.cast nCore_zero c)) (qC c.val) (m (outLoc d)) ⊢ |={Set.univ}=> iprop(
      (bigSep Finset.univ fun i : Fin ((K (F := F)).nSub 0) =>
        hand m d (outBlk (coordsV (Fin.cast nCore_zero c) (Fin.cast nSub_zero i))) (shareTok (qC c.val) (grid0.bound 1) (Fin.cast nSub_zero i)) (m (outLoc d)))
      ∗ ((bigSep Finset.univ fun i : Fin ((K (F := F)).nSub 0) =>
        hand m d (outBlk (coordsV (Fin.cast nCore_zero c) (Fin.cast nSub_zero i))) (shareTok (qC c.val) (grid0.bound 1) (Fin.cast nSub_zero i)) (oval m d))
          -∗ hand m d (coreBlks (Fin.cast nCore_zero c)) (qC c.val) (oval m d)))
  rw [bigSep_tasks (F := F) (fun j => hand m d (outBlk (coordsV (Fin.cast nCore_zero c) j)) (shareTok (qC c.val) (grid0.bound 1) j) (m (outLoc d))),
    bigSep_tasks (F := F) (fun j => hand m d (outBlk (coordsV (Fin.cast nCore_zero c) j)) (shareTok (qC c.val) (grid0.bound 1) j) (oval m d))]
  exact (hand_split m d (grid0.bound 1) (fun j => outBlk (coordsV (Fin.cast nCore_zero c) j)) (subBlks_disjoint _) (qC c.val) _ _).trans fupd_intro

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev r2Loc (d : Dev nD) : Loc nD τ sig := (SparseCore.T d).loc main_arg2
abbrev r3Loc (d : Dev nD) : Loc nD τ sig := (SparseCore.T d).loc main_arg3
abbrev r4Loc (d : Dev nD) : Loc nD τ sig := (SparseCore.T d).loc main_arg4

abbrev x2' : DevRef τ sig := Proc.devRef .tc (main_arg2 : Ref sig .tc)
abbrev x3' : DevRef τ sig := Proc.devRef .tc (main_arg3 : Ref sig .tc)
abbrev x4' : DevRef τ sig := Proc.devRef .tc (main_arg4 : Ref sig .tc)
abbrev y0' : DevRef τ sig := Proc.devRef .tc (main_v0 : Ref sig .tc)
abbrev y1' : DevRef τ sig := Proc.devRef .tc (main_v1 : Ref sig .tc)
abbrev y2' : DevRef τ sig := Proc.devRef .tc (main_v2 : Ref sig .tc)

/-- The three host operations: the two tables and the weights re-laid. -/
abbrev opU : HloOp τ sig (Elt F) := StableHlo.reshape main_arg2 main_v0 rfl shapeCasts_S1000000x32_S250000x128
abbrev opI : HloOp τ sig (Elt F) := StableHlo.reshape main_arg3 main_v1 rfl shapeCasts_S1000000x32_S250000x128
abbrev opW : HloOp τ sig (Elt F) := StableHlo.reshape main_arg4 main_v2 rfl shapeCasts_S16x32_S512

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (r2Loc d ↦{fullShare} W main_arg2)
      ∗ (r3Loc d ↦{fullShare} W main_arg3) ∗ (r4Loc d ↦{fullShare} W main_arg4) ∗ (bbLoc d ↦{fullShare} W main_arg5)
      ∗ (utLoc d ↦{fullShare} W main_v0) ∗ (itLoc d ↦{fullShare} W main_v1) ∗ (wwLoc d ↦{fullShare} W main_v2) ∗ (outLoc d ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- The launch contents as a valuation of the device's buffers. -/
def V0 (d : Dev nD) : Valuation τ sig (Elt F) := fun b => m (d, b)

omit [FloatOps F] in
theorem held_pair (d : Dev nD) (x y : Ref sig .tc) (hxy : (Proc.devRef .tc x : DevRef τ sig) ≠ Proc.devRef .tc y) (W : Valuation τ sig (Elt F)) :
    (held (T d) {(Proc.devRef .tc x : DevRef τ sig), Proc.devRef .tc y} W : sProp 𝕄)
      = iprop(((SparseCore.T d).loc x ↦{fullShare} W (Proc.devRef .tc x)) ∗ ((SparseCore.T d).loc y ↦{fullShare} W (Proc.devRef .tc y))) := by
  unfold held
  rw [SparseCore.bigSep_insert' (by simpa using hxy), bigSep_singleton]

omit [FloatOps F] in
theorem resU_x (d : Dev nD) : (opU (F := F)).result (V0 m d) x2' = m (r2Loc d) :=
  StableHlo.reshape_result_ne main_arg2 main_v0 rfl shapeCasts_S1000000x32_S250000x128 _ _ (V0 m d) (show (main_arg2 : Ref sig .tc) ≠ main_v0 by decide)
omit [FloatOps F] in
theorem resU_y (d : Dev nD) : (opU (F := F)).result (V0 m d) y0' = relaidU m d :=
  StableHlo.reshape_result main_arg2 main_v0 rfl shapeCasts_S1000000x32_S250000x128 _ _ (V0 m d)
omit [FloatOps F] in
theorem resI_x (d : Dev nD) : (opI (F := F)).result (V0 m d) x3' = m (r3Loc d) :=
  StableHlo.reshape_result_ne main_arg3 main_v1 rfl shapeCasts_S1000000x32_S250000x128 _ _ (V0 m d) (show (main_arg3 : Ref sig .tc) ≠ main_v1 by decide)
omit [FloatOps F] in
theorem resI_y (d : Dev nD) : (opI (F := F)).result (V0 m d) y1' = relaidI m d :=
  StableHlo.reshape_result main_arg3 main_v1 rfl shapeCasts_S1000000x32_S250000x128 _ _ (V0 m d)
omit [FloatOps F] in
theorem resW_x (d : Dev nD) : (opW (F := F)).result (V0 m d) x4' = m (r4Loc d) :=
  StableHlo.reshape_result_ne main_arg4 main_v2 rfl shapeCasts_S16x32_S512 _ _ (V0 m d) (show (main_arg4 : Ref sig .tc) ≠ main_v2 by decide)
omit [FloatOps F] in
theorem resW_y (d : Dev nD) : (opW (F := F)).result (V0 m d) y2' = relaidW m d :=
  StableHlo.reshape_result main_arg4 main_v2 rfl shapeCasts_S16x32_S512 _ _ (V0 m d)

omit [FloatOps F] in
/-- One re-laying: from the source and the target whole, the source kept, the target at the source's elements in row-major order. -/
theorem heldU_in (d : Dev nD) : (held (T d) (opU (F := F)).bufs (V0 m d) : sProp 𝕄) = iprop((r2Loc d ↦{fullShare} m (r2Loc d)) ∗ (utLoc d ↦{fullShare} m (utLoc d))) :=
  held_pair d main_arg2 main_v0 (by decide) (V0 m d)
omit [FloatOps F] in
theorem heldU_out (d : Dev nD) : (held (T d) (opU (F := F)).bufs ((opU (F := F)).result (V0 m d)) : sProp 𝕄) = iprop((r2Loc d ↦{fullShare} m (r2Loc d)) ∗ (utLoc d ↦{fullShare} relaidU m d)) := by
  rw [← resU_x m d, ← resU_y m d]; exact held_pair d main_arg2 main_v0 (by decide) _
omit [FloatOps F] in
theorem heldI_in (d : Dev nD) : (held (T d) (opI (F := F)).bufs (V0 m d) : sProp 𝕄) = iprop((r3Loc d ↦{fullShare} m (r3Loc d)) ∗ (itLoc d ↦{fullShare} m (itLoc d))) :=
  held_pair d main_arg3 main_v1 (by decide) (V0 m d)
omit [FloatOps F] in
theorem heldI_out (d : Dev nD) : (held (T d) (opI (F := F)).bufs ((opI (F := F)).result (V0 m d)) : sProp 𝕄) = iprop((r3Loc d ↦{fullShare} m (r3Loc d)) ∗ (itLoc d ↦{fullShare} relaidI m d)) := by
  rw [← resI_x m d, ← resI_y m d]; exact held_pair d main_arg3 main_v1 (by decide) _
omit [FloatOps F] in
theorem heldW_in (d : Dev nD) : (held (T d) (opW (F := F)).bufs (V0 m d) : sProp 𝕄) = iprop((r4Loc d ↦{fullShare} m (r4Loc d)) ∗ (wwLoc d ↦{fullShare} m (wwLoc d))) :=
  held_pair d main_arg4 main_v2 (by decide) (V0 m d)
omit [FloatOps F] in
theorem heldW_out (d : Dev nD) : (held (T d) (opW (F := F)).bufs ((opW (F := F)).result (V0 m d)) : sProp 𝕄) = iprop((r4Loc d ↦{fullShare} m (r4Loc d)) ∗ (wwLoc d ↦{fullShare} relaidW m d)) := by
  rw [← resW_x m d, ← resW_y m d]; exact held_pair d main_arg4 main_v2 (by decide) _

omit [FloatOps F] in
/-- The inputs whole and the whole result are what goes out to the two SparseCores. -/
theorem hand_univ (d : Dev nD) (q : PosShare TreeShare) (fo : Buf (Elt F) (outLoc d)) :
    hand m d (Finset.univ.biUnion coreBlks) q fo
      = iprop((a0Loc d ↦{q} m (a0Loc d)) ∗ (a1Loc d ↦{q} m (a1Loc d)) ∗ (utLoc d ↦{q} relaidU m d) ∗ (itLoc d ↦{q} relaidI m d)
          ∗ (wwLoc d ↦{q} relaidW m d) ∗ (bbLoc d ↦{q} m (bbLoc d)) ∗ (outLoc d ↦{fullShare} fo)) := by
  rw [blks_cover]; rfl

theorem st0_eq (d : Dev nD) : (bigSep Finset.univ fun c : Fin ((K (F := F)).nCore 0) => (P m).st 0 d c)
    = bigSep Finset.univ fun c : Fin (grid0.bound 0) => hand m d (coreBlks c) (shareTok fullShare (grid0.bound 0) c) (m (outLoc d)) :=
  bigSep_cores (F := F) (fun c => hand m d (coreBlks c) (shareTok fullShare (grid0.bound 0) c) (m (outLoc d)))
theorem dn0_eq (d : Dev nD) : (bigSep Finset.univ fun c : Fin ((K (F := F)).nCore 0) => (P m).dn 0 d c)
    = bigSep Finset.univ fun c : Fin (grid0.bound 0) => hand m d (coreBlks c) (shareTok fullShare (grid0.bound 0) c) (oval m d) :=
  bigSep_cores (F := F) (fun c => hand m d (coreBlks c) (shareTok fullShare (grid0.bound 0) c) (oval m d))

/-- What @main leaves the claim: the six arguments at their launch contents, the result at its value. -/
abbrev FIN (d : Dev nD) : sProp 𝕄 :=
  iprop((a0Loc d ↦{fullShare} m (a0Loc d)) ∗ (a1Loc d ↦{fullShare} m (a1Loc d)) ∗ (r2Loc d ↦{fullShare} m (r2Loc d)) ∗ (r3Loc d ↦{fullShare} m (r3Loc d))
    ∗ (r4Loc d ↦{fullShare} m (r4Loc d)) ∗ (bbLoc d ↦{fullShare} m (bbLoc d)) ∗ (outLoc d ↦{fullShare} oval m d))

/-- @main on device d's TensorCore: the three re-layings, then the one call — the inputs out to the two SparseCores
    as read shares, the result as the two halves of its blocks — and everything back, the result at its value. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨H0, H1, H2, H3, H4, H5, Hu, Hi, Hw, Ho⟩, -, -⟩, -⟩
  -- the user table re-laid
  iapply (wp_hlo_within 𝒱 (SparseCore.T d) none Set.univ (op := opU) (S := (opU (F := F)).bufs) (Finset.Subset.refl _) (V := V0 m d)) $$ [Hb H2 Hu]
  · isplitl [Hb]; · iexact Hb
    rw [heldU_in]
    isplitl [H2]; · iexact H2
    iexact Hu
  iintro ⟨Hb, Hheld⟩
  ihave Hh := (Entails.of_eq (heldU_out m d)) $$ Hheld
  icases Hh with ⟨H2, Hu⟩
  rw [wp_ret]; imodintro
  -- the item table re-laid
  iapply (wp_hlo_within 𝒱 (SparseCore.T d) none Set.univ (op := opI) (S := (opI (F := F)).bufs) (Finset.Subset.refl _) (V := V0 m d)) $$ [Hb H3 Hi]
  · isplitl [Hb]; · iexact Hb
    rw [heldI_in]
    isplitl [H3]; · iexact H3
    iexact Hi
  iintro ⟨Hb, Hheld⟩
  ihave Hh := (Entails.of_eq (heldI_out m d)) $$ Hheld
  icases Hh with ⟨H3, Hi⟩
  rw [wp_ret]; imodintro
  -- the weights re-laid
  iapply (wp_hlo_within 𝒱 (SparseCore.T d) none Set.univ (op := opW) (S := (opW (F := F)).bufs) (Finset.Subset.refl _) (V := V0 m d)) $$ [Hb H4 Hw]
  · isplitl [Hb]; · iexact Hb
    rw [heldW_in]
    isplitl [H4]; · iexact H4
    iexact Hw
  iintro ⟨Hb, Hheld⟩
  ihave Hh := (Entails.of_eq (heldW_out m d)) $$ Hheld
  icases Hh with ⟨H4, Hw⟩
  rw [wp_ret]; imodintro
  -- the call: a read share of the inputs and half the result's blocks to each SparseCore
  ihave Hs := ((Entails.of_eq (hand_univ m d fullShare (m (outLoc d))).symm).trans
      (hand_split m d (grid0.bound 0) coreBlks coreBlks_disjoint fullShare (m (outLoc d)) (oval m d))) $$ [H0 H1 Hu Hi Hw H5 Ho]
  · isplitl [H0]; · iexact H0
    isplitl [H1]; · iexact H1
    isplitl [Hu]; · iexact Hu
    isplitl [Hi]; · iexact Hi
    isplitl [Hw]; · iexact Hw
    isplitl [H5]; · iexact H5
    iexact Ho
  icases Hs with ⟨Hgo, Hback⟩
  iapply ((K (F := F)).wp_run (D (F := F)) 𝒱 (EH := EH) (P := P m) κ d 0) $$ [Hst Hgo Hback H2 H3 H4]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hall := Hback $$ Hdn'
  ihave Hall' := (Entails.of_eq (hand_univ m d fullShare (oval m d))) $$ Hall
  icases Hall' with ⟨H0, H1, -, -, -, H5, Ho⟩
  imodintro
  isplitl [Hst]; · iexact Hst
  isplitl [H0]; · iexact H0
  isplitl [H1]; · iexact H1
  isplitl [H2]; · iexact H2
  isplitl [H3]; · iexact H3
  isplitl [H4]; · iexact H4
  isplitl [H5]; · iexact H5
  iexact Ho

def fq (d : Dev nD) (s' : Phys nD τ sig (Elt F)) : Prop :=
  s'.mem.mem (outLoc d) = oval m d ∧ s'.mem.mem (a0Loc d) = m (a0Loc d) ∧ s'.mem.mem (a1Loc d) = m (a1Loc d) ∧ s'.mem.mem (r2Loc d) = m (r2Loc d)
    ∧ s'.mem.mem (r3Loc d) = m (r3Loc d) ∧ s'.mem.mem (r4Loc d) = m (r4Loc d) ∧ s'.mem.mem (bbLoc d) = m (bbLoc d)

omit [FloatOps F] in
/-- An array held whole is what the final memory holds; the memory's assertion is kept. -/
theorem agree_keep {s' : Phys nD τ sig (Elt F)} {ℓ : Loc nD τ sig} {f : Buf (Elt F) ℓ} :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, H5, Ho⟩, HSI⟩
  ihave H := (agree_keep (F := F)) $$ [HSI H0]
  · isplitl [HSI] <;> iassumption
  icases H with ⟨%e0, HSI⟩
  ihave H := (agree_keep (F := F)) $$ [HSI H1]
  · isplitl [HSI] <;> iassumption
  icases H with ⟨%e1, HSI⟩
  ihave H := (agree_keep (F := F)) $$ [HSI H2]
  · isplitl [HSI] <;> iassumption
  icases H with ⟨%e2, HSI⟩
  ihave H := (agree_keep (F := F)) $$ [HSI H3]
  · isplitl [HSI] <;> iassumption
  icases H with ⟨%e3, HSI⟩
  ihave H := (agree_keep (F := F)) $$ [HSI H4]
  · isplitl [HSI] <;> iassumption
  icases H with ⟨%e4, HSI⟩
  ihave H := (agree_keep (F := F)) $$ [HSI H5]
  · isplitl [HSI] <;> iassumption
  icases H with ⟨%e5, HSI⟩
  ihave H := (agree_keep (F := F)) $$ [HSI Ho]
  · isplitl [HSI] <;> iassumption
  icases H with ⟨%eo, -⟩
  ipureintro; exact ⟨eo, e0, e1, e2, e3, e4, e5⟩

end Launch

/-! ## The program's run -/

/-- Every weakly fair execution of the device's threads from the launch memory ends; the result array then holds the
    accumulated value of the launch contents (tables and weights re-laid) and the six arguments are unchanged. -/
theorem run_main [FloatOps F] [∀ e, Nonempty (Elt F e)] (hT : TileBody (F := F)) (m : (ℓ : Loc nD τ sig) → Buf (Elt F) ℓ) (ρ : Dev nD → PrngReg)
    (h0 : ∀ (d : Dev nD) i, (m (a0Loc d) i).toNat ≤ 999999) (h1 : ∀ (d : Dev nD) i, (m (a1Loc d) i).toNat ≤ 999999) :
    θ_run (defs (F := F)) (threads (F := F)) ⟨m, fun _ => 0, ρ⟩
      (fun r => ∀ c : Dev nD,
        r.2.mem (outLoc c) = outVal (F := F) (m (a0Loc c)) (m (a1Loc c)) (relaidU m c) (relaidI m c) (relaidW m c) (m (bbLoc c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  SparseCore.Cfg.θ_run_sc (K := K (F := F)) (D := D (F := F)) (𝒱 := 𝒱) (EH := EH) (P := P m) facts v₀
    (fun q hq => match q with | 0 => nomatch hq)
    (fun q _ => match q with | 0 => tileObl m hT facts h0 h1)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h c => h c)

end Cert.Kernel.Hand

end
-- ==== Proof.RefRun.lean ====
/-
  The reference program's run. Its @main looks up one table row per batch entry twice (the row lookup is a
  module-local function: the index word wrapped when negative, a clamped gather, and a fill value where the
  index is out of bounds), applies the affine layer to both lookups, multiplies the images entrywise and sums
  over the sixteen hidden entries. Here @main is written as the straight line of its fifty-nine operations, the
  lookups' operations listed at their call sites over each call's own buffers, and the run is read back:
  every weakly fair execution ends with the result buffer at the operations' composed pure term of the
  arguments (`out`), the arguments unchanged.
-/
import proofs.«218018_g87892210745873_cont_sun_m_655_26_alg».proof.ReferenceIdeal
import proofs.«218018_g87892210745873_cont_sun_m_655_26_alg».proof.Proof.Gen.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

/-- The start indices of one lookup: each index word, plus 1000000 when it is negative as a signed word,
    as a one-column table. -/
def startIdx (ids : IVec S16384 32) : IVec S16384x1 32 :=
  broadcastInDim S16384x1 ![0] bcast_S16384_S16384x1_0
    (select (cmpi .slt ids (broadcastInDim S16384 ![] bcast_S_S16384 (constantI S_ 32 0#32)))
      (addi ids (broadcastInDim S16384 ![] bcast_S_S16384 (constantI S_ 32 1000000#32))) ids)

/-- The in-bounds mask of one lookup: per batch entry, whether its start index lies in 0 … 999999 (signed). -/
def inBounds (ids : IVec S16384 32) : IVec S16384 1 :=
  Host.reduce IntOp.andi
    (andi (cmpi .sge (startIdx ids) (broadcastInDim S16384x1 ![] bcast_S_S16384x1 (constantI S_ 32 0#32)))
      (cmpi .sle (startIdx ids)
        (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- One lookup as a pure function of the table and the index words: the gathered rows where the index is in
    bounds, the fill word elsewhere. -/
def take (tab : FVec F S1000000x32 .f32) (ids : IVec S16384 32) : FVec F S16384x32 .f32 :=
  select (broadcastInDim S16384x32 ![0] bcast_S16384_S16384x32_0 (inBounds ids))
    (Host.gather gather_S1000000x32_S16384x1_S16384x32_1_0_n_n_0_1_132 tab (startIdx ids))
    (broadcastInDim S16384x32 ![] bcast_S_S16384x32 (constant S_ .f32 0x7FC00000#32))

/-- The affine layer applied to a batch of rows: rows · Wᵀ + b, the bias broadcast along the batch. -/
def layer (rows : FVec F S16384x32 .f32) (W : FVec F S16x32 .f32) (b : FVec F S16 .f32) : FVec F S16384x16 .f32 :=
  addf (Host.dotGeneral dot_S16384x32_S32x16_S16384x16_1_0_0_1_n_n none rows (transpose S32x16 [1, 0] W transposes_S16x32_S32x16_1_0))
    (broadcastInDim S16384x16 ![0, 1] bcast_S1x16_S16384x16_0_1 (broadcastInDim S1x16 ![1] bcast_S16_S1x16_1 b))

/-- The reference's result as one pure term of its six arguments. -/
def out (uid iid : IVec S16384 32) (ut it : FVec F S1000000x32 .f32) (W : FVec F S16x32 .f32) (b : FVec F S16 .f32) :
    FVec F S16384 .f32 :=
  Host.reduceAdd (mulf (layer (take ut uid) W b) (layer (take it iid) W b)) (constant S_ .f32 0x00000000#32)
    reducesTo_S16384x16_S16384_d1 h_S_

/-- @main's fifty-nine operations in order, the two lookups unfolded at their calls (twenty-three each, into the
    buffers of `main_call0` and `main_call1`), then @main's own thirteen. -/
abbrev ops : List (HloOp τ sig (Elt F)) :=
  [
    -- the index word, wrapped when negative, as a one-column table of start indices
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    -- the in-bounds mask 0 ≤ index ≤ 999999
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    -- the clamped gather, then the fill value where the mask is off
    TRef.binary (.of main_arg2) main_call0.v5 main_call0.v13 (fun x i => Host.gather gather_S1000000x32_S16384x1_S16384x32_1_0_n_n_0_1_132 x i),
    TRef.unary main_call0.v12 main_call0.v14 (broadcastInDim S16384x32 ![0] bcast_S16384_S16384x32_0),
    TRef.nullary main_call0.cst (constant S_ .f32 0x7FC00000#32),
    TRef.unary main_call0.cst main_call0.v15 (broadcastInDim S16384x32 ![] bcast_S_S16384x32),
    TRef.ternary main_call0.v14 main_call0.v13 main_call0.v15 main_call0.v16 select,
    -- the index word, wrapped when negative, as a one-column table of start indices
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    -- the in-bounds mask 0 ≤ index ≤ 999999
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    -- the clamped gather, then the fill value where the mask is off
    TRef.binary (.of main_arg3) main_call1.v5 main_call1.v13 (fun x i => Host.gather gather_S1000000x32_S16384x1_S16384x32_1_0_n_n_0_1_132 x i),
    TRef.unary main_call1.v12 main_call1.v14 (broadcastInDim S16384x32 ![0] bcast_S16384_S16384x32_0),
    TRef.nullary main_call1.cst (constant S_ .f32 0x7FC00000#32),
    TRef.unary main_call1.cst main_call1.v15 (broadcastInDim S16384x32 ![] bcast_S_S16384x32),
    TRef.ternary main_call1.v14 main_call1.v13 main_call1.v15 main_call1.v16 select,
    -- the affine layer on both lookups, the entrywise product, the sum over the hidden axis
    unary main_arg4 main_v2 ((transpose S32x16 [1, 0] · transposes_S16x32_S32x16_1_0) : (⟨S16x32, .f32⟩ : BufTy).Contents (Elt F) → (⟨S32x16, .f32⟩ : BufTy).Contents (Elt F)),
    binary main_v0 main_v2 main_v3 ((fun l r => Host.dotGeneral dot_S16384x32_S32x16_S16384x16_1_0_0_1_n_n none l r) : (⟨S16384x32, .f32⟩ : BufTy).Contents (Elt F) → (⟨S32x16, .f32⟩ : BufTy).Contents (Elt F) → (⟨S16384x16, .f32⟩ : BufTy).Contents (Elt F)),
    unary main_arg5 main_v4 (broadcastInDim S1x16 ![1] bcast_S16_S1x16_1 : (⟨S16, .f32⟩ : BufTy).Contents (Elt F) → (⟨S1x16, .f32⟩ : BufTy).Contents (Elt F)),
    unary main_v4 main_v5 (broadcastInDim S16384x16 ![0, 1] bcast_S1x16_S16384x16_0_1 : (⟨S1x16, .f32⟩ : BufTy).Contents (Elt F) → (⟨S16384x16, .f32⟩ : BufTy).Contents (Elt F)),
    binary main_v3 main_v5 main_v6 (addf : (⟨S16384x16, .f32⟩ : BufTy).Contents (Elt F) → (⟨S16384x16, .f32⟩ : BufTy).Contents (Elt F) → (⟨S16384x16, .f32⟩ : BufTy).Contents (Elt F)),
    unary main_arg4 main_v7 ((transpose S32x16 [1, 0] · transposes_S16x32_S32x16_1_0) : (⟨S16x32, .f32⟩ : BufTy).Contents (Elt F) → (⟨S32x16, .f32⟩ : BufTy).Contents (Elt F)),
    binary main_v1 main_v7 main_v8 ((fun l r => Host.dotGeneral dot_S16384x32_S32x16_S16384x16_1_0_0_1_n_n none l r) : (⟨S16384x32, .f32⟩ : BufTy).Contents (Elt F) → (⟨S32x16, .f32⟩ : BufTy).Contents (Elt F) → (⟨S16384x16, .f32⟩ : BufTy).Contents (Elt F)),
    unary main_arg5 main_v9 (broadcastInDim S1x16 ![1] bcast_S16_S1x16_1 : (⟨S16, .f32⟩ : BufTy).Contents (Elt F) → (⟨S1x16, .f32⟩ : BufTy).Contents (Elt F)),
    unary main_v9 main_v10 (broadcastInDim S16384x16 ![0, 1] bcast_S1x16_S16384x16_0_1 : (⟨S1x16, .f32⟩ : BufTy).Contents (Elt F) → (⟨S16384x16, .f32⟩ : BufTy).Contents (Elt F)),
    binary main_v8 main_v10 main_v11 (addf : (⟨S16384x16, .f32⟩ : BufTy).Contents (Elt F) → (⟨S16384x16, .f32⟩ : BufTy).Contents (Elt F) → (⟨S16384x16, .f32⟩ : BufTy).Contents (Elt F)),
    binary main_v6 main_v11 main_v12 (mulf : (⟨S16384x16, .f32⟩ : BufTy).Contents (Elt F) → (⟨S16384x16, .f32⟩ : BufTy).Contents (Elt F) → (⟨S16384x16, .f32⟩ : BufTy).Contents (Elt F)),
    nullary main_cst (constant S_ .f32 0x00000000#32),
    binary main_v12 main_cst main_v13 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)) ]

-- fifty-nine binds re-associated: the rewrite under the chain recurses once per statement
set_option maxRecDepth 2048 in
/-- @main is that straight line: the lookup function unfolded at its two calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., nullary_bufs_sub .., binary_bufs_sub ..⟩

/-- Every TensorCore buffer ends at the fold of the fifty-nine operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefOut.lean ====
/-
  The reference's run with its result named: the fold of the fifty-nine operations, read at the result buffer,
  is the composed pure term `out` of the six arguments' launch contents, and no operation writes an argument.
-/
import proofs.«218018_g87892210745873_cont_sun_m_655_26_alg».proof.Proof.RefRun

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

attribute [local irreducible] Host.reduce Host.gather Host.reduceAdd in
set_option maxRecDepth 8192 in
/-- The fold at the result buffer is `out` of the arguments: each operation's result read at its own buffer
    is its function of its operands' contents, at any other buffer what was there; the typed references'
    transports are the identity at these literal references. -/
theorem out_eq (V : Valuation τ sig (Elt F)) :
    after ops V (main_v13 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

end Cert.RefSide

end
-- ==== Proof.RefArgs.lean ====
/-
  No operation of the reference writes an argument: the fold of the fifty-nine operations, read at an argument's
  buffer, is what the buffer held at launch.
-/
import proofs.«218018_g87892210745873_cont_sun_m_655_26_alg».proof.Proof.RefRun

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F]

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- For any float values and any launch contents: every weakly fair execution of the reference ends with its six
    arguments unchanged. -/
theorem run_args (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := F)) _ _).mono
    (fun _ h c =>
      ⟨(h c main_arg0).trans (arg0_eq _), (h c main_arg1).trans (arg1_eq _), (h c main_arg2).trans (arg2_eq _),
        (h c main_arg3).trans (arg3_eq _), (h c main_arg4).trans (arg4_eq _), (h c main_arg5).trans (arg5_eq _)⟩)
    (run_main m ρ)

end Cert.RefSide

end
-- ==== Proof.RefGather.lean ====
/-
  Two facts the lookup's value rests on. An index word at most 999999 is non-negative as a signed word, so the
  signed comparisons of the lookup see its value: it is not below zero, and it lies in 0 … 999999. And the
  lookup's gather, read at batch entry i and column d, is the table at the row its start index names (read
  signed and clamped into 0 … 999999) and column d.
-/
import proofs.«218018_g87892210745873_cont_sun_m_655_26_alg».proof.ReferenceIdeal
import proofs.«218018_g87892210745873_cont_sun_m_655_26_alg».proof.Proof.Gen.ReferenceIdeal
import Idealize.ShloMosaic.Lib.ValueIdx

noncomputable section

namespace Cert.RefSide

open Cert.ReferenceIdeal Idealize.ShloMosaic Idealize.ShloMosaic.ValueIdx

/-- A word at most 999999 read as a signed integer is its value. -/
theorem toInt_of_le {v : BitVec 32} (h : v.toNat ≤ 999999) : v.toInt = (v.toNat : Int) := by
  rw [BitVec.toInt_eq_toNat_cond]
  have : 2 * v.toNat < 2 ^ 32 := by omega
  rw [if_pos this]

/-- … so it is not below zero as a signed word, -/
theorem slt_zero_of_le {v : BitVec 32} (h : v.toNat ≤ 999999) : IntOp.cmpi .slt v 0#32 = 0#1 := by
  have e := toInt_of_le h
  simp only [IntOp.cmpi, BitVec.slt_eq_decide, e, BitVec.toInt_zero]
  have : ¬ ((v.toNat : Int) < 0) := by omega
  simp [this]

/-- it is at least zero, -/
theorem sge_zero_of_le {v : BitVec 32} (h : v.toNat ≤ 999999) : IntOp.cmpi .sge v 0#32 = 1#1 := by
  have e := toInt_of_le h
  simp only [IntOp.cmpi, BitVec.sle_eq_decide, e, BitVec.toInt_zero]
  have : (0 : Int) ≤ (v.toNat : Int) := by omega
  simp [this]

/-- and it is at most 999999. -/
theorem sle_max_of_le {v : BitVec 32} (h : v.toNat ≤ 999999) : IntOp.cmpi .sle v 999999#32 = 1#1 := by
  have e := toInt_of_le h
  have e' : (999999#32 : BitVec 32).toInt = 999999 := by decide
  simp only [IntOp.cmpi, BitVec.sle_eq_decide, e, e']
  have : (v.toNat : Int) ≤ 999999 := by omega
  simp [this]

/-- The row a start index in range names: read signed and clamped, it is the word's own value. -/
theorem clamp_of_le {v : BitVec 32} (h : v.toNat ≤ 999999) : min v.toInt.toNat 999999 = v.toNat := by
  rw [toInt_of_le h, Int.toNat_natCast]; omega

/-- The lookup's gather at (i, d): the table at the row the start index of entry i names (signed, clamped into
    0 … 999999) and column d. -/
theorem gather_apply {α : Type} (x : S1000000x32.Idx → α) (idx : IVec S16384x1 32) (i : Fin 16384) (d : Fin 32) :
    Host.gather gather_S1000000x32_S16384x1_S16384x32_1_0_n_n_0_1_132 x idx (ix2 i d)
      = x (ix2 (⟨min (idx (ix2 i (0 : Fin 1))).toInt.toNat 999999, by omega⟩ : Fin 1000000) d) := by
  unfold Host.gather
  refine congrArg x ?_
  funext a
  refine Fin.ext ?_
  match a with
  | ⟨0, _⟩ =>
    show gather_S1000000x32_S16384x1_S16384x32_1_0_n_n_0_1_132.start (ix2 i d) idx 0 + gather_S1000000x32_S16384x1_S16384x32_1_0_n_n_0_1_132.batchCoord (ix2 i d) 0 + gather_S1000000x32_S16384x1_S16384x32_1_0_n_n_0_1_132.offCoord (ix2 i d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x32_S16384x1_S16384x32_1_0_n_n_0_1_132.startIndexMap from List.mem_singleton.mpr rfl)]
    have hsi : gather_S1000000x32_S16384x1_S16384x32_1_0_n_n_0_1_132.siIdx (ix2 i d) ⟨List.idxOf (0 : Fin 2) gather_S1000000x32_S16384x1_S16384x32_1_0_n_n_0_1_132.startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show gather_S1000000x32_S16384x1_S16384x32_1_0_n_n_0_1_132.start (ix2 i d) idx 1 + gather_S1000000x32_S16384x1_S16384x32_1_0_n_n_0_1_132.batchCoord (ix2 i d) 1 + gather_S1000000x32_S16384x1_S16384x32_1_0_n_n_0_1_132.offCoord (ix2 i d) 1 = _
    rw [GatherDims.batchCoord_eq_zero _ _ _ List.not_mem_nil]
    unfold GatherDims.start
    rw [dif_neg (show (1 : Fin 2) ∉ gather_S1000000x32_S16384x1_S16384x32_1_0_n_n_0_1_132.startIndexMap by decide)]
    simp only [Nat.add_zero, Nat.zero_add]
    rfl

end Cert.RefSide

end
-- ==== Proof.RefValue.lean ====
/-
  The reference's result is the specification. Read index by index at the extended reals, with every index
  word in 0 … 999999: the lookup's wrap and its out-of-bounds fill do nothing, so the looked-up batch row i is
  the table row the word names; the affine layer at (i, k) is (∑_d row[d] · W[k,d]) + b[k], the transposed
  weights read back at (k, d) and the broadcast bias at k; and the sum over the hidden axis from the zero word
  is the plain sum over k of the two layers' products. That is `Cert.Spec.G` term for term: no algebra beyond
  0 + x = x. The last theorem states the reference's run with its result at the specification.
-/
import proofs.«218018_g87892210745873_cont_sun_m_655_26_alg».proof.Proof.RefRun
import proofs.«218018_g87892210745873_cont_sun_m_655_26_alg».proof.Proof.RefOut
import proofs.«218018_g87892210745873_cont_sun_m_655_26_alg».proof.Proof.RefArgs
import proofs.«218018_g87892210745873_cont_sun_m_655_26_alg».proof.Proof.RefGather
import proofs.«218018_g87892210745873_cont_sun_m_655_26_alg».proof.Proof.Spec
import Idealize.ShloMosaic.PureOps.Ideal.Laws
import Idealize.ShloMosaic.Lib.ValueLayout

noncomputable section

namespace Cert.RefSide

open Cert.ReferenceIdeal Cert.ReferenceIdeal.Facts₀ Idealize.ShloMosaic Idealize.ShloMosaic.ValueIdx

/-! ## The lookup at an index -/

/-- A one-column broadcast of a batch vector reads, in row i, the vector at i. -/
theorem bcast_col_apply {α : Type} (h : S16384.BroadcastsInDim S16384x1 (![0] : Fin 1 → Fin S16384x1.rank))
    (x : S16384.Idx → α) (i : Fin 16384) (z : Fin 1) :
    broadcastInDim S16384x1 ![0] h x (ix2 i z) = x (ix1 i) := by
  unfold broadcastInDim
  refine congrArg x ?_
  funext a
  match a with
  | ⟨0, _⟩ => exact Fin.ext rfl

/-- With the index word in range the wrap does nothing: the start index of entry i is the word itself. -/
theorem startIdx_eq (ids : IVec S16384 32) (hu : ∀ j, (ids j).toNat ≤ 999999) (i : Fin 16384) (z : Fin 1) :
    startIdx ids (ix2 i z) = ids (ix1 i) := by
  unfold startIdx
  rw [bcast_col_apply]
  show Scalar.select (IntOp.cmpi .slt (ids (ix1 i)) 0#32) (IntOp.addi (ids (ix1 i)) 1000000#32) (ids (ix1 i)) = _
  rw [slt_zero_of_le (hu _), select_zero]

/-- A fold by `and` from 1 over words that are all 1 is 1. -/
theorem fold_andi_one {ι : Type} [DecidableEq ι] (g : ι → BitVec 1) (hg : ∀ k, g k = 1#1) (s : Finset ι) :
    s.fold IntOp.andi 1#1 g = 1#1 := by
  induction s using Finset.induction_on with
  | empty => rfl
  | insert a s ha ih => rw [Finset.fold_insert ha, ih, hg]; decide

/-- With every index word in range every entry is in bounds. -/
theorem inBounds_eq (ids : IVec S16384 32) (hu : ∀ j, (ids j).toNat ≤ 999999) (j : S16384.Idx) : inBounds ids j = 1#1 := by
  have hR : S16384x1.Reduces [1] S16384 := by decide
  unfold inBounds
  rw [Host.reduce_eq_fold_single IntOp.andi _ _ reducesTo_S16384x1_S16384_d1 hR h_S_ j]
  refine fold_andi_one _ (fun k => ?_) _
  rw [Function.comp_apply]
  generalize hR.lift j k = q
  obtain ⟨i, z, rfl⟩ : ∃ (i : Fin 16384) (z : Fin 1), q = ix2 i z := ⟨q 0, q 1, eq_ix2 q⟩
  show IntOp.andi (IntOp.cmpi .sge (startIdx ids (ix2 i z)) 0#32) (IntOp.cmpi .sle (startIdx ids (ix2 i z)) 999999#32) = 1#1
  rw [startIdx_eq ids hu, sge_zero_of_le (hu _), sle_max_of_le (hu _)]
  decide

/-- A batch mask broadcast along the columns reads, at (i, d), the mask at i. -/
theorem bcast_rows_apply {α : Type} (h : S16384.BroadcastsInDim S16384x32 (![0] : Fin 1 → Fin S16384x32.rank))
    (x : S16384.Idx → α) (i : Fin 16384) (d : Fin 32) :
    broadcastInDim S16384x32 ![0] h x (ix2 i d) = x (ix1 i) := by
  unfold broadcastInDim
  refine congrArg x ?_
  funext a
  match a with
  | ⟨0, _⟩ => exact Fin.ext rfl

/-- THE LOOKUP AT (i, d), the index words in range: the table at the row the word of entry i names, column d. -/
theorem take_apply {F : FTy → Type} [FloatOps F] (tab : FVec F S1000000x32 .f32) (ids : IVec S16384 32)
    (hu : ∀ j, (ids j).toNat ≤ 999999) (i : Fin 16384) (d : Fin 32) :
    take tab ids (ix2 i d) = tab (ix2 (Cert.Spec.rowOf (ids (ix1 i))) d) := by
  unfold take
  rw [select_apply, bcast_rows_apply, inBounds_eq ids hu, select_one, gather_apply]
  refine congrArg tab (congrArg (fun r => ix2 r d) (Fin.ext ?_))
  show min (startIdx ids (ix2 i (0 : Fin 1))).toInt.toNat 999999 = min (ids (ix1 i)).toNat 999999
  rw [startIdx_eq ids hu, clamp_of_le (hu _)]
  exact (Nat.min_eq_left (hu _)).symm

/-! ## The affine layer at an index -/

/-- The product with the transposed weights at (i, k): the sum over the 32 latent columns. -/
theorem dot_apply (l : FVec Ideal S16384x32 .f32) (r : FVec Ideal S32x16 .f32) (i : Fin 16384) (k : Fin 16) :
    Host.dotGeneral dot_S16384x32_S32x16_S16384x16_1_0_0_1_n_n none l r (ix2 i k) = ∑ d : Fin 32, l (ix2 i d) * r (ix2 d k) := by
  show FloatOps.dotGeneral dot_S16384x32_S32x16_S16384x16_1_0_0_1_n_n none .single l r (ix2 i k) = _
  rw [Ideal.dotGeneral_apply, ← Equiv.sum_comp (contrEquiv1 dot_S16384x32_S32x16_S16384x16_1_0_0_1_n_n 32 rfl rfl).symm]
  refine Finset.sum_congr rfl fun d _ => ?_
  have hl : dot_S16384x32_S32x16_S16384x16_1_0_0_1_n_n.lhsIdx (ix2 i k) ((contrEquiv1 dot_S16384x32_S32x16_S16384x16_1_0_0_1_n_n 32 rfl rfl).symm d) = ix2 i d := by
    funext a; refine Fin.ext ?_
    match a with
    | ⟨0, _⟩ => rfl
    | ⟨1, _⟩ => exact (dot_S16384x32_S32x16_S16384x16_1_0_0_1_n_n.lhsIdx_val_of_single rfl _ _).trans (contrEquiv1_symm_val dot_S16384x32_S32x16_S16384x16_1_0_0_1_n_n 32 rfl rfl d)
  have hr : dot_S16384x32_S32x16_S16384x16_1_0_0_1_n_n.rhsIdx (ix2 i k) ((contrEquiv1 dot_S16384x32_S32x16_S16384x16_1_0_0_1_n_n 32 rfl rfl).symm d) = ix2 d k := by
    funext a; refine Fin.ext ?_
    match a with
    | ⟨0, _⟩ => exact (dot_S16384x32_S32x16_S16384x16_1_0_0_1_n_n.rhsIdx_val_of_single rfl _ _).trans (contrEquiv1_symm_val dot_S16384x32_S32x16_S16384x16_1_0_0_1_n_n 32 rfl rfl d)
    | ⟨1, _⟩ => rfl
  rw [hl, hr]

/-- The bias, made a row and broadcast along the batch, reads at (i, k) the bias at k. -/
theorem bias_apply {α : Type} (h1 : S16.BroadcastsInDim S1x16 (![1] : Fin 1 → Fin S1x16.rank))
    (h2 : S1x16.BroadcastsInDim S16384x16 (![0, 1] : Fin 2 → Fin S16384x16.rank)) (b : S16.Idx → α) (i : Fin 16384) (k : Fin 16) :
    broadcastInDim S16384x16 ![0, 1] h2 (broadcastInDim S1x16 ![1] h1 b) (ix2 i k) = b (ix1 k) := by
  unfold broadcastInDim
  refine congrArg b ?_
  funext a
  match a with
  | ⟨0, _⟩ => exact Fin.ext rfl

/-- THE LAYER AT (i, k): (∑_d rows[i,d] · W[k,d]) + b[k]. -/
theorem layer_apply (rows : FVec Ideal S16384x32 .f32) (W : FVec Ideal S16x32 .f32) (b : FVec Ideal S16 .f32)
    (i : Fin 16384) (k : Fin 16) :
    layer rows W b (ix2 i k) = (∑ d : Fin 32, rows (ix2 i d) * W (ix2 k d)) + b (ix1 k) := by
  unfold layer
  rw [addf_apply, dot_apply, bias_apply]
  refine congrArg (· + b (ix1 k)) (Finset.sum_congr rfl fun d _ => ?_)
  exact congrArg (rows (ix2 i d) * ·) (transpose_ix2_apply W _ d k)

/-! ## The result -/

/-- Batch entry i with hidden coordinate k inserted on the summed axis is the index (i, k). -/
theorem lift_eq (h : S16384x16.Reduces [1] S16384) (i : Fin 16384) (k : Fin 16) : h.lift (ix1 i) k = ix2 i k := by
  funext c
  match c with
  | ⟨0, _⟩ => exact Fin.ext rfl
  | ⟨1, _⟩ => exact Fin.ext rfl

/-- THE REFERENCE'S RESULT IS THE SPECIFICATION, the index words in range: entry i is the sum over the sixteen
    hidden entries of the products of the two layers' images of the rows the words of entry i name. -/
theorem out_eq_G (uid iid : IVec S16384 32) (ut it : FVec Ideal S1000000x32 .f32) (W : FVec Ideal S16x32 .f32)
    (b : FVec Ideal S16 .f32) (hu : ∀ j, (uid j).toNat ≤ 999999) (hi : ∀ j, (iid j).toNat ≤ 999999) :
    out uid iid ut it W b = Cert.Spec.G uid iid ut it W b := by
  have hR : S16384x16.Reduces [1] S16384 := by decide
  funext j
  obtain ⟨i, rfl⟩ : ∃ i : Fin 16384, j = ix1 i := ⟨j 0, eq_ix1 j⟩
  have key : ∀ k : Fin 16, mulf (layer (take ut uid) W b) (layer (take it iid) W b) (hR.lift (ix1 i) k)
      = Cert.Spec.hid ut W b (Cert.Spec.rowOf (uid (ix1 i))) k * Cert.Spec.hid it W b (Cert.Spec.rowOf (iid (ix1 i))) k := fun k => by
    rw [lift_eq hR i k, mulf_apply, layer_apply, layer_apply]
    unfold Cert.Spec.hid
    simp only [take_apply ut uid hu, take_apply it iid hi]
  unfold out Host.reduceAdd
  rw [Ideal.hostReduceAdd_def, Ideal.hostReduceAdd_single reducesTo_S16384x16_S16384_d1 hR, constant_apply,
    Ideal.ofBits_zero_f32, zero_add]
  exact Finset.sum_congr rfl fun k _ => key k

end Cert.RefSide

namespace Cert.RefSide

open Idealize.ShloMosaic Idealize.SL.Sem Cert.ReferenceIdeal

/-- Under ids in range, every weakly fair execution of the reference ends with its result at the specification and its arguments unchanged. -/
theorem run (m' : (ℓ : Loc nD τ sig) → Buf (Elt Ideal) ℓ) (g' : Dev nD → PrngReg)
    (hu : ∀ (c : Dev nD) i, (m' ((c.tc : Thread nD τ).loc main_arg0) i).toNat ≤ 999999)
    (hi : ∀ (c : Dev nD) i, (m' ((c.tc : Thread nD τ).loc main_arg1) i).toNat ≤ 999999) :
    θ_run (Cert.ReferenceIdeal.defs (F := Ideal)) (onTc (τ := τ) (Cert.ReferenceIdeal.main (F := Ideal))) ⟨m', fun _ => 0, g'⟩
      (fun r => ∀ c : Dev nD,
        r.2.mem ((c.tc : Thread nD τ).loc main_v13)
            = Cert.Spec.G (m' ((c.tc : Thread nD τ).loc main_arg0)) (m' ((c.tc : Thread nD τ).loc main_arg1))
                (m' ((c.tc : Thread nD τ).loc main_arg2)) (m' ((c.tc : Thread nD τ).loc main_arg3))
                (m' ((c.tc : Thread nD τ).loc main_arg4)) (m' ((c.tc : Thread nD τ).loc main_arg5))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)) :=
  (θ_run (Cert.ReferenceIdeal.defs (F := Ideal)) _ _).mono
    (fun _ h c =>
      ⟨((h c main_v13).trans (out_eq (F := Ideal) _)).trans (out_eq_G _ _ _ _ _ _ (hu c) (hi c)),
        (h c main_arg0).trans (arg0_eq (F := Ideal) _), (h c main_arg1).trans (arg1_eq (F := Ideal) _),
        (h c main_arg2).trans (arg2_eq (F := Ideal) _), (h c main_arg3).trans (arg3_eq (F := Ideal) _),
        (h c main_arg4).trans (arg4_eq (F := Ideal) _), (h c main_arg5).trans (arg5_eq (F := Ideal) _)⟩)
    (run_main (F := Ideal) m' g')

end Cert.RefSide

end
-- ==== Proof.Assemble.lean ====
/-
  The five claims from the pieces. Each program's run, under ids in range (which the precondition gives), ends with its
  arguments unchanged: the three frames. On the extended reals the kernel's accumulated value over the re-laid tables and
  weights is the specification, and the reference's result is the specification of its own arguments; from memories that
  agree on the arguments both results are therefore one array. The ideal program is the kernel's own text read on the
  extended reals, so there is nothing to preserve beyond that.
-/
import proofs.«218018_g87892210745873_cont_sun_m_655_26_alg».proof.Defs
import proofs.«218018_g87892210745873_cont_sun_m_655_26_alg».proof.Proof.Gen.Kernel
import proofs.«218018_g87892210745873_cont_sun_m_655_26_alg».proof.Proof.KCommon
import proofs.«218018_g87892210745873_cont_sun_m_655_26_alg».proof.Proof.Gen.KernelIdeal
import proofs.«218018_g87892210745873_cont_sun_m_655_26_alg».proof.Proof.Gen.ReferenceIdeal
import proofs.«218018_g87892210745873_cont_sun_m_655_26_alg».proof.Proof.Gen.Pre_input_domain
import proofs.«218018_g87892210745873_cont_sun_m_655_26_alg».proof.Proof.Common
import proofs.«218018_g87892210745873_cont_sun_m_655_26_alg».proof.Proof.Bridge
import proofs.«218018_g87892210745873_cont_sun_m_655_26_alg».proof.Proof.PreDecode
import proofs.«218018_g87892210745873_cont_sun_m_655_26_alg».proof.Proof.Spec
import proofs.«218018_g87892210745873_cont_sun_m_655_26_alg».proof.Proof.Launch
import proofs.«218018_g87892210745873_cont_sun_m_655_26_alg».proof.Proof.KLaunch
import proofs.«218018_g87892210745873_cont_sun_m_655_26_alg».proof.Proof.RefValue

noncomputable section

namespace Cert.Assemble

open Idealize.ShloMosaic Idealize.SL.Sem

/-- What the launch proof gives for the program at a float type: under ids in range every weakly fair execution ends, the
    result at the accumulated value of the launch contents (tables and weights re-laid), the six arguments unchanged. -/
abbrev RunK : Prop := ∀ (m : (ℓ : Loc Cert.Kernel.nD Cert.Kernel.τ Cert.Kernel.sig) → Buf (Elt Bits) ℓ) (ρ : Dev Cert.Kernel.nD → PrngReg)
    (_ : ∀ (d : Dev Cert.Kernel.nD) i, (m (Cert.Kernel.Hand.a0Loc d) i).toNat ≤ 999999) (_ : ∀ (d : Dev Cert.Kernel.nD) i, (m (Cert.Kernel.Hand.a1Loc d) i).toNat ≤ 999999),
    θ_run (Cert.Kernel.defs (F := Bits)) (Cert.Kernel.threads (F := Bits)) ⟨m, fun _ => 0, ρ⟩
      (fun r => ∀ c : Dev Cert.Kernel.nD,
        r.2.mem (Cert.Kernel.Hand.outLoc c) = Cert.Kernel.Hand.outVal (F := Bits) (m (Cert.Kernel.Hand.a0Loc c)) (m (Cert.Kernel.Hand.a1Loc c))
            (fun i => shapeCast Cert.Kernel.S250000x128 (m ((SparseCore.T c).loc Cert.Kernel.main_arg2)) Cert.Kernel.Facts₀.shapeCasts_S1000000x32_S250000x128 i)
            (fun i => shapeCast Cert.Kernel.S250000x128 (m ((SparseCore.T c).loc Cert.Kernel.main_arg3)) Cert.Kernel.Facts₀.shapeCasts_S1000000x32_S250000x128 i)
            (fun i => shapeCast Cert.Kernel.S512 (m ((SparseCore.T c).loc Cert.Kernel.main_arg4)) Cert.Kernel.Facts₀.shapeCasts_S16x32_S512 i) (m (Cert.Kernel.Hand.bbLoc c))
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5))

abbrev RunKI : Prop := ∀ (m : (ℓ : Loc Cert.KernelIdeal.nD Cert.KernelIdeal.τ Cert.KernelIdeal.sig) → Buf (Elt Ideal) ℓ) (ρ : Dev Cert.KernelIdeal.nD → PrngReg)
    (_ : ∀ (d : Dev Cert.KernelIdeal.nD) i, (m (Cert.KernelIdeal.Hand.a0Loc d) i).toNat ≤ 999999) (_ : ∀ (d : Dev Cert.KernelIdeal.nD) i, (m (Cert.KernelIdeal.Hand.a1Loc d) i).toNat ≤ 999999),
    θ_run (Cert.KernelIdeal.defs (F := Ideal)) (Cert.KernelIdeal.threads (F := Ideal)) ⟨m, fun _ => 0, ρ⟩
      (fun r => ∀ c : Dev Cert.KernelIdeal.nD,
        r.2.mem (Cert.KernelIdeal.Hand.outLoc c) = Cert.KernelIdeal.Hand.outVal (F := Ideal) (m (Cert.KernelIdeal.Hand.a0Loc c)) (m (Cert.KernelIdeal.Hand.a1Loc c))
            (fun i => shapeCast Cert.KernelIdeal.S250000x128 (m ((SparseCore.T c).loc Cert.KernelIdeal.main_arg2)) Cert.KernelIdeal.Facts₀.shapeCasts_S1000000x32_S250000x128 i)
            (fun i => shapeCast Cert.KernelIdeal.S250000x128 (m ((SparseCore.T c).loc Cert.KernelIdeal.main_arg3)) Cert.KernelIdeal.Facts₀.shapeCasts_S1000000x32_S250000x128 i)
            (fun i => shapeCast Cert.KernelIdeal.S512 (m ((SparseCore.T c).loc Cert.KernelIdeal.main_arg4)) Cert.KernelIdeal.Facts₀.shapeCasts_S16x32_S512 i) (m (Cert.KernelIdeal.Hand.bbLoc c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

/-- What the reference's proof gives: under ids in range its run ends with its result at the specification and its arguments unchanged. -/
abbrev RunR : Prop := ∀ (m' : (ℓ : Loc Cert.ReferenceIdeal.nD Cert.ReferenceIdeal.τ Cert.ReferenceIdeal.sig) → Buf (Elt Ideal) ℓ) (g' : Dev Cert.ReferenceIdeal.nD → PrngReg)
    (_ : ∀ (c : Dev Cert.ReferenceIdeal.nD) i, (m' ((c.tc : Thread Cert.ReferenceIdeal.nD Cert.ReferenceIdeal.τ).loc Cert.ReferenceIdeal.main_arg0) i).toNat ≤ 999999)
    (_ : ∀ (c : Dev Cert.ReferenceIdeal.nD) i, (m' ((c.tc : Thread Cert.ReferenceIdeal.nD Cert.ReferenceIdeal.τ).loc Cert.ReferenceIdeal.main_arg1) i).toNat ≤ 999999),
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v13)
            = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

theorem frame_k (runK : RunK) : Cert.frame_Kernel := fun m g hpre =>
  (θ_run (Cert.Kernel.defs (F := Bits)) _ _).mono (fun _ h c => (h c).2)
    (runK m g (fun c => (Cert.PreSide.ranges _ _ _ _ _ _ (hpre c)).1) (fun c => (Cert.PreSide.ranges _ _ _ _ _ _ (hpre c)).2))

theorem frame_ki (runKI : RunKI) : Cert.frame_KernelIdeal := fun m g hpre =>
  (θ_run (Cert.KernelIdeal.defs (F := Ideal)) _ _).mono (fun _ h c => (h c).2)
    (runKI m g (fun c => (Cert.PreSide.ranges _ _ _ _ _ _ (hpre c)).1) (fun c => (Cert.PreSide.ranges _ _ _ _ _ _ (hpre c)).2))

theorem frame_ri (runR : RunR) : Cert.frame_ReferenceIdeal := fun m g hpre =>
  (θ_run (Cert.ReferenceIdeal.defs (F := Ideal)) _ _).mono (fun _ h c => (h c).2)
    (runR m g (fun c => (Cert.PreSide.ranges _ _ _ _ _ _ (hpre c)).1) (fun c => (Cert.PreSide.ranges _ _ _ _ _ _ (hpre c)).2))

/-- Both programs end at the specification of the arguments they agree on: the kernel's accumulated value over the re-laid
    arrays is the specification on the extended reals, and the reference's result is the specification of its own arguments,
    which are the kernel's. -/
theorem algebraic (runKI : RunKI) (runR : RunR) : Cert.algebraic_KernelIdeal_ReferenceIdeal := by
  intro m g m' g' hpre hagree
  have hr := fun c => Cert.PreSide.ranges _ _ _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run (Cert.KernelIdeal.defs (F := Ideal)) _ _).mono (fun _ h c => ⟨(h c).1.trans ?_, (h c).2⟩)
      (runKI m g (fun c => (hr c).1) (fun c => (hr c).2))
    exact Cert.KernelIdeal.Hand.outVal_ideal _ _ _ _ _ _ _ _ (hr c).1 (hr c).2
  · refine (θ_run (Cert.ReferenceIdeal.defs (F := Ideal)) _ _).mono (fun _ h c => ⟨(h c).1.trans ?_, (h c).2⟩)
      (runR m' g' (fun c i => by rw [(hagree c).1]; exact (hr c).1 i) (fun c i => by rw [(hagree c).2.1]; exact (hr c).2 i))
    obtain ⟨e0, e1, e2, e3, e4, e5⟩ := hagree c
    rw [e0, e1, e2, e3, e4, e5]

theorem claim_of (runK : RunK) (runKI : RunKI) (runR : RunR) : Cert.Claim :=
  ⟨Cert.Kernel.Gen.facts, Cert.KernelIdeal.Gen.facts, Cert.ReferenceIdeal.Gen.facts, Cert.Pre_input_domain.Gen.facts,
    frame_k runK, frame_ki runKI, frame_ri runR, trivial, algebraic runKI runR⟩

/-- The certificate's claim, from the vector subcore's task proved for the program on the extended reals and on words. -/
theorem claim (hT : Cert.KernelIdeal.Hand.TileBody (F := Ideal)) (hTk : Cert.Kernel.Hand.TileBody (F := Bits)) : Cert.Claim :=
  claim_of (fun m ρ h0 h1 => Cert.Kernel.Hand.run_main hTk m ρ h0 h1) (fun m ρ h0 h1 => Cert.KernelIdeal.Hand.run_main hT m ρ h0 h1)
    Cert.RefSide.run

end Cert.Assemble

end
-- ==== Proof.TileInv.lean ====
/-
  One vector subcore's state between the stages of its task, with every scratch buffer's contents in closed form:
  its 512 user ids and item ids (entries base .. base+511 of the id arrays, base = 1024 s + 512 c), the lines they name
  (id / 4), the two 256-row line buffers (arbitrary before a wave; during wave t, row r holds line (id_{256 t + r}) / 4
  of the re-laid table), the weights and the bias in vector and in scalar memory, and the result scratch, whose first
  n entries are the accumulated values of batch entries base .. base+n-1.
-/
import proofs.«218018_g87892210745873_cont_sun_m_655_26_alg».proof.Proof.Common
import proofs.«218018_g87892210745873_cont_sun_m_655_26_alg».proof.Proof.Gen.KernelIdeal.Skeleton

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "A0" => (Memref.whole Cert.KernelIdeal.main_arg0_scv : Memref Cert.KernelIdeal.sig Kind.scVector Space.hbm Cert.KernelIdeal.S16384 EltTy.i32)
local notation "A1" => (Memref.whole Cert.KernelIdeal.main_arg1_scv : Memref Cert.KernelIdeal.sig Kind.scVector Space.hbm Cert.KernelIdeal.S16384 EltTy.i32)
local notation "UT" => (Memref.whole Cert.KernelIdeal.main_v0_scv : Memref Cert.KernelIdeal.sig Kind.scVector Space.hbm Cert.KernelIdeal.S250000x128 EltTy.f32)
local notation "IT" => (Memref.whole Cert.KernelIdeal.main_v1_scv : Memref Cert.KernelIdeal.sig Kind.scVector Space.hbm Cert.KernelIdeal.S250000x128 EltTy.f32)
local notation "WW" => (Memref.whole Cert.KernelIdeal.main_v2_scv : Memref Cert.KernelIdeal.sig Kind.scVector Space.hbm Cert.KernelIdeal.S512 EltTy.f32)
local notation "BB" => (Memref.whole Cert.KernelIdeal.main_arg5_scv : Memref Cert.KernelIdeal.sig Kind.scVector Space.hbm Cert.KernelIdeal.S16 EltTy.f32)
local notation "OO" => (Memref.whole Cert.KernelIdeal.main_v3_scv : Memref Cert.KernelIdeal.sig Kind.scVector Space.hbm Cert.KernelIdeal.S16384 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S512 EltTy.i32)
local notation "s4" => (Memref.whole Cert.KernelIdeal.cc0_scratch4 : Memref Cert.KernelIdeal.sig Kind.scVector Space.vmem Cert.KernelIdeal.S256x128 EltTy.f32)
local notation "s5" => (Memref.whole Cert.KernelIdeal.cc0_scratch5 : Memref Cert.KernelIdeal.sig Kind.scVector Space.vmem Cert.KernelIdeal.S256x128 EltTy.f32)
local notation "s6" => (Memref.whole Cert.KernelIdeal.cc0_scratch6 : Memref Cert.KernelIdeal.sig Kind.scVector Space.vmem Cert.KernelIdeal.S512 EltTy.f32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.smem Cert.KernelIdeal.S512 EltTy.f32)
local notation "s9" => (Memref.whole Cert.KernelIdeal.cc0_scratch9 : Memref Cert.KernelIdeal.sig Kind.scVector Space.smem Cert.KernelIdeal.S16 EltTy.f32)
local notation "s10" => (Memref.whole Cert.KernelIdeal.cc0_scratch10 : Memref Cert.KernelIdeal.sig Kind.scVector Space.vmem Cert.KernelIdeal.S512 EltTy.f32)

/-- The first batch entry of the subcore at grid point L. -/
def tbase (L : grid0.Coords) : ℕ := 1024 * (L 1).val + 512 * (L 0).val

theorem tbase_lt (L : grid0.Coords) (j : ℕ) (hj : j < 512) : tbase L + j < 16384 := by
  have h0 : (L 0).val < 2 := (L 0).isLt
  have h1 : (L 1).val < 16 := (L 1).isLt
  unfold tbase; omega

/-- Batch entry j of the subcore, as an index of the whole batch. -/
def bidx (L : grid0.Coords) (j : S512.Idx) : S16384.Idx := ix1 (⟨tbase L + (j 0).val, tbase_lt L _ (j 0).isLt⟩ : Fin 16384)

/-- The subcore's 512 ids out of an id array. -/
def idBlk (L : grid0.Coords) (f : S16384.Idx → BitVec 32) : S512.Idx → BitVec 32 := fun j => f (bidx L j)

/-- The lines those ids name: id / 4. -/
def lineBlk (L : grid0.Coords) (f : S16384.Idx → BitVec 32) : S512.Idx → BitVec 32 :=
  fun j => BitVec.ofNat 32 ((idBlk L f j).toNat / 4)

/-- A line buffer during wave t: row r holds the line that entry 256 t + r of the line list names (kept inside the table). -/
def gath (tab : S250000x128.Idx → F .f32) (lines : S512.Idx → BitVec 32) (t : ℕ) : S256x128.Idx → F .f32 :=
  fun x => tab (ix2 (⟨min (lines (ix1 (⟨min (256 * t + (x 0).val) 511, by omega⟩ : Fin 512))).toNat 249999, by omega⟩ : Fin 250000) (x 1))

/-- The result scratch agrees with the accumulated values on its first n entries. -/
def OutDone [FloatOps F] (L : grid0.Coords) (f0 f1 : S16384.Idx → BitVec 32) (fu fi : S250000x128.Idx → F .f32) (fw : S512.Idx → F .f32)
    (fb : S16.Idx → F .f32) (n : ℕ) (ov : S512.Idx → F .f32) : Prop :=
  ∀ j : S512.Idx, (j 0).val < n → ov j = outVal (F := F) f0 f1 fu fi fw fb (bidx L j)

/-- Everything the subcore holds at the loops: the six inputs under the read share, its entries of the result, the eleven
    scratch buffers at their closed contents (the line buffers at ub, ib and the result scratch at ov), the seven
    semaphores' counters at zero. -/
def St (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (ub ib : S256x128.Idx → F .f32) (ov : S512.Idx → F .f32) : sProp 𝕄 :=
  iprop(((A0).view.loc (V d (cV L) (jV L)) ↦{q} f0) ∗ ((A1).view.loc (V d (cV L) (jV L)) ↦{q} f1)
    ∗ ((UT).view.loc (V d (cV L) (jV L)) ↦{q} fu) ∗ ((IT).view.loc (V d (cV L) (jV L)) ↦{q} fi)
    ∗ ((WW).view.loc (V d (cV L) (jV L)) ↦{q} fw) ∗ ((BB).view.loc (V d (cV L) (jV L)) ↦{q} fb)
    ∗ ((outBlkM L).view.loc (V d (cV L) (jV L)) ↦[(outBlkM L).view.set]{fullShare} fo)
    ∗ ((s0).view.loc (V d (cV L) (jV L)) ↦{fullShare} idBlk L f0) ∗ ((s1).view.loc (V d (cV L) (jV L)) ↦{fullShare} idBlk L f1)
    ∗ ((s2).view.loc (V d (cV L) (jV L)) ↦{fullShare} lineBlk L f0) ∗ ((s3).view.loc (V d (cV L) (jV L)) ↦{fullShare} lineBlk L f1)
    ∗ ((s4).view.loc (V d (cV L) (jV L)) ↦{fullShare} ub) ∗ ((s5).view.loc (V d (cV L) (jV L)) ↦{fullShare} ib)
    ∗ ((s6).view.loc (V d (cV L) (jV L)) ↦{fullShare} fw) ∗ ((s7).view.loc (V d (cV L) (jV L)) ↦{fullShare} fb)
    ∗ ((s8).view.loc (V d (cV L) (jV L)) ↦{fullShare} fw) ∗ ((s9).view.loc (V d (cV L) (jV L)) ↦{fullShare} fb)
    ∗ ((s10).view.loc (V d (cV L) (jV L)) ↦{fullShare} ov)
    ∗ semVal (V d (cV L) (jV L), SemLoc.dma cc0_scratch11.sem) 0 ∗ semVal (V d (cV L) (jV L), SemLoc.dma cc0_scratch12.sem) 0
    ∗ semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0
    ∗ semVal (V d (cV L) (jV L), SemLoc.dma cc0_scoped4.sem) 0)

/-- One trip of the inner loop (16 batch entries): from the result scratch right on the first 256 t1 + 16 t2 entries to right
    on 16 more, everything else as it was. (No wait happens inside: what the subcore owes is untouched.) -/
def GrpStep [FloatOps F] : Prop :=
  ∀ (_ : (K (F := F)).Facts) (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (_ : ∀ i, (f0 i).toNat ≤ 999999) (_ : ∀ i, (f1 i).toNat ≤ 999999)
    (t1 : Fin k0_t1_loop.trips) (t2 : Fin k0_t2_loop.trips) (acc : BitVec 32) (v2339 : Vec F S16 .f32) (v2369 : F .f32)
    (ov : S512.Idx → F .f32) (_ : OutDone (F := F) L f0 f1 fu fi fw fb (256 * t1.val + 16 * t2.val) ov),
    St (F := F) d L q f0 f1 fu fi fw fb fo (gath fu (lineBlk L f0) t1.val) (gath fi (lineBlk L f1) t1.val) ov
      ⊢ wp frame (wpE (defs₀ (F := F)) 𝒱₀ (V d (cV L) (jV L)) none) Set.univ
          (k0_t2_body L A0 (Memref.isWhole_whole _) A1 (Memref.isWhole_whole _) UT (Memref.isWhole_whole _) IT (Memref.isWhole_whole _)
            WW (Memref.isWhole_whole _) BB (Memref.isWhole_whole _) OO (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            s8 (Memref.isWhole_whole _) s9 (Memref.isWhole_whole _) s10 (Memref.isWhole_whole _)
            cc0_scratch11 cc0_scratch12 cc0_scoped0 cc0_scoped1 cc0_scoped2 cc0_scoped3 cc0_scoped4
            v2339 v2369 (iota .scVector S16 32 [0] Facts₀.iota_S16_d0_w32_scVector) t1 (Scalar.muli (Scf.iv 0#32 1#32 t1) 256#32) t2 acc)
          fun _ => iprop(∃ ov', ⌜OutDone (F := F) L f0 f1 fu fi fw fb (256 * t1.val + 16 * (t2.val + 1)) ov'⌝
            ∗ St (F := F) d L q f0 f1 fu fi fw fb fo (gath fu (lineBlk L f0) t1.val) (gath fi (lineBlk L f1) t1.val) ov')

/-- One trip of the outer loop (a wave of 256 batch entries): the two line buffers are filled by the two indexed copies
    (each on its own semaphore, both waited for before any row is read) and the inner loop runs its 16 trips. The waits
    are recorded in what the subcore owes. -/
def WaveStep [FloatOps F] : Prop :=
  ∀ (_ : (K (F := F)).Facts) (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (_ : ∀ i, (f0 i).toNat ≤ 999999) (_ : ∀ i, (f1 i).toNat ≤ 999999)
    (O : CellTallies nD τ sig (HIx 1)) (W' : Waits sig (HIx 1))
    (t1 : Fin k0_t1_loop.trips) (acc : BitVec 32) (v2339 : Vec F S16 .f32) (v2369 : F .f32)
    (ub ib : S256x128.Idx → F .f32) (ov : S512.Idx → F .f32) (_ : OutDone (F := F) L f0 f1 fu fi fw fb (256 * t1.val) ov),
    iprop(Transfers.MayWaits (V d (cV L) (jV L)) (none : HIx 1) O ∗ St (F := F) d L q f0 f1 fu fi fw fb fo ub ib ov
        ∗ owes (V d (cV L) (jV L)) O W')
      ⊢ wp frame (wpE (defs₀ (F := F)) 𝒱₀ (V d (cV L) (jV L)) none) Set.univ
          (k0_t1_body L A0 (Memref.isWhole_whole _) A1 (Memref.isWhole_whole _) UT (Memref.isWhole_whole _) IT (Memref.isWhole_whole _)
            WW (Memref.isWhole_whole _) BB (Memref.isWhole_whole _) OO (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            s8 (Memref.isWhole_whole _) s9 (Memref.isWhole_whole _) s10 (Memref.isWhole_whole _)
            cc0_scratch11 cc0_scratch12 cc0_scoped0 cc0_scoped1 cc0_scoped2 cc0_scoped3 cc0_scoped4
            v2339 v2369 (iota .scVector S16 32 [0] Facts₀.iota_S16_d0_w32_scVector) t1 acc)
          fun _ => iprop(Transfers.MayWaits (V d (cV L) (jV L)) (none : HIx 1) O
            ∗ ∃ ub' ib' ov' W'', ⌜OutDone (F := F) L f0 f1 fu fi fw fb (256 * (t1.val + 1)) ov'⌝ ∗ ⌜∀ p ∈ W'', p ∈ W' ∨ p.2 = none⌝
              ∗ St (F := F) d L q f0 f1 fu fi fw fb fo ub' ib' ov' ∗ owes (V d (cV L) (jV L)) O W'')

end Cert.KernelIdeal.Hand

end
-- ==== Proof.Scoped.lean ====
/-
  One vector subcore's scoped storage, opened into its named pieces: its seven scoped transfer semaphores, each at zero,
  and its eleven scratch buffers, each whole at some contents, beside what is left of the subcore's own cells and buffers.
  Both are the same step repeated: a member of a finite set is taken out of a separating conjunction over the set.
-/
import proofs.«218018_g87892210745873_cont_sun_m_655_26_alg».proof.Proof.Common

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Taking a list of distinct members out of a separating conjunction over a finite set -/

section EraseList

variable {M : Type} [URA M] {I J : Type} [DecidableEq I]

/-- Φ at the images under f of a list's members, in the list's order, and then Φ over what is left of the set s once
    those images are erased from it, in the same order. -/
def sepErase (Φ : I → sProp M) (f : J → I) : List J → Finset I → sProp M
  | [], s => bigSep s Φ
  | j :: l, s => iprop(Φ (f j) ∗ sepErase Φ f l (s.erase (f j)))

/-- When f is injective, the list has no repetition and every image lies in s, the separating conjunction over s is
    that: the head's image is in s, and each later image differs from it, so it is still in s with the head's erased. -/
theorem bigSep_sepErase (Φ : I → sProp M) {f : J → I} (hf : Function.Injective f) :
    ∀ (l : List J) (s : Finset I), l.Nodup → (∀ j ∈ l, f j ∈ s) → bigSep s Φ = sepErase Φ f l s
  | [], _, _, _ => rfl
  | j :: l, s, hnd, hmem => by
    rw [sepErase, SparseCore.bigSep_erase' (hmem j (List.mem_cons_self ..)),
      bigSep_sepErase Φ hf l (s.erase (f j)) (List.nodup_cons.mp hnd).2 fun k hk =>
        Finset.mem_erase.mpr ⟨fun e => (List.nodup_cons.mp hnd).1 (hf e ▸ hk), hmem k (List.mem_cons_of_mem _ hk)⟩]

end EraseList

/-! ## The subcore's semaphores -/

/-- The cell of the subcore at grid point L that a transfer semaphore names. -/
abbrev semCell (d : Dev nD) (L : grid0.Coords) (s : DmaSem sig) : GSem nD τ sig := (V d (cV L) (jV L), .dma s)

theorem semCell_injective (d : Dev nD) (L : grid0.Coords) : Function.Injective (semCell d L) := by
  intro a b e
  simpa using e

/-- The seven semaphores are among the subcore's own scoped cells: each at zero, and the rest at zero. -/
theorem ownSems0_V (d : Dev nD) (L : grid0.Coords) :
    (ownSems0 (V d (cV L) (jV L)) : sProp 𝕄)
      = iprop(semVal (semCell d L cc0_scratch11.sem) 0 ∗ semVal (semCell d L cc0_scratch12.sem) 0 ∗ semVal (semCell d L cc0_scoped0.sem) 0
          ∗ semVal (semCell d L cc0_scoped1.sem) 0 ∗ semVal (semCell d L cc0_scoped2.sem) 0 ∗ semVal (semCell d L cc0_scoped3.sem) 0
          ∗ semVal (semCell d L cc0_scoped4.sem) 0
          ∗ bigSep ((((((((ownCells (V d (cV L) (jV L))).erase (semCell d L cc0_scratch11.sem)).erase (semCell d L cc0_scratch12.sem)).erase
              (semCell d L cc0_scoped0.sem)).erase (semCell d L cc0_scoped1.sem)).erase (semCell d L cc0_scoped2.sem)).erase
              (semCell d L cc0_scoped3.sem)).erase (semCell d L cc0_scoped4.sem)) fun g => semVal g 0) := by
  unfold SparseCore.Cfg.ownSems0
  have hsc : ∀ s ∈ [cc0_scratch11.sem, cc0_scratch12.sem, cc0_scoped0.sem, cc0_scoped1.sem, cc0_scoped2.sem, cc0_scoped3.sem, cc0_scoped4.sem],
      (SemLoc.dma s : SemLoc sig).isScoped .scVector = true := by decide
  exact bigSep_sepErase (fun g => semVal g 0) (semCell_injective d L)
    [cc0_scratch11.sem, cc0_scratch12.sem, cc0_scoped0.sem, cc0_scoped1.sem, cc0_scoped2.sem, cc0_scoped3.sem, cc0_scoped4.sem] _
    (by decide) fun s hs => mem_ownCells.mpr ⟨rfl, hsc s hs⟩

/-! ## The subcore's scratch buffers -/

/-- The eleven scratch buffers are among the subcore's own: each whole at some contents, and the rest. -/
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f) ∗ (∃ f, (V d (cV L) (jV L)).loc cc0_scratch7 ↦{fullShare} f)
          ∗ (∃ f, (V d (cV L) (jV L)).loc cc0_scratch8 ↦{fullShare} f) ∗ (∃ f, (V d (cV L) (jV L)).loc cc0_scratch9 ↦{fullShare} f)
          ∗ (∃ f, (V d (cV L) (jV L)).loc cc0_scratch10 ↦{fullShare} f)
          ∗ bigSep ((((((((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4)).erase
              ((Proc.scVector (cV L) (jV L)).devRef cc0_scratch5)).erase ((Proc.scVector (cV L) (jV L)).devRef cc0_scratch6)).erase
              ((Proc.scVector (cV L) (jV L)).devRef cc0_scratch7)).erase ((Proc.scVector (cV L) (jV L)).devRef cc0_scratch8)).erase
              ((Proc.scVector (cV L) (jV L)).devRef cc0_scratch9)).erase ((Proc.scVector (cV L) (jV L)).devRef cc0_scratch10))
              fun b => iprop(∃ f, ((d, b) : Loc nD τ sig) ↦{fullShare} f)) := by
  unfold SparseCore.Cfg.ownBufs
  have hnd : ([cc0_scratch0, cc0_scratch1, cc0_scratch2, cc0_scratch3, cc0_scratch4, cc0_scratch5, cc0_scratch6, cc0_scratch7, cc0_scratch8,
      cc0_scratch9, cc0_scratch10] : List (Ref sig .scVector)).Nodup := by decide
  have hmem : ∀ r ∈ ([cc0_scratch0, cc0_scratch1, cc0_scratch2, cc0_scratch3, cc0_scratch4, cc0_scratch5, cc0_scratch6, cc0_scratch7,
      cc0_scratch8, cc0_scratch9, cc0_scratch10] : List (Ref sig .scVector)),
      (Proc.scVector (cV L) (jV L)).devRef r ∈ ownRefs (τ := τ) (sig := sig) (.scVector (cV L) (jV L)) := by
    intro r hr
    simp only [List.mem_cons, List.not_mem_nil, or_false] at hr
    rcases hr with rfl | rfl | rfl | rfl | rfl | rfl | rfl | rfl | rfl | rfl | rfl <;>
      exact SparseCore.Cfg.mem_ownRefs_of_owner (p := Proc.scVector (cV L) (jV L)) rfl
  exact bigSep_sepErase (fun b => iprop(∃ f, ((d, b) : Loc nD τ sig) ↦{fullShare} f)) (Proc.devRef_injective (Proc.scVector (cV L) (jV L)))
    _ _ hnd hmem

end Cert.KernelIdeal.Hand

end
-- ==== Proof.OutBlock.lean ====
/-
  The subcore's block of the result after its 512-entry result scratch is copied onto it. The block of the subcore at
  grid point L is the 512 consecutive entries of the result from 1024·(L 1) + 512·(L 0): entry j of the block is entry
  base + j of the whole array. A copy of the whole scratch onto the block leaves, at entry base + j, the scratch's
  entry j; so if every scratch entry j is the value of a whole-array function G at base + j, the block holds G.
-/
import proofs.«218018_g87892210745873_cont_sun_m_655_26_alg».proof.Proof.TileInv

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "A0" => (Memref.whole Cert.KernelIdeal.main_arg0_scv : Memref Cert.KernelIdeal.sig Kind.scVector Space.hbm Cert.KernelIdeal.S16384 EltTy.i32)
local notation "A1" => (Memref.whole Cert.KernelIdeal.main_arg1_scv : Memref Cert.KernelIdeal.sig Kind.scVector Space.hbm Cert.KernelIdeal.S16384 EltTy.i32)
local notation "UT" => (Memref.whole Cert.KernelIdeal.main_v0_scv : Memref Cert.KernelIdeal.sig Kind.scVector Space.hbm Cert.KernelIdeal.S250000x128 EltTy.f32)
local notation "IT" => (Memref.whole Cert.KernelIdeal.main_v1_scv : Memref Cert.KernelIdeal.sig Kind.scVector Space.hbm Cert.KernelIdeal.S250000x128 EltTy.f32)
local notation "WW" => (Memref.whole Cert.KernelIdeal.main_v2_scv : Memref Cert.KernelIdeal.sig Kind.scVector Space.hbm Cert.KernelIdeal.S512 EltTy.f32)
local notation "BB" => (Memref.whole Cert.KernelIdeal.main_arg5_scv : Memref Cert.KernelIdeal.sig Kind.scVector Space.hbm Cert.KernelIdeal.S16 EltTy.f32)
local notation "OO" => (Memref.whole Cert.KernelIdeal.main_v3_scv : Memref Cert.KernelIdeal.sig Kind.scVector Space.hbm Cert.KernelIdeal.S16384 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S512 EltTy.i32)
local notation "s4" => (Memref.whole Cert.KernelIdeal.cc0_scratch4 : Memref Cert.KernelIdeal.sig Kind.scVector Space.vmem Cert.KernelIdeal.S256x128 EltTy.f32)
local notation "s5" => (Memref.whole Cert.KernelIdeal.cc0_scratch5 : Memref Cert.KernelIdeal.sig Kind.scVector Space.vmem Cert.KernelIdeal.S256x128 EltTy.f32)
local notation "s6" => (Memref.whole Cert.KernelIdeal.cc0_scratch6 : Memref Cert.KernelIdeal.sig Kind.scVector Space.vmem Cert.KernelIdeal.S512 EltTy.f32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.smem Cert.KernelIdeal.S512 EltTy.f32)
local notation "s9" => (Memref.whole Cert.KernelIdeal.cc0_scratch9 : Memref Cert.KernelIdeal.sig Kind.scVector Space.smem Cert.KernelIdeal.S16 EltTy.f32)
local notation "s10" => (Memref.whole Cert.KernelIdeal.cc0_scratch10 : Memref Cert.KernelIdeal.sig Kind.scVector Space.vmem Cert.KernelIdeal.S512 EltTy.f32)

/-- Entry x of the subcore's block of the result sits at entry base + x of the whole array: the block is the rectangle
    of 512 consecutive entries at the closed-form offset. -/
theorem outBlkM_emb (L : grid0.Coords) (x : S512.Idx) : (outBlkM L).view.emb x = bidx L x := by
  refine funext ((Fin.forall_fin_one (p := fun a => (outBlkM L).view.emb x a = bidx L x a)).mpr ?_)
  apply Fin.ext
  show (k0_off1 L) 0 + 1 * (x 0).val = tbase L + (x 0).val
  rw [Gen.k0_off1_eq]
  simp [tbase]

/-- The result block after the scratch is copied onto it holds, at each of its entries, the scratch's entry: so if the
    scratch is right everywhere, the block is the accumulated result on the block. -/
theorem out_block_eq (L : grid0.Coords) (fo G : S16384.Idx → F .f32) (P ov : S512.Idx → F .f32) (hP : P = ov)
    (hov : ∀ j : S512.Idx, ov j = G (bidx L j)) :
    ∀ y ∈ (outBlkM L).view.set, ((outBlkM L).view.writes (Elt F) fo [⟨Rect.whole S512, P⟩]) y = G y := by
  intro y hy
  subst hP
  obtain ⟨x, -, rfl⟩ := Finset.mem_map.mp hy
  have key := View.write_emb_of_mem (Val := Elt F) (v := (outBlkM L).view.slice (Rect.whole S512)) fo P (Finset.mem_univ x)
  have e : ((outBlkM L).view.slice (Rect.whole S512)).emb x = (outBlkM L).view.emb x := by
    rw [View.emb_slice]
    show (outBlkM L).view.emb ((Rect.whole S512).emb x) = _
    rw [Rect.emb_whole_apply]
  rw [e] at key
  rw [View.writes_singleton]
  refine key.trans ((cast_eq _ _).trans ?_)
  rw [outBlkM_emb]
  exact hov x

/-- Reading the whole result scratch at its own shape and element type is the scratch's contents. -/
theorem readAs_same_read_whole (ov : S512.Idx → F .f32) : ReadAs.same.apply (View.read (Elt F) (s10).view ov) = ov := rfl

/-- Hence the block is held at G: the points-to over the block's entries looks only at those entries. -/
theorem out_block_pts (d : Dev nD) (L : grid0.Coords) (fo G : S16384.Idx → F .f32) (P ov : S512.Idx → F .f32) (hP : P = ov)
    (hov : ∀ j : S512.Idx, ov j = G (bidx L j)) :
    (((outBlkM L).view.loc (V d (cV L) (jV L)) ↦[(outBlkM L).view.set]{fullShare} (outBlkM L).view.writes (Elt F) fo [⟨Rect.whole S512, P⟩]) : sProp 𝕄)
      = ((outBlkM L).view.loc (V d (cV L) (jV L)) ↦[(outBlkM L).view.set]{fullShare} G) :=
  pointsTo_congr fun i hi => out_block_eq L fo G P ov hP hov i hi

end Cert.KernelIdeal.Hand

end
-- ==== Proof.IntFacts.lean ====
/-
  The kernel's integer vectors, as numbers. Lane x of the slot vector of trip t is 16·t + x (below 256); the
  column vector built from an id vector v and an entry number dd is 32·(v mod 4) + dd (below 128), the "and" with 3
  being the remainder by 4 and the shift by 5 the product by 32, nothing wrapping; the line vector is v shifted right
  by 2, that is v / 4 (at most 249999 for an id at most 999999). Slot and column vectors in range make the indexed
  load's range condition true, and the indexed load at a lane is the base at (slot, column) of that lane.
-/
import proofs.«218018_g87892210745873_cont_sun_m_655_26_alg».proof.Proof.Common
import proofs.«218018_g87892210745873_cont_sun_m_655_26_alg».proof.Proof.Gen.KernelIdeal.Skeleton

noncomputable section

namespace Cert.KernelIdeal.Hand

open Cert.KernelIdeal Cert.KernelIdeal.Gen
open Idealize.ShloMosaic Idealize.ShloMosaic.ValueIdx

variable {F : FTy → Type} [FloatOps F]

/-! ## (a) The slot vector -/

/-- The loop over slots has at most 16 trips. -/
theorem t2_lt (t2 : Fin k0_t2_loop.trips) : t2.val < 16 := lt_of_lt_of_le t2.isLt k0_t2_abs.2.1

/-- Lane x of (0, 1, …, 15) + 16·t is 16·t + x. -/
theorem slots_toNat (t2 : Fin k0_t2_loop.trips) (x : S16.Idx) :
    ((addi (iota .scVector S16 32 [0] Facts₀.iota_S16_d0_w32_scVector)
        (broadcast S16 (Scalar.muli (Scf.iv 0#32 1#32 t2) 16#32))) x).toNat = 16 * t2.val + (x 0).val := by
  have ht := t2_lt t2
  have hx : (x 0).val < 16 := (x 0).isLt
  show (BitVec.ofNat 32 (0 * 16 + (x 0).val) + (0#32 + BitVec.ofNat 32 t2.val * 1#32) * 16#32).toNat = _
  simp only [BitVec.toNat_add, BitVec.toNat_mul, BitVec.toNat_ofNat, Nat.reducePow, Nat.reduceMod]
  omega

theorem slots_lt (t2 : Fin k0_t2_loop.trips) (x : S16.Idx) :
    ((addi (iota .scVector S16 32 [0] Facts₀.iota_S16_d0_w32_scVector)
        (broadcast S16 (Scalar.muli (Scf.iv 0#32 1#32 t2) 16#32))) x).toNat < 256 := by
  have ht := t2_lt t2
  have hx : (x 0).val < 16 := (x 0).isLt
  rw [slots_toNat]; omega

/-- The same for the kernel's own spelling of the slot vector. -/
theorem pay1_toNat (t2 : Fin k0_t2_loop.trips) (x : S16.Idx) :
    (k0_pay1 (iota .scVector S16 32 [0] Facts₀.iota_S16_d0_w32_scVector) 0#32 1#32 t2 x).toNat = 16 * t2.val + (x 0).val :=
  slots_toNat t2 x

theorem pay1_lt (t2 : Fin k0_t2_loop.trips) (x : S16.Idx) :
    (k0_pay1 (iota .scVector S16 32 [0] Facts₀.iota_S16_d0_w32_scVector) 0#32 1#32 t2 x).toNat < 256 :=
  slots_lt t2 x

/-! ## (b) The column vector -/

/-- (w and 3) shifted left by 5 is 32·(w mod 4). -/
theorem word_col_toNat (w : BitVec 32) :
    (IntOp.shli .vector (IntOp.andi w 3#32) 5#32).toNat = w.toNat % 4 * 32 := by
  have h3 : (w &&& 3#32).toNat = w.toNat % 4 := by
    rw [BitVec.toNat_and]
    exact Nat.and_two_pow_sub_one_eq_mod w.toNat 2
  unfold IntOp.shli IntOp.andi
  rw [if_pos (by decide)]
  rw [BitVec.shiftLeft_eq', BitVec.toNat_shiftLeft, h3]
  show (w.toNat % 4) <<< 5 % 2 ^ 32 = _
  rw [Nat.shiftLeft_eq]
  omega

/-- Lane x of ((v and 3) shifted left by 5) + dd is 32·(v_x mod 4) + dd, for dd below 32. -/
theorem cols_toNat (v : IVec S16 32) (dd : BitVec 32) (hdd : dd.toNat < 32) (x : S16.Idx) :
    ((addi (shli (andi v (broadcast S16 3#32)) (broadcast S16 5#32)) (broadcast S16 dd)) x).toNat
      = (v x).toNat % 4 * 32 + dd.toNat := by
  show (IntOp.shli .vector (IntOp.andi (v x) 3#32) 5#32 + dd).toNat = _
  rw [BitVec.toNat_add, word_col_toNat]
  omega

theorem cols_lt (v : IVec S16 32) (dd : BitVec 32) (hdd : dd.toNat < 32) (x : S16.Idx) :
    ((addi (shli (andi v (broadcast S16 3#32)) (broadcast S16 5#32)) (broadcast S16 dd)) x).toNat < 128 := by
  rw [cols_toNat v dd hdd x]; omega

/-- The kernel's own spelling of the shifted remainder, for the user ids and for the item ids. -/
theorem pay2_eq (v : IVec S16 32) : k0_pay2 (F := F) v = shli (andi v (broadcast S16 3#32)) (broadcast S16 5#32) := rfl
theorem pay3_eq (v : IVec S16 32) : k0_pay3 (F := F) v = shli (andi v (broadcast S16 3#32)) (broadcast S16 5#32) := rfl
/-- Entry number 0: the column vector is the shifted remainder plus 0. -/
theorem pay20_eq (c : IVec S16 32) : k0_pay20 c = addi c (broadcast S16 0#32) := rfl
theorem pay21_eq (c : IVec S16 32) : k0_pay21 c = addi c (broadcast S16 0#32) := rfl

/-! ## (c) The line vector -/

/-- Lane x of v shifted right by 2 is v_x / 4. -/
theorem lines_toNat (v : IVec S16 32) (x : S16.Idx) :
    ((shrui v (broadcast S16 2#32)) x).toNat = (v x).toNat / 4 := by
  show (IntOp.shrui .vector (v x) 2#32).toNat = _
  unfold IntOp.shrui
  rw [if_pos (by decide)]
  rw [BitVec.ushiftRight_eq', BitVec.toNat_ushiftRight]
  show (v x).toNat >>> 2 = _
  rw [Nat.shiftRight_eq_div_pow]

theorem lines_le (v : IVec S16 32) (x : S16.Idx) (h : (v x).toNat ≤ 999999) :
    ((shrui v (broadcast S16 2#32)) x).toNat ≤ 249999 := by
  rw [lines_toNat]; omega

/-- The kernel's own spelling of the line vector. -/
theorem pay1142_eq (v : IVec S16 32) : k0_pay1142 (F := F) v = shrui v (broadcast S16 2#32) := rfl

/-! ## (d) The range condition of an indexed load -/

/-- Slots below 256 and columns below 128 are in range for a [256, 128] base. -/
theorem chk_ok (rows cols : IVec S16 32) (hr : ∀ x, (rows x).toNat < 256) (hc : ∀ x, (cols x).toNat < 128) :
    ∀ a x, ((![rows, cols] : Fin 2 → IVec S16 32) a x).toNat < S256x128.size a :=
  Fin.forall_fin_two.mpr ⟨hr, hc⟩

example (r c : IVec S16 32) (hr : ∀ x, (r x).toNat < 256) (hc : ∀ x, (c x).toNat < 128) : k0_chk7 r c := chk_ok r c hr hc

/-! ## (e) The indexed load at a lane -/

/-- The index an indexed load names at lane x: (slot of x, column of x). -/
theorem idxAt_eq (rows cols : IVec S16 32)
    (h : ∀ a x, ((![rows, cols] : Fin 2 → IVec S16 32) a x).toNat < S256x128.size a) (x : S16.Idx) :
    idxAt (s := S256x128) ![rows, cols] h x
      = ix2 (⟨(rows x).toNat, h 0 x⟩ : Fin 256) (⟨(cols x).toNat, h 1 x⟩ : Fin 128) := by
  funext a
  match a with
  | ⟨0, _⟩ => rfl
  | ⟨1, _⟩ => rfl

/-- The indexed load from a [256, 128] base at lane x is the base at (slot of x, column of x). -/
theorem loadIdx_apply {e : EltTy} (f : Vec F S256x128 e) (rows cols : IVec S16 32)
    (h : ∀ a x, ((![rows, cols] : Fin 2 → IVec S16 32) a x).toNat < S256x128.size a) (x : S16.Idx) :
    loadIdx f ![rows, cols] h x
      = f (ix2 (⟨(rows x).toNat, h 0 x⟩ : Fin 256) (⟨(cols x).toNat, h 1 x⟩ : Fin 128)) :=
  congrArg f (idxAt_eq rows cols h x)

/-! ## (f) The line and the column of an id -/

theorem lineOf_val (v : BitVec 32) (h : v.toNat ≤ 999999) : (lineOf v).val = v.toNat / 4 := by
  show min (v.toNat / 4) 249999 = v.toNat / 4; omega

theorem colOf_val (v : BitVec 32) (d : Fin 32) : (colOf v d).val = v.toNat % 4 * 32 + d.val := rfl

end Cert.KernelIdeal.Hand

end
-- ==== Proof.Collapse.lean ====
/-
  Reading a scratch buffer that was filled store by store as ONE function of the index. After the first stage of a
  subcore's task four scratch buffers hold lists of stores over arbitrary prior contents: the line lists (32 stores of
  16 words each: the ids shifted right by 2), the weights and the bias in scalar memory (512 and 16 stores of one word
  each: lane l of a 16-word load at offset o goes to word o + l). A list of stores whose rectangles cover the buffer,
  every store agreeing with one function G at its own place, leaves exactly G: each word is read from the newest
  store covering it, and that store holds G there.
-/
import proofs.«218018_g87892210745873_cont_sun_m_655_26_alg».proof.Proof.TileInv
import proofs.«218018_g87892210745873_cont_sun_m_655_26_alg».proof.Proof.IntFacts
import Idealize.ShloMosaic.Lib.Writes
import Idealize.ShloMosaic.Lib.Exec

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "A0" => (Memref.whole Cert.KernelIdeal.main_arg0_scv : Memref Cert.KernelIdeal.sig Kind.scVector Space.hbm Cert.KernelIdeal.S16384 EltTy.i32)
local notation "A1" => (Memref.whole Cert.KernelIdeal.main_arg1_scv : Memref Cert.KernelIdeal.sig Kind.scVector Space.hbm Cert.KernelIdeal.S16384 EltTy.i32)
local notation "UT" => (Memref.whole Cert.KernelIdeal.main_v0_scv : Memref Cert.KernelIdeal.sig Kind.scVector Space.hbm Cert.KernelIdeal.S250000x128 EltTy.f32)
local notation "IT" => (Memref.whole Cert.KernelIdeal.main_v1_scv : Memref Cert.KernelIdeal.sig Kind.scVector Space.hbm Cert.KernelIdeal.S250000x128 EltTy.f32)
local notation "WW" => (Memref.whole Cert.KernelIdeal.main_v2_scv : Memref Cert.KernelIdeal.sig Kind.scVector Space.hbm Cert.KernelIdeal.S512 EltTy.f32)
local notation "BB" => (Memref.whole Cert.KernelIdeal.main_arg5_scv : Memref Cert.KernelIdeal.sig Kind.scVector Space.hbm Cert.KernelIdeal.S16 EltTy.f32)
local notation "OO" => (Memref.whole Cert.KernelIdeal.main_v3_scv : Memref Cert.KernelIdeal.sig Kind.scVector Space.hbm Cert.KernelIdeal.S16384 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S512 EltTy.i32)
local notation "s4" => (Memref.whole Cert.KernelIdeal.cc0_scratch4 : Memref Cert.KernelIdeal.sig Kind.scVector Space.vmem Cert.KernelIdeal.S256x128 EltTy.f32)
local notation "s5" => (Memref.whole Cert.KernelIdeal.cc0_scratch5 : Memref Cert.KernelIdeal.sig Kind.scVector Space.vmem Cert.KernelIdeal.S256x128 EltTy.f32)
local notation "s6" => (Memref.whole Cert.KernelIdeal.cc0_scratch6 : Memref Cert.KernelIdeal.sig Kind.scVector Space.vmem Cert.KernelIdeal.S512 EltTy.f32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.smem Cert.KernelIdeal.S512 EltTy.f32)
local notation "s9" => (Memref.whole Cert.KernelIdeal.cc0_scratch9 : Memref Cert.KernelIdeal.sig Kind.scVector Space.smem Cert.KernelIdeal.S16 EltTy.f32)
local notation "s10" => (Memref.whole Cert.KernelIdeal.cc0_scratch10 : Memref Cert.KernelIdeal.sig Kind.scVector Space.vmem Cert.KernelIdeal.S512 EltTy.f32)

/-! ## Unfolding a family of definitions by the prefix of their names -/

open Lean Elab Tactic Meta in
/-- `delta_sl p` replaces, in the goal (`delta_sl p at h`: in a hypothesis), every constant whose name begins with the
    prefix p — as written, or under any enclosing namespace — by its definition, and again inside what the
    definitions unfold to, until no such constant is left. The new statement is the old one up to unfolding. -/
elab "delta_sl " pfx:ident loc:(Parser.Tactic.location)? : tactic => do
  let p := pfx.getId
  let ns ← getCurrNamespace
  let rec prefixes (n : Name) : List Name := match n with
    | .anonymous => [.anonymous]
    | .str q _ => n :: prefixes q
    | .num q _ => n :: prefixes q
  let cands := (prefixes ns).map (· ++ p)
  let hit (n : Name) : Bool := cands.any fun c => c.isPrefixOf n || c.toString.isPrefixOf n.toString
  let unfoldAll (e : Expr) : MetaM Expr := do Meta.deltaExpand (← instantiateMVars e) hit
  withLocation (expandOptLocation (mkOptionalNode loc))
    (fun h => do
      let g ← getMainGoal
      let t' ← unfoldAll (← h.getType)
      replaceMainGoal [← g.replaceLocalDeclDefEq h t'])
    (do
      let g ← getMainGoal
      let t' ← unfoldAll (← g.getType)
      replaceMainGoal [← g.replaceTargetDefEq t'])
    (fun _ => throwError "delta_sl: nothing to unfold here")

/-! ## A whole buffer, rectangles of a rank-one shape, and lanes of a vector -/

section Uniform

variable {sig : RefSig} {κ : Kind} {sp : Space} {Val : EltTy → Type} {e : EltTy} {n : ℕ}

/-- A copy of a whole array moves the values as they are. -/
theorem readAs_same_apply {s : Shape} (g : s.Idx → Val e) : (ReadAs.same : ReadAs Val s e s e).apply g = g := rfl

/-- A unit-stride rectangle of a rank-one shape places its position x at offset + x. -/
theorem unit1_idx (o : ℕ) (sz : Fin 1 → ℕ) (h : ∀ a, (![o] : Fin 1 → ℕ) a + sz a ≤ (⟨1, ![n]⟩ : Shape).size a)
    (x : (Rect.unit (s := ⟨1, ![n]⟩) ![o] sz h).shape.Idx) :
    (Rect.unit (s := ⟨1, ![n]⟩) ![o] sz h).toLoadRect.idx x
      = ix1 (⟨o + (x 0).val, by have := h 0; have := (x 0).isLt; exact Nat.lt_of_lt_of_le (Nat.add_lt_add_left (x 0).isLt o) (h 0)⟩ : Fin n) := by
  funext a
  match a with
  | ⟨0, _⟩ => exact Fin.ext (by show o + 1 * (x 0).val = o + (x 0).val; rw [Nat.one_mul])

theorem unit1_emb (o : ℕ) (sz : Fin 1 → ℕ) (h : ∀ a, (![o] : Fin 1 → ℕ) a + sz a ≤ (⟨1, ![n]⟩ : Shape).size a)
    (x : (Rect.unit (s := ⟨1, ![n]⟩) ![o] sz h).shape.Idx) :
    (Rect.unit (s := ⟨1, ![n]⟩) ![o] sz h).emb x
      = ix1 (⟨o + (x 0).val, Nat.lt_of_lt_of_le (Nat.add_lt_add_left (x 0).isLt o) (h 0)⟩ : Fin n) :=
  unit1_idx o sz h x

/-- A rectangle of one word sits at its offset. -/
theorem unit1_emb_one (j : ℕ) (h : ∀ a, (![j] : Fin 1 → ℕ) a + (![1] : Fin 1 → ℕ) a ≤ (⟨1, ![n]⟩ : Shape).size a)
    (x : (Rect.unit (s := ⟨1, ![n]⟩) ![j] ![1] h).shape.Idx) :
    (Rect.unit (s := ⟨1, ![n]⟩) ![j] ![1] h).emb x = ix1 (⟨j, Nat.lt_of_lt_of_le (Nat.lt_succ_self j) (h 0)⟩ : Fin n) := by
  have hx : (x 0).val = 0 := Nat.lt_one_iff.mp (x 0).isLt
  rw [unit1_emb]
  exact congrArg ix1 (Fin.ext (by show j + (x 0).val = j; rw [hx, Nat.add_zero]))

/-- A load through a unit-stride rectangle of a rank-one view reads the view at offset + position. -/
theorem readAt_unit1 (v : View sig κ sp (⟨1, ![n]⟩ : Shape) e) (o : ℕ) (sz : Fin 1 → ℕ)
    (h : ∀ a, (![o] : Fin 1 → ℕ) a + sz a ≤ (⟨1, ![n]⟩ : Shape).size a) (f : v.ty.Contents Val) :
    v.readAt Val (Rect.unit (s := ⟨1, ![n]⟩) ![o] sz h).toLoadRect f
      = fun x => v.read Val f (ix1 (⟨o + (x 0).val, Nat.lt_of_lt_of_le (Nat.add_lt_add_left (x 0).isLt o) (h 0)⟩ : Fin n)) :=
  funext fun x => congrArg (v.read Val f) (unit1_idx o sz h x)

/-- The lane of a vector at a literal position. -/
theorem extractAt_one {α : Type} (l : ℕ) (v : (⟨1, ![n]⟩ : Shape).Idx → α) (h : ∀ a, (![l] : Fin 1 → ℕ) a < (⟨1, ![n]⟩ : Shape).size a) :
    extractAt ![l] v h = v (ix1 (⟨l, h 0⟩ : Fin n)) :=
  congrArg v (funext fun a => match a with | ⟨0, _⟩ => rfl)

/-- The one lane of the one-lane slice of a vector at l is the vector's lane l. -/
theorem extractAt_slice_one {α : Type} (l : ℕ) (v : (⟨1, ![n]⟩ : Shape).Idx → α)
    (hs : (⟨1, ![n]⟩ : Shape).Slices ![l] (⟨1, ![1]⟩ : Shape)) (h : ∀ a, (![0] : Fin 1 → ℕ) a < (⟨1, ![1]⟩ : Shape).size a) :
    extractAt ![0] (extractStridedSlice (⟨1, ![1]⟩ : Shape) ![l] v hs) h
      = v (ix1 (⟨l, by have := hs.2 0; exact Nat.lt_of_lt_of_le (Nat.lt_succ_self l) this⟩ : Fin n)) :=
  congrArg v (funext fun a => match a with | ⟨0, _⟩ => Fin.ext (Nat.add_zero l))

end Uniform

/-! ## The collapse -/

section Collapse

variable {sig : RefSig} {κ : Kind} {Val : EltTy → Type}

/-- Stores through a whole buffer that cover it, each holding G at its own place, leave G, whatever was there before. -/
theorem writes_whole_eq (b : Ref sig κ) (f : b.ty.Contents Val) (L : List (View.Piece Val b.ty.shape b.ty.elt))
    (G : b.ty.shape.Idx → Val b.ty.elt)
    (hp : ∀ p ∈ L, ∀ x : p.1.shape.Idx, p.2 x = G (p.1.emb x))
    (hc : ∀ y : b.ty.shape.Idx, ∃ p ∈ L, y ∈ p.1.set) :
    (View.whole b).writes Val f L = G :=
  funext fun y => View.read_writes_apply_of_pieces (View.whole b) f G L hp y (hc y)

end Collapse

/-! ## The subcore's block of an id array -/

section IdBlock

variable [FloatOps F]

/-- Position j of the 512 entries from the subcore's first entry on is the subcore's batch entry j. -/
theorem unit_off1_emb (L : grid0.Coords) (j : S512.Idx) :
    (Rect.unit (s := S16384) (k0_off1 L) S512.size (k0_off1_inb L)).emb j = bidx L j := by
  funext a
  match a with
  | ⟨0, _⟩ =>
    refine Fin.ext ?_
    show k0_off1 L 0 + 1 * (j 0).val = tbase L + (j 0).val
    rw [congrFun (k0_off1_eq L) 0, Nat.one_mul]
    rfl

/-- Those 512 entries of the user id array are the subcore's id block; -/
theorem read_idBlk0 (L : grid0.Coords) (f0 : S16384.Idx → BitVec 32) :
    View.read (Elt F) ((A0).slice (Rect.unit (s := S16384) (k0_off1 L) S512.size (k0_off1_inb L)) (fun _ => rfl)).view f0 = idBlk L f0 :=
  funext fun j => congrArg f0 (unit_off1_emb L j)

/-- and of the item id array. -/
theorem read_idBlk1 (L : grid0.Coords) (f1 : S16384.Idx → BitVec 32) :
    View.read (Elt F) ((A1).slice (Rect.unit (s := S16384) (k0_off1 L) S512.size (k0_off1_inb L)) (fun _ => rfl)).view f1 = idBlk L f1 :=
  funext fun j => congrArg f1 (unit_off1_emb L j)

/-- The same two facts with the slice of the whole array spelt as a view. -/
theorem read_idBlk0' (L : grid0.Coords) (f0 : S16384.Idx → BitVec 32) (h : ∀ a, (k0_off1 L) a + (![512] : Fin 1 → ℕ) a ≤ S16384.size a) :
    View.read (Elt F) ((View.whole main_arg0_scv).slice (Rect.unit (s := S16384) (k0_off1 L) ![512] h)) f0 = idBlk L f0 :=
  funext fun j => congrArg f0 (unit_off1_emb L j)

theorem read_idBlk1' (L : grid0.Coords) (f1 : S16384.Idx → BitVec 32) (h : ∀ a, (k0_off1 L) a + (![512] : Fin 1 → ℕ) a ≤ S16384.size a) :
    View.read (Elt F) ((View.whole main_arg1_scv).slice (Rect.unit (s := S16384) (k0_off1 L) ![512] h)) f1 = idBlk L f1 :=
  funext fun j => congrArg f1 (unit_off1_emb L j)

/-- A word shifted right by 2 is the word of value (its value / 4). -/
theorem shrui_two_eq (v : IVec S16 32) (x : S16.Idx) :
    shrui v (broadcast S16 2#32) x = BitVec.ofNat 32 ((v x).toNat / 4) := by
  apply BitVec.eq_of_toNat_eq
  rw [lines_toNat, BitVec.toNat_ofNat]
  have := (v x).isLt
  omega

end IdBlock

/-! ## A statement about every store of a literal list, store by store -/

open Lean Elab Tactic in
/-- `pieces_all tac` proves `∀ p ∈ [p₁, …, pₙ], Φ p` for a list written out: it splits off the head n times, runs tac on
    each `Φ pᵢ` (tac must close it) and ends at the empty list. -/
elab "pieces_all " t:tacticSeq : tactic => do
  repeat
    let closed ← try
        evalTactic (← `(tactic| exact List.forall_mem_nil _))
        pure true
      catch _ => pure false
    if closed then break
    evalTactic (← `(tactic| refine List.forall_mem_cons.2 ⟨?_, ?_⟩))
    match ← getGoals with
    | hd :: tl :: rest =>
      setGoals [hd]
      evalTactic t
      unless (← getGoals).isEmpty do throwError "pieces_all: the tactic left a goal open on a store"
      setGoals (tl :: rest)
    | _ => throwError "pieces_all: not a statement about every member of a written-out list"

/-- The covering condition for a written-out list of stores, by evaluation of the library's decision on the offsets. -/
theorem cover_by_eval {s : Shape} {e : EltTy} {Val : EltTy → Type} (L : List (View.Piece Val s e)) (size : Fin s.rank → ℕ)
    (h : View.Piece.tiled L size = true) : ∀ y : s.Idx, ∃ p ∈ L, y ∈ p.1.set :=
  View.cover_of_tiled L size h

open Lean Elab Tactic Meta in
/-- `eval_true` closes a goal `b = true`, b a Boolean that evaluates to true, by reflexivity, leaving the whole evaluation
    to the kernel's check of the finished proof (no evaluation while the proof is being written). -/
elab "eval_true" : tactic => do
  let g ← getMainGoal
  g.assign (mkApp2 (mkConst ``Eq.refl [levelOne]) (mkConst ``Bool) (mkConst ``Bool.true))

/-! ## Covering a rank-one buffer, decided word by word -/

section Cover1

variable {n : ℕ} {e : EltTy} {Val : EltTy → Type}

/-- Is word i under some store of the list (unit stride on the one axis)? -/
def hitB : List (View.Piece Val (⟨1, ![n]⟩ : Shape) e) → ℕ → Bool
  | [], _ => false
  | p :: L, i => (Nat.ble (p.1.off 0) i && Nat.blt i (p.1.off 0 + p.1.size 0) && Nat.beq (p.1.stride 0) 1) || hitB L i

/-- Are the words 0, …, k-1 each under some store? -/
def allHitB (L : List (View.Piece Val (⟨1, ![n]⟩ : Shape) e)) : ℕ → Bool
  | 0 => true
  | k + 1 => hitB L k && allHitB L k

theorem hitB_spec : ∀ (L : List (View.Piece Val (⟨1, ![n]⟩ : Shape) e)) (i : ℕ), hitB L i = true →
    ∃ p ∈ L, p.1.off 0 ≤ i ∧ i < p.1.off 0 + p.1.size 0 ∧ p.1.stride 0 = 1
  | [], _, h => by simp [hitB] at h
  | p :: L, i, h => by
    simp only [hitB, Bool.or_eq_true, Bool.and_eq_true, Nat.ble_eq, Nat.blt_eq] at h
    rcases h with ⟨⟨h1, h2⟩, h3⟩ | h
    · exact ⟨p, List.mem_cons_self, h1, h2, Nat.eq_of_beq_eq_true h3⟩
    · obtain ⟨q, hq, hh⟩ := hitB_spec L i h
      exact ⟨q, List.mem_cons_of_mem _ hq, hh⟩

theorem allHitB_spec (L : List (View.Piece Val (⟨1, ![n]⟩ : Shape) e)) :
    ∀ k, allHitB L k = true → ∀ i, i < k → hitB L i = true
  | 0, _, i, hi => absurd hi (Nat.not_lt_zero i)
  | k + 1, h, i, hi => by
    simp only [allHitB, Bool.and_eq_true] at h
    rcases Nat.lt_succ_iff_lt_or_eq.mp hi with hlt | rfl
    · exact allHitB_spec L k h.2 i hlt
    · exact h.1

/-- Stores of a rank-one buffer cover it when every word is under one of them: decided by evaluation. -/
theorem cover1_by_eval (L : List (View.Piece Val (⟨1, ![n]⟩ : Shape) e)) (h : allHitB L n = true) :
    ∀ y : (⟨1, ![n]⟩ : Shape).Idx, ∃ p ∈ L, y ∈ p.1.set := by
  intro y
  obtain ⟨p, hp, h1, h2, h3⟩ := hitB_spec L (y 0).val (allHitB_spec L n h _ (y 0).isLt)
  refine ⟨p, hp, p.1.mem_set.mpr (Fin.forall_fin_one.mpr ⟨(y 0).val - p.1.off 0, by omega, ?_⟩)⟩
  rw [h3, Nat.one_mul]
  omega

end Cover1

open Lean Elab Tactic Meta in
/-- `pieces_chain pfx tac` proves `∀ p ∈ L, Φ p` for a list L given as a chain of definitions whose names begin with pfx
    (each link a few stores consed onto the previous link) or written out. It walks the list, unfolding one link at a
    time, makes one goal `Φ pᵢ` per store — small: the store's payload and the rest of the list stay folded — closed by
    tac, and puts the n "head and tail" steps together directly (the kernel checks the result). -/
elab "pieces_chain " pfx:ident t:tacticSeq : tactic => withMainContext do
  let p := pfx.getId
  let ns ← getCurrNamespace
  let rec prefixes (n : Name) : List Name := match n with
    | .anonymous => [.anonymous]
    | .str q _ => n :: prefixes q
    | .num q _ => n :: prefixes q
  let cands := (prefixes ns).map (· ++ p)
  let hit (n : Name) : Bool := cands.any fun c => c.isPrefixOf n || c.toString.isPrefixOf n.toString
  let g ← getMainGoal
  let gT ← instantiateMVars (← g.getType)
  let (Φ, L) ← forallBoundedTelescope gT (some 2) fun xs body => do
    unless xs.size == 2 do throwError "pieces_chain: not a statement about every member of a list"
    let hT ← instantiateMVars (← inferType xs[1]!)
    let args := hT.getAppArgs
    unless hT.isAppOf ``Membership.mem && args.size == 5 do throwError "pieces_chain: not a statement about every member of a list"
    let L := if args[4]! == xs[0]! then args[3]! else args[4]!
    if body.containsFVar xs[1]!.fvarId! then throwError "pieces_chain: the statement depends on the membership proof"
    return (← mkLambdaFVars #[xs[0]!] body, L)
  -- the members in order, each with the rest of the list as it is spelt after it
  let mut elems : Array (Expr × Expr) := #[]
  let mut cur := L
  let mut α := mkSort levelZero
  repeat
    if cur.isAppOfArity ``List.cons 3 then
      elems := elems.push (cur.appFn!.appArg!, cur.appArg!)
      cur := cur.appArg!
    else if cur.isAppOfArity ``List.nil 1 then
      α := cur.appArg!
      break
    else
      let unfolded? ← match cur.getAppFn with
        | .const n _ => if hit n then unfoldDefinition? cur else pure none
        | _ => pure none
      match unfolded? with
      | some e => cur := e.headBeta
      | none =>
        let e ← whnfR cur
        if e == cur then throwError "pieces_chain: the list is neither written out nor a link of the chain: {cur}"
        cur := e
  -- one goal per member
  let mut proofs : Array Expr := #[]
  for (a, _) in elems do
    let hd ← mkFreshExprSyntheticOpaqueMVar (Φ.beta #[a])
    setGoals [hd.mvarId!]
    evalTactic t
    unless (← getGoals).isEmpty do throwError "pieces_chain: the tactic left a goal open on a store"
    proofs := proofs.push (← instantiateMVars hd)
  -- put together from the end
  let mut acc ← mkAppOptM ``List.forall_mem_nil #[α, Φ]
  for i in [0:elems.size] do
    let j := elems.size - 1 - i
    let (a, tl) := elems[j]!
    let iff ← mkAppOptM ``List.forall_mem_cons #[α, Φ, a, tl]
    let conj ← mkAppM ``And.intro #[proofs[j]!, acc]
    acc ← mkAppM ``Iff.mpr #[iff, conj]
  g.assign acc
  setGoals []

/-! ## One store of the scalar copy of the weights -/

section S8

variable [FloatOps F]

/-- One word of the scalar copy of the weights: lane l of the sixteen words read at o from the vector copy is the
    weights' word o + l. -/
theorem s8_store_ok (fw g6 : S512.Idx → F .f32) (n o l : ℕ) (hnol : n = o + l)
    (inb1 : ∀ a, (![n] : Fin 1 → ℕ) a + S1.size a ≤ S512.size a) (inb16 : ∀ a, (![o] : Fin 1 → ℕ) a + S16.size a ≤ S512.size a)
    (hs : (Rect.unit (s := S512) ![o] S16.size inb16).shape.Slices ![l] S1) (h0 : ∀ a, (![0] : Fin 1 → ℕ) a < S1.size a)
    (x : (Rect.unit (s := S512) ![n] S1.size inb1).shape.Idx) :
    extractAt ![0] (extractStridedSlice S1 ![l] (View.readAt (Elt F) (s6).view (Rect.unit (s := S512) ![o] S16.size inb16).toLoadRect
        (View.write (Elt F) (s6).view g6 (ReadAs.same.apply (View.read (Elt F) (WW).view fw)) Finset.univ)) hs) h0
      = fw ((Rect.unit (s := S512) ![n] S1.size inb1).emb x) := by
  subst hnol
  simp only [Memref.view_whole, View.read_whole, View.write_whole_univ, ReadAs.apply, readAt_unit1, extractAt_slice_one, extractAt_one]
  rw [unit1_emb_one] <;> rfl

end S8

/-! ## Checks of the recipe on lists of the shapes met -/

section Checks

variable [FloatOps F]
/-- The bias in scalar memory: 16 stores of one word, lane l of the 16-word load of the vector copy going to word l. -/
example (fb g7 g9 : S16.Idx → F .f32) :
    let r : Vec F S16 .f32 := View.readAt (Elt F) (s7).view (Rect.unit (s := S16) ![0] S16.size Facts₀.inb_S16_S16_0).toLoadRect
      (View.write (Elt F) (s7).view g7 (ReadAs.same.apply (View.read (Elt F) (BB).view fb)) Finset.univ)
    (s9).view.writes (Elt F) g9 [
      ⟨Rect.unit (s := S16) ![15] S1.size Facts₀.inb_S16_S1_15, fun _ => k0_pay1753 r⟩,
      ⟨Rect.unit (s := S16) ![14] S1.size Facts₀.inb_S16_S1_14, fun _ => k0_pay1752 r⟩,
      ⟨Rect.unit (s := S16) ![13] S1.size Facts₀.inb_S16_S1_13, fun _ => k0_pay1751 r⟩,
      ⟨Rect.unit (s := S16) ![12] S1.size Facts₀.inb_S16_S1_12, fun _ => k0_pay1750 r⟩,
      ⟨Rect.unit (s := S16) ![11] S1.size Facts₀.inb_S16_S1_11, fun _ => k0_pay1749 r⟩,
      ⟨Rect.unit (s := S16) ![10] S1.size Facts₀.inb_S16_S1_10, fun _ => k0_pay1748 r⟩,
      ⟨Rect.unit (s := S16) ![9] S1.size Facts₀.inb_S16_S1_9, fun _ => k0_pay1747 r⟩,
      ⟨Rect.unit (s := S16) ![8] S1.size Facts₀.inb_S16_S1_8, fun _ => k0_pay1746 r⟩,
      ⟨Rect.unit (s := S16) ![7] S1.size Facts₀.inb_S16_S1_7, fun _ => k0_pay1745 r⟩,
      ⟨Rect.unit (s := S16) ![6] S1.size Facts₀.inb_S16_S1_6, fun _ => k0_pay1744 r⟩,
      ⟨Rect.unit (s := S16) ![5] S1.size Facts₀.inb_S16_S1_5, fun _ => k0_pay1743 r⟩,
      ⟨Rect.unit (s := S16) ![4] S1.size Facts₀.inb_S16_S1_4, fun _ => k0_pay1742 r⟩,
      ⟨Rect.unit (s := S16) ![3] S1.size Facts₀.inb_S16_S1_3, fun _ => k0_pay1741 r⟩,
      ⟨Rect.unit (s := S16) ![2] S1.size Facts₀.inb_S16_S1_2, fun _ => k0_pay1740 r⟩,
      ⟨Rect.unit (s := S16) ![1] S1.size Facts₀.inb_S16_S1_1, fun _ => k0_pay1739 r⟩,
      ⟨Rect.unit (s := S16) ![0] S1.size Facts₀.inb_S16_S1_0, fun _ => k0_pay1738 r⟩] = fb := by
  intro r
  refine writes_whole_eq _ _ _ _ ?_ ?_
  case refine_2 => exact cover_by_eval _ ![1] (by eval_true)
  delta_sl Gen.k0_pay
  pieces_all
    intro x
    simp only [Memref.view_whole, View.read_whole, View.write_whole_univ, ReadAs.apply, readAt_unit1,
      extractAt_slice_one, extractAt_one, r]
    rw [unit1_emb_one]
    rfl

end Checks

end Cert.KernelIdeal.Hand

end
-- ==== Proof.Tile.lean ====
/-
  One vector subcore's whole task. It copies in its 512 user ids and 512 item ids, the weights and the bias; computes the
  lines the ids name (id / 4) and spreads the weights and bias over scalar memory; then twice: fetches the 256 lines of each
  table that the next 256 ids name (two indexed copies, each on a semaphore of its own, both waited for before a row is read)
  and accumulates the 256 results sixteen at a time; finally copies its 512 results onto its block of the result array.
-/
import proofs.«218018_g87892210745873_cont_sun_m_655_26_alg».proof.Proof.TileInv
import proofs.«218018_g87892210745873_cont_sun_m_655_26_alg».proof.Proof.Scoped
import proofs.«218018_g87892210745873_cont_sun_m_655_26_alg».proof.Proof.OutBlock
import proofs.«218018_g87892210745873_cont_sun_m_655_26_alg».proof.Proof.Collapse

set_option maxHeartbeats 4000000

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.KernelIdeal.main_arg0_scv : Memref Cert.KernelIdeal.sig Kind.scVector Space.hbm Cert.KernelIdeal.S16384 EltTy.i32)
local notation "A1" => (Memref.whole Cert.KernelIdeal.main_arg1_scv : Memref Cert.KernelIdeal.sig Kind.scVector Space.hbm Cert.KernelIdeal.S16384 EltTy.i32)
local notation "UT" => (Memref.whole Cert.KernelIdeal.main_v0_scv : Memref Cert.KernelIdeal.sig Kind.scVector Space.hbm Cert.KernelIdeal.S250000x128 EltTy.f32)
local notation "IT" => (Memref.whole Cert.KernelIdeal.main_v1_scv : Memref Cert.KernelIdeal.sig Kind.scVector Space.hbm Cert.KernelIdeal.S250000x128 EltTy.f32)
local notation "WW" => (Memref.whole Cert.KernelIdeal.main_v2_scv : Memref Cert.KernelIdeal.sig Kind.scVector Space.hbm Cert.KernelIdeal.S512 EltTy.f32)
local notation "BB" => (Memref.whole Cert.KernelIdeal.main_arg5_scv : Memref Cert.KernelIdeal.sig Kind.scVector Space.hbm Cert.KernelIdeal.S16 EltTy.f32)
local notation "OO" => (Memref.whole Cert.KernelIdeal.main_v3_scv : Memref Cert.KernelIdeal.sig Kind.scVector Space.hbm Cert.KernelIdeal.S16384 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S512 EltTy.i32)
local notation "s4" => (Memref.whole Cert.KernelIdeal.cc0_scratch4 : Memref Cert.KernelIdeal.sig Kind.scVector Space.vmem Cert.KernelIdeal.S256x128 EltTy.f32)
local notation "s5" => (Memref.whole Cert.KernelIdeal.cc0_scratch5 : Memref Cert.KernelIdeal.sig Kind.scVector Space.vmem Cert.KernelIdeal.S256x128 EltTy.f32)
local notation "s6" => (Memref.whole Cert.KernelIdeal.cc0_scratch6 : Memref Cert.KernelIdeal.sig Kind.scVector Space.vmem Cert.KernelIdeal.S512 EltTy.f32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.smem Cert.KernelIdeal.S512 EltTy.f32)
local notation "s9" => (Memref.whole Cert.KernelIdeal.cc0_scratch9 : Memref Cert.KernelIdeal.sig Kind.scVector Space.smem Cert.KernelIdeal.S16 EltTy.f32)
local notation "s10" => (Memref.whole Cert.KernelIdeal.cc0_scratch10 : Memref Cert.KernelIdeal.sig Kind.scVector Space.vmem Cert.KernelIdeal.S512 EltTy.f32)

/-- The outer loop's invariant: k waves done. -/
def waveInv (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (O : CellTallies nD τ sig (HIx 1)) (W : Waits sig (HIx 1)) (R : sProp 𝕄) (k : ℕ) (_ : BitVec 32) : sProp 𝕄 :=
  iprop(Transfers.MayWaits (V d (cV L) (jV L)) (none : HIx 1) O ∗ R
    ∗ ∃ ub ib ov W', ⌜OutDone (F := F) L f0 f1 fu fi fw fb (256 * k) ov⌝ ∗ ⌜∀ p ∈ W', p ∈ W ∨ p.2 = none⌝
      ∗ St (F := F) d L q f0 f1 fu fi fw fb fo ub ib ov ∗ owes (V d (cV L) (jV L)) O W')

/-- From the loops on: the two waves by the loop rule (each trip is `WaveStep`), then the result scratch copied onto the
    subcore's block of the result and the copy waited for; the block then holds the accumulated values. -/
theorem looprest (hW : WaveStep (F := F)) (hF : (K (F := F)).Facts) (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (h0 : ∀ i, (f0 i).toNat ≤ 999999) (h1 : ∀ i, (f1 i).toNat ≤ 999999)
    (O : CellTallies nD τ sig (HIx 1)) (W W0 : Waits sig (HIx 1)) (hW0 : ∀ p ∈ W0, p ∈ W ∨ p.2 = none)
    (g4 g5 : S256x128.Idx → F .f32) (g10 : S512.Idx → F .f32) (v2339 : Vec F S16 .f32) (v2369 : F .f32) (R : sProp 𝕄) (Q : PUnit → sProp 𝕄)
    (hQ : ∀ W', (∀ p ∈ W', p ∈ W ∨ p.2 = none) → ∀ ub ib ov,
      iprop(St (F := F) d L q f0 f1 fu fi fw fb (outVal (F := F) f0 f1 fu fi fw fb) ub ib ov ∗ owes (V d (cV L) (jV L)) O W' ∗ R) ⊢ Q ⟨⟩) :
    iprop(Transfers.MayWaits (V d (cV L) (jV L)) (none : HIx 1) O
        ∗ St (F := F) d L q f0 f1 fu fi fw fb fo g4 g5 g10 ∗ owes (V d (cV L) (jV L)) O W0 ∗ R)
      ⊢ wp frame (wpE (defs₀ (F := F)) 𝒱₀ (V d (cV L) (jV L)) none) Set.univ
          (do
            let _ ← k0_t1_loop.for k0_t1_ok (0#32)
              (k0_t1_body L A0 (Memref.isWhole_whole _) A1 (Memref.isWhole_whole _) UT (Memref.isWhole_whole _) IT (Memref.isWhole_whole _)
            WW (Memref.isWhole_whole _) BB (Memref.isWhole_whole _) OO (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            s8 (Memref.isWhole_whole _) s9 (Memref.isWhole_whole _) s10 (Memref.isWhole_whole _)
            cc0_scratch11 cc0_scratch12 cc0_scoped0 cc0_scoped1 cc0_scoped2 cc0_scoped3 cc0_scoped4
                v2339 v2369 (iota .scVector S16 32 [0] Facts₀.iota_S16_d0_w32_scVector))
            let v2409_r4 : Memref sig Kind.scVector Space.hbm S512 EltTy.f32 :=
              (OO).slice (Rect.unit (s := S16384) (k0_off1 L) S512.size (k0_off1_inb L)) (fun _ => rfl)
            Prog.lift (TpuEff.enqueueDma (s10) (DmaTarget.here v2409_r4) (SemLoc.dma cc0_scoped4.sem)
              (Memref.isWhole_whole _).wordExact (View.wordExact_bits rfl) ⟨Or.inl rfl, trivial⟩)
            Pure.pure PUnit.unit)
          fun b => wp frame (wpE (defs₀ (F := F)) 𝒱₀ (V d (cV L) (jV L)) none) Set.univ
            ((fun __r =>
              let v2411_r4 := (OO).slice (Rect.unit (s := S16384) (k0_off1 L) S512.size (k0_off1_inb L)) (fun _ => rfl);
              do
                Prog.lift (TpuEff.waitDma2 cc0_scoped4.sem (s10) v2411_r4 (Memref.isWhole_whole _).wordExact (View.wordExact_bits rfl))
                Pure.pure PUnit.unit) b) Q := by
  iintro ⟨Hmw, Hst, HO, HR⟩
  sl_for (waveInv (F := F) d L q f0 f1 fu fi fw fb fo O W R) $$ [Hmw Hst HO HR]
  case region =>
    intro k acc
    unfold waveInv
    iintro ⟨Hmw, HR, %ub, %ib, %ov, %W', %hov, %hW', Hst, HO⟩
    have post : ∀ r : BitVec 32, iprop(R ∗ Transfers.MayWaits (V d (cV L) (jV L)) (none : HIx 1) O
          ∗ ∃ ub' ib' ov' W'', ⌜OutDone (F := F) L f0 f1 fu fi fw fb (256 * (k.val + 1)) ov'⌝ ∗ ⌜∀ p ∈ W'', p ∈ W' ∨ p.2 = none⌝
            ∗ St (F := F) d L q f0 f1 fu fi fw fb fo ub' ib' ov' ∗ owes (V d (cV L) (jV L)) O W'')
        ⊢ waveInv (F := F) d L q f0 f1 fu fi fw fb fo O W R (k.val + 1) r := by
      intro r
      unfold waveInv
      iintro ⟨HR, Hmw, %ub', %ib', %ov', %W'', %h1', %h2', Hst, HO⟩
      isplitl [Hmw]; · iexact Hmw
      isplitl [HR]; · iexact HR
      iexists ub', ib', ov', W''
      isplitr; · ipureintro; exact h1'
      isplitr
      · ipureintro; intro p hp
        rcases h2' p hp with h | h
        · exact hW' p h
        · exact .inr h
      isplitl [Hst]; · iexact Hst
      iexact HO
    iapply ((wp_frame_l frame _ _ (R := R)).trans (wp_mono frame _ _ post)) $$ [Hmw Hst HO HR]
    isplitl [HR]; · iexact HR
    iapply (hW hF d L q f0 f1 fu fi fw fb fo h0 h1 O W' k acc v2339 v2369 ub ib ov hov) $$ [Hmw Hst HO]
    isplitl [Hmw]; · iexact Hmw
    isplitl [Hst]; · iexact Hst
    iexact HO
  · unfold waveInv
    isplitl [Hmw]; · iexact Hmw
    isplitl [HR]; · iexact HR
    iexists g4, g5, g10, W0
    isplitr
    · ipureintro; intro j hj; exact absurd hj (by omega)
    isplitr; · ipureintro; exact hW0
    isplitl [Hst]; · iexact Hst
    iexact HO
  iintro %acc HI
  unfold waveInv
  icases HI with ⟨Hmw, HR, %ub, %ib, %ov, %W', %hov, %hW', Hst, HO⟩
  unfold St
  icases Hst with ⟨Ha0, Ha1, Hut, Hit, Hww, Hbb, Hout, H0, H1, H2, H3, H4, H5, H6, H7, H8, H9, H10, Hsu, Hsi, Hr0, Hr1, Hr2, Hr3, Hr4⟩
  sl_exec_parts
  sl_step
  have htr : Scf.trips k0_t1_loop.lb k0_t1_loop.ub k0_t1_loop.st = 2 := by decide
  have hov' : ∀ j : S512.Idx, ov j = outVal (F := F) f0 f1 fu fi fw fb (bidx L j) := fun j => hov j (by rw [htr]; have hj : (j 0).val < 512 := (j 0).isLt; omega)
  have hW'' : ∀ p ∈ insert (SemLoc.dma cc0_scoped4.sem, (default : HIx 1)) W', p ∈ W ∨ p.2 = none := by
    intro p hp
    rcases Finset.mem_insert.mp hp with hp | hp
    · exact .inr (hp ▸ rfl)
    · exact hW' p hp
  ihave Hout := (Entails.of_eq (out_block_pts (F := F) d L fo (outVal (F := F) f0 f1 fu fi fw fb) (looprest.sl.dma0 ov) ov
    (show looprest.sl.dma0 ov = ov from readAs_same_read_whole ov) hov')) $$ Hout
  iapply (hQ _ hW'' ub ib ov)
  isplitr [HO HR]
  · unfold St
    isplitl [Ha0]; · iexact Ha0
    isplitl [Ha1]; · iexact Ha1
    isplitl [Hut]; · iexact Hut
    isplitl [Hit]; · iexact Hit
    isplitl [Hww]; · iexact Hww
    isplitl [Hbb]; · iexact Hbb
    isplitl [Hout]; · iexact Hout
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hsu]; · iexact Hsu
    isplitl [Hsi]; · iexact Hsi
    isplitl [Hr0]; · iexact Hr0
    isplitl [Hr1]; · iexact Hr1
    isplitl [Hr2]; · iexact Hr2
    isplitl [Hr3]; · iexact Hr3
    iexact Hr4
  isplitl [HO]; · iexact HO
  iexact HR

set_option maxRecDepth 100000 in
/-- The subcore's task: the opening copies and the scratch fills by the symbolic run, each filled scratch restated as one
    closed function, then `looprest`. -/
theorem tile_body (hW : WaveStep (F := F)) : TileBody (F := F) := by
  intro hF d L q f0 f1 fu fi fw fb fo h0 h1 O W hO
  unfold tileIn
  obtain ⟨Rb, hRb⟩ : ∃ Rb : sProp 𝕄, (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f) ∗ (∃ f, (V d (cV L) (jV L)).loc cc0_scratch9 ↦{fullShare} f) ∗ (∃ f, (V d (cV L) (jV L)).loc cc0_scratch10 ↦{fullShare} f) ∗ Rb) := ⟨_, ownBufs_V (F := F) d L⟩
  obtain ⟨Rs, hRs⟩ : ∃ Rs : sProp 𝕄, (ownSems0 (V d (cV L) (jV L)) : sProp 𝕄)
      = iprop(semVal (semCell d L cc0_scratch11.sem) 0 ∗ semVal (semCell d L cc0_scratch12.sem) 0 ∗ semVal (semCell d L cc0_scoped0.sem) 0 ∗ semVal (semCell d L cc0_scoped1.sem) 0 ∗ semVal (semCell d L cc0_scoped2.sem) 0 ∗ semVal (semCell d L cc0_scoped3.sem) 0 ∗ semVal (semCell d L cc0_scoped4.sem) 0 ∗ Rs) := ⟨_, ownSems0_V (F := F) d L⟩
  rw [(K (F := F)).scopedBufs_V hF d (cV L) (jV L), SparseCore.Cfg.scopedSems0_V (Val := Elt F) d (cV L) (jV L), hRs, hRb]
  have hQ : ∀ W', (∀ p ∈ W', p ∈ W ∨ p.2 = none) → ∀ (ub ib : S256x128.Idx → F .f32) (ov : S512.Idx → F .f32),
      iprop(St (F := F) d L q f0 f1 fu fi fw fb (outVal (F := F) f0 f1 fu fi fw fb) ub ib ov ∗ owes (V d (cV L) (jV L)) O W' ∗ (Rb ∗ Rs))
        ⊢ iprop(((a0Loc d ↦{q} f0) ∗ (a1Loc d ↦{q} f1) ∗ (utLoc d ↦{q} fu) ∗ (itLoc d ↦{q} fi) ∗ (wwLoc d ↦{q} fw) ∗ (bbLoc d ↦{q} fb)
            ∗ (outLoc d ↦[outBlk L]{fullShare} outVal (F := F) f0 f1 fu fi fw fb))
          ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f) ∗ (∃ f, (V d (cV L) (jV L)).loc cc0_scratch9 ↦{fullShare} f) ∗ (∃ f, (V d (cV L) (jV L)).loc cc0_scratch10 ↦{fullShare} f) ∗ Rb) ∗ (semVal (semCell d L cc0_scratch11.sem) 0 ∗ semVal (semCell d L cc0_scratch12.sem) 0 ∗ semVal (semCell d L cc0_scoped0.sem) 0 ∗ semVal (semCell d L cc0_scoped1.sem) 0 ∗ semVal (semCell d L cc0_scoped2.sem) 0 ∗ semVal (semCell d L cc0_scoped3.sem) 0 ∗ semVal (semCell d L cc0_scoped4.sem) 0 ∗ Rs)
          ∗ ∃ W', ⌜∀ p ∈ W', p ∈ W ∨ p.2 = none⌝ ∗ owes (V d (cV L) (jV L)) O W') := by
    intro W' hW' ub ib ov
    unfold St
    iintro ⟨⟨Ha0, Ha1, Hut, Hit, Hww, Hbb, Hout, H0, H1, H2, H3, H4, H5, H6, H7, H8, H9, H10, Hsu, Hsi, Hr0, Hr1, Hr2, Hr3, Hr4⟩, HO, HRb, HRs⟩
    ihave Ha0 := (Entails.of_eq (show (((A0).view.loc (V d (cV L) (jV L)) ↦{q} f0) : sProp 𝕄) = (a0Loc d ↦{q} f0) from rfl)) $$ Ha0
    ihave Ha1 := (Entails.of_eq (show (((A1).view.loc (V d (cV L) (jV L)) ↦{q} f1) : sProp 𝕄) = (a1Loc d ↦{q} f1) from rfl)) $$ Ha1
    ihave Hut := (Entails.of_eq (show (((UT).view.loc (V d (cV L) (jV L)) ↦{q} fu) : sProp 𝕄) = (utLoc d ↦{q} fu) from rfl)) $$ Hut
    ihave Hit := (Entails.of_eq (show (((IT).view.loc (V d (cV L) (jV L)) ↦{q} fi) : sProp 𝕄) = (itLoc d ↦{q} fi) from rfl)) $$ Hit
    ihave Hww := (Entails.of_eq (show (((WW).view.loc (V d (cV L) (jV L)) ↦{q} fw) : sProp 𝕄) = (wwLoc d ↦{q} fw) from rfl)) $$ Hww
    ihave Hbb := (Entails.of_eq (show (((BB).view.loc (V d (cV L) (jV L)) ↦{q} fb) : sProp 𝕄) = (bbLoc d ↦{q} fb) from rfl)) $$ Hbb
    ihave Hout := (Entails.of_eq (show (((outBlkM L).view.loc (V d (cV L) (jV L)) ↦[(outBlkM L).view.set]{fullShare} outVal (F := F) f0 f1 fu fi fw fb) : sProp 𝕄) = (outLoc d ↦[outBlk L]{fullShare} outVal (F := F) f0 f1 fu fi fw fb) from rfl)) $$ Hout
    ihave H0 := (Entails.of_eq (show (((s0).view.loc (V d (cV L) (jV L)) ↦{fullShare} idBlk L f0) : sProp 𝕄) = ((V d (cV L) (jV L)).loc cc0_scratch0 ↦{fullShare} idBlk L f0) from rfl)) $$ H0
    ihave H1 := (Entails.of_eq (show (((s1).view.loc (V d (cV L) (jV L)) ↦{fullShare} idBlk L f1) : sProp 𝕄) = ((V d (cV L) (jV L)).loc cc0_scratch1 ↦{fullShare} idBlk L f1) from rfl)) $$ H1
    ihave H2 := (Entails.of_eq (show (((s2).view.loc (V d (cV L) (jV L)) ↦{fullShare} lineBlk L f0) : sProp 𝕄) = ((V d (cV L) (jV L)).loc cc0_scratch2 ↦{fullShare} lineBlk L f0) from rfl)) $$ H2
    ihave H3 := (Entails.of_eq (show (((s3).view.loc (V d (cV L) (jV L)) ↦{fullShare} lineBlk L f1) : sProp 𝕄) = ((V d (cV L) (jV L)).loc cc0_scratch3 ↦{fullShare} lineBlk L f1) from rfl)) $$ H3
    ihave H4 := (Entails.of_eq (show (((s4).view.loc (V d (cV L) (jV L)) ↦{fullShare} ub) : sProp 𝕄) = ((V d (cV L) (jV L)).loc cc0_scratch4 ↦{fullShare} ub) from rfl)) $$ H4
    ihave H5 := (Entails.of_eq (show (((s5).view.loc (V d (cV L) (jV L)) ↦{fullShare} ib) : sProp 𝕄) = ((V d (cV L) (jV L)).loc cc0_scratch5 ↦{fullShare} ib) from rfl)) $$ H5
    ihave H6 := (Entails.of_eq (show (((s6).view.loc (V d (cV L) (jV L)) ↦{fullShare} fw) : sProp 𝕄) = ((V d (cV L) (jV L)).loc cc0_scratch6 ↦{fullShare} fw) from rfl)) $$ H6
    ihave H7 := (Entails.of_eq (show (((s7).view.loc (V d (cV L) (jV L)) ↦{fullShare} fb) : sProp 𝕄) = ((V d (cV L) (jV L)).loc cc0_scratch7 ↦{fullShare} fb) from rfl)) $$ H7
    ihave H8 := (Entails.of_eq (show (((s8).view.loc (V d (cV L) (jV L)) ↦{fullShare} fw) : sProp 𝕄) = ((V d (cV L) (jV L)).loc cc0_scratch8 ↦{fullShare} fw) from rfl)) $$ H8
    ihave H9 := (Entails.of_eq (show (((s9).view.loc (V d (cV L) (jV L)) ↦{fullShare} fb) : sProp 𝕄) = ((V d (cV L) (jV L)).loc cc0_scratch9 ↦{fullShare} fb) from rfl)) $$ H9
    ihave H10 := (Entails.of_eq (show (((s10).view.loc (V d (cV L) (jV L)) ↦{fullShare} ov) : sProp 𝕄) = ((V d (cV L) (jV L)).loc cc0_scratch10 ↦{fullShare} ov) from rfl)) $$ H10
    ihave Hsu := (Entails.of_eq (show (semVal (V d (cV L) (jV L), SemLoc.dma cc0_scratch11.sem) 0 : sProp 𝕄) = semVal (semCell d L cc0_scratch11.sem) 0 from rfl)) $$ Hsu
    ihave Hsi := (Entails.of_eq (show (semVal (V d (cV L) (jV L), SemLoc.dma cc0_scratch12.sem) 0 : sProp 𝕄) = semVal (semCell d L cc0_scratch12.sem) 0 from rfl)) $$ Hsi
    ihave Hr0 := (Entails.of_eq (show (semVal (V d (cV L) (jV L), SemLoc.dma cc0_scoped0.sem) 0 : sProp 𝕄) = semVal (semCell d L cc0_scoped0.sem) 0 from rfl)) $$ Hr0
    ihave Hr1 := (Entails.of_eq (show (semVal (V d (cV L) (jV L), SemLoc.dma cc0_scoped1.sem) 0 : sProp 𝕄) = semVal (semCell d L cc0_scoped1.sem) 0 from rfl)) $$ Hr1
    ihave Hr2 := (Entails.of_eq (show (semVal (V d (cV L) (jV L), SemLoc.dma cc0_scoped2.sem) 0 : sProp 𝕄) = semVal (semCell d L cc0_scoped2.sem) 0 from rfl)) $$ Hr2
    ihave Hr3 := (Entails.of_eq (show (semVal (V d (cV L) (jV L), SemLoc.dma cc0_scoped3.sem) 0 : sProp 𝕄) = semVal (semCell d L cc0_scoped3.sem) 0 from rfl)) $$ Hr3
    ihave Hr4 := (Entails.of_eq (show (semVal (V d (cV L) (jV L), SemLoc.dma cc0_scoped4.sem) 0 : sProp 𝕄) = semVal (semCell d L cc0_scoped4.sem) 0 from rfl)) $$ Hr4
    isplitl [Ha0 Ha1 Hut Hit Hww Hbb Hout]
    · isplitl [Ha0]; · iexact Ha0
      isplitl [Ha1]; · iexact Ha1
      isplitl [Hut]; · iexact Hut
      isplitl [Hit]; · iexact Hit
      isplitl [Hww]; · iexact Hww
      isplitl [Hbb]; · iexact Hbb
      iexact Hout
    isplitl [H0 H1 H2 H3 H4 H5 H6 H7 H8 H9 H10 HRb]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexact HRb
    isplitl [Hsu Hsi Hr0 Hr1 Hr2 Hr3 Hr4 HRs]
    · isplitl [Hsu]; · iexact Hsu
      isplitl [Hsi]; · iexact Hsi
      isplitl [Hr0]; · iexact Hr0
      isplitl [Hr1]; · iexact Hr1
      isplitl [Hr2]; · iexact Hr2
      isplitl [Hr3]; · iexact Hr3
      isplitl [Hr4]; · iexact Hr4
      iexact HRs
    iexists W'; isplitr
    · ipureintro; exact hW'
    · iexact HO
  have hW0 : ∀ p ∈ (insert (SemLoc.dma cc0_scoped3.sem, (default : HIx 1)) (insert (SemLoc.dma cc0_scoped2.sem, (default : HIx 1)) (insert (SemLoc.dma cc0_scoped1.sem, (default : HIx 1)) (insert (SemLoc.dma cc0_scoped0.sem, (default : HIx 1)) W)))), p ∈ W ∨ p.2 = none := by
    intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro ⟨#Hlv, -, ⟨Ha0, Ha1, Hut, Hit, Hww, Hbb, Hout⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, HRb⟩, ⟨Hsu, Hsi, Hr0, Hr1, Hr2, Hr3, Hr4, HRs⟩, HO⟩
  ihave Hmw := ((K (F := F)).mayWaits_none (thr := V d (cV L) (jV L)) hO) $$ Hlv
  ihave Ha0 := (Entails.of_eq (show (a0Loc d ↦{q} f0 : sProp 𝕄) = ((A0).view.loc (V d (cV L) (jV L)) ↦{q} f0) from rfl)) $$ Ha0
  ihave Ha1 := (Entails.of_eq (show (a1Loc d ↦{q} f1 : sProp 𝕄) = ((A1).view.loc (V d (cV L) (jV L)) ↦{q} f1) from rfl)) $$ Ha1
  ihave Hut := (Entails.of_eq (show (utLoc d ↦{q} fu : sProp 𝕄) = ((UT).view.loc (V d (cV L) (jV L)) ↦{q} fu) from rfl)) $$ Hut
  ihave Hit := (Entails.of_eq (show (itLoc d ↦{q} fi : sProp 𝕄) = ((IT).view.loc (V d (cV L) (jV L)) ↦{q} fi) from rfl)) $$ Hit
  ihave Hww := (Entails.of_eq (show (wwLoc d ↦{q} fw : sProp 𝕄) = ((WW).view.loc (V d (cV L) (jV L)) ↦{q} fw) from rfl)) $$ Hww
  ihave Hbb := (Entails.of_eq (show (bbLoc d ↦{q} fb : sProp 𝕄) = ((BB).view.loc (V d (cV L) (jV L)) ↦{q} fb) from rfl)) $$ Hbb
  ihave Hout := (Entails.of_eq (show (outLoc d ↦[outBlk L]{fullShare} fo : sProp 𝕄) = ((outBlkM L).view.loc (V d (cV L) (jV L)) ↦[(outBlkM L).view.set]{fullShare} fo) from rfl)) $$ Hout
  ihave H0 := (Entails.of_eq (show ((V d (cV L) (jV L)).loc cc0_scratch0 ↦{fullShare} g0 : sProp 𝕄) = ((s0).view.loc (V d (cV L) (jV L)) ↦{fullShare} g0) from rfl)) $$ H0
  ihave H1 := (Entails.of_eq (show ((V d (cV L) (jV L)).loc cc0_scratch1 ↦{fullShare} g1 : sProp 𝕄) = ((s1).view.loc (V d (cV L) (jV L)) ↦{fullShare} g1) from rfl)) $$ H1
  ihave H2 := (Entails.of_eq (show ((V d (cV L) (jV L)).loc cc0_scratch2 ↦{fullShare} g2 : sProp 𝕄) = ((s2).view.loc (V d (cV L) (jV L)) ↦{fullShare} g2) from rfl)) $$ H2
  ihave H3 := (Entails.of_eq (show ((V d (cV L) (jV L)).loc cc0_scratch3 ↦{fullShare} g3 : sProp 𝕄) = ((s3).view.loc (V d (cV L) (jV L)) ↦{fullShare} g3) from rfl)) $$ H3
  ihave H4 := (Entails.of_eq (show ((V d (cV L) (jV L)).loc cc0_scratch4 ↦{fullShare} g4 : sProp 𝕄) = ((s4).view.loc (V d (cV L) (jV L)) ↦{fullShare} g4) from rfl)) $$ H4
  ihave H5 := (Entails.of_eq (show ((V d (cV L) (jV L)).loc cc0_scratch5 ↦{fullShare} g5 : sProp 𝕄) = ((s5).view.loc (V d (cV L) (jV L)) ↦{fullShare} g5) from rfl)) $$ H5
  ihave H6 := (Entails.of_eq (show ((V d (cV L) (jV L)).loc cc0_scratch6 ↦{fullShare} g6 : sProp 𝕄) = ((s6).view.loc (V d (cV L) (jV L)) ↦{fullShare} g6) from rfl)) $$ H6
  ihave H7 := (Entails.of_eq (show ((V d (cV L) (jV L)).loc cc0_scratch7 ↦{fullShare} g7 : sProp 𝕄) = ((s7).view.loc (V d (cV L) (jV L)) ↦{fullShare} g7) from rfl)) $$ H7
  ihave H8 := (Entails.of_eq (show ((V d (cV L) (jV L)).loc cc0_scratch8 ↦{fullShare} g8 : sProp 𝕄) = ((s8).view.loc (V d (cV L) (jV L)) ↦{fullShare} g8) from rfl)) $$ H8
  ihave H9 := (Entails.of_eq (show ((V d (cV L) (jV L)).loc cc0_scratch9 ↦{fullShare} g9 : sProp 𝕄) = ((s9).view.loc (V d (cV L) (jV L)) ↦{fullShare} g9) from rfl)) $$ H9
  ihave H10 := (Entails.of_eq (show ((V d (cV L) (jV L)).loc cc0_scratch10 ↦{fullShare} g10 : sProp 𝕄) = ((s10).view.loc (V d (cV L) (jV L)) ↦{fullShare} g10) from rfl)) $$ H10
  ihave Hsu := (Entails.of_eq (show (semVal (semCell d L cc0_scratch11.sem) 0 : sProp 𝕄) = semVal (V d (cV L) (jV L), SemLoc.dma cc0_scratch11.sem) 0 from rfl)) $$ Hsu
  ihave Hsi := (Entails.of_eq (show (semVal (semCell d L cc0_scratch12.sem) 0 : sProp 𝕄) = semVal (V d (cV L) (jV L), SemLoc.dma cc0_scratch12.sem) 0 from rfl)) $$ Hsi
  ihave Hr0 := (Entails.of_eq (show (semVal (semCell d L cc0_scoped0.sem) 0 : sProp 𝕄) = semVal (V d (cV L) (jV L), SemLoc.dma cc0_scoped0.sem) 0 from rfl)) $$ Hr0
  ihave Hr1 := (Entails.of_eq (show (semVal (semCell d L cc0_scoped1.sem) 0 : sProp 𝕄) = semVal (V d (cV L) (jV L), SemLoc.dma cc0_scoped1.sem) 0 from rfl)) $$ Hr1
  ihave Hr2 := (Entails.of_eq (show (semVal (semCell d L cc0_scoped2.sem) 0 : sProp 𝕄) = semVal (V d (cV L) (jV L), SemLoc.dma cc0_scoped2.sem) 0 from rfl)) $$ Hr2
  ihave Hr3 := (Entails.of_eq (show (semVal (semCell d L cc0_scoped3.sem) 0 : sProp 𝕄) = semVal (V d (cV L) (jV L), SemLoc.dma cc0_scoped3.sem) 0 from rfl)) $$ Hr3
  ihave Hr4 := (Entails.of_eq (show (semVal (semCell d L cc0_scoped4.sem) 0 : sProp 𝕄) = semVal (V d (cV L) (jV L), SemLoc.dma cc0_scoped4.sem) 0 from rfl)) $$ Hr4
  sl_exec_parts
  have e0 : View.write (Elt F) (s0).view g0 (tile_body.sl.dma0 d L f0) Finset.univ = idBlk L f0 := by
    delta_sl tile_body.sl
    exact (View.write_whole_univ _ _ _).trans (read_idBlk0 L f0)
  have e1 : View.write (Elt F) (s1).view g1 (tile_body.sl.dma0_1 d L f1) Finset.univ = idBlk L f1 := by
    delta_sl tile_body.sl
    exact (View.write_whole_univ _ _ _).trans (read_idBlk1 L f1)
  have e6 : View.write (Elt F) (s6).view g6 (tile_body.sl.dma0_2 d fw) Finset.univ = fw := by
    delta_sl tile_body.sl
    exact View.write_whole_univ _ _ _
  have e7 : View.write (Elt F) (s7).view g7 (tile_body.sl.dma0_3 d fb) Finset.univ = fb := by
    delta_sl tile_body.sl
    exact View.write_whole_univ _ _ _
  have e2 : (s2).view.writes (Elt F) (s2).view.junk (tile_body.sl.H2_32 d L f0 g0) = lineBlk L f0 := by
    delta_sl tile_body.sl
    delta_sl Gen.k0_pay
    refine writes_whole_eq _ _ _ _ ?_ ?_
    case refine_2 => exact cover_by_eval _ ![16] (by eval_true)
    pieces_all
      intro x
      simp only [Memref.view_whole, View.read_whole, View.write_whole_univ, ReadAs.apply, readAt_unit1, extractAt_slice_one, extractAt_one, read_idBlk0, read_idBlk0', shrui_two_eq]
      rw [unit1_emb] <;> rfl
  have e3 : (s3).view.writes (Elt F) (s3).view.junk (tile_body.sl.H3_32 d L f1 g1) = lineBlk L f1 := by
    delta_sl tile_body.sl
    delta_sl Gen.k0_pay
    refine writes_whole_eq _ _ _ _ ?_ ?_
    case refine_2 => exact cover_by_eval _ ![16] (by eval_true)
    pieces_all
      intro x
      simp only [Memref.view_whole, View.read_whole, View.write_whole_univ, ReadAs.apply, readAt_unit1, extractAt_slice_one, extractAt_one, read_idBlk1, read_idBlk1', shrui_two_eq]
      rw [unit1_emb] <;> rfl
  have e8 : (s8).view.writes (Elt F) (s8).view.junk (tile_body.sl.H8_512 d L fw g6) = fw := by
    refine writes_whole_eq _ _ _ _ ?_ ?_
    case refine_2 => exact cover1_by_eval _ (by eval_true)
    pieces_chain tile_body.sl
      delta_sl tile_body.sl
      delta_sl Gen.k0_pay
      intro x
      dsimp only
      refine s8_store_ok fw g6 _ _ _ ?_ _ _ _ _ x
      rfl
  have e9 : (s9).view.writes (Elt F) (s9).view.junk (tile_body.sl.H9_16 d L fb g7) = fb := by
    delta_sl tile_body.sl
    delta_sl Gen.k0_pay
    refine writes_whole_eq _ _ _ _ ?_ ?_
    case refine_2 => exact cover_by_eval _ ![1] (by eval_true)
    pieces_all
      intro x
      simp only [Memref.view_whole, View.read_whole, View.write_whole_univ, ReadAs.apply, readAt_unit1, extractAt_slice_one, extractAt_one]
      rw [unit1_emb_one] <;> rfl
  ihave H0 := (Entails.of_eq (congrArg (fun f => (((s0).view.loc (V d (cV L) (jV L)) ↦{fullShare} f) : sProp 𝕄)) e0)) $$ H0
  ihave H1 := (Entails.of_eq (congrArg (fun f => (((s1).view.loc (V d (cV L) (jV L)) ↦{fullShare} f) : sProp 𝕄)) e1)) $$ H1
  ihave H6 := (Entails.of_eq (congrArg (fun f => (((s6).view.loc (V d (cV L) (jV L)) ↦{fullShare} f) : sProp 𝕄)) e6)) $$ H6
  ihave H7 := (Entails.of_eq (congrArg (fun f => (((s7).view.loc (V d (cV L) (jV L)) ↦{fullShare} f) : sProp 𝕄)) e7)) $$ H7
  ihave H2 := (Entails.of_eq (congrArg (fun f => (((s2).view.loc (V d (cV L) (jV L)) ↦{fullShare} f) : sProp 𝕄)) e2)) $$ H2
  ihave H3 := (Entails.of_eq (congrArg (fun f => (((s3).view.loc (V d (cV L) (jV L)) ↦{fullShare} f) : sProp 𝕄)) e3)) $$ H3
  ihave H8 := (Entails.of_eq (congrArg (fun f => (((s8).view.loc (V d (cV L) (jV L)) ↦{fullShare} f) : sProp 𝕄)) e8)) $$ H8
  ihave H9 := (Entails.of_eq (congrArg (fun f => (((s9).view.loc (V d (cV L) (jV L)) ↦{fullShare} f) : sProp 𝕄)) e9)) $$ H9
  iapply (looprest (F := F) hW hF d L q f0 f1 fu fi fw fb fo h0 h1 O W (insert (SemLoc.dma cc0_scoped3.sem, (default : HIx 1)) (insert (SemLoc.dma cc0_scoped2.sem, (default : HIx 1)) (insert (SemLoc.dma cc0_scoped1.sem, (default : HIx 1)) (insert (SemLoc.dma cc0_scoped0.sem, (default : HIx 1)) W)))) hW0 g4 g5 g10 _ _ iprop(Rb ∗ Rs) _ hQ) $$ [Hmw Ha0 Ha1 Hut Hit Hww Hbb Hout H0 H1 H2 H3 H4 H5 H6 H7 H8 H9 H10 Hsu Hsi Hr0 Hr1 Hr2 Hr3 Hr4 HO HRb HRs]
  isplitl [Hmw]; · iexact Hmw
  isplitl [Ha0 Ha1 Hut Hit Hww Hbb Hout H0 H1 H2 H3 H4 H5 H6 H7 H8 H9 H10 Hsu Hsi Hr0 Hr1 Hr2 Hr3 Hr4]
  · unfold St
    isplitl [Ha0]; · iexact Ha0
    isplitl [Ha1]; · iexact Ha1
    isplitl [Hut]; · iexact Hut
    isplitl [Hit]; · iexact Hit
    isplitl [Hww]; · iexact Hww
    isplitl [Hbb]; · iexact Hbb
    isplitl [Hout]; · iexact Hout
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hsu]; · iexact Hsu
    isplitl [Hsi]; · iexact Hsi
    isplitl [Hr0]; · iexact Hr0
    isplitl [Hr1]; · iexact Hr1
    isplitl [Hr2]; · iexact Hr2
    isplitl [Hr3]; · iexact Hr3
    iexact Hr4
  isplitl [HO]; · iexact HO
  isplitl [HRb]; · iexact HRb
  iexact HRs

end Cert.KernelIdeal.Hand
end
-- ==== Proof.TileWave.lean ====
/-
  One wave of a vector subcore: the two indexed copies fill the two line buffers with the lines the wave's 256 ids
  name (each copy on its own semaphore, both waited for before any row is read), then the sixteen groups of sixteen
  entries are accumulated one after the other.
-/
import proofs.«218018_g87892210745873_cont_sun_m_655_26_alg».proof.Proof.TileInv
import proofs.«218018_g87892210745873_cont_sun_m_655_26_alg».proof.Proof.IntFacts
import proofs.«218018_g87892210745873_cont_sun_m_655_26_alg».proof.Proof.Accum

set_option maxHeartbeats 4000000

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.KernelIdeal.main_arg0_scv : Memref Cert.KernelIdeal.sig Kind.scVector Space.hbm Cert.KernelIdeal.S16384 EltTy.i32)
local notation "A1" => (Memref.whole Cert.KernelIdeal.main_arg1_scv : Memref Cert.KernelIdeal.sig Kind.scVector Space.hbm Cert.KernelIdeal.S16384 EltTy.i32)
local notation "UT" => (Memref.whole Cert.KernelIdeal.main_v0_scv : Memref Cert.KernelIdeal.sig Kind.scVector Space.hbm Cert.KernelIdeal.S250000x128 EltTy.f32)
local notation "IT" => (Memref.whole Cert.KernelIdeal.main_v1_scv : Memref Cert.KernelIdeal.sig Kind.scVector Space.hbm Cert.KernelIdeal.S250000x128 EltTy.f32)
local notation "WW" => (Memref.whole Cert.KernelIdeal.main_v2_scv : Memref Cert.KernelIdeal.sig Kind.scVector Space.hbm Cert.KernelIdeal.S512 EltTy.f32)
local notation "BB" => (Memref.whole Cert.KernelIdeal.main_arg5_scv : Memref Cert.KernelIdeal.sig Kind.scVector Space.hbm Cert.KernelIdeal.S16 EltTy.f32)
local notation "OO" => (Memref.whole Cert.KernelIdeal.main_v3_scv : Memref Cert.KernelIdeal.sig Kind.scVector Space.hbm Cert.KernelIdeal.S16384 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S512 EltTy.i32)
local notation "s4" => (Memref.whole Cert.KernelIdeal.cc0_scratch4 : Memref Cert.KernelIdeal.sig Kind.scVector Space.vmem Cert.KernelIdeal.S256x128 EltTy.f32)
local notation "s5" => (Memref.whole Cert.KernelIdeal.cc0_scratch5 : Memref Cert.KernelIdeal.sig Kind.scVector Space.vmem Cert.KernelIdeal.S256x128 EltTy.f32)
local notation "s6" => (Memref.whole Cert.KernelIdeal.cc0_scratch6 : Memref Cert.KernelIdeal.sig Kind.scVector Space.vmem Cert.KernelIdeal.S512 EltTy.f32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.smem Cert.KernelIdeal.S512 EltTy.f32)
local notation "s9" => (Memref.whole Cert.KernelIdeal.cc0_scratch9 : Memref Cert.KernelIdeal.sig Kind.scVector Space.smem Cert.KernelIdeal.S16 EltTy.f32)
local notation "s10" => (Memref.whole Cert.KernelIdeal.cc0_scratch10 : Memref Cert.KernelIdeal.sig Kind.scVector Space.vmem Cert.KernelIdeal.S512 EltTy.f32)

/-- A subcore runs two waves. -/
theorem wave_t1_lt (t1 : Fin k0_t1_loop.trips) : t1.val < 2 := lt_of_lt_of_le t1.isLt k0_t1_abs.2.1

/-- What an indexed copy delivers at (r, c), stated over what its two operands read: the table at the line that entry
    256 t + r of the list names, word c. -/
theorem gatherPayload_at (lines : S512.Idx → BitVec 32) (tab : S250000x128.Idx → F .f32) (t : ℕ) (ht : t < 2)
    (hn : S256.numel = S256x128.size gathers_S250000x128_S256x128.axis')
    (rdT : S250000x128.Idx → Elt F .f32) (rdL : S256.Idx → Elt F .i32)
    (hT : ∀ y, rdT y = tab y)
    (hL : ∀ z : S256.Idx, rdL z = lines (ix1 (⟨min (256 * t + (z 0).val) 511, by omega⟩ : Fin 512)))
    (hin : ∀ x, (rdL x).toNat < S250000x128.size gathers_S250000x128_S256x128.axis) (i : S256x128.Idx) :
    SparseCore.gatherPayload (F := F) gathers_S250000x128_S256x128 rdT (SparseCore.rows rdL hn hin) i = gath tab lines t i := by
  obtain ⟨r, c, rfl⟩ : ∃ (r : Fin 256) (c : Fin 128), i = ix2 r c := ⟨i 0, i 1, eq_ix2 i⟩
  unfold SparseCore.gatherPayload gath
  rw [hT]
  refine congrArg tab ?_
  funext b
  match b with
  | ⟨0, _⟩ =>
    refine Fin.ext ?_
    have hz : ((S256.rowMajor.symm (Fin.cast hn.symm r)) 0).val = r.val := by
      rw [← Shape.rowMajor_val_one, Equiv.apply_symm_apply]; rfl
    have h1 := hin (S256.rowMajor.symm (Fin.cast hn.symm r))
    rw [hL] at h1
    show (rdL (S256.rowMajor.symm (Fin.cast hn.symm r))).toNat = min (lines (ix1 (⟨min (256 * t + r.val) 511, by omega⟩ : Fin 512))).toNat 249999
    rw [hL]
    have h2 : (S250000x128.size gathers_S250000x128_S256x128.axis) = 250000 := rfl
    rw [h2] at h1
    simp only [hz] at h1 ⊢
    omega
  | ⟨1, _⟩ => exact Fin.ext rfl

/-- The table read through its whole rectangle is the table. -/
theorem read_tab {κ : Kind} (b : Memref sig κ .hbm S250000x128 .f32)
    (p2 : ∀ a, (Rect.unit (s := S250000x128) ![0, 0] S250000x128.size inb_S250000x128_S250000x128_0_0).stride a = 1)
    (tab : b.view.ty.Contents (Elt F)) (y : S250000x128.Idx) :
    View.read (Elt F) (b.slice (Rect.unit (s := S250000x128) ![0, 0] S250000x128.size inb_S250000x128_S250000x128_0_0) p2).view tab y
      = View.read (Elt F) b.view tab y := by
  rw [View.read_apply, View.read_apply]
  have e : (b.slice (Rect.unit (s := S250000x128) ![0, 0] S250000x128.size inb_S250000x128_S250000x128_0_0) p2).view.emb y = b.view.emb y := by
    show b.view.emb ((Rect.unit (s := S250000x128) ![0, 0] S250000x128.size inb_S250000x128_S250000x128_0_0).emb y) = _
    refine congrArg _ (funext fun a => Fin.ext ?_)
    match a with
    | ⟨0, _⟩ => show 0 + 1 * (y 0).val = (y 0).val; omega
    | ⟨1, _⟩ => show 0 + 1 * (y 1).val = (y 1).val; omega
  rw [e]

/-- The wave's slice of a line list reads, in row r, entry 256 t + r of the list. -/
theorem read_lines {κ : Kind} (b : Memref sig κ .vmem S512 .i32) (lines : b.view.ty.Contents (Elt F)) (t1 : Fin k0_t1_loop.trips)
    (z : S256.Idx) :
    View.read (Elt F) (b.slice (Rect.unit (s := S512) (k0_off2 t1) S256.size (k0_off2_inb t1)) (fun _ => rfl)).view lines z
      = View.read (Elt F) b.view lines (ix1 (⟨min (256 * t1.val + (z 0).val) 511, by omega⟩ : Fin 512)) := by
  rw [View.read_apply, View.read_apply]
  have e : (b.slice (Rect.unit (s := S512) (k0_off2 t1) S256.size (k0_off2_inb t1)) (fun _ => rfl)).view.emb z
      = b.view.emb (ix1 (⟨min (256 * t1.val + (z 0).val) 511, by omega⟩ : Fin 512)) := by
    show b.view.emb ((Rect.unit (s := S512) (k0_off2 t1) S256.size (k0_off2_inb t1)).emb z) = _
    refine congrArg _ (funext fun a => Fin.ext ?_)
    match a with
    | ⟨0, _⟩ =>
      show k0_off2 t1 0 + 1 * (z 0).val = min (256 * t1.val + (z 0).val) 511
      rw [k0_off2_eq t1]
      have := wave_t1_lt t1
      have hz : (z 0).val < 256 := (z 0).isLt
      show 256 * t1.val + 1 * (z 0).val = _
      omega
  rw [e]

/-- What the indexed copy leaves in the line buffer, over anything: the lines of wave t1. -/
theorem gatherU_eq (L : grid0.Coords) (f : S16384.Idx → BitVec 32) (tab : S250000x128.Idx → F .f32) (t1 : Fin k0_t1_loop.trips)
    (p2 : ∀ a, (Rect.unit (s := S250000x128) ![0, 0] S250000x128.size inb_S250000x128_S250000x128_0_0).stride a = 1)
    (hn : S256.numel = S256x128.size gathers_S250000x128_S256x128.axis')
    (hin : ∀ x, (((s2).slice (Rect.unit (s := S512) (k0_off2 t1) S256.size (k0_off2_inb t1)) (fun _ => rfl)).view.read (Elt F) (lineBlk L f) x).toNat
      < S250000x128.size gathers_S250000x128_S256x128.axis)
    (junk : S256x128.Idx → F .f32) :
    (s4).view.writes (Elt F) junk [⟨Rect.whole cc0_scratch4.ty.shape,
        SparseCore.gatherPayload gathers_S250000x128_S256x128
          (View.read (Elt F) ((UT).slice (Rect.unit (s := S250000x128) ![0, 0] S250000x128.size inb_S250000x128_S250000x128_0_0) p2).view tab)
          (SparseCore.rows (View.read (Elt F) ((s2).slice (Rect.unit (s := S512) (k0_off2 t1) S256.size (k0_off2_inb t1)) (fun _ => rfl)).view (lineBlk L f)) hn hin)⟩]
      = gath tab (lineBlk L f) t1.val := by
  rw [View.writes_singleton]
  funext i
  have e : (Rect.whole S256x128).emb i = i := Rect.emb_whole_apply S256x128 i
  have hw := View.write_emb_of_mem (v := (s4).view.slice (Rect.whole S256x128)) (Val := Elt F) junk
    (SparseCore.gatherPayload gathers_S250000x128_S256x128
          (View.read (Elt F) ((UT).slice (Rect.unit (s := S250000x128) ![0, 0] S250000x128.size inb_S250000x128_S250000x128_0_0) p2).view tab)
          (SparseCore.rows (View.read (Elt F) ((s2).slice (Rect.unit (s := S512) (k0_off2 t1) S256.size (k0_off2_inb t1)) (fun _ => rfl)).view (lineBlk L f)) hn hin))
    (M := Finset.univ) (x := i) (Finset.mem_univ i)
  rw [show ((s4).view.slice (Rect.whole S256x128)).emb i = i from e] at hw
  refine hw.trans ?_
  exact gatherPayload_at (lineBlk L f) tab t1.val (wave_t1_lt t1) hn _ _
    (fun y => (read_tab (F := F) (UT) p2 tab y).trans rfl) (fun z => (read_lines (F := F) (s2) (lineBlk L f) t1 z).trans rfl) hin i

/-- What the indexed copy leaves in the line buffer, over anything: the lines of wave t1. -/
theorem gatherI_eq (L : grid0.Coords) (f : S16384.Idx → BitVec 32) (tab : S250000x128.Idx → F .f32) (t1 : Fin k0_t1_loop.trips)
    (p2 : ∀ a, (Rect.unit (s := S250000x128) ![0, 0] S250000x128.size inb_S250000x128_S250000x128_0_0).stride a = 1)
    (hn : S256.numel = S256x128.size gathers_S250000x128_S256x128.axis')
    (hin : ∀ x, (((s3).slice (Rect.unit (s := S512) (k0_off2 t1) S256.size (k0_off2_inb t1)) (fun _ => rfl)).view.read (Elt F) (lineBlk L f) x).toNat
      < S250000x128.size gathers_S250000x128_S256x128.axis)
    (junk : S256x128.Idx → F .f32) :
    (s5).view.writes (Elt F) junk [⟨Rect.whole cc0_scratch5.ty.shape,
        SparseCore.gatherPayload gathers_S250000x128_S256x128
          (View.read (Elt F) ((IT).slice (Rect.unit (s := S250000x128) ![0, 0] S250000x128.size inb_S250000x128_S250000x128_0_0) p2).view tab)
          (SparseCore.rows (View.read (Elt F) ((s3).slice (Rect.unit (s := S512) (k0_off2 t1) S256.size (k0_off2_inb t1)) (fun _ => rfl)).view (lineBlk L f)) hn hin)⟩]
      = gath tab (lineBlk L f) t1.val := by
  rw [View.writes_singleton]
  funext i
  have e : (Rect.whole S256x128).emb i = i := Rect.emb_whole_apply S256x128 i
  have hw := View.write_emb_of_mem (v := (s5).view.slice (Rect.whole S256x128)) (Val := Elt F) junk
    (SparseCore.gatherPayload gathers_S250000x128_S256x128
          (View.read (Elt F) ((IT).slice (Rect.unit (s := S250000x128) ![0, 0] S250000x128.size inb_S250000x128_S250000x128_0_0) p2).view tab)
          (SparseCore.rows (View.read (Elt F) ((s3).slice (Rect.unit (s := S512) (k0_off2 t1) S256.size (k0_off2_inb t1)) (fun _ => rfl)).view (lineBlk L f)) hn hin))
    (M := Finset.univ) (x := i) (Finset.mem_univ i)
  rw [show ((s5).view.slice (Rect.whole S256x128)).emb i = i from e] at hw
  refine hw.trans ?_
  exact gatherPayload_at (lineBlk L f) tab t1.val (wave_t1_lt t1) hn _ _
    (fun y => (read_tab (F := F) (IT) p2 tab y).trans rfl) (fun z => (read_lines (F := F) (s3) (lineBlk L f) t1 z).trans rfl) hin i

/-- The lines a subcore's ids name are lines of the table. -/
theorem lineBlk_lt (L : grid0.Coords) (f : S16384.Idx → BitVec 32) (h : ∀ i, (f i).toNat ≤ 999999) (j : S512.Idx) :
    (lineBlk L f j).toNat < 250000 := by
  unfold lineBlk idBlk
  have := h (bidx L j)
  rw [BitVec.toNat_ofNat]
  omega

/-- A wave has sixteen groups. -/
theorem t2_trips : k0_t2_loop.trips = 16 := by decide

/-- Between the groups of wave t1: the line buffers hold the wave's lines, the result scratch is right on the wave's
    first 16 t2 entries and on everything before the wave, the two waits of the wave are recorded. -/
def grpLoopInv (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (O : CellTallies nD τ sig (HIx 1)) (W'' : Waits sig (HIx 1)) (t1 : Fin k0_t1_loop.trips) (t2 : ℕ) (_ : BitVec 32) : sProp 𝕄 :=
  iprop(Transfers.MayWaits (V d (cV L) (jV L)) (none : HIx 1) O
    ∗ (∃ ov', ⌜OutDone (F := F) L f0 f1 fu fi fw fb (256 * t1.val + 16 * t2) ov'⌝
        ∗ St (F := F) d L q f0 f1 fu fi fw fb fo (gath fu (lineBlk L f0) t1.val) (gath fi (lineBlk L f1) t1.val) ov')
    ∗ owes (V d (cV L) (jV L)) O W'')

set_option pp.maxSteps 20000 in
set_option pp.deepTerms false in
theorem wave_step (hG : GrpStep (F := F)) : WaveStep (F := F) := by
  intro hF d L q f0 f1 fu fi fw fb fo h0 h1 O W' t1 acc v2339 v2369 ub ib ov hov
  have hinU : ∀ x, (((s2).slice (Rect.unit (s := S512) (k0_off2 t1) S256.size (k0_off2_inb t1)) (fun _ => rfl)).view.read (Elt F) (lineBlk L f0) x).toNat
      < S250000x128.size gathers_S250000x128_S256x128.axis := fun x => by
    rw [View.read_apply]; exact lineBlk_lt L f0 h0 _
  have hinI : ∀ x, (((s3).slice (Rect.unit (s := S512) (k0_off2 t1) S256.size (k0_off2_inb t1)) (fun _ => rfl)).view.read (Elt F) (lineBlk L f1) x).toNat
      < S250000x128.size gathers_S250000x128_S256x128.axis := fun x => by
    rw [View.read_apply]; exact lineBlk_lt L f1 h1 _
  unfold St
  iintro ⟨Hmw, ⟨HA0, HA1, HUT, HIT, HWW, HBB, HOut, H0, H1, H2, H3, H4, H5, H6, H7, H8, H9, H10, Hs11, Hs12, Hc0, Hc1, Hc2, Hc3, Hc4⟩, HO⟩
  -- the two indexed copies and their two waits
  sl_exec_parts
  -- what they left in the line buffers, in closed form
  have e4 : (s4).view.writes (Elt F) (s4).view.junk [⟨Rect.whole cc0_scratch4.ty.shape, wave_step.sl.gather0 d L f0 fu t1 hinU⟩]
      = gath fu (lineBlk L f0) t1.val := gatherU_eq L f0 fu t1 _ _ hinU _
  have e5 : (s5).view.writes (Elt F) (s5).view.junk [⟨Rect.whole cc0_scratch5.ty.shape, wave_step.sl.gather1 d L f1 fi t1 hinI⟩]
      = gath fi (lineBlk L f1) t1.val := gatherI_eq L f1 fi t1 _ _ hinI _
  ihave H4' := (Entails.of_eq (congrArg (fun g => ((s4).view.loc (V d (cV L) (jV L)) ↦{fullShare} g : sProp 𝕄)) e4)) $$ H4
  ihave H5' := (Entails.of_eq (congrArg (fun g => ((s5).view.loc (V d (cV L) (jV L)) ↦{fullShare} g : sProp 𝕄)) e5)) $$ H5
  -- the sixteen groups
  sl_for (grpLoopInv (F := F) d L q f0 f1 fu fi fw fb fo O
      (insert (SemLoc.dma cc0_scratch12.sem, (default : HIx 1)) (insert (SemLoc.dma cc0_scratch11.sem, (default : HIx 1)) W')) t1)
    $$ [Hmw HA0 HA1 HUT HIT HWW HBB HOut H0 H1 H2 H3 H4' H5' H6 H7 H8 H9 H10 Hs11 Hs12 Hc0 Hc1 Hc2 Hc3 Hc4 HO]
  case region =>
    intro k acc'
    unfold grpLoopInv
    iintro ⟨Hmw, ⟨%ov', %hov', Hst⟩, HO⟩
    iapply (wp_wand_r Idealize.ShloMosaic.frame (wpE (defs₀ (F := F)) 𝒱₀ (V d (cV L) (jV L)) none) Set.univ)
    isplitl [Hst]
    · iapply (hG hF d L q f0 f1 fu fi fw fb fo h0 h1 t1 k acc' v2339 v2369 ov' hov')
      iexact Hst
    · iintro %_ ⟨%ov'', %hov'', Hst⟩
      isplitl [Hmw]; · iexact Hmw
      isplitr [HO]
      · iexists ov''; isplitr
        · ipureintro; exact hov''
        · iexact Hst
      · iexact HO
  · unfold grpLoopInv
    isplitl [Hmw]; · iexact Hmw
    isplitr [HO]
    · iexists ov; isplitr
      · ipureintro; simpa using hov
      · unfold St
        isplitl [HA0]; · iexact HA0
        isplitl [HA1]; · iexact HA1
        isplitl [HUT]; · iexact HUT
        isplitl [HIT]; · iexact HIT
        isplitl [HWW]; · iexact HWW
        isplitl [HBB]; · iexact HBB
        isplitl [HOut]; · iexact HOut
        isplitl [H0]; · iexact H0
        isplitl [H1]; · iexact H1
        isplitl [H2]; · iexact H2
        isplitl [H3]; · iexact H3
        isplitl [H4']; · iexact H4'
        isplitl [H5']; · iexact H5'
        isplitl [H6]; · iexact H6
        isplitl [H7]; · iexact H7
        isplitl [H8]; · iexact H8
        isplitl [H9]; · iexact H9
        isplitl [H10]; · iexact H10
        isplitl [Hs11]; · iexact Hs11
        isplitl [Hs12]; · iexact Hs12
        isplitl [Hc0]; · iexact Hc0
        isplitl [Hc1]; · iexact Hc1
        isplitl [Hc2]; · iexact Hc2
        isplitl [Hc3]; · iexact Hc3
        iexact Hc4
    · iexact HO
  iintro %_ HI
  unfold grpLoopInv
  icases HI with ⟨Hmw, ⟨%ov', %hov', Hst⟩, HO⟩
  sl_step
  isplitl [Hmw]; · iexact Hmw
  iexists (gath fu (lineBlk L f0) t1.val), (gath fi (lineBlk L f1) t1.val), ov',
    (insert (SemLoc.dma cc0_scratch12.sem, (default : HIx 1)) (insert (SemLoc.dma cc0_scratch11.sem, (default : HIx 1)) W'))
  isplitr
  · ipureintro
    have e : 256 * t1.val + 16 * k0_t2_loop.trips = 256 * (t1.val + 1) := by rw [t2_trips]; omega
    rw [← e]; exact hov'
  isplitr
  · ipureintro; intro p hp
    rcases Finset.mem_insert.mp hp with hp | hp
    · exact .inr (hp ▸ rfl)
    rcases Finset.mem_insert.mp hp with hp | hp
    · exact .inr (hp ▸ rfl)
    · exact .inl hp
  unfold St
  isplitl [Hst]; · iexact Hst
  iexact HO

end Cert.KernelIdeal.Hand

end
-- ==== Proof.TileGrpVal.lean ====
/-
  The words one trip reads, at a lane: lane x of the trip (t1, t2) is batch entry 256 t1 + 16 t2 + x of the subcore; the
  slot 16 t2 + x of a line buffer during wave t1 holds the line of that entry's id, and the column 32 (id mod 4) + d of
  that line is entry d of the table row the id names.
-/
import proofs.«218018_g87892210745873_cont_sun_m_655_26_alg».proof.Proof.TileInv
import proofs.«218018_g87892210745873_cont_sun_m_655_26_alg».proof.Proof.IntFacts
import Idealize.ShloMosaic.Lib.Writes

noncomputable section

namespace Cert.KernelIdeal.Hand

open Cert.KernelIdeal Cert.KernelIdeal.Gen
open Idealize.ShloMosaic Idealize.ShloMosaic.ValueIdx

variable {F : FTy → Type}

/-- Lane x of trip (t1, t2), as an index of the subcore's 512 entries. -/
def laneIdx (t1 t2 : ℕ) (h1 : t1 < 2) (h2 : t2 < 16) (x : S16.Idx) : S512.Idx :=
  ix1 (⟨256 * t1 + 16 * t2 + (x 0).val, by have hx : (x 0).val < 16 := (x 0).isLt; omega⟩ : Fin 512)

/-- The line buffer at (slot of the lane, column of entry d) is entry d of the table row the lane's id names. -/
theorem gath_lane (tab : S250000x128.Idx → F .f32) (L : grid0.Coords) (f : S16384.Idx → BitVec 32) (hf : ∀ i, (f i).toNat ≤ 999999)
    (t1 t2 : ℕ) (h1 : t1 < 2) (h2 : t2 < 16) (x : S16.Idx) (d : Fin 32) (r : Fin 256) (c : Fin 128)
    (hr : r.val = 16 * t2 + (x 0).val) (hc : c.val = (f (bidx L (laneIdx t1 t2 h1 h2 x))).toNat % 4 * 32 + d.val) :
    gath tab (lineBlk L f) t1 (ix2 r c)
      = tab (ix2 (lineOf (f (bidx L (laneIdx t1 t2 h1 h2 x)))) (colOf (f (bidx L (laneIdx t1 t2 h1 h2 x))) d)) := by
  have hx : (x 0).val < 16 := (x 0).isLt
  have hid := hf (bidx L (laneIdx t1 t2 h1 h2 x))
  have e1 : ∀ (h : min (256 * t1 + r.val) 511 < 512), (ix1 (⟨min (256 * t1 + r.val) 511, h⟩ : Fin 512) : S512.Idx) = laneIdx t1 t2 h1 h2 x := by
    intro h
    unfold laneIdx
    refine congrArg ix1 (Fin.ext ?_)
    show min (256 * t1 + r.val) 511 = 256 * t1 + 16 * t2 + (x 0).val
    omega
  have e2 : (lineBlk L f (laneIdx t1 t2 h1 h2 x)).toNat = (f (bidx L (laneIdx t1 t2 h1 h2 x))).toNat / 4 := by
    show (BitVec.ofNat 32 ((f (bidx L (laneIdx t1 t2 h1 h2 x))).toNat / 4)).toNat = _
    rw [BitVec.toNat_ofNat]
    exact Nat.mod_eq_of_lt (by omega)
  unfold gath
  refine congrArg tab ?_
  funext a
  match a with
  | ⟨0, _⟩ =>
    apply Fin.ext
    show min (lineBlk L f (ix1 (⟨min (256 * t1 + r.val) 511, by omega⟩ : Fin 512))).toNat 249999 = min ((f (bidx L (laneIdx t1 t2 h1 h2 x))).toNat / 4) 249999
    rw [e1, e2]
  | ⟨1, _⟩ =>
    apply Fin.ext
    show c.val = (f (bidx L (laneIdx t1 t2 h1 h2 x))).toNat % 4 * 32 + d.val
    exact hc

/-- Sixteen more entries of the result scratch: written at 256 t1 + 16 t2 with a vector whose lane x is the accumulated
    value of the lane's batch entry, the scratch is right on 16 entries more; the entries before are untouched. -/
theorem outDone_step [FloatOps F] (L : grid0.Coords) (f0 f1 : S16384.Idx → BitVec 32) (fu fi : S250000x128.Idx → F .f32)
    (fw : S512.Idx → F .f32) (fb : S16.Idx → F .f32) (t1 t2 : ℕ) (h1 : t1 < 2) (h2 : t2 < 16)
    (ov : S512.Idx → F .f32) (w : S16.Idx → F .f32)
    (off : Fin 1 → ℕ) (hoff : off = ![256 * t1 + 16 * t2]) (inb : ∀ a, off a + S16.size a ≤ S512.size a)
    (hov : OutDone (F := F) L f0 f1 fu fi fw fb (256 * t1 + 16 * t2) ov)
    (hw : ∀ x : S16.Idx, w x = outVal (F := F) f0 f1 fu fi fw fb (bidx L (laneIdx t1 t2 h1 h2 x))) :
    OutDone (F := F) L f0 f1 fu fi fw fb (256 * t1 + 16 * (t2 + 1))
      ((Memref.whole cc0_scratch10 : Memref sig .scVector .vmem S512 .f32).view.writes (Elt F) ov
        [⟨Rect.unit (s := S512) off S16.size inb, w⟩]) := by
  subst hoff
  intro j hj
  by_cases hlt : (j 0).val < 256 * t1 + 16 * t2
  · refine Eq.trans ?_ (hov j hlt)
    change View.read (Elt F) (Memref.whole cc0_scratch10 : Memref sig .scVector .vmem S512 .f32).view
        ((Memref.whole cc0_scratch10 : Memref sig .scVector .vmem S512 .f32).view.writes (Elt F) ov [⟨Rect.unit (s := S512) ![256 * t1 + 16 * t2] S16.size inb, w⟩]) j
      = View.read (Elt F) (Memref.whole cc0_scratch10 : Memref sig .scVector .vmem S512 .f32).view ov j
    refine View.read_writes_apply_of_forall_not_mem (Val := Elt F) (v := (Memref.whole cc0_scratch10 : Memref sig .scVector .vmem S512 .f32).view) (f := ov) j _ ?_
    intro p hp
    rw [List.mem_singleton] at hp
    subst hp
    rw [Rect.mem_set_unit]
    intro h
    have h0 := (h 0).1
    have : 256 * t1 + 16 * t2 ≤ (j 0).val := h0
    omega
  · have hjx : (j 0).val - (256 * t1 + 16 * t2) < 16 := by omega
    have hj' : j = (Rect.unit (s := S512) ![256 * t1 + 16 * t2] S16.size inb).emb (ix1 (⟨(j 0).val - (256 * t1 + 16 * t2), hjx⟩ : Fin 16)) := by
      funext a
      obtain rfl : a = 0 := Subsingleton.elim _ _
      apply Fin.ext
      show (j 0).val = (256 * t1 + 16 * t2) + 1 * ((j 0).val - (256 * t1 + 16 * t2))
      omega
    have hl : laneIdx t1 t2 h1 h2 (ix1 (⟨(j 0).val - (256 * t1 + 16 * t2), hjx⟩ : Fin 16)) = j := by
      funext a
      obtain rfl : a = 0 := Subsingleton.elim _ _
      apply Fin.ext
      show 256 * t1 + 16 * t2 + ((j 0).val - (256 * t1 + 16 * t2)) = (j 0).val
      omega
    have hr := View.read_writes_cons_emb (Val := Elt F) (v := (Memref.whole cc0_scratch10 : Memref sig .scVector .vmem S512 .f32).view) (f := ov)
      (Rect.unit (s := S512) ![256 * t1 + 16 * t2] S16.size inb) w [] (ix1 (⟨(j 0).val - (256 * t1 + 16 * t2), hjx⟩ : Fin 16))
    rw [← hj'] at hr
    refine Eq.trans hr ((hw _).trans ?_)
    rw [hl]

end Cert.KernelIdeal.Hand

end
-- ==== Proof.TileGrpRun.lean ====
/-
  One trip of the inner loop, run: from the subcore's state at the loops, the trip's sixteen id pairs, sixteen bias
  words, 64 indexed loads (each after its range check, true of any slot vector 16 t2 + lane and any column vector
  32 (id mod 4) + d) and 512 weight words are read, and one vector is stored into the result scratch at
  256 t1 + 16 t2; every other buffer is as it was. The stored vector is the witness the run finds.
-/
import proofs.«218018_g87892210745873_cont_sun_m_655_26_alg».proof.Proof.TileInv
import proofs.«218018_g87892210745873_cont_sun_m_655_26_alg».proof.Proof.IntFacts
import proofs.«218018_g87892210745873_cont_sun_m_655_26_alg».proof.Proof.Accum
import proofs.«218018_g87892210745873_cont_sun_m_655_26_alg».proof.Proof.Gen.KernelIdeal.Skeleton

set_option maxHeartbeats 4000000

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.KernelIdeal.main_arg0_scv : Memref Cert.KernelIdeal.sig Kind.scVector Space.hbm Cert.KernelIdeal.S16384 EltTy.i32)
local notation "A1" => (Memref.whole Cert.KernelIdeal.main_arg1_scv : Memref Cert.KernelIdeal.sig Kind.scVector Space.hbm Cert.KernelIdeal.S16384 EltTy.i32)
local notation "UT" => (Memref.whole Cert.KernelIdeal.main_v0_scv : Memref Cert.KernelIdeal.sig Kind.scVector Space.hbm Cert.KernelIdeal.S250000x128 EltTy.f32)
local notation "IT" => (Memref.whole Cert.KernelIdeal.main_v1_scv : Memref Cert.KernelIdeal.sig Kind.scVector Space.hbm Cert.KernelIdeal.S250000x128 EltTy.f32)
local notation "WW" => (Memref.whole Cert.KernelIdeal.main_v2_scv : Memref Cert.KernelIdeal.sig Kind.scVector Space.hbm Cert.KernelIdeal.S512 EltTy.f32)
local notation "BB" => (Memref.whole Cert.KernelIdeal.main_arg5_scv : Memref Cert.KernelIdeal.sig Kind.scVector Space.hbm Cert.KernelIdeal.S16 EltTy.f32)
local notation "OO" => (Memref.whole Cert.KernelIdeal.main_v3_scv : Memref Cert.KernelIdeal.sig Kind.scVector Space.hbm Cert.KernelIdeal.S16384 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S512 EltTy.i32)
local notation "s4" => (Memref.whole Cert.KernelIdeal.cc0_scratch4 : Memref Cert.KernelIdeal.sig Kind.scVector Space.vmem Cert.KernelIdeal.S256x128 EltTy.f32)
local notation "s5" => (Memref.whole Cert.KernelIdeal.cc0_scratch5 : Memref Cert.KernelIdeal.sig Kind.scVector Space.vmem Cert.KernelIdeal.S256x128 EltTy.f32)
local notation "s6" => (Memref.whole Cert.KernelIdeal.cc0_scratch6 : Memref Cert.KernelIdeal.sig Kind.scVector Space.vmem Cert.KernelIdeal.S512 EltTy.f32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.smem Cert.KernelIdeal.S512 EltTy.f32)
local notation "s9" => (Memref.whole Cert.KernelIdeal.cc0_scratch9 : Memref Cert.KernelIdeal.sig Kind.scVector Space.smem Cert.KernelIdeal.S16 EltTy.f32)
local notation "s10" => (Memref.whole Cert.KernelIdeal.cc0_scratch10 : Memref Cert.KernelIdeal.sig Kind.scVector Space.vmem Cert.KernelIdeal.S512 EltTy.f32)

macro "grp_disch" : tactic => `(tactic| exact chk_ok _ _ (fun x => pay1_lt _ x) (fun x => cols_lt _ _ (by decide) x))

/-- The vector one trip stores, with the proof that the trip runs from the state at the loops to the same state, the
    result scratch written with that vector at the trip's sixteen entries. -/
noncomputable def grpRun (d : Dev nD) (L : grid0.Coords)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (t1 : Fin k0_t1_loop.trips) (t2 : Fin k0_t2_loop.trips) :
    { W : FVec F S16 .f32 //
      ∀ (q : PosShare TreeShare) (fo : Buf (Elt F) (outLoc d)) (acc : BitVec 32) (v2339 : Vec F S16 .f32) (v2369 : F .f32) (ov : S512.Idx → F .f32),
        St (F := F) d L q f0 f1 fu fi fw fb fo (gath fu (lineBlk L f0) t1.val) (gath fi (lineBlk L f1) t1.val) ov
          ⊢ wp frame (wpE (defs₀ (F := F)) 𝒱₀ (V d (cV L) (jV L)) none) Set.univ
              (k0_t2_body L A0 (Memref.isWhole_whole _) A1 (Memref.isWhole_whole _) UT (Memref.isWhole_whole _) IT (Memref.isWhole_whole _)
            WW (Memref.isWhole_whole _) BB (Memref.isWhole_whole _) OO (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            s8 (Memref.isWhole_whole _) s9 (Memref.isWhole_whole _) s10 (Memref.isWhole_whole _)
            cc0_scratch11 cc0_scratch12 cc0_scoped0 cc0_scoped1 cc0_scoped2 cc0_scoped3 cc0_scoped4
            v2339 v2369 (iota .scVector S16 32 [0] Facts₀.iota_S16_d0_w32_scVector) t1 (Scalar.muli (Scf.iv 0#32 1#32 t1) 256#32) t2 acc)
              fun _ => St (F := F) d L q f0 f1 fu fi fw fb fo (gath fu (lineBlk L f0) t1.val) (gath fi (lineBlk L f1) t1.val)
                ((s10).view.writes (Elt F) ov [⟨Rect.unit (s := S512) (k0_off4 t1 t2) S16.size (k0_off4_inb t1 t2), W⟩]) } := by
  refine ⟨?_, fun q fo acc v2339 v2369 ov => ?run⟩
  case run =>
    unfold St
    iintro ⟨Ha0, Ha1, Hut, Hit, Hww, Hbb, Hob, Hs0, Hs1, Hs2, Hs3, Hs4, Hs5, Hs6, Hs7, Hs8, Hs9, Hs10, Hm11, Hm12, Hc0, Hc1, Hc2, Hc3, Hc4⟩
    sl_exec_parts (disch := grp_disch)
    repeat (rw [SparseCore.vectorLoadIdx_bind (V d (cV L) (jV L))]; sl_exec_parts (disch := grp_disch))
    sl_step
    isplitl [Ha0]; · iexact Ha0
    isplitl [Ha1]; · iexact Ha1
    isplitl [Hut]; · iexact Hut
    isplitl [Hit]; · iexact Hit
    isplitl [Hww]; · iexact Hww
    isplitl [Hbb]; · iexact Hbb
    isplitl [Hob]; · iexact Hob
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hm11]; · iexact Hm11
    isplitl [Hm12]; · iexact Hm12
    isplitl [Hc0]; · iexact Hc0
    isplitl [Hc1]; · iexact Hc1
    isplitl [Hc2]; · iexact Hc2
    isplitl [Hc3]; · iexact Hc3
    iexact Hc4

end Cert.KernelIdeal.Hand

end
-- ==== Proof.TileGrpLeaf.lean ====
/-
  The words one trip reads, identified: lane x of the id vectors read at the trip's offset is the id of batch entry
  256 t1 + 16 t2 + x of the subcore; an indexed load of a line buffer at (slot vector, column vector of entry d) is, at
  lane x, entry d of the table row that id names; a word read from the scalar copies of the bias and of the weights is
  the bias entry, the weight entry, at its position.
-/
import proofs.«218018_g87892210745873_cont_sun_m_655_26_alg».proof.Proof.TileGrpVal
import proofs.«218018_g87892210745873_cont_sun_m_655_26_alg».proof.Proof.IntFacts

noncomputable section

namespace Cert.KernelIdeal.Hand

open Cert.KernelIdeal Cert.KernelIdeal.Gen
open Idealize.ShloMosaic Idealize.ShloMosaic.ValueIdx

variable {F : FTy → Type}

/-! ## The id vectors -/

/-- The trip's rectangle of sixteen entries places lane x at entry 256 t1 + 16 t2 + x. -/
theorem off3_emb (t1 : Fin k0_t1_loop.trips) (t2 : Fin k0_t2_loop.trips) (h1 : t1.val < 2) (h2 : t2.val < 16)
    (inb : ∀ a, (k0_off3 t1 t2) a + S16.size a ≤ S512.size a) (x : S16.Idx) :
    (Rect.unit (s := S512) (k0_off3 t1 t2) S16.size inb).emb x = laneIdx t1.val t2.val h1 h2 x := by
  funext a
  obtain rfl : a = 0 := Subsingleton.elim _ _
  apply Fin.ext
  show k0_off3 t1 t2 0 + 1 * (x 0).val = 256 * t1.val + 16 * t2.val + (x 0).val
  rw [k0_off3_eq t1 t2]
  show 256 * t1.val + 16 * t2.val + 1 * (x 0).val = _
  omega

/-- A vector load of a 512-word buffer at the trip's offset reads, at lane x, the buffer at entry 256 t1 + 16 t2 + x. -/
theorem readAt_off3 {κ : Kind} (v : View sig κ .vmem S512 .i32) (g : v.ty.Contents (Elt F))
    (t1 : Fin k0_t1_loop.trips) (t2 : Fin k0_t2_loop.trips) (h1 : t1.val < 2) (h2 : t2.val < 16)
    (inb : ∀ a, (k0_off3 t1 t2) a + S16.size a ≤ S512.size a) (x : S16.Idx) :
    v.readAt (Elt F) (Rect.unit (s := S512) (k0_off3 t1 t2) S16.size inb).toLoadRect g x
      = v.read (Elt F) g (laneIdx t1.val t2.val h1 h2 x) := by
  rw [View.readAt_apply]
  exact congrArg (v.read (Elt F) g) (off3_emb t1 t2 h1 h2 inb x)

/-- Lane x of the user ids the trip reads is the id of the lane's batch entry; likewise the item ids. -/
theorem ids_lane (L : grid0.Coords) (f : S16384.Idx → BitVec 32)
    (M : Memref sig .scVector .vmem S512 .i32) (g : M.view.ty.Contents (Elt F))
    (hg : ∀ j, M.view.read (Elt F) g j = idBlk L f j)
    (t1 : Fin k0_t1_loop.trips) (t2 : Fin k0_t2_loop.trips) (h1 : t1.val < 2) (h2 : t2.val < 16)
    (inb : ∀ a, (k0_off3 t1 t2) a + S16.size a ≤ S512.size a) (x : S16.Idx) :
    M.view.readAt (Elt F) (Rect.unit (s := S512) (k0_off3 t1 t2) S16.size inb).toLoadRect g x
      = f (bidx L (laneIdx t1.val t2.val h1 h2 x)) := by
  rw [readAt_off3 M.view g t1 t2 h1 h2 inb x, hg]
  rfl

theorem idsU_lane (L : grid0.Coords) (f : S16384.Idx → BitVec 32)
    (t1 : Fin k0_t1_loop.trips) (t2 : Fin k0_t2_loop.trips) (h1 : t1.val < 2) (h2 : t2.val < 16)
    (inb : ∀ a, (k0_off3 t1 t2) a + S16.size a ≤ S512.size a) (x : S16.Idx) :
    (Memref.whole cc0_scratch0 : Memref sig .scVector .vmem S512 .i32).view.readAt (Elt F)
        (Rect.unit (s := S512) (k0_off3 t1 t2) S16.size inb).toLoadRect (idBlk L f) x
      = f (bidx L (laneIdx t1.val t2.val h1 h2 x)) :=
  (readAt_off3 (F := F) (Memref.whole cc0_scratch0 : Memref sig .scVector .vmem S512 .i32).view (idBlk L f) t1 t2 h1 h2 inb x).trans rfl

theorem idsI_lane (L : grid0.Coords) (f : S16384.Idx → BitVec 32)
    (t1 : Fin k0_t1_loop.trips) (t2 : Fin k0_t2_loop.trips) (h1 : t1.val < 2) (h2 : t2.val < 16)
    (inb : ∀ a, (k0_off3 t1 t2) a + S16.size a ≤ S512.size a) (x : S16.Idx) :
    (Memref.whole cc0_scratch1 : Memref sig .scVector .vmem S512 .i32).view.readAt (Elt F)
        (Rect.unit (s := S512) (k0_off3 t1 t2) S16.size inb).toLoadRect (idBlk L f) x
      = f (bidx L (laneIdx t1.val t2.val h1 h2 x)) :=
  (readAt_off3 (F := F) (Memref.whole cc0_scratch1 : Memref sig .scVector .vmem S512 .i32).view (idBlk L f) t1 t2 h1 h2 inb x).trans rfl

/-! ## The gathered words -/

/-- An indexed load of the line buffer of wave t1, its slot vector reading 16 t2 + lane and its column vector
    32 (id mod 4) + d at lane x: lane x is entry d of the table row the lane's id names. -/
theorem gather_leaf [FloatOps F] (tab : S250000x128.Idx → F .f32) (L : grid0.Coords) (f : S16384.Idx → BitVec 32) (hf : ∀ i, (f i).toNat ≤ 999999)
    (t1 t2 : ℕ) (h1 : t1 < 2) (h2 : t2 < 16) (rows cols : IVec S16 32) (dd : Fin 32)
    (h : ∀ a x, ((![rows, cols] : Fin 2 → IVec S16 32) a x).toNat < S256x128.size a) (x : S16.Idx)
    (hr : (rows x).toNat = 16 * t2 + (x 0).val)
    (hc : (cols x).toNat = (f (bidx L (laneIdx t1 t2 h1 h2 x))).toNat % 4 * 32 + dd.val)
    (g : Vec F S256x128 .f32) (hg : g = gath tab (lineBlk L f) t1) :
    loadIdx g ![rows, cols] h x
      = tab (ix2 (lineOf (f (bidx L (laneIdx t1 t2 h1 h2 x)))) (colOf (f (bidx L (laneIdx t1 t2 h1 h2 x))) dd)) := by
  subst hg
  rw [loadIdx_apply]
  exact gath_lane tab L f hf t1 t2 h1 h2 x dd _ _ hr hc

/-- The same at the kernel's own slot vector and at the column vector built from an id vector whose lane x is the
    lane's id: ((ids and 3) shifted left by 5) + d. -/
theorem gather_leaf' [FloatOps F] (tab : S250000x128.Idx → F .f32) (L : grid0.Coords) (f : S16384.Idx → BitVec 32) (hf : ∀ i, (f i).toNat ≤ 999999)
    (t1 : ℕ) (h1 : t1 < 2) (t2 : Fin k0_t2_loop.trips) (ids : IVec S16 32) (dd : Fin 32)
    (h : ∀ a x, ((![k0_pay1 (iota .scVector S16 32 [0] Facts₀.iota_S16_d0_w32_scVector) 0#32 1#32 t2,
        addi (shli (andi ids (broadcast S16 3#32)) (broadcast S16 5#32)) (broadcast S16 (BitVec.ofNat 32 dd.val))] : Fin 2 → IVec S16 32) a x).toNat
          < S256x128.size a)
    (x : S16.Idx) (hids : ids x = f (bidx L (laneIdx t1 t2.val h1 (t2_lt t2) x)))
    (g : Vec F S256x128 .f32) (hg : g = gath tab (lineBlk L f) t1) :
    loadIdx g ![k0_pay1 (iota .scVector S16 32 [0] Facts₀.iota_S16_d0_w32_scVector) 0#32 1#32 t2,
        addi (shli (andi ids (broadcast S16 3#32)) (broadcast S16 5#32)) (broadcast S16 (BitVec.ofNat 32 dd.val))] h x
      = tab (ix2 (lineOf (f (bidx L (laneIdx t1 t2.val h1 (t2_lt t2) x)))) (colOf (f (bidx L (laneIdx t1 t2.val h1 (t2_lt t2) x))) dd)) := by
  have hdd : (BitVec.ofNat 32 dd.val).toNat = dd.val := by
    rw [BitVec.toNat_ofNat]; exact Nat.mod_eq_of_lt (by have := dd.isLt; omega)
  refine gather_leaf tab L f hf t1 t2.val h1 (t2_lt t2) _ _ dd h x (pay1_toNat t2 x) ?_ g hg
  rw [cols_toNat ids _ (by rw [hdd]; exact dd.isLt) x, hids, hdd]

/-! ## The scalar copies of the bias and of the weights -/

/-- The one word of the bias copy at position k is the bias entry k. -/
theorem bias_word {κ : Kind} (v : View sig κ .smem S16 .f32) (g : v.ty.Contents (Elt F)) (k : ℕ) (hk : k < 16)
    (inb : ∀ a, (![k] : Fin 1 → ℕ) a + S1.size a ≤ S16.size a) (j : S1.Idx) :
    v.readAt (Elt F) (Rect.unit (s := S16) ![k] S1.size inb).toLoadRect g j = v.read (Elt F) g (ix1 (⟨k, hk⟩ : Fin 16)) := by
  rw [View.readAt_apply]
  refine congrArg (v.read (Elt F) g) ?_
  funext a
  obtain rfl : a = 0 := Subsingleton.elim _ _
  apply Fin.ext
  have hj : (j 0).val < 1 := (j 0).isLt
  show k + 1 * (j 0).val = k
  omega

/-- The one word of the weight copy at position n is the flat weight entry n. -/
theorem weight_word {κ : Kind} (v : View sig κ .smem S512 .f32) (g : v.ty.Contents (Elt F)) (n : ℕ) (hn : n < 512)
    (inb : ∀ a, (![n] : Fin 1 → ℕ) a + S1.size a ≤ S512.size a) (j : S1.Idx) :
    v.readAt (Elt F) (Rect.unit (s := S512) ![n] S1.size inb).toLoadRect g j = v.read (Elt F) g (ix1 (⟨n, hn⟩ : Fin 512)) := by
  rw [View.readAt_apply]
  refine congrArg (v.read (Elt F) g) ?_
  funext a
  obtain rfl : a = 0 := Subsingleton.elim _ _
  apply Fin.ext
  have hj : (j 0).val < 1 := (j 0).isLt
  show n + 1 * (j 0).val = n
  omega

/-- At the subcore's own scalar copies: the bias word k is fb at k, the weight word n is fw at n. -/
theorem bias_word_s9 (fb : S16.Idx → F .f32) (k : ℕ) (hk : k < 16)
    (inb : ∀ a, (![k] : Fin 1 → ℕ) a + S1.size a ≤ S16.size a) (j : S1.Idx) :
    (Memref.whole cc0_scratch9 : Memref sig .scVector .smem S16 .f32).view.readAt (Elt F)
        (Rect.unit (s := S16) ![k] S1.size inb).toLoadRect fb j = fb (ix1 (⟨k, hk⟩ : Fin 16)) :=
  (bias_word (F := F) (Memref.whole cc0_scratch9 : Memref sig .scVector .smem S16 .f32).view fb k hk inb j).trans rfl

theorem weight_word_s8 (fw : S512.Idx → F .f32) (n : ℕ) (hn : n < 512)
    (inb : ∀ a, (![n] : Fin 1 → ℕ) a + S1.size a ≤ S512.size a) (j : S1.Idx) :
    (Memref.whole cc0_scratch8 : Memref sig .scVector .smem S512 .f32).view.readAt (Elt F)
        (Rect.unit (s := S512) ![n] S1.size inb).toLoadRect fw j = fw (ix1 (⟨n, hn⟩ : Fin 512)) :=
  (weight_word (F := F) (Memref.whole cc0_scratch8 : Memref sig .scVector .smem S512 .f32).view fw n hn inb j).trans rfl

end Cert.KernelIdeal.Hand

end
-- ==== Proof.TileGrpLane.lean ====
/-
  The vector one trip stores, at a lane. Its value is the left-to-right accumulation the kernel performs — for each
  of the sixteen layer entries the bias plus the 32 products (gathered word × weight word), for the user row and for the
  item row, then the sixteen products of the two added up — over the words the trip reads: bias word k, weight word
  32 k + d, and the words of the two line buffers at (slot 16 t2 + lane, column 32 (id mod 4) + d). Those words are the
  bias, the weights and entry d of the table rows the lane's two ids name: so the lane holds the result's value at the
  lane's batch entry.
-/
import proofs.«218018_g87892210745873_cont_sun_m_655_26_alg».proof.Proof.TileInv
import proofs.«218018_g87892210745873_cont_sun_m_655_26_alg».proof.Proof.TileGrpVal
import proofs.«218018_g87892210745873_cont_sun_m_655_26_alg».proof.Proof.TileGrpLeaf
import proofs.«218018_g87892210745873_cont_sun_m_655_26_alg».proof.Proof.TileGrpRun
import proofs.«218018_g87892210745873_cont_sun_m_655_26_alg».proof.Proof.IntFacts
import proofs.«218018_g87892210745873_cont_sun_m_655_26_alg».proof.Proof.Accum
import proofs.«218018_g87892210745873_cont_sun_m_655_26_alg».proof.Proof.Gen.KernelIdeal.Skeleton

set_option maxHeartbeats 4000000

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.KernelIdeal.main_arg0_scv : Memref Cert.KernelIdeal.sig Kind.scVector Space.hbm Cert.KernelIdeal.S16384 EltTy.i32)
local notation "A1" => (Memref.whole Cert.KernelIdeal.main_arg1_scv : Memref Cert.KernelIdeal.sig Kind.scVector Space.hbm Cert.KernelIdeal.S16384 EltTy.i32)
local notation "UT" => (Memref.whole Cert.KernelIdeal.main_v0_scv : Memref Cert.KernelIdeal.sig Kind.scVector Space.hbm Cert.KernelIdeal.S250000x128 EltTy.f32)
local notation "IT" => (Memref.whole Cert.KernelIdeal.main_v1_scv : Memref Cert.KernelIdeal.sig Kind.scVector Space.hbm Cert.KernelIdeal.S250000x128 EltTy.f32)
local notation "WW" => (Memref.whole Cert.KernelIdeal.main_v2_scv : Memref Cert.KernelIdeal.sig Kind.scVector Space.hbm Cert.KernelIdeal.S512 EltTy.f32)
local notation "BB" => (Memref.whole Cert.KernelIdeal.main_arg5_scv : Memref Cert.KernelIdeal.sig Kind.scVector Space.hbm Cert.KernelIdeal.S16 EltTy.f32)
local notation "OO" => (Memref.whole Cert.KernelIdeal.main_v3_scv : Memref Cert.KernelIdeal.sig Kind.scVector Space.hbm Cert.KernelIdeal.S16384 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S512 EltTy.i32)
local notation "s4" => (Memref.whole Cert.KernelIdeal.cc0_scratch4 : Memref Cert.KernelIdeal.sig Kind.scVector Space.vmem Cert.KernelIdeal.S256x128 EltTy.f32)
local notation "s5" => (Memref.whole Cert.KernelIdeal.cc0_scratch5 : Memref Cert.KernelIdeal.sig Kind.scVector Space.vmem Cert.KernelIdeal.S256x128 EltTy.f32)
local notation "s6" => (Memref.whole Cert.KernelIdeal.cc0_scratch6 : Memref Cert.KernelIdeal.sig Kind.scVector Space.vmem Cert.KernelIdeal.S512 EltTy.f32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.smem Cert.KernelIdeal.S512 EltTy.f32)
local notation "s9" => (Memref.whole Cert.KernelIdeal.cc0_scratch9 : Memref Cert.KernelIdeal.sig Kind.scVector Space.smem Cert.KernelIdeal.S16 EltTy.f32)
local notation "s10" => (Memref.whole Cert.KernelIdeal.cc0_scratch10 : Memref Cert.KernelIdeal.sig Kind.scVector Space.vmem Cert.KernelIdeal.S512 EltTy.f32)

/-- The outer loop has at most 2 trips. -/
theorem t1_lt (t1 : Fin k0_t1_loop.trips) : t1.val < 2 := lt_of_lt_of_le t1.isLt k0_t1_abs.2.1

section Lane

variable (d : Dev nD) (L : grid0.Coords)
  (f0 : Buf (Elt F) (a0Loc d)) (f1 : Buf (Elt F) (a1Loc d)) (fu : Buf (Elt F) (utLoc d)) (fi : Buf (Elt F) (itLoc d))
  (fw : Buf (Elt F) (wwLoc d)) (fb : Buf (Elt F) (bbLoc d)) (t1 : Fin k0_t1_loop.trips) (t2 : Fin k0_t2_loop.trips)

/-! ## The words the trip reads, as the run spells them -/

omit [FloatOps F] in
/-- The trip's sixteen user ids and item ids: the id blocks read at 256 t1 + 16 t2. -/
def idsU : IVec S16 32 :=
  View.readAt (Elt F) (s0).view (Rect.unit (s := S512) (k0_off3 t1 t2) S16.size (k0_off3_inb t1 t2)).toLoadRect (idBlk L f0)
omit [FloatOps F] in
def idsI : IVec S16 32 :=
  View.readAt (Elt F) (s1).view (Rect.unit (s := S512) (k0_off3 t1 t2) S16.size (k0_off3_inb t1 t2)).toLoadRect (idBlk L f1)

/-- The slot vector 16 t2 + lane, and the column vector 32 (id mod 4) + dd. -/
def slotsV : IVec S16 32 := k0_pay1 (iota .scVector S16 32 [0] Facts₀.iota_S16_d0_w32_scVector) 0#32 1#32 t2
def colsV (ids : IVec S16 32) (dd : Fin 32) : IVec S16 32 :=
  addi (shli (andi ids (broadcast S16 3#32)) (broadcast S16 5#32)) (broadcast S16 (BitVec.ofNat 32 dd.val))

theorem idx_ok (ids : IVec S16 32) (dd : Fin 32) :
    ∀ a x, ((![slotsV t2, colsV ids dd] : Fin 2 → IVec S16 32) a x).toNat < S256x128.size a :=
  chk_ok _ _ (fun x => pay1_lt t2 x) (fun x => cols_lt ids _ (by
    rw [BitVec.toNat_ofNat]; have := dd.isLt; omega) x)

/-- The gathered words: entry dd of the sixteen lanes' user rows, and of their item rows. -/
def gU (dd : Fin 32) : Vec F S16 .f32 :=
  loadIdx (View.readAt (Elt F) (s4).view (LoadRect.whole S256x128) (gath fu (lineBlk L f0) t1.val))
    ![slotsV t2, colsV (idsU d L f0 t1 t2) dd] (idx_ok t2 _ dd)
def gI (dd : Fin 32) : Vec F S16 .f32 :=
  loadIdx (View.readAt (Elt F) (s5).view (LoadRect.whole S256x128) (gath fi (lineBlk L f1) t1.val))
    ![slotsV t2, colsV (idsI d L f1 t1 t2) dd] (idx_ok t2 _ dd)

omit [FloatOps F] in
theorem inb16 (k : Fin 16) : ∀ a, (![k.val] : Fin 1 → ℕ) a + S1.size a ≤ S16.size a :=
  Rect.inb₁ (by show k.val + 1 ≤ 16; have := k.isLt; omega)
omit [FloatOps F] in
theorem inb512 (k : Fin 16) (dd : Fin 32) : ∀ a, (![k.val * 32 + dd.val] : Fin 1 → ℕ) a + S1.size a ≤ S512.size a :=
  Rect.inb₁ (by show k.val * 32 + dd.val + 1 ≤ 512; have := k.isLt; have := dd.isLt; omega)

omit [FloatOps F] in
/-- Bias word k and weight word 32 k + dd, read from scalar memory. -/
def bW (k : Fin 16) : F .f32 :=
  View.readAt (Elt F) (s9).view (Rect.unit (s := S16) ![k.val] S1.size (inb16 k)).toLoadRect fb (Shape.Idx.first (numel1_S1.symm ▸ Nat.one_pos))
omit [FloatOps F] in
def wW (k : Fin 16) (dd : Fin 32) : F .f32 :=
  View.readAt (Elt F) (s8).view (Rect.unit (s := S512) ![k.val * 32 + dd.val] S1.size (inb512 k dd)).toLoadRect fw (Shape.Idx.first (numel1_S1.symm ▸ Nat.one_pos))

/-! ## The stored vector is the kernel's accumulation over those words -/

/-- Lane x of the stored vector: the accumulation, in the kernel's order, over the words read. -/
theorem grp_struct (x : S16.Idx) :
    (grpRun (F := F) d L f0 f1 fu fi fw fb t1 t2).1 x
      = Cert.Accum.kval (bW d fb) (wW d fw) (fun dd => gU d L f0 fu t1 t2 dd x) (fun dd => gI d L f1 fi t1 t2 dd x) := by
  rfl

/-! ## The words read are the bias, the weights and the table rows' entries -/

omit [FloatOps F] in
/-- Read whole, a buffer is its contents. -/
theorem whole_idx (s : Shape) (x : (LoadRect.whole s).shape.Idx) : (LoadRect.whole s).idx x = x := by
  funext a
  apply Fin.ext
  show 0 + 1 * (x a).val = (x a).val
  omega
omit [FloatOps F] in
theorem readAt_s4 (g : S256x128.Idx → F .f32) : View.readAt (Elt F) (s4).view (LoadRect.whole S256x128) g = g := by
  funext x
  show View.read (Elt F) (s4).view g ((LoadRect.whole S256x128).idx x) = g x
  rw [whole_idx]; rfl
omit [FloatOps F] in
theorem readAt_s5 (g : S256x128.Idx → F .f32) : View.readAt (Elt F) (s5).view (LoadRect.whole S256x128) g = g := by
  funext x
  show View.read (Elt F) (s5).view g ((LoadRect.whole S256x128).idx x) = g x
  rw [whole_idx]; rfl

/-- Lane x of the stored vector is the result's value at the lane's batch entry. -/
theorem grp_lane (h0 : ∀ i, (f0 i).toNat ≤ 999999) (h1 : ∀ i, (f1 i).toNat ≤ 999999) (x : S16.Idx) :
    (grpRun (F := F) d L f0 f1 fu fi fw fb t1 t2).1 x
      = outVal (F := F) f0 f1 fu fi fw fb (bidx L (laneIdx t1.val t2.val (t1_lt t1) (t2_lt t2) x)) := by
  rw [grp_struct]
  have hb : bW d fb = fun k => fb (ix1 k) := funext fun k => bias_word_s9 fb k.val k.isLt (inb16 k) _
  have hw : wW d fw = fun k dd => fw (ix1 (⟨k.val * 32 + dd.val, by have := k.isLt; have := dd.isLt; omega⟩ : Fin 512)) :=
    funext fun k => funext fun dd => weight_word_s8 fw (k.val * 32 + dd.val) _ (inb512 k dd) _
  have hu : (fun dd => gU d L f0 fu t1 t2 dd x)
      = fun dd => fu (ix2 (lineOf (f0 (bidx L (laneIdx t1.val t2.val (t1_lt t1) (t2_lt t2) x))))
          (colOf (f0 (bidx L (laneIdx t1.val t2.val (t1_lt t1) (t2_lt t2) x))) dd)) := funext fun dd =>
    gather_leaf' fu L f0 h0 t1.val (t1_lt t1) t2 (idsU d L f0 t1 t2) dd (idx_ok t2 _ dd) x
      (idsU_lane L f0 t1 t2 (t1_lt t1) (t2_lt t2) (k0_off3_inb t1 t2) x) _ (readAt_s4 _)
  have hi : (fun dd => gI d L f1 fi t1 t2 dd x)
      = fun dd => fi (ix2 (lineOf (f1 (bidx L (laneIdx t1.val t2.val (t1_lt t1) (t2_lt t2) x))))
          (colOf (f1 (bidx L (laneIdx t1.val t2.val (t1_lt t1) (t2_lt t2) x))) dd)) := funext fun dd =>
    gather_leaf' fi L f1 h1 t1.val (t1_lt t1) t2 (idsI d L f1 t1 t2) dd (idx_ok t2 _ dd) x
      (idsI_lane L f1 t1 t2 (t1_lt t1) (t2_lt t2) (k0_off3_inb t1 t2) x) _ (readAt_s5 _)
  rw [hb, hw, hu, hi]
  rfl

end Lane

end Cert.KernelIdeal.Hand

end
-- ==== Proof.TileGrp.lean ====
/-
  One trip of the inner loop: sixteen batch entries. The subcore reads their user and item ids, gathers for each of the
  32 row entries the sixteen lanes' words of the two line buffers (slot 16 t2 + lane, column 32 (id mod 4) + d),
  accumulates the two affine layers' sixteen entries from the bias with one product per row entry, adds the sixteen
  products of the two layers' entries, and stores the sixteen sums into the result scratch at 256 t1 + 16 t2.
-/
import proofs.«218018_g87892210745873_cont_sun_m_655_26_alg».proof.Proof.TileInv
import proofs.«218018_g87892210745873_cont_sun_m_655_26_alg».proof.Proof.TileGrpVal
import proofs.«218018_g87892210745873_cont_sun_m_655_26_alg».proof.Proof.TileGrpRun
import proofs.«218018_g87892210745873_cont_sun_m_655_26_alg».proof.Proof.TileGrpLane
import proofs.«218018_g87892210745873_cont_sun_m_655_26_alg».proof.Proof.IntFacts
import proofs.«218018_g87892210745873_cont_sun_m_655_26_alg».proof.Proof.Accum
import proofs.«218018_g87892210745873_cont_sun_m_655_26_alg».proof.Proof.Gen.KernelIdeal.Skeleton

set_option maxHeartbeats 4000000

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.KernelIdeal.main_arg0_scv : Memref Cert.KernelIdeal.sig Kind.scVector Space.hbm Cert.KernelIdeal.S16384 EltTy.i32)
local notation "A1" => (Memref.whole Cert.KernelIdeal.main_arg1_scv : Memref Cert.KernelIdeal.sig Kind.scVector Space.hbm Cert.KernelIdeal.S16384 EltTy.i32)
local notation "UT" => (Memref.whole Cert.KernelIdeal.main_v0_scv : Memref Cert.KernelIdeal.sig Kind.scVector Space.hbm Cert.KernelIdeal.S250000x128 EltTy.f32)
local notation "IT" => (Memref.whole Cert.KernelIdeal.main_v1_scv : Memref Cert.KernelIdeal.sig Kind.scVector Space.hbm Cert.KernelIdeal.S250000x128 EltTy.f32)
local notation "WW" => (Memref.whole Cert.KernelIdeal.main_v2_scv : Memref Cert.KernelIdeal.sig Kind.scVector Space.hbm Cert.KernelIdeal.S512 EltTy.f32)
local notation "BB" => (Memref.whole Cert.KernelIdeal.main_arg5_scv : Memref Cert.KernelIdeal.sig Kind.scVector Space.hbm Cert.KernelIdeal.S16 EltTy.f32)
local notation "OO" => (Memref.whole Cert.KernelIdeal.main_v3_scv : Memref Cert.KernelIdeal.sig Kind.scVector Space.hbm Cert.KernelIdeal.S16384 EltTy.f32)
local notation "s0" => (Memref.whole Cert.KernelIdeal.cc0_scratch0 : Memref Cert.KernelIdeal.sig Kind.scVector Space.vmem Cert.KernelIdeal.S512 EltTy.i32)
local notation "s1" => (Memref.whole Cert.KernelIdeal.cc0_scratch1 : Memref Cert.KernelIdeal.sig Kind.scVector Space.vmem Cert.KernelIdeal.S512 EltTy.i32)
local notation "s2" => (Memref.whole Cert.KernelIdeal.cc0_scratch2 : Memref Cert.KernelIdeal.sig Kind.scVector Space.vmem Cert.KernelIdeal.S512 EltTy.i32)
local notation "s3" => (Memref.whole Cert.KernelIdeal.cc0_scratch3 : Memref Cert.KernelIdeal.sig Kind.scVector Space.vmem Cert.KernelIdeal.S512 EltTy.i32)
local notation "s4" => (Memref.whole Cert.KernelIdeal.cc0_scratch4 : Memref Cert.KernelIdeal.sig Kind.scVector Space.vmem Cert.KernelIdeal.S256x128 EltTy.f32)
local notation "s5" => (Memref.whole Cert.KernelIdeal.cc0_scratch5 : Memref Cert.KernelIdeal.sig Kind.scVector Space.vmem Cert.KernelIdeal.S256x128 EltTy.f32)
local notation "s6" => (Memref.whole Cert.KernelIdeal.cc0_scratch6 : Memref Cert.KernelIdeal.sig Kind.scVector Space.vmem Cert.KernelIdeal.S512 EltTy.f32)
local notation "s7" => (Memref.whole Cert.KernelIdeal.cc0_scratch7 : Memref Cert.KernelIdeal.sig Kind.scVector Space.vmem Cert.KernelIdeal.S16 EltTy.f32)
local notation "s8" => (Memref.whole Cert.KernelIdeal.cc0_scratch8 : Memref Cert.KernelIdeal.sig Kind.scVector Space.smem Cert.KernelIdeal.S512 EltTy.f32)
local notation "s9" => (Memref.whole Cert.KernelIdeal.cc0_scratch9 : Memref Cert.KernelIdeal.sig Kind.scVector Space.smem Cert.KernelIdeal.S16 EltTy.f32)
local notation "s10" => (Memref.whole Cert.KernelIdeal.cc0_scratch10 : Memref Cert.KernelIdeal.sig Kind.scVector Space.vmem Cert.KernelIdeal.S512 EltTy.f32)

/-- One trip of the inner loop: the run, then the result scratch's sixteen new entries are the accumulated values of the
    trip's sixteen batch entries and the earlier ones are untouched. -/
theorem grp_step : GrpStep (F := F) := by
  intro hF d L q f0 f1 fu fi fw fb fo h0 h1 t1 t2 acc v2339 v2369 ov hov
  refine ((grpRun (F := F) d L f0 f1 fu fi fw fb t1 t2).2 q fo acc v2339 v2369 ov).trans (wp_mono frame _ _ fun _ => ?_)
  iintro H
  iexists _
  isplitr
  · ipureintro
    exact outDone_step L f0 f1 fu fi fw fb t1.val t2.val (t1_lt t1) (t2_lt t2) ov _ (k0_off4 t1 t2) (k0_off4_eq t1 t2) (k0_off4_inb t1 t2) hov
      (fun x => grp_lane d L f0 f1 fu fi fw fb t1 t2 h0 h1 x)
  · iexact H

end Cert.KernelIdeal.Hand

end
-- ==== Proof.TileAll.lean ====
/-
  One vector subcore's task, assembled: a trip of the inner loop (sixteen results accumulated from sixteen gathered rows of
  each table), sixteen of them after the two indexed copies make a wave, two waves after the opening copies and before the
  copy-out make the task.
-/
import proofs.«218018_g87892210745873_cont_sun_m_655_26_alg».proof.Proof.Tile
import proofs.«218018_g87892210745873_cont_sun_m_655_26_alg».proof.Proof.TileWave
import proofs.«218018_g87892210745873_cont_sun_m_655_26_alg».proof.Proof.TileGrp

noncomputable section

namespace Cert.KernelIdeal.Hand

open Cert.KernelIdeal Cert.KernelIdeal.Gen
open Idealize.ShloMosaic

variable {F : FTy → Type} [FloatOps F]

/-- The subcore's task meets its statement. -/
theorem tile : TileBody (F := F) := tile_body (wave_step grp_step)

end Cert.KernelIdeal.Hand

end
-- ==== Proof.KTileInv.lean ====
/-
  One vector subcore's state between the stages of its task, with every scratch buffer's contents in closed form:
  its 512 user ids and item ids (entries base .. base+511 of the id arrays, base = 1024 s + 512 c), the lines they name
  (id / 4), the two 256-row line buffers (arbitrary before a wave; during wave t, row r holds line (id_{256 t + r}) / 4
  of the re-laid table), the weights and the bias in vector and in scalar memory, and the result scratch, whose first
  n entries are the accumulated values of batch entries base .. base+n-1.
-/
import proofs.«218018_g87892210745873_cont_sun_m_655_26_alg».proof.Proof.KCommon
import proofs.«218018_g87892210745873_cont_sun_m_655_26_alg».proof.Proof.Gen.Kernel.Skeleton

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "A0" => (Memref.whole Cert.Kernel.main_arg0_scv : Memref Cert.Kernel.sig Kind.scVector Space.hbm Cert.Kernel.S16384 EltTy.i32)
local notation "A1" => (Memref.whole Cert.Kernel.main_arg1_scv : Memref Cert.Kernel.sig Kind.scVector Space.hbm Cert.Kernel.S16384 EltTy.i32)
local notation "UT" => (Memref.whole Cert.Kernel.main_v0_scv : Memref Cert.Kernel.sig Kind.scVector Space.hbm Cert.Kernel.S250000x128 EltTy.f32)
local notation "IT" => (Memref.whole Cert.Kernel.main_v1_scv : Memref Cert.Kernel.sig Kind.scVector Space.hbm Cert.Kernel.S250000x128 EltTy.f32)
local notation "WW" => (Memref.whole Cert.Kernel.main_v2_scv : Memref Cert.Kernel.sig Kind.scVector Space.hbm Cert.Kernel.S512 EltTy.f32)
local notation "BB" => (Memref.whole Cert.Kernel.main_arg5_scv : Memref Cert.Kernel.sig Kind.scVector Space.hbm Cert.Kernel.S16 EltTy.f32)
local notation "OO" => (Memref.whole Cert.Kernel.main_v3_scv : Memref Cert.Kernel.sig Kind.scVector Space.hbm Cert.Kernel.S16384 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S512 EltTy.i32)
local notation "s4" => (Memref.whole Cert.Kernel.cc0_scratch4 : Memref Cert.Kernel.sig Kind.scVector Space.vmem Cert.Kernel.S256x128 EltTy.f32)
local notation "s5" => (Memref.whole Cert.Kernel.cc0_scratch5 : Memref Cert.Kernel.sig Kind.scVector Space.vmem Cert.Kernel.S256x128 EltTy.f32)
local notation "s6" => (Memref.whole Cert.Kernel.cc0_scratch6 : Memref Cert.Kernel.sig Kind.scVector Space.vmem Cert.Kernel.S512 EltTy.f32)
local notation "s7" => (Memref.whole Cert.Kernel.cc0_scratch7 : Memref Cert.Kernel.sig Kind.scVector Space.vmem Cert.Kernel.S16 EltTy.f32)
local notation "s8" => (Memref.whole Cert.Kernel.cc0_scratch8 : Memref Cert.Kernel.sig Kind.scVector Space.smem Cert.Kernel.S512 EltTy.f32)
local notation "s9" => (Memref.whole Cert.Kernel.cc0_scratch9 : Memref Cert.Kernel.sig Kind.scVector Space.smem Cert.Kernel.S16 EltTy.f32)
local notation "s10" => (Memref.whole Cert.Kernel.cc0_scratch10 : Memref Cert.Kernel.sig Kind.scVector Space.vmem Cert.Kernel.S512 EltTy.f32)

/-- The first batch entry of the subcore at grid point L. -/
def tbase (L : grid0.Coords) : ℕ := 1024 * (L 1).val + 512 * (L 0).val

theorem tbase_lt (L : grid0.Coords) (j : ℕ) (hj : j < 512) : tbase L + j < 16384 := by
  have h0 : (L 0).val < 2 := (L 0).isLt
  have h1 : (L 1).val < 16 := (L 1).isLt
  unfold tbase; omega

/-- Batch entry j of the subcore, as an index of the whole batch. -/
def bidx (L : grid0.Coords) (j : S512.Idx) : S16384.Idx := ix1 (⟨tbase L + (j 0).val, tbase_lt L _ (j 0).isLt⟩ : Fin 16384)

/-- The subcore's 512 ids out of an id array. -/
def idBlk (L : grid0.Coords) (f : S16384.Idx → BitVec 32) : S512.Idx → BitVec 32 := fun j => f (bidx L j)

/-- The lines those ids name: id / 4. -/
def lineBlk (L : grid0.Coords) (f : S16384.Idx → BitVec 32) : S512.Idx → BitVec 32 :=
  fun j => BitVec.ofNat 32 ((idBlk L f j).toNat / 4)

/-- A line buffer during wave t: row r holds the line that entry 256 t + r of the line list names (kept inside the table). -/
def gath (tab : S250000x128.Idx → F .f32) (lines : S512.Idx → BitVec 32) (t : ℕ) : S256x128.Idx → F .f32 :=
  fun x => tab (ix2 (⟨min (lines (ix1 (⟨min (256 * t + (x 0).val) 511, by omega⟩ : Fin 512))).toNat 249999, by omega⟩ : Fin 250000) (x 1))

/-- The result scratch agrees with the accumulated values on its first n entries. -/
def OutDone [FloatOps F] (L : grid0.Coords) (f0 f1 : S16384.Idx → BitVec 32) (fu fi : S250000x128.Idx → F .f32) (fw : S512.Idx → F .f32)
    (fb : S16.Idx → F .f32) (n : ℕ) (ov : S512.Idx → F .f32) : Prop :=
  ∀ j : S512.Idx, (j 0).val < n → ov j = outVal (F := F) f0 f1 fu fi fw fb (bidx L j)

/-- Everything the subcore holds at the loops: the six inputs under the read share, its entries of the result, the eleven
    scratch buffers at their closed contents (the line buffers at ub, ib and the result scratch at ov), the seven
    semaphores' counters at zero. -/
def St (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (ub ib : S256x128.Idx → F .f32) (ov : S512.Idx → F .f32) : sProp 𝕄 :=
  iprop(((A0).view.loc (V d (cV L) (jV L)) ↦{q} f0) ∗ ((A1).view.loc (V d (cV L) (jV L)) ↦{q} f1)
    ∗ ((UT).view.loc (V d (cV L) (jV L)) ↦{q} fu) ∗ ((IT).view.loc (V d (cV L) (jV L)) ↦{q} fi)
    ∗ ((WW).view.loc (V d (cV L) (jV L)) ↦{q} fw) ∗ ((BB).view.loc (V d (cV L) (jV L)) ↦{q} fb)
    ∗ ((outBlkM L).view.loc (V d (cV L) (jV L)) ↦[(outBlkM L).view.set]{fullShare} fo)
    ∗ ((s0).view.loc (V d (cV L) (jV L)) ↦{fullShare} idBlk L f0) ∗ ((s1).view.loc (V d (cV L) (jV L)) ↦{fullShare} idBlk L f1)
    ∗ ((s2).view.loc (V d (cV L) (jV L)) ↦{fullShare} lineBlk L f0) ∗ ((s3).view.loc (V d (cV L) (jV L)) ↦{fullShare} lineBlk L f1)
    ∗ ((s4).view.loc (V d (cV L) (jV L)) ↦{fullShare} ub) ∗ ((s5).view.loc (V d (cV L) (jV L)) ↦{fullShare} ib)
    ∗ ((s6).view.loc (V d (cV L) (jV L)) ↦{fullShare} fw) ∗ ((s7).view.loc (V d (cV L) (jV L)) ↦{fullShare} fb)
    ∗ ((s8).view.loc (V d (cV L) (jV L)) ↦{fullShare} fw) ∗ ((s9).view.loc (V d (cV L) (jV L)) ↦{fullShare} fb)
    ∗ ((s10).view.loc (V d (cV L) (jV L)) ↦{fullShare} ov)
    ∗ semVal (V d (cV L) (jV L), SemLoc.dma cc0_scratch11.sem) 0 ∗ semVal (V d (cV L) (jV L), SemLoc.dma cc0_scratch12.sem) 0
    ∗ semVal (V d (cV L) (jV L), SemLoc.dma cc0_scoped0.sem) 0 ∗ semVal (V d (cV L) (jV L), SemLoc.dma cc0_scoped1.sem) 0
    ∗ semVal (V d (cV L) (jV L), SemLoc.dma cc0_scoped2.sem) 0 ∗ semVal (V d (cV L) (jV L), SemLoc.dma cc0_scoped3.sem) 0
    ∗ semVal (V d (cV L) (jV L), SemLoc.dma cc0_scoped4.sem) 0)

/-- One trip of the inner loop (16 batch entries): from the result scratch right on the first 256 t1 + 16 t2 entries to right
    on 16 more, everything else as it was. (No wait happens inside: what the subcore owes is untouched.) -/
def GrpStep [FloatOps F] : Prop :=
  ∀ (_ : (K (F := F)).Facts) (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (_ : ∀ i, (f0 i).toNat ≤ 999999) (_ : ∀ i, (f1 i).toNat ≤ 999999)
    (t1 : Fin k0_t1_loop.trips) (t2 : Fin k0_t2_loop.trips) (acc : BitVec 32) (v2339 : Vec F S16 .f32) (v2369 : F .f32)
    (ov : S512.Idx → F .f32) (_ : OutDone (F := F) L f0 f1 fu fi fw fb (256 * t1.val + 16 * t2.val) ov),
    St (F := F) d L q f0 f1 fu fi fw fb fo (gath fu (lineBlk L f0) t1.val) (gath fi (lineBlk L f1) t1.val) ov
      ⊢ wp frame (wpE (defs₀ (F := F)) 𝒱₀ (V d (cV L) (jV L)) none) Set.univ
          (k0_t2_body L A0 (Memref.isWhole_whole _) A1 (Memref.isWhole_whole _) UT (Memref.isWhole_whole _) IT (Memref.isWhole_whole _)
            WW (Memref.isWhole_whole _) BB (Memref.isWhole_whole _) OO (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            s8 (Memref.isWhole_whole _) s9 (Memref.isWhole_whole _) s10 (Memref.isWhole_whole _)
            cc0_scratch11 cc0_scratch12 cc0_scoped0 cc0_scoped1 cc0_scoped2 cc0_scoped3 cc0_scoped4
            v2339 v2369 (iota .scVector S16 32 [0] Facts₀.iota_S16_d0_w32_scVector) t1 (Scalar.muli (Scf.iv 0#32 1#32 t1) 256#32) t2 acc)
          fun _ => iprop(∃ ov', ⌜OutDone (F := F) L f0 f1 fu fi fw fb (256 * t1.val + 16 * (t2.val + 1)) ov'⌝
            ∗ St (F := F) d L q f0 f1 fu fi fw fb fo (gath fu (lineBlk L f0) t1.val) (gath fi (lineBlk L f1) t1.val) ov')

/-- One trip of the outer loop (a wave of 256 batch entries): the two line buffers are filled by the two indexed copies
    (each on its own semaphore, both waited for before any row is read) and the inner loop runs its 16 trips. The waits
    are recorded in what the subcore owes. -/
def WaveStep [FloatOps F] : Prop :=
  ∀ (_ : (K (F := F)).Facts) (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (_ : ∀ i, (f0 i).toNat ≤ 999999) (_ : ∀ i, (f1 i).toNat ≤ 999999)
    (O : CellTallies nD τ sig (HIx 1)) (W' : Waits sig (HIx 1))
    (t1 : Fin k0_t1_loop.trips) (acc : BitVec 32) (v2339 : Vec F S16 .f32) (v2369 : F .f32)
    (ub ib : S256x128.Idx → F .f32) (ov : S512.Idx → F .f32) (_ : OutDone (F := F) L f0 f1 fu fi fw fb (256 * t1.val) ov),
    iprop(Transfers.MayWaits (V d (cV L) (jV L)) (none : HIx 1) O ∗ St (F := F) d L q f0 f1 fu fi fw fb fo ub ib ov
        ∗ owes (V d (cV L) (jV L)) O W')
      ⊢ wp frame (wpE (defs₀ (F := F)) 𝒱₀ (V d (cV L) (jV L)) none) Set.univ
          (k0_t1_body L A0 (Memref.isWhole_whole _) A1 (Memref.isWhole_whole _) UT (Memref.isWhole_whole _) IT (Memref.isWhole_whole _)
            WW (Memref.isWhole_whole _) BB (Memref.isWhole_whole _) OO (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            s8 (Memref.isWhole_whole _) s9 (Memref.isWhole_whole _) s10 (Memref.isWhole_whole _)
            cc0_scratch11 cc0_scratch12 cc0_scoped0 cc0_scoped1 cc0_scoped2 cc0_scoped3 cc0_scoped4
            v2339 v2369 (iota .scVector S16 32 [0] Facts₀.iota_S16_d0_w32_scVector) t1 acc)
          fun _ => iprop(Transfers.MayWaits (V d (cV L) (jV L)) (none : HIx 1) O
            ∗ ∃ ub' ib' ov' W'', ⌜OutDone (F := F) L f0 f1 fu fi fw fb (256 * (t1.val + 1)) ov'⌝ ∗ ⌜∀ p ∈ W'', p ∈ W' ∨ p.2 = none⌝
              ∗ St (F := F) d L q f0 f1 fu fi fw fb fo ub' ib' ov' ∗ owes (V d (cV L) (jV L)) O W'')

end Cert.Kernel.Hand

end
-- ==== Proof.KScoped.lean ====
/-
  One vector subcore's scoped storage, opened into its named pieces: its seven scoped transfer semaphores, each at zero,
  and its eleven scratch buffers, each whole at some contents, beside what is left of the subcore's own cells and buffers.
  Both are the same step repeated: a member of a finite set is taken out of a separating conjunction over the set.
-/
import proofs.«218018_g87892210745873_cont_sun_m_655_26_alg».proof.Proof.KCommon

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Taking a list of distinct members out of a separating conjunction over a finite set -/

section EraseList

variable {M : Type} [URA M] {I J : Type} [DecidableEq I]

/-- Φ at the images under f of a list's members, in the list's order, and then Φ over what is left of the set s once
    those images are erased from it, in the same order. -/
def sepErase (Φ : I → sProp M) (f : J → I) : List J → Finset I → sProp M
  | [], s => bigSep s Φ
  | j :: l, s => iprop(Φ (f j) ∗ sepErase Φ f l (s.erase (f j)))

/-- When f is injective, the list has no repetition and every image lies in s, the separating conjunction over s is
    that: the head's image is in s, and each later image differs from it, so it is still in s with the head's erased. -/
theorem bigSep_sepErase (Φ : I → sProp M) {f : J → I} (hf : Function.Injective f) :
    ∀ (l : List J) (s : Finset I), l.Nodup → (∀ j ∈ l, f j ∈ s) → bigSep s Φ = sepErase Φ f l s
  | [], _, _, _ => rfl
  | j :: l, s, hnd, hmem => by
    rw [sepErase, SparseCore.bigSep_erase' (hmem j (List.mem_cons_self ..)),
      bigSep_sepErase Φ hf l (s.erase (f j)) (List.nodup_cons.mp hnd).2 fun k hk =>
        Finset.mem_erase.mpr ⟨fun e => (List.nodup_cons.mp hnd).1 (hf e ▸ hk), hmem k (List.mem_cons_of_mem _ hk)⟩]

end EraseList

/-! ## The subcore's semaphores -/

/-- The cell of the subcore at grid point L that a transfer semaphore names. -/
abbrev semCell (d : Dev nD) (L : grid0.Coords) (s : DmaSem sig) : GSem nD τ sig := (V d (cV L) (jV L), .dma s)

theorem semCell_injective (d : Dev nD) (L : grid0.Coords) : Function.Injective (semCell d L) := by
  intro a b e
  simpa using e

/-- The seven semaphores are among the subcore's own scoped cells: each at zero, and the rest at zero. -/
theorem ownSems0_V (d : Dev nD) (L : grid0.Coords) :
    (ownSems0 (V d (cV L) (jV L)) : sProp 𝕄)
      = iprop(semVal (semCell d L cc0_scratch11.sem) 0 ∗ semVal (semCell d L cc0_scratch12.sem) 0 ∗ semVal (semCell d L cc0_scoped0.sem) 0
          ∗ semVal (semCell d L cc0_scoped1.sem) 0 ∗ semVal (semCell d L cc0_scoped2.sem) 0 ∗ semVal (semCell d L cc0_scoped3.sem) 0
          ∗ semVal (semCell d L cc0_scoped4.sem) 0
          ∗ bigSep ((((((((ownCells (V d (cV L) (jV L))).erase (semCell d L cc0_scratch11.sem)).erase (semCell d L cc0_scratch12.sem)).erase
              (semCell d L cc0_scoped0.sem)).erase (semCell d L cc0_scoped1.sem)).erase (semCell d L cc0_scoped2.sem)).erase
              (semCell d L cc0_scoped3.sem)).erase (semCell d L cc0_scoped4.sem)) fun g => semVal g 0) := by
  unfold SparseCore.Cfg.ownSems0
  have hsc : ∀ s ∈ [cc0_scratch11.sem, cc0_scratch12.sem, cc0_scoped0.sem, cc0_scoped1.sem, cc0_scoped2.sem, cc0_scoped3.sem, cc0_scoped4.sem],
      (SemLoc.dma s : SemLoc sig).isScoped .scVector = true := by decide
  exact bigSep_sepErase (fun g => semVal g 0) (semCell_injective d L)
    [cc0_scratch11.sem, cc0_scratch12.sem, cc0_scoped0.sem, cc0_scoped1.sem, cc0_scoped2.sem, cc0_scoped3.sem, cc0_scoped4.sem] _
    (by decide) fun s hs => mem_ownCells.mpr ⟨rfl, hsc s hs⟩

/-! ## The subcore's scratch buffers -/

/-- The eleven scratch buffers are among the subcore's own: each whole at some contents, and the rest. -/
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ (∃ f, (V d (cV L) (jV L)).loc cc0_scratch6 ↦{fullShare} f) ∗ (∃ f, (V d (cV L) (jV L)).loc cc0_scratch7 ↦{fullShare} f)
          ∗ (∃ f, (V d (cV L) (jV L)).loc cc0_scratch8 ↦{fullShare} f) ∗ (∃ f, (V d (cV L) (jV L)).loc cc0_scratch9 ↦{fullShare} f)
          ∗ (∃ f, (V d (cV L) (jV L)).loc cc0_scratch10 ↦{fullShare} f)
          ∗ bigSep ((((((((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4)).erase
              ((Proc.scVector (cV L) (jV L)).devRef cc0_scratch5)).erase ((Proc.scVector (cV L) (jV L)).devRef cc0_scratch6)).erase
              ((Proc.scVector (cV L) (jV L)).devRef cc0_scratch7)).erase ((Proc.scVector (cV L) (jV L)).devRef cc0_scratch8)).erase
              ((Proc.scVector (cV L) (jV L)).devRef cc0_scratch9)).erase ((Proc.scVector (cV L) (jV L)).devRef cc0_scratch10))
              fun b => iprop(∃ f, ((d, b) : Loc nD τ sig) ↦{fullShare} f)) := by
  unfold SparseCore.Cfg.ownBufs
  have hnd : ([cc0_scratch0, cc0_scratch1, cc0_scratch2, cc0_scratch3, cc0_scratch4, cc0_scratch5, cc0_scratch6, cc0_scratch7, cc0_scratch8,
      cc0_scratch9, cc0_scratch10] : List (Ref sig .scVector)).Nodup := by decide
  have hmem : ∀ r ∈ ([cc0_scratch0, cc0_scratch1, cc0_scratch2, cc0_scratch3, cc0_scratch4, cc0_scratch5, cc0_scratch6, cc0_scratch7,
      cc0_scratch8, cc0_scratch9, cc0_scratch10] : List (Ref sig .scVector)),
      (Proc.scVector (cV L) (jV L)).devRef r ∈ ownRefs (τ := τ) (sig := sig) (.scVector (cV L) (jV L)) := by
    intro r hr
    simp only [List.mem_cons, List.not_mem_nil, or_false] at hr
    rcases hr with rfl | rfl | rfl | rfl | rfl | rfl | rfl | rfl | rfl | rfl | rfl <;>
      exact SparseCore.Cfg.mem_ownRefs_of_owner (p := Proc.scVector (cV L) (jV L)) rfl
  exact bigSep_sepErase (fun b => iprop(∃ f, ((d, b) : Loc nD τ sig) ↦{fullShare} f)) (Proc.devRef_injective (Proc.scVector (cV L) (jV L)))
    _ _ hnd hmem

end Cert.Kernel.Hand

end
-- ==== Proof.KOutBlock.lean ====
/-
  The subcore's block of the result after its 512-entry result scratch is copied onto it. The block of the subcore at
  grid point L is the 512 consecutive entries of the result from 1024·(L 1) + 512·(L 0): entry j of the block is entry
  base + j of the whole array. A copy of the whole scratch onto the block leaves, at entry base + j, the scratch's
  entry j; so if every scratch entry j is the value of a whole-array function G at base + j, the block holds G.
-/
import proofs.«218018_g87892210745873_cont_sun_m_655_26_alg».proof.Proof.KTileInv

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "A0" => (Memref.whole Cert.Kernel.main_arg0_scv : Memref Cert.Kernel.sig Kind.scVector Space.hbm Cert.Kernel.S16384 EltTy.i32)
local notation "A1" => (Memref.whole Cert.Kernel.main_arg1_scv : Memref Cert.Kernel.sig Kind.scVector Space.hbm Cert.Kernel.S16384 EltTy.i32)
local notation "UT" => (Memref.whole Cert.Kernel.main_v0_scv : Memref Cert.Kernel.sig Kind.scVector Space.hbm Cert.Kernel.S250000x128 EltTy.f32)
local notation "IT" => (Memref.whole Cert.Kernel.main_v1_scv : Memref Cert.Kernel.sig Kind.scVector Space.hbm Cert.Kernel.S250000x128 EltTy.f32)
local notation "WW" => (Memref.whole Cert.Kernel.main_v2_scv : Memref Cert.Kernel.sig Kind.scVector Space.hbm Cert.Kernel.S512 EltTy.f32)
local notation "BB" => (Memref.whole Cert.Kernel.main_arg5_scv : Memref Cert.Kernel.sig Kind.scVector Space.hbm Cert.Kernel.S16 EltTy.f32)
local notation "OO" => (Memref.whole Cert.Kernel.main_v3_scv : Memref Cert.Kernel.sig Kind.scVector Space.hbm Cert.Kernel.S16384 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S512 EltTy.i32)
local notation "s4" => (Memref.whole Cert.Kernel.cc0_scratch4 : Memref Cert.Kernel.sig Kind.scVector Space.vmem Cert.Kernel.S256x128 EltTy.f32)
local notation "s5" => (Memref.whole Cert.Kernel.cc0_scratch5 : Memref Cert.Kernel.sig Kind.scVector Space.vmem Cert.Kernel.S256x128 EltTy.f32)
local notation "s6" => (Memref.whole Cert.Kernel.cc0_scratch6 : Memref Cert.Kernel.sig Kind.scVector Space.vmem Cert.Kernel.S512 EltTy.f32)
local notation "s7" => (Memref.whole Cert.Kernel.cc0_scratch7 : Memref Cert.Kernel.sig Kind.scVector Space.vmem Cert.Kernel.S16 EltTy.f32)
local notation "s8" => (Memref.whole Cert.Kernel.cc0_scratch8 : Memref Cert.Kernel.sig Kind.scVector Space.smem Cert.Kernel.S512 EltTy.f32)
local notation "s9" => (Memref.whole Cert.Kernel.cc0_scratch9 : Memref Cert.Kernel.sig Kind.scVector Space.smem Cert.Kernel.S16 EltTy.f32)
local notation "s10" => (Memref.whole Cert.Kernel.cc0_scratch10 : Memref Cert.Kernel.sig Kind.scVector Space.vmem Cert.Kernel.S512 EltTy.f32)

/-- Entry x of the subcore's block of the result sits at entry base + x of the whole array: the block is the rectangle
    of 512 consecutive entries at the closed-form offset. -/
theorem outBlkM_emb (L : grid0.Coords) (x : S512.Idx) : (outBlkM L).view.emb x = bidx L x := by
  refine funext ((Fin.forall_fin_one (p := fun a => (outBlkM L).view.emb x a = bidx L x a)).mpr ?_)
  apply Fin.ext
  show (k0_off1 L) 0 + 1 * (x 0).val = tbase L + (x 0).val
  rw [Gen.k0_off1_eq]
  simp [tbase]

/-- The result block after the scratch is copied onto it holds, at each of its entries, the scratch's entry: so if the
    scratch is right everywhere, the block is the accumulated result on the block. -/
theorem out_block_eq (L : grid0.Coords) (fo G : S16384.Idx → F .f32) (P ov : S512.Idx → F .f32) (hP : P = ov)
    (hov : ∀ j : S512.Idx, ov j = G (bidx L j)) :
    ∀ y ∈ (outBlkM L).view.set, ((outBlkM L).view.writes (Elt F) fo [⟨Rect.whole S512, P⟩]) y = G y := by
  intro y hy
  subst hP
  obtain ⟨x, -, rfl⟩ := Finset.mem_map.mp hy
  have key := View.write_emb_of_mem (Val := Elt F) (v := (outBlkM L).view.slice (Rect.whole S512)) fo P (Finset.mem_univ x)
  have e : ((outBlkM L).view.slice (Rect.whole S512)).emb x = (outBlkM L).view.emb x := by
    rw [View.emb_slice]
    show (outBlkM L).view.emb ((Rect.whole S512).emb x) = _
    rw [Rect.emb_whole_apply]
  rw [e] at key
  rw [View.writes_singleton]
  refine key.trans ((cast_eq _ _).trans ?_)
  rw [outBlkM_emb]
  exact hov x

/-- Reading the whole result scratch at its own shape and element type is the scratch's contents. -/
theorem readAs_same_read_whole (ov : S512.Idx → F .f32) : ReadAs.same.apply (View.read (Elt F) (s10).view ov) = ov := rfl

/-- Hence the block is held at G: the points-to over the block's entries looks only at those entries. -/
theorem out_block_pts (d : Dev nD) (L : grid0.Coords) (fo G : S16384.Idx → F .f32) (P ov : S512.Idx → F .f32) (hP : P = ov)
    (hov : ∀ j : S512.Idx, ov j = G (bidx L j)) :
    (((outBlkM L).view.loc (V d (cV L) (jV L)) ↦[(outBlkM L).view.set]{fullShare} (outBlkM L).view.writes (Elt F) fo [⟨Rect.whole S512, P⟩]) : sProp 𝕄)
      = ((outBlkM L).view.loc (V d (cV L) (jV L)) ↦[(outBlkM L).view.set]{fullShare} G) :=
  pointsTo_congr fun i hi => out_block_eq L fo G P ov hP hov i hi

end Cert.Kernel.Hand

end
-- ==== Proof.KIntFacts.lean ====
/-
  The kernel's integer vectors, as numbers. Lane x of the slot vector of trip t is 16·t + x (below 256); the
  column vector built from an id vector v and an entry number dd is 32·(v mod 4) + dd (below 128), the "and" with 3
  being the remainder by 4 and the shift by 5 the product by 32, nothing wrapping; the line vector is v shifted right
  by 2, that is v / 4 (at most 249999 for an id at most 999999). Slot and column vectors in range make the indexed
  load's range condition true, and the indexed load at a lane is the base at (slot, column) of that lane.
-/
import proofs.«218018_g87892210745873_cont_sun_m_655_26_alg».proof.Proof.KCommon
import proofs.«218018_g87892210745873_cont_sun_m_655_26_alg».proof.Proof.Gen.Kernel.Skeleton

noncomputable section

namespace Cert.Kernel.Hand

open Cert.Kernel Cert.Kernel.Gen
open Idealize.ShloMosaic Idealize.ShloMosaic.ValueIdx

variable {F : FTy → Type} [FloatOps F]

/-! ## (a) The slot vector -/

/-- The loop over slots has at most 16 trips. -/
theorem t2_lt (t2 : Fin k0_t2_loop.trips) : t2.val < 16 := lt_of_lt_of_le t2.isLt k0_t2_abs.2.1

/-- Lane x of (0, 1, …, 15) + 16·t is 16·t + x. -/
theorem slots_toNat (t2 : Fin k0_t2_loop.trips) (x : S16.Idx) :
    ((addi (iota .scVector S16 32 [0] Facts₀.iota_S16_d0_w32_scVector)
        (broadcast S16 (Scalar.muli (Scf.iv 0#32 1#32 t2) 16#32))) x).toNat = 16 * t2.val + (x 0).val := by
  have ht := t2_lt t2
  have hx : (x 0).val < 16 := (x 0).isLt
  show (BitVec.ofNat 32 (0 * 16 + (x 0).val) + (0#32 + BitVec.ofNat 32 t2.val * 1#32) * 16#32).toNat = _
  simp only [BitVec.toNat_add, BitVec.toNat_mul, BitVec.toNat_ofNat, Nat.reducePow, Nat.reduceMod]
  omega

theorem slots_lt (t2 : Fin k0_t2_loop.trips) (x : S16.Idx) :
    ((addi (iota .scVector S16 32 [0] Facts₀.iota_S16_d0_w32_scVector)
        (broadcast S16 (Scalar.muli (Scf.iv 0#32 1#32 t2) 16#32))) x).toNat < 256 := by
  have ht := t2_lt t2
  have hx : (x 0).val < 16 := (x 0).isLt
  rw [slots_toNat]; omega

/-- The same for the kernel's own spelling of the slot vector. -/
theorem pay1_toNat (t2 : Fin k0_t2_loop.trips) (x : S16.Idx) :
    (k0_pay1 (iota .scVector S16 32 [0] Facts₀.iota_S16_d0_w32_scVector) 0#32 1#32 t2 x).toNat = 16 * t2.val + (x 0).val :=
  slots_toNat t2 x

theorem pay1_lt (t2 : Fin k0_t2_loop.trips) (x : S16.Idx) :
    (k0_pay1 (iota .scVector S16 32 [0] Facts₀.iota_S16_d0_w32_scVector) 0#32 1#32 t2 x).toNat < 256 :=
  slots_lt t2 x

/-! ## (b) The column vector -/

/-- (w and 3) shifted left by 5 is 32·(w mod 4). -/
theorem word_col_toNat (w : BitVec 32) :
    (IntOp.shli .vector (IntOp.andi w 3#32) 5#32).toNat = w.toNat % 4 * 32 := by
  have h3 : (w &&& 3#32).toNat = w.toNat % 4 := by
    rw [BitVec.toNat_and]
    exact Nat.and_two_pow_sub_one_eq_mod w.toNat 2
  unfold IntOp.shli IntOp.andi
  rw [if_pos (by decide)]
  rw [BitVec.shiftLeft_eq', BitVec.toNat_shiftLeft, h3]
  show (w.toNat % 4) <<< 5 % 2 ^ 32 = _
  rw [Nat.shiftLeft_eq]
  omega

/-- Lane x of ((v and 3) shifted left by 5) + dd is 32·(v_x mod 4) + dd, for dd below 32. -/
theorem cols_toNat (v : IVec S16 32) (dd : BitVec 32) (hdd : dd.toNat < 32) (x : S16.Idx) :
    ((addi (shli (andi v (broadcast S16 3#32)) (broadcast S16 5#32)) (broadcast S16 dd)) x).toNat
      = (v x).toNat % 4 * 32 + dd.toNat := by
  show (IntOp.shli .vector (IntOp.andi (v x) 3#32) 5#32 + dd).toNat = _
  rw [BitVec.toNat_add, word_col_toNat]
  omega

theorem cols_lt (v : IVec S16 32) (dd : BitVec 32) (hdd : dd.toNat < 32) (x : S16.Idx) :
    ((addi (shli (andi v (broadcast S16 3#32)) (broadcast S16 5#32)) (broadcast S16 dd)) x).toNat < 128 := by
  rw [cols_toNat v dd hdd x]; omega

/-- The kernel's own spelling of the shifted remainder, for the user ids and for the item ids. -/
theorem pay2_eq (v : IVec S16 32) : k0_pay2 (F := F) v = shli (andi v (broadcast S16 3#32)) (broadcast S16 5#32) := rfl
theorem pay3_eq (v : IVec S16 32) : k0_pay3 (F := F) v = shli (andi v (broadcast S16 3#32)) (broadcast S16 5#32) := rfl
/-- Entry number 0: the column vector is the shifted remainder plus 0. -/
theorem pay20_eq (c : IVec S16 32) : k0_pay20 c = addi c (broadcast S16 0#32) := rfl
theorem pay21_eq (c : IVec S16 32) : k0_pay21 c = addi c (broadcast S16 0#32) := rfl

/-! ## (c) The line vector -/

/-- Lane x of v shifted right by 2 is v_x / 4. -/
theorem lines_toNat (v : IVec S16 32) (x : S16.Idx) :
    ((shrui v (broadcast S16 2#32)) x).toNat = (v x).toNat / 4 := by
  show (IntOp.shrui .vector (v x) 2#32).toNat = _
  unfold IntOp.shrui
  rw [if_pos (by decide)]
  rw [BitVec.ushiftRight_eq', BitVec.toNat_ushiftRight]
  show (v x).toNat >>> 2 = _
  rw [Nat.shiftRight_eq_div_pow]

theorem lines_le (v : IVec S16 32) (x : S16.Idx) (h : (v x).toNat ≤ 999999) :
    ((shrui v (broadcast S16 2#32)) x).toNat ≤ 249999 := by
  rw [lines_toNat]; omega

/-- The kernel's own spelling of the line vector. -/
theorem pay1142_eq (v : IVec S16 32) : k0_pay1142 (F := F) v = shrui v (broadcast S16 2#32) := rfl

/-! ## (d) The range condition of an indexed load -/

/-- Slots below 256 and columns below 128 are in range for a [256, 128] base. -/
theorem chk_ok (rows cols : IVec S16 32) (hr : ∀ x, (rows x).toNat < 256) (hc : ∀ x, (cols x).toNat < 128) :
    ∀ a x, ((![rows, cols] : Fin 2 → IVec S16 32) a x).toNat < S256x128.size a :=
  Fin.forall_fin_two.mpr ⟨hr, hc⟩

example (r c : IVec S16 32) (hr : ∀ x, (r x).toNat < 256) (hc : ∀ x, (c x).toNat < 128) : k0_chk7 r c := chk_ok r c hr hc

/-! ## (e) The indexed load at a lane -/

/-- The index an indexed load names at lane x: (slot of x, column of x). -/
theorem idxAt_eq (rows cols : IVec S16 32)
    (h : ∀ a x, ((![rows, cols] : Fin 2 → IVec S16 32) a x).toNat < S256x128.size a) (x : S16.Idx) :
    idxAt (s := S256x128) ![rows, cols] h x
      = ix2 (⟨(rows x).toNat, h 0 x⟩ : Fin 256) (⟨(cols x).toNat, h 1 x⟩ : Fin 128) := by
  funext a
  match a with
  | ⟨0, _⟩ => rfl
  | ⟨1, _⟩ => rfl

/-- The indexed load from a [256, 128] base at lane x is the base at (slot of x, column of x). -/
theorem loadIdx_apply {e : EltTy} (f : Vec F S256x128 e) (rows cols : IVec S16 32)
    (h : ∀ a x, ((![rows, cols] : Fin 2 → IVec S16 32) a x).toNat < S256x128.size a) (x : S16.Idx) :
    loadIdx f ![rows, cols] h x
      = f (ix2 (⟨(rows x).toNat, h 0 x⟩ : Fin 256) (⟨(cols x).toNat, h 1 x⟩ : Fin 128)) :=
  congrArg f (idxAt_eq rows cols h x)

/-! ## (f) The line and the column of an id -/

theorem lineOf_val (v : BitVec 32) (h : v.toNat ≤ 999999) : (lineOf v).val = v.toNat / 4 := by
  show min (v.toNat / 4) 249999 = v.toNat / 4; omega

theorem colOf_val (v : BitVec 32) (d : Fin 32) : (colOf v d).val = v.toNat % 4 * 32 + d.val := rfl

end Cert.Kernel.Hand

end
-- ==== Proof.KCollapse.lean ====
/-
  Reading a scratch buffer that was filled store by store as ONE function of the index. After the first stage of a
  subcore's task four scratch buffers hold lists of stores over arbitrary prior contents: the line lists (32 stores of
  16 words each: the ids shifted right by 2), the weights and the bias in scalar memory (512 and 16 stores of one word
  each: lane l of a 16-word load at offset o goes to word o + l). A list of stores whose rectangles cover the buffer,
  every store agreeing with one function G at its own place, leaves exactly G: each word is read from the newest
  store covering it, and that store holds G there.
-/
import proofs.«218018_g87892210745873_cont_sun_m_655_26_alg».proof.Proof.KTileInv
import proofs.«218018_g87892210745873_cont_sun_m_655_26_alg».proof.Proof.KIntFacts
import Idealize.ShloMosaic.Lib.Writes
import Idealize.ShloMosaic.Lib.Exec

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "A0" => (Memref.whole Cert.Kernel.main_arg0_scv : Memref Cert.Kernel.sig Kind.scVector Space.hbm Cert.Kernel.S16384 EltTy.i32)
local notation "A1" => (Memref.whole Cert.Kernel.main_arg1_scv : Memref Cert.Kernel.sig Kind.scVector Space.hbm Cert.Kernel.S16384 EltTy.i32)
local notation "UT" => (Memref.whole Cert.Kernel.main_v0_scv : Memref Cert.Kernel.sig Kind.scVector Space.hbm Cert.Kernel.S250000x128 EltTy.f32)
local notation "IT" => (Memref.whole Cert.Kernel.main_v1_scv : Memref Cert.Kernel.sig Kind.scVector Space.hbm Cert.Kernel.S250000x128 EltTy.f32)
local notation "WW" => (Memref.whole Cert.Kernel.main_v2_scv : Memref Cert.Kernel.sig Kind.scVector Space.hbm Cert.Kernel.S512 EltTy.f32)
local notation "BB" => (Memref.whole Cert.Kernel.main_arg5_scv : Memref Cert.Kernel.sig Kind.scVector Space.hbm Cert.Kernel.S16 EltTy.f32)
local notation "OO" => (Memref.whole Cert.Kernel.main_v3_scv : Memref Cert.Kernel.sig Kind.scVector Space.hbm Cert.Kernel.S16384 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S512 EltTy.i32)
local notation "s4" => (Memref.whole Cert.Kernel.cc0_scratch4 : Memref Cert.Kernel.sig Kind.scVector Space.vmem Cert.Kernel.S256x128 EltTy.f32)
local notation "s5" => (Memref.whole Cert.Kernel.cc0_scratch5 : Memref Cert.Kernel.sig Kind.scVector Space.vmem Cert.Kernel.S256x128 EltTy.f32)
local notation "s6" => (Memref.whole Cert.Kernel.cc0_scratch6 : Memref Cert.Kernel.sig Kind.scVector Space.vmem Cert.Kernel.S512 EltTy.f32)
local notation "s7" => (Memref.whole Cert.Kernel.cc0_scratch7 : Memref Cert.Kernel.sig Kind.scVector Space.vmem Cert.Kernel.S16 EltTy.f32)
local notation "s8" => (Memref.whole Cert.Kernel.cc0_scratch8 : Memref Cert.Kernel.sig Kind.scVector Space.smem Cert.Kernel.S512 EltTy.f32)
local notation "s9" => (Memref.whole Cert.Kernel.cc0_scratch9 : Memref Cert.Kernel.sig Kind.scVector Space.smem Cert.Kernel.S16 EltTy.f32)
local notation "s10" => (Memref.whole Cert.Kernel.cc0_scratch10 : Memref Cert.Kernel.sig Kind.scVector Space.vmem Cert.Kernel.S512 EltTy.f32)

/-! ## Unfolding a family of definitions by the prefix of their names -/

open Lean Elab Tactic Meta in
/-- `delta_sl p` replaces, in the goal (`delta_sl p at h`: in a hypothesis), every constant whose name begins with the
    prefix p — as written, or under any enclosing namespace — by its definition, and again inside what the
    definitions unfold to, until no such constant is left. The new statement is the old one up to unfolding. -/
elab "delta_sl " pfx:ident loc:(Parser.Tactic.location)? : tactic => do
  let p := pfx.getId
  let ns ← getCurrNamespace
  let rec prefixes (n : Name) : List Name := match n with
    | .anonymous => [.anonymous]
    | .str q _ => n :: prefixes q
    | .num q _ => n :: prefixes q
  let cands := (prefixes ns).map (· ++ p)
  let hit (n : Name) : Bool := cands.any fun c => c.isPrefixOf n || c.toString.isPrefixOf n.toString
  let unfoldAll (e : Expr) : MetaM Expr := do Meta.deltaExpand (← instantiateMVars e) hit
  withLocation (expandOptLocation (mkOptionalNode loc))
    (fun h => do
      let g ← getMainGoal
      let t' ← unfoldAll (← h.getType)
      replaceMainGoal [← g.replaceLocalDeclDefEq h t'])
    (do
      let g ← getMainGoal
      let t' ← unfoldAll (← g.getType)
      replaceMainGoal [← g.replaceTargetDefEq t'])
    (fun _ => throwError "delta_sl: nothing to unfold here")

/-! ## A whole buffer, rectangles of a rank-one shape, and lanes of a vector -/

section Uniform

variable {sig : RefSig} {κ : Kind} {sp : Space} {Val : EltTy → Type} {e : EltTy} {n : ℕ}

/-- A copy of a whole array moves the values as they are. -/
theorem readAs_same_apply {s : Shape} (g : s.Idx → Val e) : (ReadAs.same : ReadAs Val s e s e).apply g = g := rfl

/-- A unit-stride rectangle of a rank-one shape places its position x at offset + x. -/
theorem unit1_idx (o : ℕ) (sz : Fin 1 → ℕ) (h : ∀ a, (![o] : Fin 1 → ℕ) a + sz a ≤ (⟨1, ![n]⟩ : Shape).size a)
    (x : (Rect.unit (s := ⟨1, ![n]⟩) ![o] sz h).shape.Idx) :
    (Rect.unit (s := ⟨1, ![n]⟩) ![o] sz h).toLoadRect.idx x
      = ix1 (⟨o + (x 0).val, by have := h 0; have := (x 0).isLt; exact Nat.lt_of_lt_of_le (Nat.add_lt_add_left (x 0).isLt o) (h 0)⟩ : Fin n) := by
  funext a
  match a with
  | ⟨0, _⟩ => exact Fin.ext (by show o + 1 * (x 0).val = o + (x 0).val; rw [Nat.one_mul])

theorem unit1_emb (o : ℕ) (sz : Fin 1 → ℕ) (h : ∀ a, (![o] : Fin 1 → ℕ) a + sz a ≤ (⟨1, ![n]⟩ : Shape).size a)
    (x : (Rect.unit (s := ⟨1, ![n]⟩) ![o] sz h).shape.Idx) :
    (Rect.unit (s := ⟨1, ![n]⟩) ![o] sz h).emb x
      = ix1 (⟨o + (x 0).val, Nat.lt_of_lt_of_le (Nat.add_lt_add_left (x 0).isLt o) (h 0)⟩ : Fin n) :=
  unit1_idx o sz h x

/-- A rectangle of one word sits at its offset. -/
theorem unit1_emb_one (j : ℕ) (h : ∀ a, (![j] : Fin 1 → ℕ) a + (![1] : Fin 1 → ℕ) a ≤ (⟨1, ![n]⟩ : Shape).size a)
    (x : (Rect.unit (s := ⟨1, ![n]⟩) ![j] ![1] h).shape.Idx) :
    (Rect.unit (s := ⟨1, ![n]⟩) ![j] ![1] h).emb x = ix1 (⟨j, Nat.lt_of_lt_of_le (Nat.lt_succ_self j) (h 0)⟩ : Fin n) := by
  have hx : (x 0).val = 0 := Nat.lt_one_iff.mp (x 0).isLt
  rw [unit1_emb]
  exact congrArg ix1 (Fin.ext (by show j + (x 0).val = j; rw [hx, Nat.add_zero]))

/-- A load through a unit-stride rectangle of a rank-one view reads the view at offset + position. -/
theorem readAt_unit1 (v : View sig κ sp (⟨1, ![n]⟩ : Shape) e) (o : ℕ) (sz : Fin 1 → ℕ)
    (h : ∀ a, (![o] : Fin 1 → ℕ) a + sz a ≤ (⟨1, ![n]⟩ : Shape).size a) (f : v.ty.Contents Val) :
    v.readAt Val (Rect.unit (s := ⟨1, ![n]⟩) ![o] sz h).toLoadRect f
      = fun x => v.read Val f (ix1 (⟨o + (x 0).val, Nat.lt_of_lt_of_le (Nat.add_lt_add_left (x 0).isLt o) (h 0)⟩ : Fin n)) :=
  funext fun x => congrArg (v.read Val f) (unit1_idx o sz h x)

/-- The lane of a vector at a literal position. -/
theorem extractAt_one {α : Type} (l : ℕ) (v : (⟨1, ![n]⟩ : Shape).Idx → α) (h : ∀ a, (![l] : Fin 1 → ℕ) a < (⟨1, ![n]⟩ : Shape).size a) :
    extractAt ![l] v h = v (ix1 (⟨l, h 0⟩ : Fin n)) :=
  congrArg v (funext fun a => match a with | ⟨0, _⟩ => rfl)

/-- The one lane of the one-lane slice of a vector at l is the vector's lane l. -/
theorem extractAt_slice_one {α : Type} (l : ℕ) (v : (⟨1, ![n]⟩ : Shape).Idx → α)
    (hs : (⟨1, ![n]⟩ : Shape).Slices ![l] (⟨1, ![1]⟩ : Shape)) (h : ∀ a, (![0] : Fin 1 → ℕ) a < (⟨1, ![1]⟩ : Shape).size a) :
    extractAt ![0] (extractStridedSlice (⟨1, ![1]⟩ : Shape) ![l] v hs) h
      = v (ix1 (⟨l, by have := hs.2 0; exact Nat.lt_of_lt_of_le (Nat.lt_succ_self l) this⟩ : Fin n)) :=
  congrArg v (funext fun a => match a with | ⟨0, _⟩ => Fin.ext (Nat.add_zero l))

end Uniform

/-! ## The collapse -/

section Collapse

variable {sig : RefSig} {κ : Kind} {Val : EltTy → Type}

/-- Stores through a whole buffer that cover it, each holding G at its own place, leave G, whatever was there before. -/
theorem writes_whole_eq (b : Ref sig κ) (f : b.ty.Contents Val) (L : List (View.Piece Val b.ty.shape b.ty.elt))
    (G : b.ty.shape.Idx → Val b.ty.elt)
    (hp : ∀ p ∈ L, ∀ x : p.1.shape.Idx, p.2 x = G (p.1.emb x))
    (hc : ∀ y : b.ty.shape.Idx, ∃ p ∈ L, y ∈ p.1.set) :
    (View.whole b).writes Val f L = G :=
  funext fun y => View.read_writes_apply_of_pieces (View.whole b) f G L hp y (hc y)

end Collapse

/-! ## The subcore's block of an id array -/

section IdBlock

variable [FloatOps F]

/-- Position j of the 512 entries from the subcore's first entry on is the subcore's batch entry j. -/
theorem unit_off1_emb (L : grid0.Coords) (j : S512.Idx) :
    (Rect.unit (s := S16384) (k0_off1 L) S512.size (k0_off1_inb L)).emb j = bidx L j := by
  funext a
  match a with
  | ⟨0, _⟩ =>
    refine Fin.ext ?_
    show k0_off1 L 0 + 1 * (j 0).val = tbase L + (j 0).val
    rw [congrFun (k0_off1_eq L) 0, Nat.one_mul]
    rfl

/-- Those 512 entries of the user id array are the subcore's id block; -/
theorem read_idBlk0 (L : grid0.Coords) (f0 : S16384.Idx → BitVec 32) :
    View.read (Elt F) ((A0).slice (Rect.unit (s := S16384) (k0_off1 L) S512.size (k0_off1_inb L)) (fun _ => rfl)).view f0 = idBlk L f0 :=
  funext fun j => congrArg f0 (unit_off1_emb L j)

/-- and of the item id array. -/
theorem read_idBlk1 (L : grid0.Coords) (f1 : S16384.Idx → BitVec 32) :
    View.read (Elt F) ((A1).slice (Rect.unit (s := S16384) (k0_off1 L) S512.size (k0_off1_inb L)) (fun _ => rfl)).view f1 = idBlk L f1 :=
  funext fun j => congrArg f1 (unit_off1_emb L j)

/-- The same two facts with the slice of the whole array spelt as a view. -/
theorem read_idBlk0' (L : grid0.Coords) (f0 : S16384.Idx → BitVec 32) (h : ∀ a, (k0_off1 L) a + (![512] : Fin 1 → ℕ) a ≤ S16384.size a) :
    View.read (Elt F) ((View.whole main_arg0_scv).slice (Rect.unit (s := S16384) (k0_off1 L) ![512] h)) f0 = idBlk L f0 :=
  funext fun j => congrArg f0 (unit_off1_emb L j)

theorem read_idBlk1' (L : grid0.Coords) (f1 : S16384.Idx → BitVec 32) (h : ∀ a, (k0_off1 L) a + (![512] : Fin 1 → ℕ) a ≤ S16384.size a) :
    View.read (Elt F) ((View.whole main_arg1_scv).slice (Rect.unit (s := S16384) (k0_off1 L) ![512] h)) f1 = idBlk L f1 :=
  funext fun j => congrArg f1 (unit_off1_emb L j)

/-- A word shifted right by 2 is the word of value (its value / 4). -/
theorem shrui_two_eq (v : IVec S16 32) (x : S16.Idx) :
    shrui v (broadcast S16 2#32) x = BitVec.ofNat 32 ((v x).toNat / 4) := by
  apply BitVec.eq_of_toNat_eq
  rw [lines_toNat, BitVec.toNat_ofNat]
  have := (v x).isLt
  omega

end IdBlock

/-! ## A statement about every store of a literal list, store by store -/

open Lean Elab Tactic in
/-- `pieces_all tac` proves `∀ p ∈ [p₁, …, pₙ], Φ p` for a list written out: it splits off the head n times, runs tac on
    each `Φ pᵢ` (tac must close it) and ends at the empty list. -/
elab "pieces_all " t:tacticSeq : tactic => do
  repeat
    let closed ← try
        evalTactic (← `(tactic| exact List.forall_mem_nil _))
        pure true
      catch _ => pure false
    if closed then break
    evalTactic (← `(tactic| refine List.forall_mem_cons.2 ⟨?_, ?_⟩))
    match ← getGoals with
    | hd :: tl :: rest =>
      setGoals [hd]
      evalTactic t
      unless (← getGoals).isEmpty do throwError "pieces_all: the tactic left a goal open on a store"
      setGoals (tl :: rest)
    | _ => throwError "pieces_all: not a statement about every member of a written-out list"

/-- The covering condition for a written-out list of stores, by evaluation of the library's decision on the offsets. -/
theorem cover_by_eval {s : Shape} {e : EltTy} {Val : EltTy → Type} (L : List (View.Piece Val s e)) (size : Fin s.rank → ℕ)
    (h : View.Piece.tiled L size = true) : ∀ y : s.Idx, ∃ p ∈ L, y ∈ p.1.set :=
  View.cover_of_tiled L size h

open Lean Elab Tactic Meta in
/-- `eval_true` closes a goal `b = true`, b a Boolean that evaluates to true, by reflexivity, leaving the whole evaluation
    to the kernel's check of the finished proof (no evaluation while the proof is being written). -/
elab "eval_true" : tactic => do
  let g ← getMainGoal
  g.assign (mkApp2 (mkConst ``Eq.refl [levelOne]) (mkConst ``Bool) (mkConst ``Bool.true))

/-! ## Covering a rank-one buffer, decided word by word -/

section Cover1

variable {n : ℕ} {e : EltTy} {Val : EltTy → Type}

/-- Is word i under some store of the list (unit stride on the one axis)? -/
def hitB : List (View.Piece Val (⟨1, ![n]⟩ : Shape) e) → ℕ → Bool
  | [], _ => false
  | p :: L, i => (Nat.ble (p.1.off 0) i && Nat.blt i (p.1.off 0 + p.1.size 0) && Nat.beq (p.1.stride 0) 1) || hitB L i

/-- Are the words 0, …, k-1 each under some store? -/
def allHitB (L : List (View.Piece Val (⟨1, ![n]⟩ : Shape) e)) : ℕ → Bool
  | 0 => true
  | k + 1 => hitB L k && allHitB L k

theorem hitB_spec : ∀ (L : List (View.Piece Val (⟨1, ![n]⟩ : Shape) e)) (i : ℕ), hitB L i = true →
    ∃ p ∈ L, p.1.off 0 ≤ i ∧ i < p.1.off 0 + p.1.size 0 ∧ p.1.stride 0 = 1
  | [], _, h => by simp [hitB] at h
  | p :: L, i, h => by
    simp only [hitB, Bool.or_eq_true, Bool.and_eq_true, Nat.ble_eq, Nat.blt_eq] at h
    rcases h with ⟨⟨h1, h2⟩, h3⟩ | h
    · exact ⟨p, List.mem_cons_self, h1, h2, Nat.eq_of_beq_eq_true h3⟩
    · obtain ⟨q, hq, hh⟩ := hitB_spec L i h
      exact ⟨q, List.mem_cons_of_mem _ hq, hh⟩

theorem allHitB_spec (L : List (View.Piece Val (⟨1, ![n]⟩ : Shape) e)) :
    ∀ k, allHitB L k = true → ∀ i, i < k → hitB L i = true
  | 0, _, i, hi => absurd hi (Nat.not_lt_zero i)
  | k + 1, h, i, hi => by
    simp only [allHitB, Bool.and_eq_true] at h
    rcases Nat.lt_succ_iff_lt_or_eq.mp hi with hlt | rfl
    · exact allHitB_spec L k h.2 i hlt
    · exact h.1

/-- Stores of a rank-one buffer cover it when every word is under one of them: decided by evaluation. -/
theorem cover1_by_eval (L : List (View.Piece Val (⟨1, ![n]⟩ : Shape) e)) (h : allHitB L n = true) :
    ∀ y : (⟨1, ![n]⟩ : Shape).Idx, ∃ p ∈ L, y ∈ p.1.set := by
  intro y
  obtain ⟨p, hp, h1, h2, h3⟩ := hitB_spec L (y 0).val (allHitB_spec L n h _ (y 0).isLt)
  refine ⟨p, hp, p.1.mem_set.mpr (Fin.forall_fin_one.mpr ⟨(y 0).val - p.1.off 0, by omega, ?_⟩)⟩
  rw [h3, Nat.one_mul]
  omega

end Cover1

open Lean Elab Tactic Meta in
/-- `pieces_chain pfx tac` proves `∀ p ∈ L, Φ p` for a list L given as a chain of definitions whose names begin with pfx
    (each link a few stores consed onto the previous link) or written out. It walks the list, unfolding one link at a
    time, makes one goal `Φ pᵢ` per store — small: the store's payload and the rest of the list stay folded — closed by
    tac, and puts the n "head and tail" steps together directly (the kernel checks the result). -/
elab "pieces_chain " pfx:ident t:tacticSeq : tactic => withMainContext do
  let p := pfx.getId
  let ns ← getCurrNamespace
  let rec prefixes (n : Name) : List Name := match n with
    | .anonymous => [.anonymous]
    | .str q _ => n :: prefixes q
    | .num q _ => n :: prefixes q
  let cands := (prefixes ns).map (· ++ p)
  let hit (n : Name) : Bool := cands.any fun c => c.isPrefixOf n || c.toString.isPrefixOf n.toString
  let g ← getMainGoal
  let gT ← instantiateMVars (← g.getType)
  let (Φ, L) ← forallBoundedTelescope gT (some 2) fun xs body => do
    unless xs.size == 2 do throwError "pieces_chain: not a statement about every member of a list"
    let hT ← instantiateMVars (← inferType xs[1]!)
    let args := hT.getAppArgs
    unless hT.isAppOf ``Membership.mem && args.size == 5 do throwError "pieces_chain: not a statement about every member of a list"
    let L := if args[4]! == xs[0]! then args[3]! else args[4]!
    if body.containsFVar xs[1]!.fvarId! then throwError "pieces_chain: the statement depends on the membership proof"
    return (← mkLambdaFVars #[xs[0]!] body, L)
  -- the members in order, each with the rest of the list as it is spelt after it
  let mut elems : Array (Expr × Expr) := #[]
  let mut cur := L
  let mut α := mkSort levelZero
  repeat
    if cur.isAppOfArity ``List.cons 3 then
      elems := elems.push (cur.appFn!.appArg!, cur.appArg!)
      cur := cur.appArg!
    else if cur.isAppOfArity ``List.nil 1 then
      α := cur.appArg!
      break
    else
      let unfolded? ← match cur.getAppFn with
        | .const n _ => if hit n then unfoldDefinition? cur else pure none
        | _ => pure none
      match unfolded? with
      | some e => cur := e.headBeta
      | none =>
        let e ← whnfR cur
        if e == cur then throwError "pieces_chain: the list is neither written out nor a link of the chain: {cur}"
        cur := e
  -- one goal per member
  let mut proofs : Array Expr := #[]
  for (a, _) in elems do
    let hd ← mkFreshExprSyntheticOpaqueMVar (Φ.beta #[a])
    setGoals [hd.mvarId!]
    evalTactic t
    unless (← getGoals).isEmpty do throwError "pieces_chain: the tactic left a goal open on a store"
    proofs := proofs.push (← instantiateMVars hd)
  -- put together from the end
  let mut acc ← mkAppOptM ``List.forall_mem_nil #[α, Φ]
  for i in [0:elems.size] do
    let j := elems.size - 1 - i
    let (a, tl) := elems[j]!
    let iff ← mkAppOptM ``List.forall_mem_cons #[α, Φ, a, tl]
    let conj ← mkAppM ``And.intro #[proofs[j]!, acc]
    acc ← mkAppM ``Iff.mpr #[iff, conj]
  g.assign acc
  setGoals []

/-! ## One store of the scalar copy of the weights -/

section S8

variable [FloatOps F]

/-- One word of the scalar copy of the weights: lane l of the sixteen words read at o from the vector copy is the
    weights' word o + l. -/
theorem s8_store_ok (fw g6 : S512.Idx → F .f32) (n o l : ℕ) (hnol : n = o + l)
    (inb1 : ∀ a, (![n] : Fin 1 → ℕ) a + S1.size a ≤ S512.size a) (inb16 : ∀ a, (![o] : Fin 1 → ℕ) a + S16.size a ≤ S512.size a)
    (hs : (Rect.unit (s := S512) ![o] S16.size inb16).shape.Slices ![l] S1) (h0 : ∀ a, (![0] : Fin 1 → ℕ) a < S1.size a)
    (x : (Rect.unit (s := S512) ![n] S1.size inb1).shape.Idx) :
    extractAt ![0] (extractStridedSlice S1 ![l] (View.readAt (Elt F) (s6).view (Rect.unit (s := S512) ![o] S16.size inb16).toLoadRect
        (View.write (Elt F) (s6).view g6 (ReadAs.same.apply (View.read (Elt F) (WW).view fw)) Finset.univ)) hs) h0
      = fw ((Rect.unit (s := S512) ![n] S1.size inb1).emb x) := by
  subst hnol
  simp only [Memref.view_whole, View.read_whole, View.write_whole_univ, ReadAs.apply, readAt_unit1, extractAt_slice_one, extractAt_one]
  rw [unit1_emb_one] <;> rfl

end S8

/-! ## Checks of the recipe on lists of the shapes met -/

section Checks

variable [FloatOps F]
/-- The bias in scalar memory: 16 stores of one word, lane l of the 16-word load of the vector copy going to word l. -/
example (fb g7 g9 : S16.Idx → F .f32) :
    let r : Vec F S16 .f32 := View.readAt (Elt F) (s7).view (Rect.unit (s := S16) ![0] S16.size Facts₀.inb_S16_S16_0).toLoadRect
      (View.write (Elt F) (s7).view g7 (ReadAs.same.apply (View.read (Elt F) (BB).view fb)) Finset.univ)
    (s9).view.writes (Elt F) g9 [
      ⟨Rect.unit (s := S16) ![15] S1.size Facts₀.inb_S16_S1_15, fun _ => k0_pay1753 r⟩,
      ⟨Rect.unit (s := S16) ![14] S1.size Facts₀.inb_S16_S1_14, fun _ => k0_pay1752 r⟩,
      ⟨Rect.unit (s := S16) ![13] S1.size Facts₀.inb_S16_S1_13, fun _ => k0_pay1751 r⟩,
      ⟨Rect.unit (s := S16) ![12] S1.size Facts₀.inb_S16_S1_12, fun _ => k0_pay1750 r⟩,
      ⟨Rect.unit (s := S16) ![11] S1.size Facts₀.inb_S16_S1_11, fun _ => k0_pay1749 r⟩,
      ⟨Rect.unit (s := S16) ![10] S1.size Facts₀.inb_S16_S1_10, fun _ => k0_pay1748 r⟩,
      ⟨Rect.unit (s := S16) ![9] S1.size Facts₀.inb_S16_S1_9, fun _ => k0_pay1747 r⟩,
      ⟨Rect.unit (s := S16) ![8] S1.size Facts₀.inb_S16_S1_8, fun _ => k0_pay1746 r⟩,
      ⟨Rect.unit (s := S16) ![7] S1.size Facts₀.inb_S16_S1_7, fun _ => k0_pay1745 r⟩,
      ⟨Rect.unit (s := S16) ![6] S1.size Facts₀.inb_S16_S1_6, fun _ => k0_pay1744 r⟩,
      ⟨Rect.unit (s := S16) ![5] S1.size Facts₀.inb_S16_S1_5, fun _ => k0_pay1743 r⟩,
      ⟨Rect.unit (s := S16) ![4] S1.size Facts₀.inb_S16_S1_4, fun _ => k0_pay1742 r⟩,
      ⟨Rect.unit (s := S16) ![3] S1.size Facts₀.inb_S16_S1_3, fun _ => k0_pay1741 r⟩,
      ⟨Rect.unit (s := S16) ![2] S1.size Facts₀.inb_S16_S1_2, fun _ => k0_pay1740 r⟩,
      ⟨Rect.unit (s := S16) ![1] S1.size Facts₀.inb_S16_S1_1, fun _ => k0_pay1739 r⟩,
      ⟨Rect.unit (s := S16) ![0] S1.size Facts₀.inb_S16_S1_0, fun _ => k0_pay1738 r⟩] = fb := by
  intro r
  refine writes_whole_eq _ _ _ _ ?_ ?_
  case refine_2 => exact cover_by_eval _ ![1] (by eval_true)
  delta_sl Gen.k0_pay
  pieces_all
    intro x
    simp only [Memref.view_whole, View.read_whole, View.write_whole_univ, ReadAs.apply, readAt_unit1,
      extractAt_slice_one, extractAt_one, r]
    rw [unit1_emb_one]
    rfl

end Checks

end Cert.Kernel.Hand

end
-- ==== Proof.KTile.lean ====
/-
  One vector subcore's whole task. It copies in its 512 user ids and 512 item ids, the weights and the bias; computes the
  lines the ids name (id / 4) and spreads the weights and bias over scalar memory; then twice: fetches the 256 lines of each
  table that the next 256 ids name (two indexed copies, each on a semaphore of its own, both waited for before a row is read)
  and accumulates the 256 results sixteen at a time; finally copies its 512 results onto its block of the result array.
-/
import proofs.«218018_g87892210745873_cont_sun_m_655_26_alg».proof.Proof.KTileInv
import proofs.«218018_g87892210745873_cont_sun_m_655_26_alg».proof.Proof.KScoped
import proofs.«218018_g87892210745873_cont_sun_m_655_26_alg».proof.Proof.KOutBlock
import proofs.«218018_g87892210745873_cont_sun_m_655_26_alg».proof.Proof.KCollapse

set_option maxHeartbeats 4000000

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.Kernel.main_arg0_scv : Memref Cert.Kernel.sig Kind.scVector Space.hbm Cert.Kernel.S16384 EltTy.i32)
local notation "A1" => (Memref.whole Cert.Kernel.main_arg1_scv : Memref Cert.Kernel.sig Kind.scVector Space.hbm Cert.Kernel.S16384 EltTy.i32)
local notation "UT" => (Memref.whole Cert.Kernel.main_v0_scv : Memref Cert.Kernel.sig Kind.scVector Space.hbm Cert.Kernel.S250000x128 EltTy.f32)
local notation "IT" => (Memref.whole Cert.Kernel.main_v1_scv : Memref Cert.Kernel.sig Kind.scVector Space.hbm Cert.Kernel.S250000x128 EltTy.f32)
local notation "WW" => (Memref.whole Cert.Kernel.main_v2_scv : Memref Cert.Kernel.sig Kind.scVector Space.hbm Cert.Kernel.S512 EltTy.f32)
local notation "BB" => (Memref.whole Cert.Kernel.main_arg5_scv : Memref Cert.Kernel.sig Kind.scVector Space.hbm Cert.Kernel.S16 EltTy.f32)
local notation "OO" => (Memref.whole Cert.Kernel.main_v3_scv : Memref Cert.Kernel.sig Kind.scVector Space.hbm Cert.Kernel.S16384 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S512 EltTy.i32)
local notation "s4" => (Memref.whole Cert.Kernel.cc0_scratch4 : Memref Cert.Kernel.sig Kind.scVector Space.vmem Cert.Kernel.S256x128 EltTy.f32)
local notation "s5" => (Memref.whole Cert.Kernel.cc0_scratch5 : Memref Cert.Kernel.sig Kind.scVector Space.vmem Cert.Kernel.S256x128 EltTy.f32)
local notation "s6" => (Memref.whole Cert.Kernel.cc0_scratch6 : Memref Cert.Kernel.sig Kind.scVector Space.vmem Cert.Kernel.S512 EltTy.f32)
local notation "s7" => (Memref.whole Cert.Kernel.cc0_scratch7 : Memref Cert.Kernel.sig Kind.scVector Space.vmem Cert.Kernel.S16 EltTy.f32)
local notation "s8" => (Memref.whole Cert.Kernel.cc0_scratch8 : Memref Cert.Kernel.sig Kind.scVector Space.smem Cert.Kernel.S512 EltTy.f32)
local notation "s9" => (Memref.whole Cert.Kernel.cc0_scratch9 : Memref Cert.Kernel.sig Kind.scVector Space.smem Cert.Kernel.S16 EltTy.f32)
local notation "s10" => (Memref.whole Cert.Kernel.cc0_scratch10 : Memref Cert.Kernel.sig Kind.scVector Space.vmem Cert.Kernel.S512 EltTy.f32)

/-- The outer loop's invariant: k waves done. -/
def waveInv (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (O : CellTallies nD τ sig (HIx 1)) (W : Waits sig (HIx 1)) (R : sProp 𝕄) (k : ℕ) (_ : BitVec 32) : sProp 𝕄 :=
  iprop(Transfers.MayWaits (V d (cV L) (jV L)) (none : HIx 1) O ∗ R
    ∗ ∃ ub ib ov W', ⌜OutDone (F := F) L f0 f1 fu fi fw fb (256 * k) ov⌝ ∗ ⌜∀ p ∈ W', p ∈ W ∨ p.2 = none⌝
      ∗ St (F := F) d L q f0 f1 fu fi fw fb fo ub ib ov ∗ owes (V d (cV L) (jV L)) O W')

/-- From the loops on: the two waves by the loop rule (each trip is `WaveStep`), then the result scratch copied onto the
    subcore's block of the result and the copy waited for; the block then holds the accumulated values. -/
theorem looprest (hW : WaveStep (F := F)) (hF : (K (F := F)).Facts) (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (h0 : ∀ i, (f0 i).toNat ≤ 999999) (h1 : ∀ i, (f1 i).toNat ≤ 999999)
    (O : CellTallies nD τ sig (HIx 1)) (W W0 : Waits sig (HIx 1)) (hW0 : ∀ p ∈ W0, p ∈ W ∨ p.2 = none)
    (g4 g5 : S256x128.Idx → F .f32) (g10 : S512.Idx → F .f32) (v2339 : Vec F S16 .f32) (v2369 : F .f32) (R : sProp 𝕄) (Q : PUnit → sProp 𝕄)
    (hQ : ∀ W', (∀ p ∈ W', p ∈ W ∨ p.2 = none) → ∀ ub ib ov,
      iprop(St (F := F) d L q f0 f1 fu fi fw fb (outVal (F := F) f0 f1 fu fi fw fb) ub ib ov ∗ owes (V d (cV L) (jV L)) O W' ∗ R) ⊢ Q ⟨⟩) :
    iprop(Transfers.MayWaits (V d (cV L) (jV L)) (none : HIx 1) O
        ∗ St (F := F) d L q f0 f1 fu fi fw fb fo g4 g5 g10 ∗ owes (V d (cV L) (jV L)) O W0 ∗ R)
      ⊢ wp frame (wpE (defs₀ (F := F)) 𝒱₀ (V d (cV L) (jV L)) none) Set.univ
          (do
            let _ ← k0_t1_loop.for k0_t1_ok (0#32)
              (k0_t1_body L A0 (Memref.isWhole_whole _) A1 (Memref.isWhole_whole _) UT (Memref.isWhole_whole _) IT (Memref.isWhole_whole _)
            WW (Memref.isWhole_whole _) BB (Memref.isWhole_whole _) OO (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            s8 (Memref.isWhole_whole _) s9 (Memref.isWhole_whole _) s10 (Memref.isWhole_whole _)
            cc0_scratch11 cc0_scratch12 cc0_scoped0 cc0_scoped1 cc0_scoped2 cc0_scoped3 cc0_scoped4
                v2339 v2369 (iota .scVector S16 32 [0] Facts₀.iota_S16_d0_w32_scVector))
            let v2409_r4 : Memref sig Kind.scVector Space.hbm S512 EltTy.f32 :=
              (OO).slice (Rect.unit (s := S16384) (k0_off1 L) S512.size (k0_off1_inb L)) (fun _ => rfl)
            Prog.lift (TpuEff.enqueueDma (s10) (DmaTarget.here v2409_r4) (SemLoc.dma cc0_scoped4.sem)
              (Memref.isWhole_whole _).wordExact (View.wordExact_bits rfl) ⟨Or.inl rfl, trivial⟩)
            Pure.pure PUnit.unit)
          fun b => wp frame (wpE (defs₀ (F := F)) 𝒱₀ (V d (cV L) (jV L)) none) Set.univ
            ((fun __r =>
              let v2411_r4 := (OO).slice (Rect.unit (s := S16384) (k0_off1 L) S512.size (k0_off1_inb L)) (fun _ => rfl);
              do
                Prog.lift (TpuEff.waitDma2 cc0_scoped4.sem (s10) v2411_r4 (Memref.isWhole_whole _).wordExact (View.wordExact_bits rfl))
                Pure.pure PUnit.unit) b) Q := by
  iintro ⟨Hmw, Hst, HO, HR⟩
  sl_for (waveInv (F := F) d L q f0 f1 fu fi fw fb fo O W R) $$ [Hmw Hst HO HR]
  case region =>
    intro k acc
    unfold waveInv
    iintro ⟨Hmw, HR, %ub, %ib, %ov, %W', %hov, %hW', Hst, HO⟩
    have post : ∀ r : BitVec 32, iprop(R ∗ Transfers.MayWaits (V d (cV L) (jV L)) (none : HIx 1) O
          ∗ ∃ ub' ib' ov' W'', ⌜OutDone (F := F) L f0 f1 fu fi fw fb (256 * (k.val + 1)) ov'⌝ ∗ ⌜∀ p ∈ W'', p ∈ W' ∨ p.2 = none⌝
            ∗ St (F := F) d L q f0 f1 fu fi fw fb fo ub' ib' ov' ∗ owes (V d (cV L) (jV L)) O W'')
        ⊢ waveInv (F := F) d L q f0 f1 fu fi fw fb fo O W R (k.val + 1) r := by
      intro r
      unfold waveInv
      iintro ⟨HR, Hmw, %ub', %ib', %ov', %W'', %h1', %h2', Hst, HO⟩
      isplitl [Hmw]; · iexact Hmw
      isplitl [HR]; · iexact HR
      iexists ub', ib', ov', W''
      isplitr; · ipureintro; exact h1'
      isplitr
      · ipureintro; intro p hp
        rcases h2' p hp with h | h
        · exact hW' p h
        · exact .inr h
      isplitl [Hst]; · iexact Hst
      iexact HO
    iapply ((wp_frame_l frame _ _ (R := R)).trans (wp_mono frame _ _ post)) $$ [Hmw Hst HO HR]
    isplitl [HR]; · iexact HR
    iapply (hW hF d L q f0 f1 fu fi fw fb fo h0 h1 O W' k acc v2339 v2369 ub ib ov hov) $$ [Hmw Hst HO]
    isplitl [Hmw]; · iexact Hmw
    isplitl [Hst]; · iexact Hst
    iexact HO
  · unfold waveInv
    isplitl [Hmw]; · iexact Hmw
    isplitl [HR]; · iexact HR
    iexists g4, g5, g10, W0
    isplitr
    · ipureintro; intro j hj; exact absurd hj (by omega)
    isplitr; · ipureintro; exact hW0
    isplitl [Hst]; · iexact Hst
    iexact HO
  iintro %acc HI
  unfold waveInv
  icases HI with ⟨Hmw, HR, %ub, %ib, %ov, %W', %hov, %hW', Hst, HO⟩
  unfold St
  icases Hst with ⟨Ha0, Ha1, Hut, Hit, Hww, Hbb, Hout, H0, H1, H2, H3, H4, H5, H6, H7, H8, H9, H10, Hsu, Hsi, Hr0, Hr1, Hr2, Hr3, Hr4⟩
  sl_exec_parts
  sl_step
  have htr : Scf.trips k0_t1_loop.lb k0_t1_loop.ub k0_t1_loop.st = 2 := by decide
  have hov' : ∀ j : S512.Idx, ov j = outVal (F := F) f0 f1 fu fi fw fb (bidx L j) := fun j => hov j (by rw [htr]; have hj : (j 0).val < 512 := (j 0).isLt; omega)
  have hW'' : ∀ p ∈ insert (SemLoc.dma cc0_scoped4.sem, (default : HIx 1)) W', p ∈ W ∨ p.2 = none := by
    intro p hp
    rcases Finset.mem_insert.mp hp with hp | hp
    · exact .inr (hp ▸ rfl)
    · exact hW' p hp
  ihave Hout := (Entails.of_eq (out_block_pts (F := F) d L fo (outVal (F := F) f0 f1 fu fi fw fb) (looprest.sl.dma0 ov) ov
    (show looprest.sl.dma0 ov = ov from readAs_same_read_whole ov) hov')) $$ Hout
  iapply (hQ _ hW'' ub ib ov)
  isplitr [HO HR]
  · unfold St
    isplitl [Ha0]; · iexact Ha0
    isplitl [Ha1]; · iexact Ha1
    isplitl [Hut]; · iexact Hut
    isplitl [Hit]; · iexact Hit
    isplitl [Hww]; · iexact Hww
    isplitl [Hbb]; · iexact Hbb
    isplitl [Hout]; · iexact Hout
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hsu]; · iexact Hsu
    isplitl [Hsi]; · iexact Hsi
    isplitl [Hr0]; · iexact Hr0
    isplitl [Hr1]; · iexact Hr1
    isplitl [Hr2]; · iexact Hr2
    isplitl [Hr3]; · iexact Hr3
    iexact Hr4
  isplitl [HO]; · iexact HO
  iexact HR

set_option maxRecDepth 100000 in
/-- The subcore's task: the opening copies and the scratch fills by the symbolic run, each filled scratch restated as one
    closed function, then `looprest`. -/
theorem tile_body (hW : WaveStep (F := F)) : TileBody (F := F) := by
  intro hF d L q f0 f1 fu fi fw fb fo h0 h1 O W hO
  unfold tileIn
  obtain ⟨Rb, hRb⟩ : ∃ Rb : sProp 𝕄, (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f) ∗ (∃ f, (V d (cV L) (jV L)).loc cc0_scratch9 ↦{fullShare} f) ∗ (∃ f, (V d (cV L) (jV L)).loc cc0_scratch10 ↦{fullShare} f) ∗ Rb) := ⟨_, ownBufs_V (F := F) d L⟩
  obtain ⟨Rs, hRs⟩ : ∃ Rs : sProp 𝕄, (ownSems0 (V d (cV L) (jV L)) : sProp 𝕄)
      = iprop(semVal (semCell d L cc0_scratch11.sem) 0 ∗ semVal (semCell d L cc0_scratch12.sem) 0 ∗ semVal (semCell d L cc0_scoped0.sem) 0 ∗ semVal (semCell d L cc0_scoped1.sem) 0 ∗ semVal (semCell d L cc0_scoped2.sem) 0 ∗ semVal (semCell d L cc0_scoped3.sem) 0 ∗ semVal (semCell d L cc0_scoped4.sem) 0 ∗ Rs) := ⟨_, ownSems0_V (F := F) d L⟩
  rw [(K (F := F)).scopedBufs_V hF d (cV L) (jV L), SparseCore.Cfg.scopedSems0_V (Val := Elt F) d (cV L) (jV L), hRs, hRb]
  have hQ : ∀ W', (∀ p ∈ W', p ∈ W ∨ p.2 = none) → ∀ (ub ib : S256x128.Idx → F .f32) (ov : S512.Idx → F .f32),
      iprop(St (F := F) d L q f0 f1 fu fi fw fb (outVal (F := F) f0 f1 fu fi fw fb) ub ib ov ∗ owes (V d (cV L) (jV L)) O W' ∗ (Rb ∗ Rs))
        ⊢ iprop(((a0Loc d ↦{q} f0) ∗ (a1Loc d ↦{q} f1) ∗ (utLoc d ↦{q} fu) ∗ (itLoc d ↦{q} fi) ∗ (wwLoc d ↦{q} fw) ∗ (bbLoc d ↦{q} fb)
            ∗ (outLoc d ↦[outBlk L]{fullShare} outVal (F := F) f0 f1 fu fi fw fb))
          ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f) ∗ (∃ f, (V d (cV L) (jV L)).loc cc0_scratch9 ↦{fullShare} f) ∗ (∃ f, (V d (cV L) (jV L)).loc cc0_scratch10 ↦{fullShare} f) ∗ Rb) ∗ (semVal (semCell d L cc0_scratch11.sem) 0 ∗ semVal (semCell d L cc0_scratch12.sem) 0 ∗ semVal (semCell d L cc0_scoped0.sem) 0 ∗ semVal (semCell d L cc0_scoped1.sem) 0 ∗ semVal (semCell d L cc0_scoped2.sem) 0 ∗ semVal (semCell d L cc0_scoped3.sem) 0 ∗ semVal (semCell d L cc0_scoped4.sem) 0 ∗ Rs)
          ∗ ∃ W', ⌜∀ p ∈ W', p ∈ W ∨ p.2 = none⌝ ∗ owes (V d (cV L) (jV L)) O W') := by
    intro W' hW' ub ib ov
    unfold St
    iintro ⟨⟨Ha0, Ha1, Hut, Hit, Hww, Hbb, Hout, H0, H1, H2, H3, H4, H5, H6, H7, H8, H9, H10, Hsu, Hsi, Hr0, Hr1, Hr2, Hr3, Hr4⟩, HO, HRb, HRs⟩
    ihave Ha0 := (Entails.of_eq (show (((A0).view.loc (V d (cV L) (jV L)) ↦{q} f0) : sProp 𝕄) = (a0Loc d ↦{q} f0) from rfl)) $$ Ha0
    ihave Ha1 := (Entails.of_eq (show (((A1).view.loc (V d (cV L) (jV L)) ↦{q} f1) : sProp 𝕄) = (a1Loc d ↦{q} f1) from rfl)) $$ Ha1
    ihave Hut := (Entails.of_eq (show (((UT).view.loc (V d (cV L) (jV L)) ↦{q} fu) : sProp 𝕄) = (utLoc d ↦{q} fu) from rfl)) $$ Hut
    ihave Hit := (Entails.of_eq (show (((IT).view.loc (V d (cV L) (jV L)) ↦{q} fi) : sProp 𝕄) = (itLoc d ↦{q} fi) from rfl)) $$ Hit
    ihave Hww := (Entails.of_eq (show (((WW).view.loc (V d (cV L) (jV L)) ↦{q} fw) : sProp 𝕄) = (wwLoc d ↦{q} fw) from rfl)) $$ Hww
    ihave Hbb := (Entails.of_eq (show (((BB).view.loc (V d (cV L) (jV L)) ↦{q} fb) : sProp 𝕄) = (bbLoc d ↦{q} fb) from rfl)) $$ Hbb
    ihave Hout := (Entails.of_eq (show (((outBlkM L).view.loc (V d (cV L) (jV L)) ↦[(outBlkM L).view.set]{fullShare} outVal (F := F) f0 f1 fu fi fw fb) : sProp 𝕄) = (outLoc d ↦[outBlk L]{fullShare} outVal (F := F) f0 f1 fu fi fw fb) from rfl)) $$ Hout
    ihave H0 := (Entails.of_eq (show (((s0).view.loc (V d (cV L) (jV L)) ↦{fullShare} idBlk L f0) : sProp 𝕄) = ((V d (cV L) (jV L)).loc cc0_scratch0 ↦{fullShare} idBlk L f0) from rfl)) $$ H0
    ihave H1 := (Entails.of_eq (show (((s1).view.loc (V d (cV L) (jV L)) ↦{fullShare} idBlk L f1) : sProp 𝕄) = ((V d (cV L) (jV L)).loc cc0_scratch1 ↦{fullShare} idBlk L f1) from rfl)) $$ H1
    ihave H2 := (Entails.of_eq (show (((s2).view.loc (V d (cV L) (jV L)) ↦{fullShare} lineBlk L f0) : sProp 𝕄) = ((V d (cV L) (jV L)).loc cc0_scratch2 ↦{fullShare} lineBlk L f0) from rfl)) $$ H2
    ihave H3 := (Entails.of_eq (show (((s3).view.loc (V d (cV L) (jV L)) ↦{fullShare} lineBlk L f1) : sProp 𝕄) = ((V d (cV L) (jV L)).loc cc0_scratch3 ↦{fullShare} lineBlk L f1) from rfl)) $$ H3
    ihave H4 := (Entails.of_eq (show (((s4).view.loc (V d (cV L) (jV L)) ↦{fullShare} ub) : sProp 𝕄) = ((V d (cV L) (jV L)).loc cc0_scratch4 ↦{fullShare} ub) from rfl)) $$ H4
    ihave H5 := (Entails.of_eq (show (((s5).view.loc (V d (cV L) (jV L)) ↦{fullShare} ib) : sProp 𝕄) = ((V d (cV L) (jV L)).loc cc0_scratch5 ↦{fullShare} ib) from rfl)) $$ H5
    ihave H6 := (Entails.of_eq (show (((s6).view.loc (V d (cV L) (jV L)) ↦{fullShare} fw) : sProp 𝕄) = ((V d (cV L) (jV L)).loc cc0_scratch6 ↦{fullShare} fw) from rfl)) $$ H6
    ihave H7 := (Entails.of_eq (show (((s7).view.loc (V d (cV L) (jV L)) ↦{fullShare} fb) : sProp 𝕄) = ((V d (cV L) (jV L)).loc cc0_scratch7 ↦{fullShare} fb) from rfl)) $$ H7
    ihave H8 := (Entails.of_eq (show (((s8).view.loc (V d (cV L) (jV L)) ↦{fullShare} fw) : sProp 𝕄) = ((V d (cV L) (jV L)).loc cc0_scratch8 ↦{fullShare} fw) from rfl)) $$ H8
    ihave H9 := (Entails.of_eq (show (((s9).view.loc (V d (cV L) (jV L)) ↦{fullShare} fb) : sProp 𝕄) = ((V d (cV L) (jV L)).loc cc0_scratch9 ↦{fullShare} fb) from rfl)) $$ H9
    ihave H10 := (Entails.of_eq (show (((s10).view.loc (V d (cV L) (jV L)) ↦{fullShare} ov) : sProp 𝕄) = ((V d (cV L) (jV L)).loc cc0_scratch10 ↦{fullShare} ov) from rfl)) $$ H10
    ihave Hsu := (Entails.of_eq (show (semVal (V d (cV L) (jV L), SemLoc.dma cc0_scratch11.sem) 0 : sProp 𝕄) = semVal (semCell d L cc0_scratch11.sem) 0 from rfl)) $$ Hsu
    ihave Hsi := (Entails.of_eq (show (semVal (V d (cV L) (jV L), SemLoc.dma cc0_scratch12.sem) 0 : sProp 𝕄) = semVal (semCell d L cc0_scratch12.sem) 0 from rfl)) $$ Hsi
    ihave Hr0 := (Entails.of_eq (show (semVal (V d (cV L) (jV L), SemLoc.dma cc0_scoped0.sem) 0 : sProp 𝕄) = semVal (semCell d L cc0_scoped0.sem) 0 from rfl)) $$ Hr0
    ihave Hr1 := (Entails.of_eq (show (semVal (V d (cV L) (jV L), SemLoc.dma cc0_scoped1.sem) 0 : sProp 𝕄) = semVal (semCell d L cc0_scoped1.sem) 0 from rfl)) $$ Hr1
    ihave Hr2 := (Entails.of_eq (show (semVal (V d (cV L) (jV L), SemLoc.dma cc0_scoped2.sem) 0 : sProp 𝕄) = semVal (semCell d L cc0_scoped2.sem) 0 from rfl)) $$ Hr2
    ihave Hr3 := (Entails.of_eq (show (semVal (V d (cV L) (jV L), SemLoc.dma cc0_scoped3.sem) 0 : sProp 𝕄) = semVal (semCell d L cc0_scoped3.sem) 0 from rfl)) $$ Hr3
    ihave Hr4 := (Entails.of_eq (show (semVal (V d (cV L) (jV L), SemLoc.dma cc0_scoped4.sem) 0 : sProp 𝕄) = semVal (semCell d L cc0_scoped4.sem) 0 from rfl)) $$ Hr4
    isplitl [Ha0 Ha1 Hut Hit Hww Hbb Hout]
    · isplitl [Ha0]; · iexact Ha0
      isplitl [Ha1]; · iexact Ha1
      isplitl [Hut]; · iexact Hut
      isplitl [Hit]; · iexact Hit
      isplitl [Hww]; · iexact Hww
      isplitl [Hbb]; · iexact Hbb
      iexact Hout
    isplitl [H0 H1 H2 H3 H4 H5 H6 H7 H8 H9 H10 HRb]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexact HRb
    isplitl [Hsu Hsi Hr0 Hr1 Hr2 Hr3 Hr4 HRs]
    · isplitl [Hsu]; · iexact Hsu
      isplitl [Hsi]; · iexact Hsi
      isplitl [Hr0]; · iexact Hr0
      isplitl [Hr1]; · iexact Hr1
      isplitl [Hr2]; · iexact Hr2
      isplitl [Hr3]; · iexact Hr3
      isplitl [Hr4]; · iexact Hr4
      iexact HRs
    iexists W'; isplitr
    · ipureintro; exact hW'
    · iexact HO
  have hW0 : ∀ p ∈ (insert (SemLoc.dma cc0_scoped3.sem, (default : HIx 1)) (insert (SemLoc.dma cc0_scoped2.sem, (default : HIx 1)) (insert (SemLoc.dma cc0_scoped1.sem, (default : HIx 1)) (insert (SemLoc.dma cc0_scoped0.sem, (default : HIx 1)) W)))), p ∈ W ∨ p.2 = none := by
    intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro ⟨#Hlv, -, ⟨Ha0, Ha1, Hut, Hit, Hww, Hbb, Hout⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, HRb⟩, ⟨Hsu, Hsi, Hr0, Hr1, Hr2, Hr3, Hr4, HRs⟩, HO⟩
  ihave Hmw := ((K (F := F)).mayWaits_none (thr := V d (cV L) (jV L)) hO) $$ Hlv
  ihave Ha0 := (Entails.of_eq (show (a0Loc d ↦{q} f0 : sProp 𝕄) = ((A0).view.loc (V d (cV L) (jV L)) ↦{q} f0) from rfl)) $$ Ha0
  ihave Ha1 := (Entails.of_eq (show (a1Loc d ↦{q} f1 : sProp 𝕄) = ((A1).view.loc (V d (cV L) (jV L)) ↦{q} f1) from rfl)) $$ Ha1
  ihave Hut := (Entails.of_eq (show (utLoc d ↦{q} fu : sProp 𝕄) = ((UT).view.loc (V d (cV L) (jV L)) ↦{q} fu) from rfl)) $$ Hut
  ihave Hit := (Entails.of_eq (show (itLoc d ↦{q} fi : sProp 𝕄) = ((IT).view.loc (V d (cV L) (jV L)) ↦{q} fi) from rfl)) $$ Hit
  ihave Hww := (Entails.of_eq (show (wwLoc d ↦{q} fw : sProp 𝕄) = ((WW).view.loc (V d (cV L) (jV L)) ↦{q} fw) from rfl)) $$ Hww
  ihave Hbb := (Entails.of_eq (show (bbLoc d ↦{q} fb : sProp 𝕄) = ((BB).view.loc (V d (cV L) (jV L)) ↦{q} fb) from rfl)) $$ Hbb
  ihave Hout := (Entails.of_eq (show (outLoc d ↦[outBlk L]{fullShare} fo : sProp 𝕄) = ((outBlkM L).view.loc (V d (cV L) (jV L)) ↦[(outBlkM L).view.set]{fullShare} fo) from rfl)) $$ Hout
  ihave H0 := (Entails.of_eq (show ((V d (cV L) (jV L)).loc cc0_scratch0 ↦{fullShare} g0 : sProp 𝕄) = ((s0).view.loc (V d (cV L) (jV L)) ↦{fullShare} g0) from rfl)) $$ H0
  ihave H1 := (Entails.of_eq (show ((V d (cV L) (jV L)).loc cc0_scratch1 ↦{fullShare} g1 : sProp 𝕄) = ((s1).view.loc (V d (cV L) (jV L)) ↦{fullShare} g1) from rfl)) $$ H1
  ihave H2 := (Entails.of_eq (show ((V d (cV L) (jV L)).loc cc0_scratch2 ↦{fullShare} g2 : sProp 𝕄) = ((s2).view.loc (V d (cV L) (jV L)) ↦{fullShare} g2) from rfl)) $$ H2
  ihave H3 := (Entails.of_eq (show ((V d (cV L) (jV L)).loc cc0_scratch3 ↦{fullShare} g3 : sProp 𝕄) = ((s3).view.loc (V d (cV L) (jV L)) ↦{fullShare} g3) from rfl)) $$ H3
  ihave H4 := (Entails.of_eq (show ((V d (cV L) (jV L)).loc cc0_scratch4 ↦{fullShare} g4 : sProp 𝕄) = ((s4).view.loc (V d (cV L) (jV L)) ↦{fullShare} g4) from rfl)) $$ H4
  ihave H5 := (Entails.of_eq (show ((V d (cV L) (jV L)).loc cc0_scratch5 ↦{fullShare} g5 : sProp 𝕄) = ((s5).view.loc (V d (cV L) (jV L)) ↦{fullShare} g5) from rfl)) $$ H5
  ihave H6 := (Entails.of_eq (show ((V d (cV L) (jV L)).loc cc0_scratch6 ↦{fullShare} g6 : sProp 𝕄) = ((s6).view.loc (V d (cV L) (jV L)) ↦{fullShare} g6) from rfl)) $$ H6
  ihave H7 := (Entails.of_eq (show ((V d (cV L) (jV L)).loc cc0_scratch7 ↦{fullShare} g7 : sProp 𝕄) = ((s7).view.loc (V d (cV L) (jV L)) ↦{fullShare} g7) from rfl)) $$ H7
  ihave H8 := (Entails.of_eq (show ((V d (cV L) (jV L)).loc cc0_scratch8 ↦{fullShare} g8 : sProp 𝕄) = ((s8).view.loc (V d (cV L) (jV L)) ↦{fullShare} g8) from rfl)) $$ H8
  ihave H9 := (Entails.of_eq (show ((V d (cV L) (jV L)).loc cc0_scratch9 ↦{fullShare} g9 : sProp 𝕄) = ((s9).view.loc (V d (cV L) (jV L)) ↦{fullShare} g9) from rfl)) $$ H9
  ihave H10 := (Entails.of_eq (show ((V d (cV L) (jV L)).loc cc0_scratch10 ↦{fullShare} g10 : sProp 𝕄) = ((s10).view.loc (V d (cV L) (jV L)) ↦{fullShare} g10) from rfl)) $$ H10
  ihave Hsu := (Entails.of_eq (show (semVal (semCell d L cc0_scratch11.sem) 0 : sProp 𝕄) = semVal (V d (cV L) (jV L), SemLoc.dma cc0_scratch11.sem) 0 from rfl)) $$ Hsu
  ihave Hsi := (Entails.of_eq (show (semVal (semCell d L cc0_scratch12.sem) 0 : sProp 𝕄) = semVal (V d (cV L) (jV L), SemLoc.dma cc0_scratch12.sem) 0 from rfl)) $$ Hsi
  ihave Hr0 := (Entails.of_eq (show (semVal (semCell d L cc0_scoped0.sem) 0 : sProp 𝕄) = semVal (V d (cV L) (jV L), SemLoc.dma cc0_scoped0.sem) 0 from rfl)) $$ Hr0
  ihave Hr1 := (Entails.of_eq (show (semVal (semCell d L cc0_scoped1.sem) 0 : sProp 𝕄) = semVal (V d (cV L) (jV L), SemLoc.dma cc0_scoped1.sem) 0 from rfl)) $$ Hr1
  ihave Hr2 := (Entails.of_eq (show (semVal (semCell d L cc0_scoped2.sem) 0 : sProp 𝕄) = semVal (V d (cV L) (jV L), SemLoc.dma cc0_scoped2.sem) 0 from rfl)) $$ Hr2
  ihave Hr3 := (Entails.of_eq (show (semVal (semCell d L cc0_scoped3.sem) 0 : sProp 𝕄) = semVal (V d (cV L) (jV L), SemLoc.dma cc0_scoped3.sem) 0 from rfl)) $$ Hr3
  ihave Hr4 := (Entails.of_eq (show (semVal (semCell d L cc0_scoped4.sem) 0 : sProp 𝕄) = semVal (V d (cV L) (jV L), SemLoc.dma cc0_scoped4.sem) 0 from rfl)) $$ Hr4
  sl_exec_parts
  have e0 : View.write (Elt F) (s0).view g0 (tile_body.sl.dma0 d L f0) Finset.univ = idBlk L f0 := by
    delta_sl tile_body.sl
    exact (View.write_whole_univ _ _ _).trans (read_idBlk0 L f0)
  have e1 : View.write (Elt F) (s1).view g1 (tile_body.sl.dma0_1 d L f1) Finset.univ = idBlk L f1 := by
    delta_sl tile_body.sl
    exact (View.write_whole_univ _ _ _).trans (read_idBlk1 L f1)
  have e6 : View.write (Elt F) (s6).view g6 (tile_body.sl.dma0_2 d fw) Finset.univ = fw := by
    delta_sl tile_body.sl
    exact View.write_whole_univ _ _ _
  have e7 : View.write (Elt F) (s7).view g7 (tile_body.sl.dma0_3 d fb) Finset.univ = fb := by
    delta_sl tile_body.sl
    exact View.write_whole_univ _ _ _
  have e2 : (s2).view.writes (Elt F) (s2).view.junk (tile_body.sl.H2_32 d L f0 g0) = lineBlk L f0 := by
    delta_sl tile_body.sl
    delta_sl Gen.k0_pay
    refine writes_whole_eq _ _ _ _ ?_ ?_
    case refine_2 => exact cover_by_eval _ ![16] (by eval_true)
    pieces_all
      intro x
      simp only [Memref.view_whole, View.read_whole, View.write_whole_univ, ReadAs.apply, readAt_unit1, extractAt_slice_one, extractAt_one, read_idBlk0, read_idBlk0', shrui_two_eq]
      rw [unit1_emb] <;> rfl
  have e3 : (s3).view.writes (Elt F) (s3).view.junk (tile_body.sl.H3_32 d L f1 g1) = lineBlk L f1 := by
    delta_sl tile_body.sl
    delta_sl Gen.k0_pay
    refine writes_whole_eq _ _ _ _ ?_ ?_
    case refine_2 => exact cover_by_eval _ ![16] (by eval_true)
    pieces_all
      intro x
      simp only [Memref.view_whole, View.read_whole, View.write_whole_univ, ReadAs.apply, readAt_unit1, extractAt_slice_one, extractAt_one, read_idBlk1, read_idBlk1', shrui_two_eq]
      rw [unit1_emb] <;> rfl
  have e8 : (s8).view.writes (Elt F) (s8).view.junk (tile_body.sl.H8_512 d L fw g6) = fw := by
    refine writes_whole_eq _ _ _ _ ?_ ?_
    case refine_2 => exact cover1_by_eval _ (by eval_true)
    pieces_chain tile_body.sl
      delta_sl tile_body.sl
      delta_sl Gen.k0_pay
      intro x
      dsimp only
      refine s8_store_ok fw g6 _ _ _ ?_ _ _ _ _ x
      rfl
  have e9 : (s9).view.writes (Elt F) (s9).view.junk (tile_body.sl.H9_16 d L fb g7) = fb := by
    delta_sl tile_body.sl
    delta_sl Gen.k0_pay
    refine writes_whole_eq _ _ _ _ ?_ ?_
    case refine_2 => exact cover_by_eval _ ![1] (by eval_true)
    pieces_all
      intro x
      simp only [Memref.view_whole, View.read_whole, View.write_whole_univ, ReadAs.apply, readAt_unit1, extractAt_slice_one, extractAt_one]
      rw [unit1_emb_one] <;> rfl
  ihave H0 := (Entails.of_eq (congrArg (fun f => (((s0).view.loc (V d (cV L) (jV L)) ↦{fullShare} f) : sProp 𝕄)) e0)) $$ H0
  ihave H1 := (Entails.of_eq (congrArg (fun f => (((s1).view.loc (V d (cV L) (jV L)) ↦{fullShare} f) : sProp 𝕄)) e1)) $$ H1
  ihave H6 := (Entails.of_eq (congrArg (fun f => (((s6).view.loc (V d (cV L) (jV L)) ↦{fullShare} f) : sProp 𝕄)) e6)) $$ H6
  ihave H7 := (Entails.of_eq (congrArg (fun f => (((s7).view.loc (V d (cV L) (jV L)) ↦{fullShare} f) : sProp 𝕄)) e7)) $$ H7
  ihave H2 := (Entails.of_eq (congrArg (fun f => (((s2).view.loc (V d (cV L) (jV L)) ↦{fullShare} f) : sProp 𝕄)) e2)) $$ H2
  ihave H3 := (Entails.of_eq (congrArg (fun f => (((s3).view.loc (V d (cV L) (jV L)) ↦{fullShare} f) : sProp 𝕄)) e3)) $$ H3
  ihave H8 := (Entails.of_eq (congrArg (fun f => (((s8).view.loc (V d (cV L) (jV L)) ↦{fullShare} f) : sProp 𝕄)) e8)) $$ H8
  ihave H9 := (Entails.of_eq (congrArg (fun f => (((s9).view.loc (V d (cV L) (jV L)) ↦{fullShare} f) : sProp 𝕄)) e9)) $$ H9
  iapply (looprest (F := F) hW hF d L q f0 f1 fu fi fw fb fo h0 h1 O W (insert (SemLoc.dma cc0_scoped3.sem, (default : HIx 1)) (insert (SemLoc.dma cc0_scoped2.sem, (default : HIx 1)) (insert (SemLoc.dma cc0_scoped1.sem, (default : HIx 1)) (insert (SemLoc.dma cc0_scoped0.sem, (default : HIx 1)) W)))) hW0 g4 g5 g10 _ _ iprop(Rb ∗ Rs) _ hQ) $$ [Hmw Ha0 Ha1 Hut Hit Hww Hbb Hout H0 H1 H2 H3 H4 H5 H6 H7 H8 H9 H10 Hsu Hsi Hr0 Hr1 Hr2 Hr3 Hr4 HO HRb HRs]
  isplitl [Hmw]; · iexact Hmw
  isplitl [Ha0 Ha1 Hut Hit Hww Hbb Hout H0 H1 H2 H3 H4 H5 H6 H7 H8 H9 H10 Hsu Hsi Hr0 Hr1 Hr2 Hr3 Hr4]
  · unfold St
    isplitl [Ha0]; · iexact Ha0
    isplitl [Ha1]; · iexact Ha1
    isplitl [Hut]; · iexact Hut
    isplitl [Hit]; · iexact Hit
    isplitl [Hww]; · iexact Hww
    isplitl [Hbb]; · iexact Hbb
    isplitl [Hout]; · iexact Hout
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hsu]; · iexact Hsu
    isplitl [Hsi]; · iexact Hsi
    isplitl [Hr0]; · iexact Hr0
    isplitl [Hr1]; · iexact Hr1
    isplitl [Hr2]; · iexact Hr2
    isplitl [Hr3]; · iexact Hr3
    iexact Hr4
  isplitl [HO]; · iexact HO
  isplitl [HRb]; · iexact HRb
  iexact HRs

end Cert.Kernel.Hand
end
-- ==== Proof.KTileWave.lean ====
/-
  One wave of a vector subcore: the two indexed copies fill the two line buffers with the lines the wave's 256 ids
  name (each copy on its own semaphore, both waited for before any row is read), then the sixteen groups of sixteen
  entries are accumulated one after the other.
-/
import proofs.«218018_g87892210745873_cont_sun_m_655_26_alg».proof.Proof.KTileInv
import proofs.«218018_g87892210745873_cont_sun_m_655_26_alg».proof.Proof.KIntFacts
import proofs.«218018_g87892210745873_cont_sun_m_655_26_alg».proof.Proof.Accum

set_option maxHeartbeats 4000000

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.Kernel.main_arg0_scv : Memref Cert.Kernel.sig Kind.scVector Space.hbm Cert.Kernel.S16384 EltTy.i32)
local notation "A1" => (Memref.whole Cert.Kernel.main_arg1_scv : Memref Cert.Kernel.sig Kind.scVector Space.hbm Cert.Kernel.S16384 EltTy.i32)
local notation "UT" => (Memref.whole Cert.Kernel.main_v0_scv : Memref Cert.Kernel.sig Kind.scVector Space.hbm Cert.Kernel.S250000x128 EltTy.f32)
local notation "IT" => (Memref.whole Cert.Kernel.main_v1_scv : Memref Cert.Kernel.sig Kind.scVector Space.hbm Cert.Kernel.S250000x128 EltTy.f32)
local notation "WW" => (Memref.whole Cert.Kernel.main_v2_scv : Memref Cert.Kernel.sig Kind.scVector Space.hbm Cert.Kernel.S512 EltTy.f32)
local notation "BB" => (Memref.whole Cert.Kernel.main_arg5_scv : Memref Cert.Kernel.sig Kind.scVector Space.hbm Cert.Kernel.S16 EltTy.f32)
local notation "OO" => (Memref.whole Cert.Kernel.main_v3_scv : Memref Cert.Kernel.sig Kind.scVector Space.hbm Cert.Kernel.S16384 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S512 EltTy.i32)
local notation "s4" => (Memref.whole Cert.Kernel.cc0_scratch4 : Memref Cert.Kernel.sig Kind.scVector Space.vmem Cert.Kernel.S256x128 EltTy.f32)
local notation "s5" => (Memref.whole Cert.Kernel.cc0_scratch5 : Memref Cert.Kernel.sig Kind.scVector Space.vmem Cert.Kernel.S256x128 EltTy.f32)
local notation "s6" => (Memref.whole Cert.Kernel.cc0_scratch6 : Memref Cert.Kernel.sig Kind.scVector Space.vmem Cert.Kernel.S512 EltTy.f32)
local notation "s7" => (Memref.whole Cert.Kernel.cc0_scratch7 : Memref Cert.Kernel.sig Kind.scVector Space.vmem Cert.Kernel.S16 EltTy.f32)
local notation "s8" => (Memref.whole Cert.Kernel.cc0_scratch8 : Memref Cert.Kernel.sig Kind.scVector Space.smem Cert.Kernel.S512 EltTy.f32)
local notation "s9" => (Memref.whole Cert.Kernel.cc0_scratch9 : Memref Cert.Kernel.sig Kind.scVector Space.smem Cert.Kernel.S16 EltTy.f32)
local notation "s10" => (Memref.whole Cert.Kernel.cc0_scratch10 : Memref Cert.Kernel.sig Kind.scVector Space.vmem Cert.Kernel.S512 EltTy.f32)

/-- A subcore runs two waves. -/
theorem wave_t1_lt (t1 : Fin k0_t1_loop.trips) : t1.val < 2 := lt_of_lt_of_le t1.isLt k0_t1_abs.2.1

/-- What an indexed copy delivers at (r, c), stated over what its two operands read: the table at the line that entry
    256 t + r of the list names, word c. -/
theorem gatherPayload_at (lines : S512.Idx → BitVec 32) (tab : S250000x128.Idx → F .f32) (t : ℕ) (ht : t < 2)
    (hn : S256.numel = S256x128.size gathers_S250000x128_S256x128.axis')
    (rdT : S250000x128.Idx → Elt F .f32) (rdL : S256.Idx → Elt F .i32)
    (hT : ∀ y, rdT y = tab y)
    (hL : ∀ z : S256.Idx, rdL z = lines (ix1 (⟨min (256 * t + (z 0).val) 511, by omega⟩ : Fin 512)))
    (hin : ∀ x, (rdL x).toNat < S250000x128.size gathers_S250000x128_S256x128.axis) (i : S256x128.Idx) :
    SparseCore.gatherPayload (F := F) gathers_S250000x128_S256x128 rdT (SparseCore.rows rdL hn hin) i = gath tab lines t i := by
  obtain ⟨r, c, rfl⟩ : ∃ (r : Fin 256) (c : Fin 128), i = ix2 r c := ⟨i 0, i 1, eq_ix2 i⟩
  unfold SparseCore.gatherPayload gath
  rw [hT]
  refine congrArg tab ?_
  funext b
  match b with
  | ⟨0, _⟩ =>
    refine Fin.ext ?_
    have hz : ((S256.rowMajor.symm (Fin.cast hn.symm r)) 0).val = r.val := by
      rw [← Shape.rowMajor_val_one, Equiv.apply_symm_apply]; rfl
    have h1 := hin (S256.rowMajor.symm (Fin.cast hn.symm r))
    rw [hL] at h1
    show (rdL (S256.rowMajor.symm (Fin.cast hn.symm r))).toNat = min (lines (ix1 (⟨min (256 * t + r.val) 511, by omega⟩ : Fin 512))).toNat 249999
    rw [hL]
    have h2 : (S250000x128.size gathers_S250000x128_S256x128.axis) = 250000 := rfl
    rw [h2] at h1
    simp only [hz] at h1 ⊢
    omega
  | ⟨1, _⟩ => exact Fin.ext rfl

/-- The table read through its whole rectangle is the table. -/
theorem read_tab {κ : Kind} (b : Memref sig κ .hbm S250000x128 .f32)
    (p2 : ∀ a, (Rect.unit (s := S250000x128) ![0, 0] S250000x128.size inb_S250000x128_S250000x128_0_0).stride a = 1)
    (tab : b.view.ty.Contents (Elt F)) (y : S250000x128.Idx) :
    View.read (Elt F) (b.slice (Rect.unit (s := S250000x128) ![0, 0] S250000x128.size inb_S250000x128_S250000x128_0_0) p2).view tab y
      = View.read (Elt F) b.view tab y := by
  rw [View.read_apply, View.read_apply]
  have e : (b.slice (Rect.unit (s := S250000x128) ![0, 0] S250000x128.size inb_S250000x128_S250000x128_0_0) p2).view.emb y = b.view.emb y := by
    show b.view.emb ((Rect.unit (s := S250000x128) ![0, 0] S250000x128.size inb_S250000x128_S250000x128_0_0).emb y) = _
    refine congrArg _ (funext fun a => Fin.ext ?_)
    match a with
    | ⟨0, _⟩ => show 0 + 1 * (y 0).val = (y 0).val; omega
    | ⟨1, _⟩ => show 0 + 1 * (y 1).val = (y 1).val; omega
  rw [e]

/-- The wave's slice of a line list reads, in row r, entry 256 t + r of the list. -/
theorem read_lines {κ : Kind} (b : Memref sig κ .vmem S512 .i32) (lines : b.view.ty.Contents (Elt F)) (t1 : Fin k0_t1_loop.trips)
    (z : S256.Idx) :
    View.read (Elt F) (b.slice (Rect.unit (s := S512) (k0_off2 t1) S256.size (k0_off2_inb t1)) (fun _ => rfl)).view lines z
      = View.read (Elt F) b.view lines (ix1 (⟨min (256 * t1.val + (z 0).val) 511, by omega⟩ : Fin 512)) := by
  rw [View.read_apply, View.read_apply]
  have e : (b.slice (Rect.unit (s := S512) (k0_off2 t1) S256.size (k0_off2_inb t1)) (fun _ => rfl)).view.emb z
      = b.view.emb (ix1 (⟨min (256 * t1.val + (z 0).val) 511, by omega⟩ : Fin 512)) := by
    show b.view.emb ((Rect.unit (s := S512) (k0_off2 t1) S256.size (k0_off2_inb t1)).emb z) = _
    refine congrArg _ (funext fun a => Fin.ext ?_)
    match a with
    | ⟨0, _⟩ =>
      show k0_off2 t1 0 + 1 * (z 0).val = min (256 * t1.val + (z 0).val) 511
      rw [k0_off2_eq t1]
      have := wave_t1_lt t1
      have hz : (z 0).val < 256 := (z 0).isLt
      show 256 * t1.val + 1 * (z 0).val = _
      omega
  rw [e]

/-- What the indexed copy leaves in the line buffer, over anything: the lines of wave t1. -/
theorem gatherU_eq (L : grid0.Coords) (f : S16384.Idx → BitVec 32) (tab : S250000x128.Idx → F .f32) (t1 : Fin k0_t1_loop.trips)
    (p2 : ∀ a, (Rect.unit (s := S250000x128) ![0, 0] S250000x128.size inb_S250000x128_S250000x128_0_0).stride a = 1)
    (hn : S256.numel = S256x128.size gathers_S250000x128_S256x128.axis')
    (hin : ∀ x, (((s2).slice (Rect.unit (s := S512) (k0_off2 t1) S256.size (k0_off2_inb t1)) (fun _ => rfl)).view.read (Elt F) (lineBlk L f) x).toNat
      < S250000x128.size gathers_S250000x128_S256x128.axis)
    (junk : S256x128.Idx → F .f32) :
    (s4).view.writes (Elt F) junk [⟨Rect.whole cc0_scratch4.ty.shape,
        SparseCore.gatherPayload gathers_S250000x128_S256x128
          (View.read (Elt F) ((UT).slice (Rect.unit (s := S250000x128) ![0, 0] S250000x128.size inb_S250000x128_S250000x128_0_0) p2).view tab)
          (SparseCore.rows (View.read (Elt F) ((s2).slice (Rect.unit (s := S512) (k0_off2 t1) S256.size (k0_off2_inb t1)) (fun _ => rfl)).view (lineBlk L f)) hn hin)⟩]
      = gath tab (lineBlk L f) t1.val := by
  rw [View.writes_singleton]
  funext i
  have e : (Rect.whole S256x128).emb i = i := Rect.emb_whole_apply S256x128 i
  have hw := View.write_emb_of_mem (v := (s4).view.slice (Rect.whole S256x128)) (Val := Elt F) junk
    (SparseCore.gatherPayload gathers_S250000x128_S256x128
          (View.read (Elt F) ((UT).slice (Rect.unit (s := S250000x128) ![0, 0] S250000x128.size inb_S250000x128_S250000x128_0_0) p2).view tab)
          (SparseCore.rows (View.read (Elt F) ((s2).slice (Rect.unit (s := S512) (k0_off2 t1) S256.size (k0_off2_inb t1)) (fun _ => rfl)).view (lineBlk L f)) hn hin))
    (M := Finset.univ) (x := i) (Finset.mem_univ i)
  rw [show ((s4).view.slice (Rect.whole S256x128)).emb i = i from e] at hw
  refine hw.trans ?_
  exact gatherPayload_at (lineBlk L f) tab t1.val (wave_t1_lt t1) hn _ _
    (fun y => (read_tab (F := F) (UT) p2 tab y).trans rfl) (fun z => (read_lines (F := F) (s2) (lineBlk L f) t1 z).trans rfl) hin i

/-- What the indexed copy leaves in the line buffer, over anything: the lines of wave t1. -/
theorem gatherI_eq (L : grid0.Coords) (f : S16384.Idx → BitVec 32) (tab : S250000x128.Idx → F .f32) (t1 : Fin k0_t1_loop.trips)
    (p2 : ∀ a, (Rect.unit (s := S250000x128) ![0, 0] S250000x128.size inb_S250000x128_S250000x128_0_0).stride a = 1)
    (hn : S256.numel = S256x128.size gathers_S250000x128_S256x128.axis')
    (hin : ∀ x, (((s3).slice (Rect.unit (s := S512) (k0_off2 t1) S256.size (k0_off2_inb t1)) (fun _ => rfl)).view.read (Elt F) (lineBlk L f) x).toNat
      < S250000x128.size gathers_S250000x128_S256x128.axis)
    (junk : S256x128.Idx → F .f32) :
    (s5).view.writes (Elt F) junk [⟨Rect.whole cc0_scratch5.ty.shape,
        SparseCore.gatherPayload gathers_S250000x128_S256x128
          (View.read (Elt F) ((IT).slice (Rect.unit (s := S250000x128) ![0, 0] S250000x128.size inb_S250000x128_S250000x128_0_0) p2).view tab)
          (SparseCore.rows (View.read (Elt F) ((s3).slice (Rect.unit (s := S512) (k0_off2 t1) S256.size (k0_off2_inb t1)) (fun _ => rfl)).view (lineBlk L f)) hn hin)⟩]
      = gath tab (lineBlk L f) t1.val := by
  rw [View.writes_singleton]
  funext i
  have e : (Rect.whole S256x128).emb i = i := Rect.emb_whole_apply S256x128 i
  have hw := View.write_emb_of_mem (v := (s5).view.slice (Rect.whole S256x128)) (Val := Elt F) junk
    (SparseCore.gatherPayload gathers_S250000x128_S256x128
          (View.read (Elt F) ((IT).slice (Rect.unit (s := S250000x128) ![0, 0] S250000x128.size inb_S250000x128_S250000x128_0_0) p2).view tab)
          (SparseCore.rows (View.read (Elt F) ((s3).slice (Rect.unit (s := S512) (k0_off2 t1) S256.size (k0_off2_inb t1)) (fun _ => rfl)).view (lineBlk L f)) hn hin))
    (M := Finset.univ) (x := i) (Finset.mem_univ i)
  rw [show ((s5).view.slice (Rect.whole S256x128)).emb i = i from e] at hw
  refine hw.trans ?_
  exact gatherPayload_at (lineBlk L f) tab t1.val (wave_t1_lt t1) hn _ _
    (fun y => (read_tab (F := F) (IT) p2 tab y).trans rfl) (fun z => (read_lines (F := F) (s3) (lineBlk L f) t1 z).trans rfl) hin i

/-- The lines a subcore's ids name are lines of the table. -/
theorem lineBlk_lt (L : grid0.Coords) (f : S16384.Idx → BitVec 32) (h : ∀ i, (f i).toNat ≤ 999999) (j : S512.Idx) :
    (lineBlk L f j).toNat < 250000 := by
  unfold lineBlk idBlk
  have := h (bidx L j)
  rw [BitVec.toNat_ofNat]
  omega

/-- A wave has sixteen groups. -/
theorem t2_trips : k0_t2_loop.trips = 16 := by decide

/-- Between the groups of wave t1: the line buffers hold the wave's lines, the result scratch is right on the wave's
    first 16 t2 entries and on everything before the wave, the two waits of the wave are recorded. -/
def grpLoopInv (d : Dev nD) (L : grid0.Coords) (q : PosShare TreeShare)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (fo : Buf (Elt F) (outLoc d))
    (O : CellTallies nD τ sig (HIx 1)) (W'' : Waits sig (HIx 1)) (t1 : Fin k0_t1_loop.trips) (t2 : ℕ) (_ : BitVec 32) : sProp 𝕄 :=
  iprop(Transfers.MayWaits (V d (cV L) (jV L)) (none : HIx 1) O
    ∗ (∃ ov', ⌜OutDone (F := F) L f0 f1 fu fi fw fb (256 * t1.val + 16 * t2) ov'⌝
        ∗ St (F := F) d L q f0 f1 fu fi fw fb fo (gath fu (lineBlk L f0) t1.val) (gath fi (lineBlk L f1) t1.val) ov')
    ∗ owes (V d (cV L) (jV L)) O W'')

set_option pp.maxSteps 20000 in
set_option pp.deepTerms false in
theorem wave_step (hG : GrpStep (F := F)) : WaveStep (F := F) := by
  intro hF d L q f0 f1 fu fi fw fb fo h0 h1 O W' t1 acc v2339 v2369 ub ib ov hov
  have hinU : ∀ x, (((s2).slice (Rect.unit (s := S512) (k0_off2 t1) S256.size (k0_off2_inb t1)) (fun _ => rfl)).view.read (Elt F) (lineBlk L f0) x).toNat
      < S250000x128.size gathers_S250000x128_S256x128.axis := fun x => by
    rw [View.read_apply]; exact lineBlk_lt L f0 h0 _
  have hinI : ∀ x, (((s3).slice (Rect.unit (s := S512) (k0_off2 t1) S256.size (k0_off2_inb t1)) (fun _ => rfl)).view.read (Elt F) (lineBlk L f1) x).toNat
      < S250000x128.size gathers_S250000x128_S256x128.axis := fun x => by
    rw [View.read_apply]; exact lineBlk_lt L f1 h1 _
  unfold St
  iintro ⟨Hmw, ⟨HA0, HA1, HUT, HIT, HWW, HBB, HOut, H0, H1, H2, H3, H4, H5, H6, H7, H8, H9, H10, Hs11, Hs12, Hc0, Hc1, Hc2, Hc3, Hc4⟩, HO⟩
  -- the two indexed copies and their two waits
  sl_exec_parts
  -- what they left in the line buffers, in closed form
  have e4 : (s4).view.writes (Elt F) (s4).view.junk [⟨Rect.whole cc0_scratch4.ty.shape, wave_step.sl.gather0 d L f0 fu t1 hinU⟩]
      = gath fu (lineBlk L f0) t1.val := gatherU_eq L f0 fu t1 _ _ hinU _
  have e5 : (s5).view.writes (Elt F) (s5).view.junk [⟨Rect.whole cc0_scratch5.ty.shape, wave_step.sl.gather1 d L f1 fi t1 hinI⟩]
      = gath fi (lineBlk L f1) t1.val := gatherI_eq L f1 fi t1 _ _ hinI _
  ihave H4' := (Entails.of_eq (congrArg (fun g => ((s4).view.loc (V d (cV L) (jV L)) ↦{fullShare} g : sProp 𝕄)) e4)) $$ H4
  ihave H5' := (Entails.of_eq (congrArg (fun g => ((s5).view.loc (V d (cV L) (jV L)) ↦{fullShare} g : sProp 𝕄)) e5)) $$ H5
  -- the sixteen groups
  sl_for (grpLoopInv (F := F) d L q f0 f1 fu fi fw fb fo O
      (insert (SemLoc.dma cc0_scratch12.sem, (default : HIx 1)) (insert (SemLoc.dma cc0_scratch11.sem, (default : HIx 1)) W')) t1)
    $$ [Hmw HA0 HA1 HUT HIT HWW HBB HOut H0 H1 H2 H3 H4' H5' H6 H7 H8 H9 H10 Hs11 Hs12 Hc0 Hc1 Hc2 Hc3 Hc4 HO]
  case region =>
    intro k acc'
    unfold grpLoopInv
    iintro ⟨Hmw, ⟨%ov', %hov', Hst⟩, HO⟩
    iapply (wp_wand_r Idealize.ShloMosaic.frame (wpE (defs₀ (F := F)) 𝒱₀ (V d (cV L) (jV L)) none) Set.univ)
    isplitl [Hst]
    · iapply (hG hF d L q f0 f1 fu fi fw fb fo h0 h1 t1 k acc' v2339 v2369 ov' hov')
      iexact Hst
    · iintro %_ ⟨%ov'', %hov'', Hst⟩
      isplitl [Hmw]; · iexact Hmw
      isplitr [HO]
      · iexists ov''; isplitr
        · ipureintro; exact hov''
        · iexact Hst
      · iexact HO
  · unfold grpLoopInv
    isplitl [Hmw]; · iexact Hmw
    isplitr [HO]
    · iexists ov; isplitr
      · ipureintro; simpa using hov
      · unfold St
        isplitl [HA0]; · iexact HA0
        isplitl [HA1]; · iexact HA1
        isplitl [HUT]; · iexact HUT
        isplitl [HIT]; · iexact HIT
        isplitl [HWW]; · iexact HWW
        isplitl [HBB]; · iexact HBB
        isplitl [HOut]; · iexact HOut
        isplitl [H0]; · iexact H0
        isplitl [H1]; · iexact H1
        isplitl [H2]; · iexact H2
        isplitl [H3]; · iexact H3
        isplitl [H4']; · iexact H4'
        isplitl [H5']; · iexact H5'
        isplitl [H6]; · iexact H6
        isplitl [H7]; · iexact H7
        isplitl [H8]; · iexact H8
        isplitl [H9]; · iexact H9
        isplitl [H10]; · iexact H10
        isplitl [Hs11]; · iexact Hs11
        isplitl [Hs12]; · iexact Hs12
        isplitl [Hc0]; · iexact Hc0
        isplitl [Hc1]; · iexact Hc1
        isplitl [Hc2]; · iexact Hc2
        isplitl [Hc3]; · iexact Hc3
        iexact Hc4
    · iexact HO
  iintro %_ HI
  unfold grpLoopInv
  icases HI with ⟨Hmw, ⟨%ov', %hov', Hst⟩, HO⟩
  sl_step
  isplitl [Hmw]; · iexact Hmw
  iexists (gath fu (lineBlk L f0) t1.val), (gath fi (lineBlk L f1) t1.val), ov',
    (insert (SemLoc.dma cc0_scratch12.sem, (default : HIx 1)) (insert (SemLoc.dma cc0_scratch11.sem, (default : HIx 1)) W'))
  isplitr
  · ipureintro
    have e : 256 * t1.val + 16 * k0_t2_loop.trips = 256 * (t1.val + 1) := by rw [t2_trips]; omega
    rw [← e]; exact hov'
  isplitr
  · ipureintro; intro p hp
    rcases Finset.mem_insert.mp hp with hp | hp
    · exact .inr (hp ▸ rfl)
    rcases Finset.mem_insert.mp hp with hp | hp
    · exact .inr (hp ▸ rfl)
    · exact .inl hp
  unfold St
  isplitl [Hst]; · iexact Hst
  iexact HO

end Cert.Kernel.Hand

end
-- ==== Proof.KTileGrpVal.lean ====
/-
  The words one trip reads, at a lane: lane x of the trip (t1, t2) is batch entry 256 t1 + 16 t2 + x of the subcore; the
  slot 16 t2 + x of a line buffer during wave t1 holds the line of that entry's id, and the column 32 (id mod 4) + d of
  that line is entry d of the table row the id names.
-/
import proofs.«218018_g87892210745873_cont_sun_m_655_26_alg».proof.Proof.KTileInv
import proofs.«218018_g87892210745873_cont_sun_m_655_26_alg».proof.Proof.KIntFacts
import Idealize.ShloMosaic.Lib.Writes

noncomputable section

namespace Cert.Kernel.Hand

open Cert.Kernel Cert.Kernel.Gen
open Idealize.ShloMosaic Idealize.ShloMosaic.ValueIdx

variable {F : FTy → Type}

/-- Lane x of trip (t1, t2), as an index of the subcore's 512 entries. -/
def laneIdx (t1 t2 : ℕ) (h1 : t1 < 2) (h2 : t2 < 16) (x : S16.Idx) : S512.Idx :=
  ix1 (⟨256 * t1 + 16 * t2 + (x 0).val, by have hx : (x 0).val < 16 := (x 0).isLt; omega⟩ : Fin 512)

/-- The line buffer at (slot of the lane, column of entry d) is entry d of the table row the lane's id names. -/
theorem gath_lane (tab : S250000x128.Idx → F .f32) (L : grid0.Coords) (f : S16384.Idx → BitVec 32) (hf : ∀ i, (f i).toNat ≤ 999999)
    (t1 t2 : ℕ) (h1 : t1 < 2) (h2 : t2 < 16) (x : S16.Idx) (d : Fin 32) (r : Fin 256) (c : Fin 128)
    (hr : r.val = 16 * t2 + (x 0).val) (hc : c.val = (f (bidx L (laneIdx t1 t2 h1 h2 x))).toNat % 4 * 32 + d.val) :
    gath tab (lineBlk L f) t1 (ix2 r c)
      = tab (ix2 (lineOf (f (bidx L (laneIdx t1 t2 h1 h2 x)))) (colOf (f (bidx L (laneIdx t1 t2 h1 h2 x))) d)) := by
  have hx : (x 0).val < 16 := (x 0).isLt
  have hid := hf (bidx L (laneIdx t1 t2 h1 h2 x))
  have e1 : ∀ (h : min (256 * t1 + r.val) 511 < 512), (ix1 (⟨min (256 * t1 + r.val) 511, h⟩ : Fin 512) : S512.Idx) = laneIdx t1 t2 h1 h2 x := by
    intro h
    unfold laneIdx
    refine congrArg ix1 (Fin.ext ?_)
    show min (256 * t1 + r.val) 511 = 256 * t1 + 16 * t2 + (x 0).val
    omega
  have e2 : (lineBlk L f (laneIdx t1 t2 h1 h2 x)).toNat = (f (bidx L (laneIdx t1 t2 h1 h2 x))).toNat / 4 := by
    show (BitVec.ofNat 32 ((f (bidx L (laneIdx t1 t2 h1 h2 x))).toNat / 4)).toNat = _
    rw [BitVec.toNat_ofNat]
    exact Nat.mod_eq_of_lt (by omega)
  unfold gath
  refine congrArg tab ?_
  funext a
  match a with
  | ⟨0, _⟩ =>
    apply Fin.ext
    show min (lineBlk L f (ix1 (⟨min (256 * t1 + r.val) 511, by omega⟩ : Fin 512))).toNat 249999 = min ((f (bidx L (laneIdx t1 t2 h1 h2 x))).toNat / 4) 249999
    rw [e1, e2]
  | ⟨1, _⟩ =>
    apply Fin.ext
    show c.val = (f (bidx L (laneIdx t1 t2 h1 h2 x))).toNat % 4 * 32 + d.val
    exact hc

/-- Sixteen more entries of the result scratch: written at 256 t1 + 16 t2 with a vector whose lane x is the accumulated
    value of the lane's batch entry, the scratch is right on 16 entries more; the entries before are untouched. -/
theorem outDone_step [FloatOps F] (L : grid0.Coords) (f0 f1 : S16384.Idx → BitVec 32) (fu fi : S250000x128.Idx → F .f32)
    (fw : S512.Idx → F .f32) (fb : S16.Idx → F .f32) (t1 t2 : ℕ) (h1 : t1 < 2) (h2 : t2 < 16)
    (ov : S512.Idx → F .f32) (w : S16.Idx → F .f32)
    (off : Fin 1 → ℕ) (hoff : off = ![256 * t1 + 16 * t2]) (inb : ∀ a, off a + S16.size a ≤ S512.size a)
    (hov : OutDone (F := F) L f0 f1 fu fi fw fb (256 * t1 + 16 * t2) ov)
    (hw : ∀ x : S16.Idx, w x = outVal (F := F) f0 f1 fu fi fw fb (bidx L (laneIdx t1 t2 h1 h2 x))) :
    OutDone (F := F) L f0 f1 fu fi fw fb (256 * t1 + 16 * (t2 + 1))
      ((Memref.whole cc0_scratch10 : Memref sig .scVector .vmem S512 .f32).view.writes (Elt F) ov
        [⟨Rect.unit (s := S512) off S16.size inb, w⟩]) := by
  subst hoff
  intro j hj
  by_cases hlt : (j 0).val < 256 * t1 + 16 * t2
  · refine Eq.trans ?_ (hov j hlt)
    change View.read (Elt F) (Memref.whole cc0_scratch10 : Memref sig .scVector .vmem S512 .f32).view
        ((Memref.whole cc0_scratch10 : Memref sig .scVector .vmem S512 .f32).view.writes (Elt F) ov [⟨Rect.unit (s := S512) ![256 * t1 + 16 * t2] S16.size inb, w⟩]) j
      = View.read (Elt F) (Memref.whole cc0_scratch10 : Memref sig .scVector .vmem S512 .f32).view ov j
    refine View.read_writes_apply_of_forall_not_mem (Val := Elt F) (v := (Memref.whole cc0_scratch10 : Memref sig .scVector .vmem S512 .f32).view) (f := ov) j _ ?_
    intro p hp
    rw [List.mem_singleton] at hp
    subst hp
    rw [Rect.mem_set_unit]
    intro h
    have h0 := (h 0).1
    have : 256 * t1 + 16 * t2 ≤ (j 0).val := h0
    omega
  · have hjx : (j 0).val - (256 * t1 + 16 * t2) < 16 := by omega
    have hj' : j = (Rect.unit (s := S512) ![256 * t1 + 16 * t2] S16.size inb).emb (ix1 (⟨(j 0).val - (256 * t1 + 16 * t2), hjx⟩ : Fin 16)) := by
      funext a
      obtain rfl : a = 0 := Subsingleton.elim _ _
      apply Fin.ext
      show (j 0).val = (256 * t1 + 16 * t2) + 1 * ((j 0).val - (256 * t1 + 16 * t2))
      omega
    have hl : laneIdx t1 t2 h1 h2 (ix1 (⟨(j 0).val - (256 * t1 + 16 * t2), hjx⟩ : Fin 16)) = j := by
      funext a
      obtain rfl : a = 0 := Subsingleton.elim _ _
      apply Fin.ext
      show 256 * t1 + 16 * t2 + ((j 0).val - (256 * t1 + 16 * t2)) = (j 0).val
      omega
    have hr := View.read_writes_cons_emb (Val := Elt F) (v := (Memref.whole cc0_scratch10 : Memref sig .scVector .vmem S512 .f32).view) (f := ov)
      (Rect.unit (s := S512) ![256 * t1 + 16 * t2] S16.size inb) w [] (ix1 (⟨(j 0).val - (256 * t1 + 16 * t2), hjx⟩ : Fin 16))
    rw [← hj'] at hr
    refine Eq.trans hr ((hw _).trans ?_)
    rw [hl]

end Cert.Kernel.Hand

end
-- ==== Proof.KTileGrpRun.lean ====
/-
  One trip of the inner loop, run: from the subcore's state at the loops, the trip's sixteen id pairs, sixteen bias
  words, 64 indexed loads (each after its range check, true of any slot vector 16 t2 + lane and any column vector
  32 (id mod 4) + d) and 512 weight words are read, and one vector is stored into the result scratch at
  256 t1 + 16 t2; every other buffer is as it was. The stored vector is the witness the run finds.
-/
import proofs.«218018_g87892210745873_cont_sun_m_655_26_alg».proof.Proof.KTileInv
import proofs.«218018_g87892210745873_cont_sun_m_655_26_alg».proof.Proof.KIntFacts
import proofs.«218018_g87892210745873_cont_sun_m_655_26_alg».proof.Proof.Accum
import proofs.«218018_g87892210745873_cont_sun_m_655_26_alg».proof.Proof.Gen.Kernel.Skeleton

set_option maxHeartbeats 4000000

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.Kernel.main_arg0_scv : Memref Cert.Kernel.sig Kind.scVector Space.hbm Cert.Kernel.S16384 EltTy.i32)
local notation "A1" => (Memref.whole Cert.Kernel.main_arg1_scv : Memref Cert.Kernel.sig Kind.scVector Space.hbm Cert.Kernel.S16384 EltTy.i32)
local notation "UT" => (Memref.whole Cert.Kernel.main_v0_scv : Memref Cert.Kernel.sig Kind.scVector Space.hbm Cert.Kernel.S250000x128 EltTy.f32)
local notation "IT" => (Memref.whole Cert.Kernel.main_v1_scv : Memref Cert.Kernel.sig Kind.scVector Space.hbm Cert.Kernel.S250000x128 EltTy.f32)
local notation "WW" => (Memref.whole Cert.Kernel.main_v2_scv : Memref Cert.Kernel.sig Kind.scVector Space.hbm Cert.Kernel.S512 EltTy.f32)
local notation "BB" => (Memref.whole Cert.Kernel.main_arg5_scv : Memref Cert.Kernel.sig Kind.scVector Space.hbm Cert.Kernel.S16 EltTy.f32)
local notation "OO" => (Memref.whole Cert.Kernel.main_v3_scv : Memref Cert.Kernel.sig Kind.scVector Space.hbm Cert.Kernel.S16384 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S512 EltTy.i32)
local notation "s4" => (Memref.whole Cert.Kernel.cc0_scratch4 : Memref Cert.Kernel.sig Kind.scVector Space.vmem Cert.Kernel.S256x128 EltTy.f32)
local notation "s5" => (Memref.whole Cert.Kernel.cc0_scratch5 : Memref Cert.Kernel.sig Kind.scVector Space.vmem Cert.Kernel.S256x128 EltTy.f32)
local notation "s6" => (Memref.whole Cert.Kernel.cc0_scratch6 : Memref Cert.Kernel.sig Kind.scVector Space.vmem Cert.Kernel.S512 EltTy.f32)
local notation "s7" => (Memref.whole Cert.Kernel.cc0_scratch7 : Memref Cert.Kernel.sig Kind.scVector Space.vmem Cert.Kernel.S16 EltTy.f32)
local notation "s8" => (Memref.whole Cert.Kernel.cc0_scratch8 : Memref Cert.Kernel.sig Kind.scVector Space.smem Cert.Kernel.S512 EltTy.f32)
local notation "s9" => (Memref.whole Cert.Kernel.cc0_scratch9 : Memref Cert.Kernel.sig Kind.scVector Space.smem Cert.Kernel.S16 EltTy.f32)
local notation "s10" => (Memref.whole Cert.Kernel.cc0_scratch10 : Memref Cert.Kernel.sig Kind.scVector Space.vmem Cert.Kernel.S512 EltTy.f32)

macro "grp_disch" : tactic => `(tactic| exact chk_ok _ _ (fun x => pay1_lt _ x) (fun x => cols_lt _ _ (by decide) x))

/-- The vector one trip stores, with the proof that the trip runs from the state at the loops to the same state, the
    result scratch written with that vector at the trip's sixteen entries. -/
noncomputable def grpRun (d : Dev nD) (L : grid0.Coords)
    (f0 : Buf (Elt F) (a0Loc d)) (f1 : Buf (Elt F) (a1Loc d)) (fu : Buf (Elt F) (utLoc d)) (fi : Buf (Elt F) (itLoc d))
    (fw : Buf (Elt F) (wwLoc d)) (fb : Buf (Elt F) (bbLoc d)) (t1 : Fin k0_t1_loop.trips) (t2 : Fin k0_t2_loop.trips) :
    { W : FVec F S16 .f32 //
      ∀ (q : PosShare TreeShare) (fo : Buf (Elt F) (outLoc d)) (acc : BitVec 32) (v2339 : Vec F S16 .f32) (v2369 : F .f32) (ov : S512.Idx → F .f32),
        St (F := F) d L q f0 f1 fu fi fw fb fo (gath fu (lineBlk L f0) t1.val) (gath fi (lineBlk L f1) t1.val) ov
          ⊢ wp frame (wpE (defs₀ (F := F)) 𝒱₀ (V d (cV L) (jV L)) none) Set.univ
              (k0_t2_body L A0 (Memref.isWhole_whole _) A1 (Memref.isWhole_whole _) UT (Memref.isWhole_whole _) IT (Memref.isWhole_whole _)
            WW (Memref.isWhole_whole _) BB (Memref.isWhole_whole _) OO (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            s8 (Memref.isWhole_whole _) s9 (Memref.isWhole_whole _) s10 (Memref.isWhole_whole _)
            cc0_scratch11 cc0_scratch12 cc0_scoped0 cc0_scoped1 cc0_scoped2 cc0_scoped3 cc0_scoped4
            v2339 v2369 (iota .scVector S16 32 [0] Facts₀.iota_S16_d0_w32_scVector) t1 (Scalar.muli (Scf.iv 0#32 1#32 t1) 256#32) t2 acc)
              fun _ => St (F := F) d L q f0 f1 fu fi fw fb fo (gath fu (lineBlk L f0) t1.val) (gath fi (lineBlk L f1) t1.val)
                ((s10).view.writes (Elt F) ov [⟨Rect.unit (s := S512) (k0_off4 t1 t2) S16.size (k0_off4_inb t1 t2), W⟩]) } := by
  refine ⟨?_, fun q fo acc v2339 v2369 ov => ?run⟩
  case run =>
    unfold St
    iintro ⟨Ha0, Ha1, Hut, Hit, Hww, Hbb, Hob, Hs0, Hs1, Hs2, Hs3, Hs4, Hs5, Hs6, Hs7, Hs8, Hs9, Hs10, Hm11, Hm12, Hc0, Hc1, Hc2, Hc3, Hc4⟩
    sl_exec_parts (disch := grp_disch)
    repeat (rw [SparseCore.vectorLoadIdx_bind (V d (cV L) (jV L))]; sl_exec_parts (disch := grp_disch))
    sl_step
    isplitl [Ha0]; · iexact Ha0
    isplitl [Ha1]; · iexact Ha1
    isplitl [Hut]; · iexact Hut
    isplitl [Hit]; · iexact Hit
    isplitl [Hww]; · iexact Hww
    isplitl [Hbb]; · iexact Hbb
    isplitl [Hob]; · iexact Hob
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hm11]; · iexact Hm11
    isplitl [Hm12]; · iexact Hm12
    isplitl [Hc0]; · iexact Hc0
    isplitl [Hc1]; · iexact Hc1
    isplitl [Hc2]; · iexact Hc2
    isplitl [Hc3]; · iexact Hc3
    iexact Hc4

end Cert.Kernel.Hand

end
-- ==== Proof.KTileGrpLeaf.lean ====
/-
  The words one trip reads, identified: lane x of the id vectors read at the trip's offset is the id of batch entry
  256 t1 + 16 t2 + x of the subcore; an indexed load of a line buffer at (slot vector, column vector of entry d) is, at
  lane x, entry d of the table row that id names; a word read from the scalar copies of the bias and of the weights is
  the bias entry, the weight entry, at its position.
-/
import proofs.«218018_g87892210745873_cont_sun_m_655_26_alg».proof.Proof.KTileGrpVal
import proofs.«218018_g87892210745873_cont_sun_m_655_26_alg».proof.Proof.KIntFacts

noncomputable section

namespace Cert.Kernel.Hand

open Cert.Kernel Cert.Kernel.Gen
open Idealize.ShloMosaic Idealize.ShloMosaic.ValueIdx

variable {F : FTy → Type}

/-! ## The id vectors -/

/-- The trip's rectangle of sixteen entries places lane x at entry 256 t1 + 16 t2 + x. -/
theorem off3_emb (t1 : Fin k0_t1_loop.trips) (t2 : Fin k0_t2_loop.trips) (h1 : t1.val < 2) (h2 : t2.val < 16)
    (inb : ∀ a, (k0_off3 t1 t2) a + S16.size a ≤ S512.size a) (x : S16.Idx) :
    (Rect.unit (s := S512) (k0_off3 t1 t2) S16.size inb).emb x = laneIdx t1.val t2.val h1 h2 x := by
  funext a
  obtain rfl : a = 0 := Subsingleton.elim _ _
  apply Fin.ext
  show k0_off3 t1 t2 0 + 1 * (x 0).val = 256 * t1.val + 16 * t2.val + (x 0).val
  rw [k0_off3_eq t1 t2]
  show 256 * t1.val + 16 * t2.val + 1 * (x 0).val = _
  omega

/-- A vector load of a 512-word buffer at the trip's offset reads, at lane x, the buffer at entry 256 t1 + 16 t2 + x. -/
theorem readAt_off3 {κ : Kind} (v : View sig κ .vmem S512 .i32) (g : v.ty.Contents (Elt F))
    (t1 : Fin k0_t1_loop.trips) (t2 : Fin k0_t2_loop.trips) (h1 : t1.val < 2) (h2 : t2.val < 16)
    (inb : ∀ a, (k0_off3 t1 t2) a + S16.size a ≤ S512.size a) (x : S16.Idx) :
    v.readAt (Elt F) (Rect.unit (s := S512) (k0_off3 t1 t2) S16.size inb).toLoadRect g x
      = v.read (Elt F) g (laneIdx t1.val t2.val h1 h2 x) := by
  rw [View.readAt_apply]
  exact congrArg (v.read (Elt F) g) (off3_emb t1 t2 h1 h2 inb x)

/-- Lane x of the user ids the trip reads is the id of the lane's batch entry; likewise the item ids. -/
theorem ids_lane (L : grid0.Coords) (f : S16384.Idx → BitVec 32)
    (M : Memref sig .scVector .vmem S512 .i32) (g : M.view.ty.Contents (Elt F))
    (hg : ∀ j, M.view.read (Elt F) g j = idBlk L f j)
    (t1 : Fin k0_t1_loop.trips) (t2 : Fin k0_t2_loop.trips) (h1 : t1.val < 2) (h2 : t2.val < 16)
    (inb : ∀ a, (k0_off3 t1 t2) a + S16.size a ≤ S512.size a) (x : S16.Idx) :
    M.view.readAt (Elt F) (Rect.unit (s := S512) (k0_off3 t1 t2) S16.size inb).toLoadRect g x
      = f (bidx L (laneIdx t1.val t2.val h1 h2 x)) := by
  rw [readAt_off3 M.view g t1 t2 h1 h2 inb x, hg]
  rfl

theorem idsU_lane (L : grid0.Coords) (f : S16384.Idx → BitVec 32)
    (t1 : Fin k0_t1_loop.trips) (t2 : Fin k0_t2_loop.trips) (h1 : t1.val < 2) (h2 : t2.val < 16)
    (inb : ∀ a, (k0_off3 t1 t2) a + S16.size a ≤ S512.size a) (x : S16.Idx) :
    (Memref.whole cc0_scratch0 : Memref sig .scVector .vmem S512 .i32).view.readAt (Elt F)
        (Rect.unit (s := S512) (k0_off3 t1 t2) S16.size inb).toLoadRect (idBlk L f) x
      = f (bidx L (laneIdx t1.val t2.val h1 h2 x)) :=
  (readAt_off3 (F := F) (Memref.whole cc0_scratch0 : Memref sig .scVector .vmem S512 .i32).view (idBlk L f) t1 t2 h1 h2 inb x).trans rfl

theorem idsI_lane (L : grid0.Coords) (f : S16384.Idx → BitVec 32)
    (t1 : Fin k0_t1_loop.trips) (t2 : Fin k0_t2_loop.trips) (h1 : t1.val < 2) (h2 : t2.val < 16)
    (inb : ∀ a, (k0_off3 t1 t2) a + S16.size a ≤ S512.size a) (x : S16.Idx) :
    (Memref.whole cc0_scratch1 : Memref sig .scVector .vmem S512 .i32).view.readAt (Elt F)
        (Rect.unit (s := S512) (k0_off3 t1 t2) S16.size inb).toLoadRect (idBlk L f) x
      = f (bidx L (laneIdx t1.val t2.val h1 h2 x)) :=
  (readAt_off3 (F := F) (Memref.whole cc0_scratch1 : Memref sig .scVector .vmem S512 .i32).view (idBlk L f) t1 t2 h1 h2 inb x).trans rfl

/-! ## The gathered words -/

/-- An indexed load of the line buffer of wave t1, its slot vector reading 16 t2 + lane and its column vector
    32 (id mod 4) + d at lane x: lane x is entry d of the table row the lane's id names. -/
theorem gather_leaf [FloatOps F] (tab : S250000x128.Idx → F .f32) (L : grid0.Coords) (f : S16384.Idx → BitVec 32) (hf : ∀ i, (f i).toNat ≤ 999999)
    (t1 t2 : ℕ) (h1 : t1 < 2) (h2 : t2 < 16) (rows cols : IVec S16 32) (dd : Fin 32)
    (h : ∀ a x, ((![rows, cols] : Fin 2 → IVec S16 32) a x).toNat < S256x128.size a) (x : S16.Idx)
    (hr : (rows x).toNat = 16 * t2 + (x 0).val)
    (hc : (cols x).toNat = (f (bidx L (laneIdx t1 t2 h1 h2 x))).toNat % 4 * 32 + dd.val)
    (g : Vec F S256x128 .f32) (hg : g = gath tab (lineBlk L f) t1) :
    loadIdx g ![rows, cols] h x
      = tab (ix2 (lineOf (f (bidx L (laneIdx t1 t2 h1 h2 x)))) (colOf (f (bidx L (laneIdx t1 t2 h1 h2 x))) dd)) := by
  subst hg
  rw [loadIdx_apply]
  exact gath_lane tab L f hf t1 t2 h1 h2 x dd _ _ hr hc

/-- The same at the kernel's own slot vector and at the column vector built from an id vector whose lane x is the
    lane's id: ((ids and 3) shifted left by 5) + d. -/
theorem gather_leaf' [FloatOps F] (tab : S250000x128.Idx → F .f32) (L : grid0.Coords) (f : S16384.Idx → BitVec 32) (hf : ∀ i, (f i).toNat ≤ 999999)
    (t1 : ℕ) (h1 : t1 < 2) (t2 : Fin k0_t2_loop.trips) (ids : IVec S16 32) (dd : Fin 32)
    (h : ∀ a x, ((![k0_pay1 (iota .scVector S16 32 [0] Facts₀.iota_S16_d0_w32_scVector) 0#32 1#32 t2,
        addi (shli (andi ids (broadcast S16 3#32)) (broadcast S16 5#32)) (broadcast S16 (BitVec.ofNat 32 dd.val))] : Fin 2 → IVec S16 32) a x).toNat
          < S256x128.size a)
    (x : S16.Idx) (hids : ids x = f (bidx L (laneIdx t1 t2.val h1 (t2_lt t2) x)))
    (g : Vec F S256x128 .f32) (hg : g = gath tab (lineBlk L f) t1) :
    loadIdx g ![k0_pay1 (iota .scVector S16 32 [0] Facts₀.iota_S16_d0_w32_scVector) 0#32 1#32 t2,
        addi (shli (andi ids (broadcast S16 3#32)) (broadcast S16 5#32)) (broadcast S16 (BitVec.ofNat 32 dd.val))] h x
      = tab (ix2 (lineOf (f (bidx L (laneIdx t1 t2.val h1 (t2_lt t2) x)))) (colOf (f (bidx L (laneIdx t1 t2.val h1 (t2_lt t2) x))) dd)) := by
  have hdd : (BitVec.ofNat 32 dd.val).toNat = dd.val := by
    rw [BitVec.toNat_ofNat]; exact Nat.mod_eq_of_lt (by have := dd.isLt; omega)
  refine gather_leaf tab L f hf t1 t2.val h1 (t2_lt t2) _ _ dd h x (pay1_toNat t2 x) ?_ g hg
  rw [cols_toNat ids _ (by rw [hdd]; exact dd.isLt) x, hids, hdd]

/-! ## The scalar copies of the bias and of the weights -/

/-- The one word of the bias copy at position k is the bias entry k. -/
theorem bias_word {κ : Kind} (v : View sig κ .smem S16 .f32) (g : v.ty.Contents (Elt F)) (k : ℕ) (hk : k < 16)
    (inb : ∀ a, (![k] : Fin 1 → ℕ) a + S1.size a ≤ S16.size a) (j : S1.Idx) :
    v.readAt (Elt F) (Rect.unit (s := S16) ![k] S1.size inb).toLoadRect g j = v.read (Elt F) g (ix1 (⟨k, hk⟩ : Fin 16)) := by
  rw [View.readAt_apply]
  refine congrArg (v.read (Elt F) g) ?_
  funext a
  obtain rfl : a = 0 := Subsingleton.elim _ _
  apply Fin.ext
  have hj : (j 0).val < 1 := (j 0).isLt
  show k + 1 * (j 0).val = k
  omega

/-- The one word of the weight copy at position n is the flat weight entry n. -/
theorem weight_word {κ : Kind} (v : View sig κ .smem S512 .f32) (g : v.ty.Contents (Elt F)) (n : ℕ) (hn : n < 512)
    (inb : ∀ a, (![n] : Fin 1 → ℕ) a + S1.size a ≤ S512.size a) (j : S1.Idx) :
    v.readAt (Elt F) (Rect.unit (s := S512) ![n] S1.size inb).toLoadRect g j = v.read (Elt F) g (ix1 (⟨n, hn⟩ : Fin 512)) := by
  rw [View.readAt_apply]
  refine congrArg (v.read (Elt F) g) ?_
  funext a
  obtain rfl : a = 0 := Subsingleton.elim _ _
  apply Fin.ext
  have hj : (j 0).val < 1 := (j 0).isLt
  show n + 1 * (j 0).val = n
  omega

/-- At the subcore's own scalar copies: the bias word k is fb at k, the weight word n is fw at n. -/
theorem bias_word_s9 (fb : S16.Idx → F .f32) (k : ℕ) (hk : k < 16)
    (inb : ∀ a, (![k] : Fin 1 → ℕ) a + S1.size a ≤ S16.size a) (j : S1.Idx) :
    (Memref.whole cc0_scratch9 : Memref sig .scVector .smem S16 .f32).view.readAt (Elt F)
        (Rect.unit (s := S16) ![k] S1.size inb).toLoadRect fb j = fb (ix1 (⟨k, hk⟩ : Fin 16)) :=
  (bias_word (F := F) (Memref.whole cc0_scratch9 : Memref sig .scVector .smem S16 .f32).view fb k hk inb j).trans rfl

theorem weight_word_s8 (fw : S512.Idx → F .f32) (n : ℕ) (hn : n < 512)
    (inb : ∀ a, (![n] : Fin 1 → ℕ) a + S1.size a ≤ S512.size a) (j : S1.Idx) :
    (Memref.whole cc0_scratch8 : Memref sig .scVector .smem S512 .f32).view.readAt (Elt F)
        (Rect.unit (s := S512) ![n] S1.size inb).toLoadRect fw j = fw (ix1 (⟨n, hn⟩ : Fin 512)) :=
  (weight_word (F := F) (Memref.whole cc0_scratch8 : Memref sig .scVector .smem S512 .f32).view fw n hn inb j).trans rfl

end Cert.Kernel.Hand

end
-- ==== Proof.KTileGrpLane.lean ====
/-
  The vector one trip stores, at a lane. Its value is the left-to-right accumulation the kernel performs — for each
  of the sixteen layer entries the bias plus the 32 products (gathered word × weight word), for the user row and for the
  item row, then the sixteen products of the two added up — over the words the trip reads: bias word k, weight word
  32 k + d, and the words of the two line buffers at (slot 16 t2 + lane, column 32 (id mod 4) + d). Those words are the
  bias, the weights and entry d of the table rows the lane's two ids name: so the lane holds the result's value at the
  lane's batch entry.
-/
import proofs.«218018_g87892210745873_cont_sun_m_655_26_alg».proof.Proof.KTileInv
import proofs.«218018_g87892210745873_cont_sun_m_655_26_alg».proof.Proof.KTileGrpVal
import proofs.«218018_g87892210745873_cont_sun_m_655_26_alg».proof.Proof.KTileGrpLeaf
import proofs.«218018_g87892210745873_cont_sun_m_655_26_alg».proof.Proof.KTileGrpRun
import proofs.«218018_g87892210745873_cont_sun_m_655_26_alg».proof.Proof.KIntFacts
import proofs.«218018_g87892210745873_cont_sun_m_655_26_alg».proof.Proof.Accum
import proofs.«218018_g87892210745873_cont_sun_m_655_26_alg».proof.Proof.Gen.Kernel.Skeleton

set_option maxHeartbeats 4000000

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.Kernel.main_arg0_scv : Memref Cert.Kernel.sig Kind.scVector Space.hbm Cert.Kernel.S16384 EltTy.i32)
local notation "A1" => (Memref.whole Cert.Kernel.main_arg1_scv : Memref Cert.Kernel.sig Kind.scVector Space.hbm Cert.Kernel.S16384 EltTy.i32)
local notation "UT" => (Memref.whole Cert.Kernel.main_v0_scv : Memref Cert.Kernel.sig Kind.scVector Space.hbm Cert.Kernel.S250000x128 EltTy.f32)
local notation "IT" => (Memref.whole Cert.Kernel.main_v1_scv : Memref Cert.Kernel.sig Kind.scVector Space.hbm Cert.Kernel.S250000x128 EltTy.f32)
local notation "WW" => (Memref.whole Cert.Kernel.main_v2_scv : Memref Cert.Kernel.sig Kind.scVector Space.hbm Cert.Kernel.S512 EltTy.f32)
local notation "BB" => (Memref.whole Cert.Kernel.main_arg5_scv : Memref Cert.Kernel.sig Kind.scVector Space.hbm Cert.Kernel.S16 EltTy.f32)
local notation "OO" => (Memref.whole Cert.Kernel.main_v3_scv : Memref Cert.Kernel.sig Kind.scVector Space.hbm Cert.Kernel.S16384 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S512 EltTy.i32)
local notation "s4" => (Memref.whole Cert.Kernel.cc0_scratch4 : Memref Cert.Kernel.sig Kind.scVector Space.vmem Cert.Kernel.S256x128 EltTy.f32)
local notation "s5" => (Memref.whole Cert.Kernel.cc0_scratch5 : Memref Cert.Kernel.sig Kind.scVector Space.vmem Cert.Kernel.S256x128 EltTy.f32)
local notation "s6" => (Memref.whole Cert.Kernel.cc0_scratch6 : Memref Cert.Kernel.sig Kind.scVector Space.vmem Cert.Kernel.S512 EltTy.f32)
local notation "s7" => (Memref.whole Cert.Kernel.cc0_scratch7 : Memref Cert.Kernel.sig Kind.scVector Space.vmem Cert.Kernel.S16 EltTy.f32)
local notation "s8" => (Memref.whole Cert.Kernel.cc0_scratch8 : Memref Cert.Kernel.sig Kind.scVector Space.smem Cert.Kernel.S512 EltTy.f32)
local notation "s9" => (Memref.whole Cert.Kernel.cc0_scratch9 : Memref Cert.Kernel.sig Kind.scVector Space.smem Cert.Kernel.S16 EltTy.f32)
local notation "s10" => (Memref.whole Cert.Kernel.cc0_scratch10 : Memref Cert.Kernel.sig Kind.scVector Space.vmem Cert.Kernel.S512 EltTy.f32)

/-- The outer loop has at most 2 trips. -/
theorem t1_lt (t1 : Fin k0_t1_loop.trips) : t1.val < 2 := lt_of_lt_of_le t1.isLt k0_t1_abs.2.1

section Lane

variable (d : Dev nD) (L : grid0.Coords)
  (f0 : Buf (Elt F) (a0Loc d)) (f1 : Buf (Elt F) (a1Loc d)) (fu : Buf (Elt F) (utLoc d)) (fi : Buf (Elt F) (itLoc d))
  (fw : Buf (Elt F) (wwLoc d)) (fb : Buf (Elt F) (bbLoc d)) (t1 : Fin k0_t1_loop.trips) (t2 : Fin k0_t2_loop.trips)

/-! ## The words the trip reads, as the run spells them -/

omit [FloatOps F] in
/-- The trip's sixteen user ids and item ids: the id blocks read at 256 t1 + 16 t2. -/
def idsU : IVec S16 32 :=
  View.readAt (Elt F) (s0).view (Rect.unit (s := S512) (k0_off3 t1 t2) S16.size (k0_off3_inb t1 t2)).toLoadRect (idBlk L f0)
omit [FloatOps F] in
def idsI : IVec S16 32 :=
  View.readAt (Elt F) (s1).view (Rect.unit (s := S512) (k0_off3 t1 t2) S16.size (k0_off3_inb t1 t2)).toLoadRect (idBlk L f1)

/-- The slot vector 16 t2 + lane, and the column vector 32 (id mod 4) + dd. -/
def slotsV : IVec S16 32 := k0_pay1 (iota .scVector S16 32 [0] Facts₀.iota_S16_d0_w32_scVector) 0#32 1#32 t2
def colsV (ids : IVec S16 32) (dd : Fin 32) : IVec S16 32 :=
  addi (shli (andi ids (broadcast S16 3#32)) (broadcast S16 5#32)) (broadcast S16 (BitVec.ofNat 32 dd.val))

theorem idx_ok (ids : IVec S16 32) (dd : Fin 32) :
    ∀ a x, ((![slotsV t2, colsV ids dd] : Fin 2 → IVec S16 32) a x).toNat < S256x128.size a :=
  chk_ok _ _ (fun x => pay1_lt t2 x) (fun x => cols_lt ids _ (by
    rw [BitVec.toNat_ofNat]; have := dd.isLt; omega) x)

/-- The gathered words: entry dd of the sixteen lanes' user rows, and of their item rows. -/
def gU (dd : Fin 32) : Vec F S16 .f32 :=
  loadIdx (View.readAt (Elt F) (s4).view (LoadRect.whole S256x128) (gath fu (lineBlk L f0) t1.val))
    ![slotsV t2, colsV (idsU d L f0 t1 t2) dd] (idx_ok t2 _ dd)
def gI (dd : Fin 32) : Vec F S16 .f32 :=
  loadIdx (View.readAt (Elt F) (s5).view (LoadRect.whole S256x128) (gath fi (lineBlk L f1) t1.val))
    ![slotsV t2, colsV (idsI d L f1 t1 t2) dd] (idx_ok t2 _ dd)

omit [FloatOps F] in
theorem inb16 (k : Fin 16) : ∀ a, (![k.val] : Fin 1 → ℕ) a + S1.size a ≤ S16.size a :=
  Rect.inb₁ (by show k.val + 1 ≤ 16; have := k.isLt; omega)
omit [FloatOps F] in
theorem inb512 (k : Fin 16) (dd : Fin 32) : ∀ a, (![k.val * 32 + dd.val] : Fin 1 → ℕ) a + S1.size a ≤ S512.size a :=
  Rect.inb₁ (by show k.val * 32 + dd.val + 1 ≤ 512; have := k.isLt; have := dd.isLt; omega)

omit [FloatOps F] in
/-- Bias word k and weight word 32 k + dd, read from scalar memory. -/
def bW (k : Fin 16) : F .f32 :=
  View.readAt (Elt F) (s9).view (Rect.unit (s := S16) ![k.val] S1.size (inb16 k)).toLoadRect fb (Shape.Idx.first (numel1_S1.symm ▸ Nat.one_pos))
omit [FloatOps F] in
def wW (k : Fin 16) (dd : Fin 32) : F .f32 :=
  View.readAt (Elt F) (s8).view (Rect.unit (s := S512) ![k.val * 32 + dd.val] S1.size (inb512 k dd)).toLoadRect fw (Shape.Idx.first (numel1_S1.symm ▸ Nat.one_pos))

/-! ## The stored vector is the kernel's accumulation over those words -/

/-- Lane x of the stored vector: the accumulation, in the kernel's order, over the words read. -/
theorem grp_struct (x : S16.Idx) :
    (grpRun (F := F) d L f0 f1 fu fi fw fb t1 t2).1 x
      = Cert.Accum.kval (bW d fb) (wW d fw) (fun dd => gU d L f0 fu t1 t2 dd x) (fun dd => gI d L f1 fi t1 t2 dd x) := by
  rfl

/-! ## The words read are the bias, the weights and the table rows' entries -/

omit [FloatOps F] in
/-- Read whole, a buffer is its contents. -/
theorem whole_idx (s : Shape) (x : (LoadRect.whole s).shape.Idx) : (LoadRect.whole s).idx x = x := by
  funext a
  apply Fin.ext
  show 0 + 1 * (x a).val = (x a).val
  omega
omit [FloatOps F] in
theorem readAt_s4 (g : S256x128.Idx → F .f32) : View.readAt (Elt F) (s4).view (LoadRect.whole S256x128) g = g := by
  funext x
  show View.read (Elt F) (s4).view g ((LoadRect.whole S256x128).idx x) = g x
  rw [whole_idx]; rfl
omit [FloatOps F] in
theorem readAt_s5 (g : S256x128.Idx → F .f32) : View.readAt (Elt F) (s5).view (LoadRect.whole S256x128) g = g := by
  funext x
  show View.read (Elt F) (s5).view g ((LoadRect.whole S256x128).idx x) = g x
  rw [whole_idx]; rfl

/-- Lane x of the stored vector is the result's value at the lane's batch entry. -/
theorem grp_lane (h0 : ∀ i, (f0 i).toNat ≤ 999999) (h1 : ∀ i, (f1 i).toNat ≤ 999999) (x : S16.Idx) :
    (grpRun (F := F) d L f0 f1 fu fi fw fb t1 t2).1 x
      = outVal (F := F) f0 f1 fu fi fw fb (bidx L (laneIdx t1.val t2.val (t1_lt t1) (t2_lt t2) x)) := by
  rw [grp_struct]
  have hb : bW d fb = fun k => fb (ix1 k) := funext fun k => bias_word_s9 fb k.val k.isLt (inb16 k) _
  have hw : wW d fw = fun k dd => fw (ix1 (⟨k.val * 32 + dd.val, by have := k.isLt; have := dd.isLt; omega⟩ : Fin 512)) :=
    funext fun k => funext fun dd => weight_word_s8 fw (k.val * 32 + dd.val) _ (inb512 k dd) _
  have hu : (fun dd => gU d L f0 fu t1 t2 dd x)
      = fun dd => fu (ix2 (lineOf (f0 (bidx L (laneIdx t1.val t2.val (t1_lt t1) (t2_lt t2) x))))
          (colOf (f0 (bidx L (laneIdx t1.val t2.val (t1_lt t1) (t2_lt t2) x))) dd)) := funext fun dd =>
    gather_leaf' fu L f0 h0 t1.val (t1_lt t1) t2 (idsU d L f0 t1 t2) dd (idx_ok t2 _ dd) x
      (idsU_lane L f0 t1 t2 (t1_lt t1) (t2_lt t2) (k0_off3_inb t1 t2) x) _ (readAt_s4 _)
  have hi : (fun dd => gI d L f1 fi t1 t2 dd x)
      = fun dd => fi (ix2 (lineOf (f1 (bidx L (laneIdx t1.val t2.val (t1_lt t1) (t2_lt t2) x))))
          (colOf (f1 (bidx L (laneIdx t1.val t2.val (t1_lt t1) (t2_lt t2) x))) dd)) := funext fun dd =>
    gather_leaf' fi L f1 h1 t1.val (t1_lt t1) t2 (idsI d L f1 t1 t2) dd (idx_ok t2 _ dd) x
      (idsI_lane L f1 t1 t2 (t1_lt t1) (t2_lt t2) (k0_off3_inb t1 t2) x) _ (readAt_s5 _)
  rw [hb, hw, hu, hi]
  rfl

end Lane

end Cert.Kernel.Hand

end
-- ==== Proof.KTileGrp.lean ====
/-
  One trip of the inner loop: sixteen batch entries. The subcore reads their user and item ids, gathers for each of the
  32 row entries the sixteen lanes' words of the two line buffers (slot 16 t2 + lane, column 32 (id mod 4) + d),
  accumulates the two affine layers' sixteen entries from the bias with one product per row entry, adds the sixteen
  products of the two layers' entries, and stores the sixteen sums into the result scratch at 256 t1 + 16 t2.
-/
import proofs.«218018_g87892210745873_cont_sun_m_655_26_alg».proof.Proof.KTileInv
import proofs.«218018_g87892210745873_cont_sun_m_655_26_alg».proof.Proof.KTileGrpVal
import proofs.«218018_g87892210745873_cont_sun_m_655_26_alg».proof.Proof.KTileGrpRun
import proofs.«218018_g87892210745873_cont_sun_m_655_26_alg».proof.Proof.KTileGrpLane
import proofs.«218018_g87892210745873_cont_sun_m_655_26_alg».proof.Proof.KIntFacts
import proofs.«218018_g87892210745873_cont_sun_m_655_26_alg».proof.Proof.Accum
import proofs.«218018_g87892210745873_cont_sun_m_655_26_alg».proof.Proof.Gen.Kernel.Skeleton

set_option maxHeartbeats 4000000

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "A0" => (Memref.whole Cert.Kernel.main_arg0_scv : Memref Cert.Kernel.sig Kind.scVector Space.hbm Cert.Kernel.S16384 EltTy.i32)
local notation "A1" => (Memref.whole Cert.Kernel.main_arg1_scv : Memref Cert.Kernel.sig Kind.scVector Space.hbm Cert.Kernel.S16384 EltTy.i32)
local notation "UT" => (Memref.whole Cert.Kernel.main_v0_scv : Memref Cert.Kernel.sig Kind.scVector Space.hbm Cert.Kernel.S250000x128 EltTy.f32)
local notation "IT" => (Memref.whole Cert.Kernel.main_v1_scv : Memref Cert.Kernel.sig Kind.scVector Space.hbm Cert.Kernel.S250000x128 EltTy.f32)
local notation "WW" => (Memref.whole Cert.Kernel.main_v2_scv : Memref Cert.Kernel.sig Kind.scVector Space.hbm Cert.Kernel.S512 EltTy.f32)
local notation "BB" => (Memref.whole Cert.Kernel.main_arg5_scv : Memref Cert.Kernel.sig Kind.scVector Space.hbm Cert.Kernel.S16 EltTy.f32)
local notation "OO" => (Memref.whole Cert.Kernel.main_v3_scv : Memref Cert.Kernel.sig Kind.scVector Space.hbm Cert.Kernel.S16384 EltTy.f32)
local notation "s0" => (Memref.whole Cert.Kernel.cc0_scratch0 : Memref Cert.Kernel.sig Kind.scVector Space.vmem Cert.Kernel.S512 EltTy.i32)
local notation "s1" => (Memref.whole Cert.Kernel.cc0_scratch1 : Memref Cert.Kernel.sig Kind.scVector Space.vmem Cert.Kernel.S512 EltTy.i32)
local notation "s2" => (Memref.whole Cert.Kernel.cc0_scratch2 : Memref Cert.Kernel.sig Kind.scVector Space.vmem Cert.Kernel.S512 EltTy.i32)
local notation "s3" => (Memref.whole Cert.Kernel.cc0_scratch3 : Memref Cert.Kernel.sig Kind.scVector Space.vmem Cert.Kernel.S512 EltTy.i32)
local notation "s4" => (Memref.whole Cert.Kernel.cc0_scratch4 : Memref Cert.Kernel.sig Kind.scVector Space.vmem Cert.Kernel.S256x128 EltTy.f32)
local notation "s5" => (Memref.whole Cert.Kernel.cc0_scratch5 : Memref Cert.Kernel.sig Kind.scVector Space.vmem Cert.Kernel.S256x128 EltTy.f32)
local notation "s6" => (Memref.whole Cert.Kernel.cc0_scratch6 : Memref Cert.Kernel.sig Kind.scVector Space.vmem Cert.Kernel.S512 EltTy.f32)
local notation "s7" => (Memref.whole Cert.Kernel.cc0_scratch7 : Memref Cert.Kernel.sig Kind.scVector Space.vmem Cert.Kernel.S16 EltTy.f32)
local notation "s8" => (Memref.whole Cert.Kernel.cc0_scratch8 : Memref Cert.Kernel.sig Kind.scVector Space.smem Cert.Kernel.S512 EltTy.f32)
local notation "s9" => (Memref.whole Cert.Kernel.cc0_scratch9 : Memref Cert.Kernel.sig Kind.scVector Space.smem Cert.Kernel.S16 EltTy.f32)
local notation "s10" => (Memref.whole Cert.Kernel.cc0_scratch10 : Memref Cert.Kernel.sig Kind.scVector Space.vmem Cert.Kernel.S512 EltTy.f32)

/-- One trip of the inner loop: the run, then the result scratch's sixteen new entries are the accumulated values of the
    trip's sixteen batch entries and the earlier ones are untouched. -/
theorem grp_step : GrpStep (F := F) := by
  intro hF d L q f0 f1 fu fi fw fb fo h0 h1 t1 t2 acc v2339 v2369 ov hov
  refine ((grpRun (F := F) d L f0 f1 fu fi fw fb t1 t2).2 q fo acc v2339 v2369 ov).trans (wp_mono frame _ _ fun _ => ?_)
  iintro H
  iexists _
  isplitr
  · ipureintro
    exact outDone_step L f0 f1 fu fi fw fb t1.val t2.val (t1_lt t1) (t2_lt t2) ov _ (k0_off4 t1 t2) (k0_off4_eq t1 t2) (k0_off4_inb t1 t2) hov
      (fun x => grp_lane d L f0 f1 fu fi fw fb t1 t2 h0 h1 x)
  · iexact H

end Cert.Kernel.Hand

end
-- ==== Proof.KTileAll.lean ====
/-
  One vector subcore's task, assembled: a trip of the inner loop (sixteen results accumulated from sixteen gathered rows of
  each table), sixteen of them after the two indexed copies make a wave, two waves after the opening copies and before the
  copy-out make the task.
-/
import proofs.«218018_g87892210745873_cont_sun_m_655_26_alg».proof.Proof.KTile
import proofs.«218018_g87892210745873_cont_sun_m_655_26_alg».proof.Proof.KTileWave
import proofs.«218018_g87892210745873_cont_sun_m_655_26_alg».proof.Proof.KTileGrp

noncomputable section

namespace Cert.Kernel.Hand

open Cert.Kernel Cert.Kernel.Gen
open Idealize.ShloMosaic

variable {F : FTy → Type} [FloatOps F]

/-- The subcore's task meets its statement. -/
theorem tile : TileBody (F := F) := tile_body (wave_step grp_step)

end Cert.Kernel.Hand

end
-- ==== Proof.lean ====
/-
  The proof of the certificate's claim. Both programs take a batch of 16384 (user id, item id) pairs, look up row uid of
  the user table and row iid of the item table (1000000 rows of 32 words each), send both rows through the SAME affine
  layer h ↦ h·Wᵀ + b (W 16 × 32, b of length 16), and return, per pair, the inner product of the two 16-vectors.
  The kernel re-lays each table as 250000 lines of 128 words (line r holds rows 4r .. 4r+3) and the weights flat, and
  splits the batch over the device's 32 vector subcores: subcore s of SparseCore c takes the 512 consecutive entries
  from 1024 s + 512 c. A subcore fetches its ids, fetches the lines id / 4 in two waves of 256, and for each group of
  16 entries accumulates, entry by entry of the row (word 32·(id mod 4) + d of its line), the sixteen sums for the user
  and for the item, then the sum over k of their products; the 32 blocks of the result are disjoint and cover it.
  With ids between 0 and 999999, which the precondition states, every lookup names a row of its table. On the extended
  reals addition is commutative and associative everywhere, so the kernel's accumulation order and the reference's
  contraction give one value, index by index: both results are Cert.Spec.G of the six arguments, which end unchanged.
-/
import proofs.«218018_g87892210745873_cont_sun_m_655_26_alg».proof.Defs
import proofs.«218018_g87892210745873_cont_sun_m_655_26_alg».proof.Proof.Assemble
import proofs.«218018_g87892210745873_cont_sun_m_655_26_alg».proof.Proof.TileAll
import proofs.«218018_g87892210745873_cont_sun_m_655_26_alg».proof.Proof.KTileAll

noncomputable section

namespace Cert.Proof

theorem claim : Cert.Claim := Cert.Assemble.claim Cert.KernelIdeal.Hand.tile Cert.Kernel.Hand.tile

end Cert.Proof

end
